-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S50000 : Shape := ⟨1, ![50000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S500000x128 .f32) (main_arg3 : IVec S50000 32) (main_arg4 : FVec F S4x128x128 .f32) (main_arg5 : FVec F S4x128 .f32) (main_arg6 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S50000 : Shape := ⟨1, ![50000]⟩
abbrev S4x128x128 : Shape := ⟨3, ![4, 128, 128]⟩
abbrev S4x128 : Shape := ⟨2, ![4, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x128x128 : Shape := ⟨3, ![1, 128, 128]⟩
abbrev S128x128 : Shape := ⟨2, ![128, 128]⟩
abbrev S80x128 : Shape := ⟨2, ![80, 128]⟩
abbrev S5000x128 : Shape := ⟨2, ![5000, 128]⟩
abbrev S8x128 : Shape := ⟨2, ![8, 128]⟩
abbrev S128 : Shape := ⟨1, ![128]⟩
abbrev S1x128 : Shape := ⟨2, ![1, 128]⟩
abbrev S10000x128 : Shape := ⟨2, ![10000, 128]⟩

abbrev nBuf : Space → Nat
  | .hbm => 176
  | .vmem => 84
  | .smem => 0
  | _ => 0

abbrev hbmTy0_0 (i : Nat) : BufTy := match i % 128 with
  | 0 => ⟨S50000x128, .f32⟩
  | 1 => ⟨S2x500000, .i32⟩
  | 2 => ⟨S500000x128, .f32⟩
  | 3 => ⟨S50000, .i32⟩
  | 4 => ⟨S4x128x128, .f32⟩
  | 5 => ⟨S4x128, .f32⟩
  | 6 => ⟨S4x128, .f32⟩
  | 7 => ⟨S1x500000, .i32⟩
  | 8 => ⟨S500000, .i32⟩
  | 9 => ⟨S1x500000, .i32⟩
  | 10 => ⟨S500000, .i32⟩
  | 11 => ⟨S4x128x128, .bf16⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S500000x128, .f32⟩
  | 22 => ⟨S_, .f32⟩
  | 23 => ⟨S500000x128, .f32⟩
  | 24 => ⟨S500000x128, .f32⟩
  | 25 => ⟨S_, .f32⟩
  | 26 => ⟨S50000x128, .f32⟩
  | 27 => ⟨S500000x1, .i32⟩
  | 28 => ⟨S50000x128, .f32⟩
  | 29 => ⟨S1x128x128, .bf16⟩
  | 30 => ⟨S128x128, .bf16⟩
  | 31 => ⟨S50000x128, .f32⟩
  | 32 => ⟨S80x128, .f32⟩
  | 33 => ⟨S80x128, .f32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S50000x128, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S500000x128, .f32⟩
  | 63 => ⟨S_, .f32⟩
  | 64 => ⟨S500000x128, .f32⟩
  | 65 => ⟨S500000x128, .f32⟩
  | 66 => ⟨S_, .f32⟩
  | 67 => ⟨S50000x128, .f32⟩
  | 68 => ⟨S500000x1, .i32⟩
  | 69 => ⟨S50000x128, .f32⟩
  | 70 => ⟨S1x128x128, .bf16⟩
  | 71 => ⟨S128x128, .bf16⟩
  | 72 => ⟨S50000x128, .f32⟩
  | 73 => ⟨S80x128, .f32⟩
  | 74 => ⟨S80x128, .f32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S50000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S500000x128, .f32⟩
  | 104 => ⟨S_, .f32⟩
  | 105 => ⟨S500000x128, .f32⟩
  | 106 => ⟨S500000x128, .f32⟩
  | 107 => ⟨S_, .f32⟩
  | 108 => ⟨S50000x128, .f32⟩
  | 109 => ⟨S500000x1, .i32⟩
  | 110 => ⟨S50000x128, .f32⟩
  | 111 => ⟨S1x128x128, .bf16⟩
  | 112 => ⟨S128x128, .bf16⟩
  | 113 => ⟨S50000x128, .f32⟩
  | 114 => ⟨S80x128, .f32⟩
  | 115 => ⟨S80x128, .f32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S50000x128, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x128, .f32⟩
  | 16 => ⟨S500000x128, .f32⟩
  | 17 => ⟨S_, .f32⟩
  | 18 => ⟨S500000x128, .f32⟩
  | 19 => ⟨S500000x128, .f32⟩
  | 20 => ⟨S_, .f32⟩
  | 21 => ⟨S50000x128, .f32⟩
  | 22 => ⟨S500000x1, .i32⟩
  | 23 => ⟨S50000x128, .f32⟩
  | 24 => ⟨S1x128x128, .bf16⟩
  | 25 => ⟨S128x128, .bf16⟩
  | 26 => ⟨S50000x128, .f32⟩
  | 27 => ⟨S80x128, .f32⟩
  | 28 => ⟨S80x128, .f32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .bf16⟩
  | .local _ .vmem, ⟨26, _⟩ => ⟨S5000x128, .f32⟩
  | .local _ .vmem, ⟨27, _⟩ => ⟨S5000x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .bf16⟩
  | .local _ .vmem, ⟨47, _⟩ => ⟨S5000x128, .f32⟩
  | .local _ .vmem, ⟨48, _⟩ => ⟨S5000x128, .f32⟩
  | .local _ .vmem, ⟨49, _⟩ => ⟨S8x128, .f32⟩
  | .local _ .vmem, ⟨50, _⟩ => ⟨S8x128, .f32⟩
  | .local _ .vmem, ⟨51, _⟩ => ⟨S8x128, .f32⟩
  | .local _ .vmem, ⟨52, _⟩ => ⟨S8x128, .f32⟩
  | .local _ .vmem, ⟨53, _⟩ => ⟨S10000x128, .f32⟩
  | .local _ .vmem, ⟨54, _⟩ => ⟨S10000x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S10000x128, .f32⟩
  | .local _ .vmem, ⟨60, _⟩ => ⟨S10000x128, .f32⟩
  | .local _ .vmem, ⟨61, _⟩ => ⟨S10000x128, .f32⟩
  | .local _ .vmem, ⟨62, _⟩ => ⟨S10000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S128x128, .bf16⟩
  | .local _ .vmem, ⟨68, _⟩ => ⟨S5000x128, .f32⟩
  | .local _ .vmem, ⟨69, _⟩ => ⟨S5000x128, .f32⟩
  | .local _ .vmem, ⟨70, _⟩ => ⟨S8x128, .f32⟩
  | .local _ .vmem, ⟨71, _⟩ => ⟨S8x128, .f32⟩
  | .local _ .vmem, ⟨72, _⟩ => ⟨S8x128, .f32⟩
  | .local _ .vmem, ⟨73, _⟩ => ⟨S8x128, .f32⟩
  | .local _ .vmem, ⟨74, _⟩ => ⟨S10000x128, .f32⟩
  | .local _ .vmem, ⟨75, _⟩ => ⟨S10000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S10000x128, .f32⟩
  | .local _ .vmem, ⟨81, _⟩ => ⟨S10000x128, .f32⟩
  | .local _ .vmem, ⟨82, _⟩ => ⟨S10000x128, .f32⟩
  | .local _ .vmem, ⟨83, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_v49_2 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call2_cst : Ref sig .tc := ⟨.hbm, 104, rfl⟩
abbrev main_call2_v0 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79_0 : Ref sig .tc := ⟨.hbm, 113, rfl⟩
abbrev main_v79_1 : Ref sig .tc := ⟨.hbm, 114, rfl⟩
abbrev main_v79_2 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_19 : Ref sig .tc := ⟨.hbm, 135, rfl⟩
abbrev main_v95 : Ref sig .tc := ⟨.hbm, 136, rfl⟩
abbrev main_v96 : Ref sig .tc := ⟨.hbm, 137, rfl⟩
abbrev main_c_20 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_call3_cst : Ref sig .tc := ⟨.hbm, 145, rfl⟩
abbrev main_call3_v0 : Ref sig .tc := ⟨.hbm, 146, rfl⟩
abbrev main_v103 : Ref sig .tc := ⟨.hbm, 147, rfl⟩
abbrev main_cst_21 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109_0 : Ref sig .tc := ⟨.hbm, 154, rfl⟩
abbrev main_v109_1 : Ref sig .tc := ⟨.hbm, 155, rfl⟩
abbrev main_v109_2 : Ref sig .tc := ⟨.hbm, 156, rfl⟩
abbrev main_cst_22 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_cst_24 : Ref sig .tc := ⟨.hbm, 163, rfl⟩
abbrev main_v114 : Ref sig .tc := ⟨.hbm, 164, rfl⟩
abbrev main_v115 : Ref sig .tc := ⟨.hbm, 165, rfl⟩
abbrev main_cst_25 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg5_1 : Ref sig .tc := ⟨.vmem, 60, rfl⟩
abbrev cc5_stg6_0 : Ref sig .tc := ⟨.vmem, 61, rfl⟩
abbrev cc5_stg6_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg3_1 : Ref sig .tc := ⟨.vmem, 69, rfl⟩
abbrev cc6_stg4_0 : Ref sig .tc := ⟨.vmem, 70, rfl⟩
abbrev cc6_stg4_1 : Ref sig .tc := ⟨.vmem, 71, rfl⟩
abbrev cc6_stg5_0 : Ref sig .tc := ⟨.vmem, 72, rfl⟩
abbrev cc6_stg5_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg5_1 : Ref sig .tc := ⟨.vmem, 81, rfl⟩
abbrev cc7_stg6_0 : Ref sig .tc := ⟨.vmem, 82, rfl⟩
abbrev cc7_stg6_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem3_1 : DmaSem sig := 48
abbrev cc4_sem4_0 : DmaSem sig := 49
abbrev cc4_sem4_1 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem5_1 : DmaSem sig := 60
abbrev cc5_sem6_0 : DmaSem sig := 61
abbrev cc5_sem6_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem3_0 : DmaSem sig := 68
abbrev cc6_sem3_1 : DmaSem sig := 69
abbrev cc6_sem4_0 : DmaSem sig := 70
abbrev cc6_sem4_1 : DmaSem sig := 71
abbrev cc6_sem5_0 : DmaSem sig := 72
abbrev cc6_sem5_1 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem3_0 : DmaSem sig := 78
abbrev cc7_sem4_0 : DmaSem sig := 79
abbrev cc7_sem5_0 : DmaSem sig := 80
abbrev cc7_sem5_1 : DmaSem sig := 81
abbrev cc7_sem6_0 : DmaSem sig := 82
abbrev cc7_sem6_1 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S8x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S8x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S10000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  shapeCasts_S128_S1x128 : S128.ShapeCasts S1x128
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  slices_S4x128_S1x128_0_0 : S4x128.Slices ![0, 0] S1x128
  shapeCasts_S1x128_S128 : S1x128.ShapeCasts S128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S80x128.size a
  hwx0_4 : ∀ i : grid0.Coords, EltTy.bits .f32 = 32 ∨ (Rect.block (s := S80x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S80x128.size a
  hwx0_5 : ∀ i : grid0.Coords, EltTy.bits .f32 = 32 ∨ (Rect.block (s := S80x128) S8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S80x128.size a
  hwx2_4 : ∀ i : grid2.Coords, EltTy.bits .f32 = 32 ∨ (Rect.block (s := S80x128) S8x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S80x128.size a
  hwx2_5 : ∀ i : grid2.Coords, EltTy.bits .f32 = 32 ∨ (Rect.block (s := S80x128) S8x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x128.size a ≤ S80x128.size a
  hwx4_4 : ∀ i : grid4.Coords, EltTy.bits .f32 = 32 ∨ (Rect.block (s := S80x128) S8x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x128.size a ≤ S80x128.size a
  hwx4_5 : ∀ i : grid4.Coords, EltTy.bits .f32 = 32 ∨ (Rect.block (s := S80x128) S8x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S50000x128.size a
  hwx5_6 : ∀ i : grid5.Coords, EltTy.bits .f32 = 32 ∨ (Rect.block (s := S50000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8x128.size a ≤ S80x128.size a
  hwx6_4 : ∀ i : grid6.Coords, EltTy.bits .f32 = 32 ∨ (Rect.block (s := S80x128) S8x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8x128.size a ≤ S80x128.size a
  hwx6_5 : ∀ i : grid6.Coords, EltTy.bits .f32 = 32 ∨ (Rect.block (s := S80x128) S8x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x128.size a ≤ S50000x128.size a
  hwx7_6 : ∀ i : grid7.Coords, EltTy.bits .f32 = 32 ∨ (Rect.block (s := S50000x128) S10000x128.size (cc7_transform_6 i) (hinb7_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S10000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v34) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49_1) S8x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49_2) S8x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S10000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v64) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v79_1) S8x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v79_2) S8x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v79_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v64) S10000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v94) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v94) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v108) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v109_1) S8x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v109_2) S8x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v109_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v117) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v120) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v94) S10000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v124) S10000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S50000 : Shape := ⟨1, ![50000]⟩
abbrev S4x128x128 : Shape := ⟨3, ![4, 128, 128]⟩
abbrev S4x128 : Shape := ⟨2, ![4, 128]⟩
abbrev S1x500000 : Shape := ⟨2, ![1, 500000]⟩
abbrev S500000 : Shape := ⟨1, ![500000]⟩
abbrev S1x128x128 : Shape := ⟨3, ![1, 128, 128]⟩
abbrev S128x128 : Shape := ⟨2, ![128, 128]⟩
abbrev S_ : Shape := ⟨0, ![]⟩
abbrev S500000x1 : Shape := ⟨2, ![500000, 1]⟩
abbrev S1x128 : Shape := ⟨2, ![1, 128]⟩
abbrev S128 : Shape := ⟨1, ![128]⟩

abbrev nBuf : Space → Nat
  | .hbm => 303
  | .vmem => 0
  | .smem => 0
  | _ => 0

abbrev hbmTy0_0 (i : Nat) : BufTy := match i % 128 with
  | 0 => ⟨S50000x128, .f32⟩
  | 1 => ⟨S2x500000, .i32⟩
  | 2 => ⟨S500000x128, .f32⟩
  | 3 => ⟨S50000, .i32⟩
  | 4 => ⟨S4x128x128, .f32⟩
  | 5 => ⟨S4x128, .f32⟩
  | 6 => ⟨S4x128, .f32⟩
  | 7 => ⟨S1x500000, .i32⟩
  | 8 => ⟨S500000, .i32⟩
  | 9 => ⟨S1x500000, .i32⟩
  | 10 => ⟨S500000, .i32⟩
  | 11 => ⟨S1x128x128, .f32⟩
  | 12 => ⟨S128x128, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x128, .f32⟩
  | 22 => ⟨S500000x128, .f32⟩
  | 23 => ⟨S_, .f32⟩
  | 24 => ⟨S500000x128, .f32⟩
  | 25 => ⟨S500000x128, .f32⟩
  | 26 => ⟨S_, .f32⟩
  | 27 => ⟨S50000x128, .f32⟩
  | 28 => ⟨S500000x1, .i32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S1x128x128, .f32⟩
  | 85 => ⟨S128x128, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x128, .f32⟩
  | 95 => ⟨S500000x128, .f32⟩
  | 96 => ⟨S_, .f32⟩
  | 97 => ⟨S500000x128, .f32⟩
  | 98 => ⟨S500000x128, .f32⟩
  | 99 => ⟨S_, .f32⟩
  | 100 => ⟨S50000x128, .f32⟩
  | 101 => ⟨S500000x1, .i32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S50000x128, .f32⟩
  | 29 => ⟨S1x128x128, .f32⟩
  | 30 => ⟨S128x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x128, .f32⟩
  | 41 => ⟨S_, .f32⟩
  | 42 => ⟨S500000x128, .f32⟩
  | 43 => ⟨S500000x128, .f32⟩
  | 44 => ⟨S_, .f32⟩
  | 45 => ⟨S50000x128, .f32⟩
  | 46 => ⟨S500000x1, .i32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S50000x128, .f32⟩
  | 102 => ⟨S1x128x128, .f32⟩
  | 103 => ⟨S128x128, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S500000x128, .f32⟩
  | 114 => ⟨S_, .f32⟩
  | 115 => ⟨S500000x128, .f32⟩
  | 116 => ⟨S500000x128, .f32⟩
  | 117 => ⟨S_, .f32⟩
  | 118 => ⟨S50000x128, .f32⟩
  | 119 => ⟨S500000x1, .i32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_cst_3 : Ref sig .tc := ⟨.hbm, 61, rfl⟩
abbrev main_call2_v12 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_5 : Ref sig .tc := ⟨.hbm, 86, rfl⟩
abbrev main_v47 : Ref sig .tc := ⟨.hbm, 87, rfl⟩
abbrev main_v48 : Ref sig .tc := ⟨.hbm, 88, rfl⟩
abbrev main_c_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call3_cst : Ref sig .tc := ⟨.hbm, 96, rfl⟩
abbrev main_call3_v0 : Ref sig .tc := ⟨.hbm, 97, rfl⟩
abbrev main_v55 : Ref sig .tc := ⟨.hbm, 98, rfl⟩
abbrev main_cst_7 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_call4_cst : Ref sig .tc := ⟨.hbm, 105, rfl⟩
abbrev main_call4_v0 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_8 : Ref sig .tc := ⟨.hbm, 112, rfl⟩
abbrev main_v66 : Ref sig .tc := ⟨.hbm, 113, rfl⟩
abbrev main_cst_9 : Ref sig .tc := ⟨.hbm, 114, rfl⟩
abbrev main_v67 : Ref sig .tc := ⟨.hbm, 115, rfl⟩
abbrev main_v68 : Ref sig .tc := ⟨.hbm, 116, rfl⟩
abbrev main_c_10 : Ref sig .tc := ⟨.hbm, 117, rfl⟩
abbrev main_call5_cst : Ref sig .tc := ⟨.hbm, 118, rfl⟩
abbrev main_call5_v0 : Ref sig .tc := ⟨.hbm, 119, rfl⟩
abbrev main_call5_v1 : Ref sig .tc := ⟨.hbm, 120, rfl⟩
abbrev main_call5_cst_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_cst_1 : Ref sig .tc := ⟨.hbm, 128, rfl⟩
abbrev main_call5_v8 : Ref sig .tc := ⟨.hbm, 129, rfl⟩
abbrev main_call5_cst_2 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_cst_3 : Ref sig .tc := ⟨.hbm, 134, rfl⟩
abbrev main_call5_v12 : Ref sig .tc := ⟨.hbm, 135, rfl⟩
abbrev main_call5_cst_4 : Ref sig .tc := ⟨.hbm, 136, rfl⟩
abbrev main_call5_call0_v0 : Ref sig .tc := ⟨.hbm, 137, rfl⟩
abbrev main_call5_call0_v1 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_11 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_c_12 : Ref sig .tc := ⟨.hbm, 159, rfl⟩
abbrev main_v88 : Ref sig .tc := ⟨.hbm, 160, rfl⟩
abbrev main_v89 : Ref sig .tc := ⟨.hbm, 161, rfl⟩
abbrev main_c_13 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_call6_cst : Ref sig .tc := ⟨.hbm, 169, rfl⟩
abbrev main_call6_v0 : Ref sig .tc := ⟨.hbm, 170, rfl⟩
abbrev main_v96 : Ref sig .tc := ⟨.hbm, 171, rfl⟩
abbrev main_cst_14 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_call7_cst : Ref sig .tc := ⟨.hbm, 178, rfl⟩
abbrev main_call7_v0 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_15 : Ref sig .tc := ⟨.hbm, 185, rfl⟩
abbrev main_v107 : Ref sig .tc := ⟨.hbm, 186, rfl⟩
abbrev main_cst_16 : Ref sig .tc := ⟨.hbm, 187, rfl⟩
abbrev main_v108 : Ref sig .tc := ⟨.hbm, 188, rfl⟩
abbrev main_v109 : Ref sig .tc := ⟨.hbm, 189, rfl⟩
abbrev main_c_17 : Ref sig .tc := ⟨.hbm, 190, rfl⟩
abbrev main_call8_cst : Ref sig .tc := ⟨.hbm, 191, rfl⟩
abbrev main_call8_v0 : Ref sig .tc := ⟨.hbm, 192, rfl⟩
abbrev main_call8_v1 : Ref sig .tc := ⟨.hbm, 193, rfl⟩
abbrev main_call8_cst_0 : Ref sig .tc := ⟨.hbm, 194, rfl⟩
abbrev main_call8_v2 : Ref sig .tc := ⟨.hbm, 195, rfl⟩
abbrev main_call8_v3 : Ref sig .tc := ⟨.hbm, 196, rfl⟩
abbrev main_call8_v4 : Ref sig .tc := ⟨.hbm, 197, rfl⟩
abbrev main_call8_v5 : Ref sig .tc := ⟨.hbm, 198, rfl⟩
abbrev main_call8_v6 : Ref sig .tc := ⟨.hbm, 199, rfl⟩
abbrev main_call8_v7 : Ref sig .tc := ⟨.hbm, 200, rfl⟩
abbrev main_call8_cst_1 : Ref sig .tc := ⟨.hbm, 201, rfl⟩
abbrev main_call8_v8 : Ref sig .tc := ⟨.hbm, 202, rfl⟩
abbrev main_call8_cst_2 : Ref sig .tc := ⟨.hbm, 203, rfl⟩
abbrev main_call8_v9 : Ref sig .tc := ⟨.hbm, 204, rfl⟩
abbrev main_call8_v10 : Ref sig .tc := ⟨.hbm, 205, rfl⟩
abbrev main_call8_v11 : Ref sig .tc := ⟨.hbm, 206, rfl⟩
abbrev main_call8_cst_3 : Ref sig .tc := ⟨.hbm, 207, rfl⟩
abbrev main_call8_v12 : Ref sig .tc := ⟨.hbm, 208, rfl⟩
abbrev main_call8_cst_4 : Ref sig .tc := ⟨.hbm, 209, rfl⟩
abbrev main_call8_call0_v0 : Ref sig .tc := ⟨.hbm, 210, rfl⟩
abbrev main_call8_call0_v1 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_cst_18 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_c_19 : Ref sig .tc := ⟨.hbm, 232, rfl⟩
abbrev main_v129 : Ref sig .tc := ⟨.hbm, 233, rfl⟩
abbrev main_v130 : Ref sig .tc := ⟨.hbm, 234, rfl⟩
abbrev main_c_20 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_call9_cst : Ref sig .tc := ⟨.hbm, 242, rfl⟩
abbrev main_call9_v0 : Ref sig .tc := ⟨.hbm, 243, rfl⟩
abbrev main_v137 : Ref sig .tc := ⟨.hbm, 244, rfl⟩
abbrev main_cst_21 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_call10_cst : Ref sig .tc := ⟨.hbm, 251, rfl⟩
abbrev main_call10_v0 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_cst_22 : Ref sig .tc := ⟨.hbm, 258, rfl⟩
abbrev main_v148 : Ref sig .tc := ⟨.hbm, 259, rfl⟩
abbrev main_cst_23 : Ref sig .tc := ⟨.hbm, 260, rfl⟩
abbrev main_v149 : Ref sig .tc := ⟨.hbm, 261, rfl⟩
abbrev main_v150 : Ref sig .tc := ⟨.hbm, 262, rfl⟩
abbrev main_c_24 : Ref sig .tc := ⟨.hbm, 263, rfl⟩
abbrev main_call11_cst : Ref sig .tc := ⟨.hbm, 264, rfl⟩
abbrev main_call11_v0 : Ref sig .tc := ⟨.hbm, 265, rfl⟩
abbrev main_call11_v1 : Ref sig .tc := ⟨.hbm, 266, rfl⟩
abbrev main_call11_cst_0 : Ref sig .tc := ⟨.hbm, 267, rfl⟩
abbrev main_call11_v2 : Ref sig .tc := ⟨.hbm, 268, rfl⟩
abbrev main_call11_v3 : Ref sig .tc := ⟨.hbm, 269, rfl⟩
abbrev main_call11_v4 : Ref sig .tc := ⟨.hbm, 270, rfl⟩
abbrev main_call11_v5 : Ref sig .tc := ⟨.hbm, 271, rfl⟩
abbrev main_call11_v6 : Ref sig .tc := ⟨.hbm, 272, rfl⟩
abbrev main_call11_v7 : Ref sig .tc := ⟨.hbm, 273, rfl⟩
abbrev main_call11_cst_1 : Ref sig .tc := ⟨.hbm, 274, rfl⟩
abbrev main_call11_v8 : Ref sig .tc := ⟨.hbm, 275, rfl⟩
abbrev main_call11_cst_2 : Ref sig .tc := ⟨.hbm, 276, rfl⟩
abbrev main_call11_v9 : Ref sig .tc := ⟨.hbm, 277, rfl⟩
abbrev main_call11_v10 : Ref sig .tc := ⟨.hbm, 278, rfl⟩
abbrev main_call11_v11 : Ref sig .tc := ⟨.hbm, 279, rfl⟩
abbrev main_call11_cst_3 : Ref sig .tc := ⟨.hbm, 280, rfl⟩
abbrev main_call11_v12 : Ref sig .tc := ⟨.hbm, 281, rfl⟩
abbrev main_call11_cst_4 : Ref sig .tc := ⟨.hbm, 282, rfl⟩
abbrev main_call11_call0_v0 : Ref sig .tc := ⟨.hbm, 283, rfl⟩
abbrev main_call11_call0_v1 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_cst_25 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S4x128x128_S1x128x128_0_0_0 : S4x128x128.Slices ![0, 0, 0] S1x128x128
  shapeCasts_S1x128x128_S128x128 : S1x128x128.ShapeCasts S128x128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run, with its result array named.

  The program is eight kernel launches among stretches of host operations.  Its generated frame certificate follows the
  buffer contents from the launch memory through every stretch and every launch to the last boundary, and
  concludes that the argument arrays end as they started.  The same chain also says what the result array holds at
  the end: the last boundary's contents at that buffer.  This module states the run with that one more conjunct; the
  contents themselves are opened, launch by launch, in the modules that import this one.
-/
import proofs.«120676_j3582002725394_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array ends at the last
    boundary's contents, and every argument array as launched. -/
theorem run_named : θ_run defs (onTc (τ := τ) (main (F := F))) ⟨m, fun _ => 0, ρ⟩ (fun r => ∀ c : Dev nD,
      r.2.mem ((c.tc : Thread nD τ).loc main_v124) = W24 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v124 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c)⟩)

/-- The result array is the last launch's output window: what that launch's write-backs leave. -/
theorem W24_result (c : Dev nD) :
    W24 m ρ c (Proc.devRef .tc main_v124) = (dat7 (V23 m ρ) c).arrAt 6 cfg7.N :=
  W24_arr m ρ c 6

end Cert.KernelIdeal.KRun

end
-- ==== Proof.LibRealValued.lean ====
/-
  Extended reals that are real numbers, and the exact float operations that keep them so.

  At the exact instance a float is an extended real.  The algebraic laws that join two arrangements of one
  computation (distributing a product over a sum, cancelling) hold for real numbers and fail at the
  infinities, so a proof that uses one must first know that the values it is applied to are real.  This file
  names that property and shows it is kept by the sum, the difference, the product, the larger of two values,
  a finite sum, the quotient by a nonzero real, and the reciprocal square root of a positive real.
-/
import Idealize.ShloMosaic.PureOps.Ideal

open Idealize.ShloMosaic

namespace Cert.Lib

/-- The extended real `x` is a real number (neither infinity). -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

/-- The larger of two reals is one of them. -/
theorem max {x y : EReal} (hx : IsReal x) (hy : IsReal y) : IsReal (max x y) := by
  rcases le_total x y with h | h
  · rw [max_eq_right h]; exact hy
  · rw [max_eq_left h]; exact hx

theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- The exact quotient by a nonzero real is the product with its reciprocal, hence real. -/
theorem div_coe {x : EReal} (hx : IsReal x) {y : ℝ} (hy : y ≠ 0) : IsReal (Ideal.div x (y : EReal)) := by
  rw [Ideal.div_coe hy]; exact hx.mul (coe _)

/-- The reciprocal square root of a positive real is real. -/
theorem rsqrt_of_pos {r : ℝ} (hr : 0 < r) : IsReal (Ideal.rsqrt (r : EReal)) := by
  rw [Ideal.rsqrt_coe, if_neg (not_lt.mpr hr.le), if_neg hr.ne']; exact ⟨_, rfl⟩

end IsReal

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} {x : ι → EReal} (h : ∀ i, IsReal (x i)) : ∃ r : ι → ℝ, x = fun i => (r i : EReal) := by
  choose r hr using h
  exact ⟨r, funext hr⟩

end Cert.Lib
-- ==== Proof.Finite.lean ====
/-
  From the precondition to "every float input entry is a real number".

  The precondition is a pure function of the seven argument arrays: for each of the five float arrays it
  compares the absolute value of every entry with +∞ (the pattern 0x7F800000), strictly, folds the
  comparisons of the array by "and" over all axes, and joins the five folds by "and"; it is stated to be 1.
  Read at the exact instance, where a float is an extended real, |x| < +∞ holds exactly when x is neither
  infinity, i.e. when x is a real number.  So the precondition gives: every entry of the five float arrays
  is a real number.  The two integer arrays are not constrained.
-/
import proofs.«120676_j3582002725394_2_alg».proof.Defs
import proofs.«120676_j3582002725394_2_alg».proof.Proof.Gen.Pre_finite_inputs
import proofs.«120676_j3582002725394_2_alg».proof.Proof.LibRealValued
import Idealize.ShloMosaic.Lib.ReduceAll
import Idealize.ShloMosaic.Lib.IdealHost

open Idealize.ShloMosaic Idealize.SL.Sem

namespace Cert.Finite

open Cert.Pre_finite_inputs Cert.Pre_finite_inputs.Gen

/-- The shape of rank zero has exactly one index. -/
instance : Subsingleton S_.Idx := ⟨fun a b => funext fun d => d.elim0⟩

/-- An extended real whose absolute value (the larger of it and its negation) lies strictly below +∞ is a
    real number: at -∞ the negation is +∞, at +∞ the value itself is. -/
theorem isReal_of_abs_lt_top (x : EReal) (h : max x (-x) < ⊤) : Cert.Lib.IsReal x := by
  induction x using EReal.rec with
  | bot => simp at h
  | coe r => exact ⟨r, rfl⟩
  | top => simp at h

/-- One entry of the comparison array: if |a i| < (the scalar 0x7F800000 broadcast to the array's shape) at
    index i is the word 1, then a i is a real number.  The pattern 0x7F800000 denotes +∞, the broadcast of a
    scalar reads that scalar at every index, and the strict comparison yields 1 exactly when it holds. -/
theorem isReal_of_cmp {s : Shape} (hb : S_.BroadcastsInDim s ![]) (a : FVec Ideal s .f32) (i : s.Idx)
    (h : cmpf .olt (Host.absf a) (broadcastInDim s ![] hb (constant S_ .f32 0x7F800000#32)) i = 1#1) :
    Cert.Lib.IsReal (a i) := by
  apply isReal_of_abs_lt_top
  have e : broadcastInDim s ![] hb (constant (F := Ideal) S_ .f32 0x7F800000#32) i = ⊤ := by
    rw [ValueIdx.broadcastInDim_scalar_apply]
    simp [constant, Ideal.ofBits, Ideal.ieee]
  have h' : BitVec.ofBool (decide (max (a i) (-a i)
      < broadcastInDim s ![] hb (constant (F := Ideal) S_ .f32 0x7F800000#32) i)) = 1#1 := h
  rw [e] at h'
  have hb1 : ∀ b : Bool, BitVec.ofBool b = 1#1 → b = true := by decide
  exact of_decide_eq_true (hb1 _ h')

/-- One array: if the fold by "and", over all axes, of the comparisons |a i| < +∞ is 1, then every entry of
    the array is a real number (a fold by "and" that is 1 met only 1s). -/
theorem all_real {s : Shape} {axes : List (Fin s.rank)} (hb : S_.BroadcastsInDim s ![]) (hr : s.ReducesTo axes S_)
    (hu : 0 < S_.numel) (a : FVec Ideal s .f32) (init : IVec S_ 1)
    (h : Host.reduce IntOp.andi (cmpf .olt (Host.absf a) (broadcastInDim s ![] hb (constant S_ .f32 0x7F800000#32)))
      init hr hu ValueIdx.ix0 = 1#1) (i : s.Idx) : Cert.Lib.IsReal (a i) :=
  isReal_of_cmp hb a i (Host.reduce_andi_all _ init hr hu ValueIdx.ix0 h i)

/-- The precondition, over any seven argument arrays: if it is 1, every entry of the five float arrays is a
    real number.  The "and" of the five folds is 1 exactly when each fold is. -/
theorem real_of_pre (a0 : FVec Ideal S50000x128 .f32) (a1 : IVec S2x500000 32) (a2 : FVec Ideal S500000x128 .f32)
    (a3 : IVec S50000 32) (a4 : FVec Ideal S4x128x128 .f32) (a5 a6 : FVec Ideal S4x128 .f32)
    (h : Cert.Pre_finite_inputs.fn (F := Ideal) a0 a1 a2 a3 a4 a5 a6 = fun _ => 1#1) :
    (∀ i, Cert.Lib.IsReal (a0 i)) ∧ (∀ i, Cert.Lib.IsReal (a2 i)) ∧ (∀ i, Cert.Lib.IsReal (a4 i))
      ∧ (∀ i, Cert.Lib.IsReal (a5 i)) ∧ (∀ i, Cert.Lib.IsReal (a6 i)) := by
  have h0 := congrFun h ValueIdx.ix0
  dsimp only [Cert.Pre_finite_inputs.fn, Cert.Pre_finite_inputs.fn_part1] at h0
  simp only [andi, IntOp.andi_eq_one] at h0
  obtain ⟨⟨⟨⟨h0, h2⟩, h4⟩, h5⟩, h6⟩ := h0
  exact ⟨all_real _ _ _ a0 _ h0, all_real _ _ _ a2 _ h2, all_real _ _ _ a4 _ h4, all_real _ _ _ a5 _ h5,
    all_real _ _ _ a6 _ h6⟩

/-- The same over the kernel program's initial memory: under its precondition, on every device, every entry
    of the five float argument arrays is a real number. -/
theorem real_inputs
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Cert.Lib.IsReal (m ((c.tc : Thread Cert.KernelIdeal.nD Cert.KernelIdeal.τ).loc Cert.KernelIdeal.main_arg0) i))
      ∧ (∀ i, Cert.Lib.IsReal (m ((c.tc : Thread Cert.KernelIdeal.nD Cert.KernelIdeal.τ).loc Cert.KernelIdeal.main_arg2) i))
      ∧ (∀ i, Cert.Lib.IsReal (m ((c.tc : Thread Cert.KernelIdeal.nD Cert.KernelIdeal.τ).loc Cert.KernelIdeal.main_arg4) i))
      ∧ (∀ i, Cert.Lib.IsReal (m ((c.tc : Thread Cert.KernelIdeal.nD Cert.KernelIdeal.τ).loc Cert.KernelIdeal.main_arg5) i))
      ∧ (∀ i, Cert.Lib.IsReal (m ((c.tc : Thread Cert.KernelIdeal.nD Cert.KernelIdeal.τ).loc Cert.KernelIdeal.main_arg6) i)) :=
  real_of_pre _ _ _ _ _ _ _ (hpre c)

end Cert.Finite
-- ==== Proof.Spec.lean ====
/-
  One layer of the network, as functions of coordinates on the extended reals.

  A node array is a function of a row (a node, 50000 of them) and a column (a feature, 128 of them).
  A layer first forms, from the node array `x` and the aggregated messages `agg`, the product
  `(x + agg) · W` and clips it below at zero; then it normalises every column by that column's mean
  and variance over all the rows, scales by `γ`, shifts by `β`, and adds the layer's input back.

  The normalisation is written twice.  `normOnePass` takes the column's sum `S` and sum of squares `Q`,
  multiplies each by `1/50000`, and uses `Q/n - (S/n)²` as the variance.  `normTwoPass` divides the
  sum by `50000` for the mean and then averages the squared deviations from that mean.  On real entries the two
  variances are one number (expand the square); at an infinity they differ, so the equality of the two forms is
  stated for real entries.
-/
import Idealize.ShloMosaic.PureOps.Ideal
import Idealize.ShloMosaic.Lib.ValueIdx
import proofs.«120676_j3582002725394_2_alg».proof.Proof.LibRealValued

noncomputable section

namespace Cert.Spec

open Idealize.ShloMosaic Idealize.ShloMosaic.ValueIdx Cert.Lib

/-- An `[a, b]` array as a function of its row and its column. -/
abbrev Mat (a b : ℕ) := Fin a → Fin b → EReal

/-- An `[a, b]` array of extended reals read by coordinates (whatever float format it is typed at). -/
def cur {a b : ℕ} {φ : FTy} (f : FVec Ideal ⟨2, ![a, b]⟩ φ) : Mat a b := fun r k => f (ix2 r k)

/-- The array of a function of the two coordinates. -/
def unc {a b : ℕ} {φ : FTy} (g : Mat a b) : FVec Ideal ⟨2, ![a, b]⟩ φ := fun i => g (i 0) (i 1)

/-- The small positive number added to a variance before the reciprocal square root: the value of the word both
    programs carry. -/
def eps : EReal := Ideal.ofBits .f32 0x3727C5AC#32

/-- One over the number of rows. -/
def invN : EReal := ((1 / 50000 : ℝ) : EReal)

/-- The number of rows. -/
def nRows : EReal := ((50000 : ℝ) : EReal)

/-- `(x + agg) · W` at row `p`, column `q`. -/
def lin (x agg : Mat 50000 128) (W : Mat 128 128) : Mat 50000 128 :=
  fun p q => ∑ k : Fin 128, (x p k + agg p k) * W k q

/-- An array clipped below at zero. -/
def act (h : Mat 50000 128) : Mat 50000 128 := fun p q => max (h p q) 0

/-- The sum of column `q` over all the rows. -/
def colSum (h : Mat 50000 128) (q : Fin 128) : EReal := ∑ p : Fin 50000, h p q

/-- The entrywise square. -/
def sq (h : Mat 50000 128) : Mat 50000 128 := fun p q => h p q * h p q

/-- The column's mean as the sum times `1/50000`. -/
def meanMul (h : Mat 50000 128) (q : Fin 128) : EReal := colSum h q * invN

/-- The column's variance in one pass: the mean of the squares less the squared mean. -/
def varOnePass (h : Mat 50000 128) (q : Fin 128) : EReal := colSum (sq h) q * invN - meanMul h q * meanMul h q

/-- Normalise, scale, shift and add the input back, with the one-pass variance. -/
def normOnePass (h : Mat 50000 128) (γ β : Fin 128 → EReal) (prev : Mat 50000 128) : Mat 50000 128 :=
  fun p q => (h p q - meanMul h q) * Ideal.rsqrt (varOnePass h q + eps) * γ q + β q + prev p q

/-- The column's mean as the sum divided by `50000`. -/
def meanDiv (h : Mat 50000 128) (q : Fin 128) : EReal := Ideal.div (colSum h q) nRows

/-- The column's variance in two passes: the mean of the squared deviations from the mean. -/
def varTwoPass (h : Mat 50000 128) (q : Fin 128) : EReal :=
  Ideal.div (colSum (sq fun p q' => h p q' - meanDiv h q') q) nRows

/-- Normalise, scale, shift and add the input back, with the two-pass variance. -/
def normTwoPass (h : Mat 50000 128) (γ β : Fin 128 → EReal) (prev : Mat 50000 128) : Mat 50000 128 :=
  fun p q => (h p q - meanDiv h q) * Ideal.rsqrt (varTwoPass h q + eps) * γ q + β q + prev p q

/-- Every entry of an array is a real number. -/
def RealMat {a b : ℕ} (h : Mat a b) : Prop := ∀ p q, IsReal (h p q)

end Cert.Spec

end
-- ==== Proof.LibVariance.lean ====
/-
  The variance of a finite family, computed in one pass and in two, at the exact instance.

  One program accumulates the sum `S` and the sum of squares `Q` of a column in a single sweep and forms
  `Q / n - (S / n) · (S / n)`; another first forms the mean `μ = S / n` and then sums the squared deviations,
  `(∑ (x - μ) · (x - μ)) / n`.  Over the real numbers the two are equal — expand the square:
  `∑ (x - μ)² = Q - 2 μ S + n μ²`, and `μ S = n μ²` — and the common value is nonnegative.  Over the extended
  reals the expansion needs every `x` to be real (a product does not distribute over a sum at the
  infinities), which is what the hypothesis asks.
-/
import proofs.«120676_j3582002725394_2_alg».proof.Proof.LibRealValued

open Idealize.ShloMosaic

namespace Cert.Lib

variable {ι : Type*} [Fintype ι]

/-- The real identity: the mean of the squared deviations is the mean of the squares less the squared mean,
    for a family indexed by a type of `n` elements. -/
theorem real_var_two_pass (r : ι → ℝ) {n : ℝ} (hn : n ≠ 0) (hcard : (Fintype.card ι : ℝ) = n) :
    (∑ i, (r i - (∑ j, r j) * (1 / n)) * (r i - (∑ j, r j) * (1 / n))) * (1 / n)
      = (∑ i, r i * r i) * (1 / n) - (∑ j, r j) * (1 / n) * ((∑ j, r j) * (1 / n)) := by
  set S := ∑ j, r j with hS
  set μ := S * (1 / n) with hμ
  have hexp : ∀ i, (r i - μ) * (r i - μ) = r i * r i - 2 * μ * r i + μ * μ := fun i => by ring
  have hsum : ∑ i, (r i - μ) * (r i - μ) = ∑ i, r i * r i - 2 * μ * S + n * (μ * μ) := by
    simp only [hexp, Finset.sum_add_distrib, Finset.sum_sub_distrib, ← Finset.mul_sum, Finset.sum_const,
      Finset.card_univ, nsmul_eq_mul, hcard, ← hS]
    ring
  rw [hsum, hμ]
  field_simp
  ring

/-- The two-pass variance of a real family is a nonnegative real. -/
theorem real_var_nonneg (r : ι → ℝ) {n : ℝ} (hn : 0 < n) :
    0 ≤ (∑ i, (r i - (∑ j, r j) * (1 / n)) * (r i - (∑ j, r j) * (1 / n))) * (1 / n) :=
  mul_nonneg (Finset.sum_nonneg fun i _ => mul_self_nonneg _) (by positivity)

/-- At the exact instance: for a family of real values indexed by a type of `n` elements, the sum of the
    squared deviations from `S / n`, divided by `n`, is `Q / n - (S / n) · (S / n)`; and the common value is a
    nonnegative real `v`. -/
theorem var_two_pass_eq_one_pass (x : ι → EReal) (hx : ∀ i, IsReal (x i)) {n : ℝ} (hn : 0 < n)
    (hcard : (Fintype.card ι : ℝ) = n) :
    ∃ v : ℝ, 0 ≤ v
      ∧ Ideal.div (∑ i, (x i - Ideal.div (∑ j, x j) (n : EReal)) * (x i - Ideal.div (∑ j, x j) (n : EReal))) (n : EReal) = (v : EReal)
      ∧ Ideal.div (∑ i, x i * x i) (n : EReal) - Ideal.div (∑ j, x j) (n : EReal) * Ideal.div (∑ j, x j) (n : EReal) = (v : EReal) := by
  obtain ⟨r, rfl⟩ := exists_real_family hx
  have hn' : n ≠ 0 := hn.ne'
  refine ⟨_, real_var_nonneg r hn, ?_, ?_⟩
  · simp only [Ideal.div_coe hn', ← coe_finset_sum, ← EReal.coe_mul, ← EReal.coe_sub]
  · simp only [Ideal.div_coe hn', ← coe_finset_sum, ← EReal.coe_mul, ← EReal.coe_sub]
    exact congrArg _ (real_var_two_pass r hn' hcard).symm

end Cert.Lib
-- ==== Proof.SpecLaws.lean ====
/-
  The algebra of one layer, and of the four layers in a row, over the specification.

  Three facts.  First, the constants: the small number added to a variance is a positive real, and the words for
  fifty thousand, zero and one eighth denote those reals.  Second, every stage of a layer sends arrays of real
  numbers to arrays of real numbers: a finite sum of products of reals, the larger of a real and zero, a column
  sum, a square, and the normalisation (its variance is a nonnegative real, so the variance plus the small
  positive number is a positive real and its reciprocal square root is real).  Third, the law: on an array of
  real numbers the normalisation with the one-pass variance `Q/n - (S/n)²` and mean `S · (1/n)` is the
  normalisation with the two-pass variance and mean `S / n`.  The scale, the shift and the array added back
  play no part in the law: both forms apply them the same way to an equal normalised value.

  A layer is the normalisation of the clipped product, with the layer's input added back; the network is four
  layers in a row.  The two networks are equal when the input, the weights, the scales and the shifts are real
  and the aggregation sends real arrays to real arrays: each layer's output is then real, which is what the
  next layer's law asks of its input.
-/
import Idealize.ShloMosaic.PureOps.Ideal.Laws
import proofs.«120676_j3582002725394_2_alg».proof.Proof.Spec
import proofs.«120676_j3582002725394_2_alg».proof.Proof.LibVariance

noncomputable section

namespace Cert.Spec

open Idealize.ShloMosaic Cert.Lib

/-! ### The constants -/

/-- The word `0x47435000`: exponent field `142`, significand `2^23 + 4411392 = 12800000`, so
    `12800000 · 2^(142 - 127 - 23) = 12800000 / 256 = 50000`. -/
theorem ofBits_50000 : Ideal.ofBits .f32 0x47435000#32 = ((50000 : ℝ) : EReal) := by
  simp [Ideal.ofBits, Ideal.ieee, -EReal.coe_mul]; norm_num

/-- The all-zero word denotes zero. -/
theorem ofBits_zero' : Ideal.ofBits .f32 0x00000000#32 = 0 := Ideal.ofBits_zero_f32

/-- The word `0x3E000000`: exponent field `124`, significand `2^23`, so `2^23 · 2^(124 - 127 - 23) = 2^(-3)`. -/
theorem ofBits_eighth : Ideal.ofBits .f32 0x3E000000#32 = ((1 / 8 : ℝ) : EReal) := by
  simp [Ideal.ofBits, Ideal.ieee, -EReal.coe_mul]; norm_num

/-- The word `0x3727C5AC`: exponent field `110`, significand `2^23 + 2606508 = 10995116`, so the value is
    `10995116 · 2^(110 - 127 - 23) = 10995116 / 2^40`, a little below one hundred-thousandth. -/
theorem eps_eq : eps = ((10995116 / 2 ^ 40 : ℝ) : EReal) := by
  simp [eps, Ideal.ofBits, Ideal.ieee, -EReal.coe_mul]; norm_num

/-- The small number added to a variance is a positive real. -/
theorem eps_pos : ∃ e : ℝ, 0 < e ∧ eps = (e : EReal) := ⟨_, by positivity, eps_eq⟩

/-! ### Every stage keeps real entries real -/

theorem lin_real {x agg : Mat 50000 128} {W : Mat 128 128} (hx : RealMat x) (ha : RealMat agg) (hW : RealMat W) :
    RealMat (lin x agg W) :=
  fun p q => IsReal.sum _ _ fun k _ => ((hx p k).add (ha p k)).mul (hW k q)

theorem act_real {h : Mat 50000 128} (hh : RealMat h) : RealMat (act h) :=
  fun p q => (hh p q).max IsReal.zero

theorem colSum_real {h : Mat 50000 128} (hh : RealMat h) (q : Fin 128) : IsReal (colSum h q) :=
  IsReal.sum _ _ fun p _ => hh p q

theorem sq_real {h : Mat 50000 128} (hh : RealMat h) : RealMat (sq h) :=
  fun p q => (hh p q).mul (hh p q)

/-! ### The two means and the two variances -/

/-- Dividing by fifty thousand is multiplying by its reciprocal, at the infinities too. -/
theorem meanDiv_eq_meanMul (h : Mat 50000 128) (q : Fin 128) : meanDiv h q = meanMul h q := by
  unfold meanDiv meanMul nRows invN
  exact Ideal.div_coe (by norm_num) _

theorem meanDiv_real {h : Mat 50000 128} (hh : RealMat h) (q : Fin 128) : IsReal (meanDiv h q) := by
  rw [meanDiv_eq_meanMul]
  exact (colSum_real hh q).mul (IsReal.coe _)

/-- On a column of reals the two variances are one nonnegative real. -/
theorem var_spec (h : Mat 50000 128) (hh : RealMat h) (q : Fin 128) :
    ∃ v : ℝ, 0 ≤ v ∧ varTwoPass h q = (v : EReal) ∧ varOnePass h q = (v : EReal) := by
  obtain ⟨v, hv, h2, h1⟩ := var_two_pass_eq_one_pass (fun p : Fin 50000 => h p q) (fun p => hh p q)
    (n := 50000) (by norm_num) (by simp)
  refine ⟨v, hv, h2, ?_⟩
  rw [← h1]
  simp only [varOnePass, meanMul, colSum, sq, invN, Ideal.div_coe (by norm_num : (50000 : ℝ) ≠ 0)]

/-- The reciprocal square root the normalisation multiplies by is real. -/
theorem rsqrt_var_real {h : Mat 50000 128} (hh : RealMat h) (q : Fin 128) :
    IsReal (Ideal.rsqrt (varTwoPass h q + eps)) := by
  obtain ⟨v, hv, h2, -⟩ := var_spec h hh q
  obtain ⟨e, he, hε⟩ := eps_pos
  rw [h2, hε, ← EReal.coe_add]
  exact IsReal.rsqrt_of_pos (add_pos_of_nonneg_of_pos hv he)

theorem normTwoPass_real {h : Mat 50000 128} (hh : RealMat h) {γ β : Fin 128 → EReal}
    (hγ : ∀ q, IsReal (γ q)) (hβ : ∀ q, IsReal (β q)) {prev : Mat 50000 128} (hp : RealMat prev) :
    RealMat (normTwoPass h γ β prev) :=
  fun p q => (((((hh p q).sub (meanDiv_real hh q)).mul (rsqrt_var_real hh q)).mul (hγ q)).add (hβ q)).add (hp p q)

/-! ### The law -/

/-- On an array of reals, normalising with the one-pass variance is normalising with the two-pass variance. -/
theorem normOnePass_eq_normTwoPass (h : Mat 50000 128) (hh : RealMat h) (γ β : Fin 128 → EReal)
    (prev : Mat 50000 128) : normOnePass h γ β prev = normTwoPass h γ β prev := by
  funext p q
  obtain ⟨v, -, h2, h1⟩ := var_spec h hh q
  simp only [normOnePass, normTwoPass, meanDiv_eq_meanMul, h1, h2]

/-! ### A layer -/

/-- One layer with the one-pass normalisation: `agg` forms the aggregated messages from the layer's input. -/
def layerK (agg : Mat 50000 128 → Mat 50000 128) (x : Mat 50000 128) (W : Mat 128 128)
    (γ β : Fin 128 → EReal) : Mat 50000 128 :=
  normOnePass (act (lin x (agg x) W)) γ β x

/-- One layer with the two-pass normalisation. -/
def layerR (agg : Mat 50000 128 → Mat 50000 128) (x : Mat 50000 128) (W : Mat 128 128)
    (γ β : Fin 128 → EReal) : Mat 50000 128 :=
  normTwoPass (act (lin x (agg x) W)) γ β x

theorem layerK_eq_layerR (agg : Mat 50000 128 → Mat 50000 128) (x : Mat 50000 128) (W : Mat 128 128)
    (γ β : Fin 128 → EReal) (hx : RealMat x) (ha : RealMat (agg x)) (hW : RealMat W) :
    layerK agg x W γ β = layerR agg x W γ β :=
  normOnePass_eq_normTwoPass _ (act_real (lin_real hx ha hW)) γ β x

theorem layerR_real (agg : Mat 50000 128 → Mat 50000 128) (x : Mat 50000 128) (W : Mat 128 128)
    (γ β : Fin 128 → EReal) (hx : RealMat x) (ha : RealMat (agg x)) (hW : RealMat W)
    (hγ : ∀ q, IsReal (γ q)) (hβ : ∀ q, IsReal (β q)) : RealMat (layerR agg x W γ β) :=
  normTwoPass_real (act_real (lin_real hx ha hW)) hγ hβ hx

/-! ### Four layers in a row -/

/-- The network with the one-pass normalisation in every layer. -/
def netK (agg : Mat 50000 128 → Mat 50000 128) (x : Mat 50000 128) (Ws : Fin 4 → Mat 128 128)
    (γs βs : Fin 4 → Fin 128 → EReal) : Mat 50000 128 :=
  layerK agg (layerK agg (layerK agg (layerK agg x (Ws 0) (γs 0) (βs 0)) (Ws 1) (γs 1) (βs 1))
    (Ws 2) (γs 2) (βs 2)) (Ws 3) (γs 3) (βs 3)

/-- The network with the two-pass normalisation in every layer. -/
def netR (agg : Mat 50000 128 → Mat 50000 128) (x : Mat 50000 128) (Ws : Fin 4 → Mat 128 128)
    (γs βs : Fin 4 → Fin 128 → EReal) : Mat 50000 128 :=
  layerR agg (layerR agg (layerR agg (layerR agg x (Ws 0) (γs 0) (βs 0)) (Ws 1) (γs 1) (βs 1))
    (Ws 2) (γs 2) (βs 2)) (Ws 3) (γs 3) (βs 3)

section Net

variable (agg : Mat 50000 128 → Mat 50000 128) (x : Mat 50000 128) (Ws : Fin 4 → Mat 128 128)
  (γs βs : Fin 4 → Fin 128 → EReal)

/-- The two networks are equal, and the common value is real: each layer's output is real, so the next layer's
    law applies to it. -/
theorem netK_eq_netR_and_real (hx : RealMat x) (hW : ∀ l, RealMat (Ws l)) (hγ : ∀ l q, IsReal (γs l q))
    (hβ : ∀ l q, IsReal (βs l q)) (hagg : ∀ y, RealMat y → RealMat (agg y)) :
    netK agg x Ws γs βs = netR agg x Ws γs βs ∧ RealMat (netR agg x Ws γs βs) := by
  have e0 := layerK_eq_layerR agg x (Ws 0) (γs 0) (βs 0) hx (hagg x hx) (hW 0)
  have r0 := layerR_real agg x (Ws 0) (γs 0) (βs 0) hx (hagg x hx) (hW 0) (hγ 0) (hβ 0)
  have e1 := layerK_eq_layerR agg _ (Ws 1) (γs 1) (βs 1) r0 (hagg _ r0) (hW 1)
  have r1 := layerR_real agg _ (Ws 1) (γs 1) (βs 1) r0 (hagg _ r0) (hW 1) (hγ 1) (hβ 1)
  have e2 := layerK_eq_layerR agg _ (Ws 2) (γs 2) (βs 2) r1 (hagg _ r1) (hW 2)
  have r2 := layerR_real agg _ (Ws 2) (γs 2) (βs 2) r1 (hagg _ r1) (hW 2) (hγ 2) (hβ 2)
  have e3 := layerK_eq_layerR agg _ (Ws 3) (γs 3) (βs 3) r2 (hagg _ r2) (hW 3)
  have r3 := layerR_real agg _ (Ws 3) (γs 3) (βs 3) r2 (hagg _ r2) (hW 3) (hγ 3) (hβ 3)
  refine ⟨?_, r3⟩
  unfold netK netR
  rw [e0, e1, e2, e3]

theorem netK_eq_netR (hx : RealMat x) (hW : ∀ l, RealMat (Ws l)) (hγ : ∀ l q, IsReal (γs l q))
    (hβ : ∀ l q, IsReal (βs l q)) (hagg : ∀ y, RealMat y → RealMat (agg y)) :
    netK agg x Ws γs βs = netR agg x Ws γs βs :=
  (netK_eq_netR_and_real agg x Ws γs βs hx hW hγ hβ hagg).1

theorem netR_real (hx : RealMat x) (hW : ∀ l, RealMat (Ws l)) (hγ : ∀ l q, IsReal (γs l q))
    (hβ : ∀ l q, IsReal (βs l q)) (hagg : ∀ y, RealMat y → RealMat (agg y)) :
    RealMat (netR agg x Ws γs βs) :=
  (netK_eq_netR_and_real agg x Ws γs βs hx hW hγ hβ hagg).2

end Net

end Cert.Spec

end
-- ==== Proof.KReadDefs.lean ====
/-
  Two composite host computations of the idealized kernel program, named.

  Every layer of the program forms the aggregated messages by the same twelve host operations and each column total by
  the same three.  Naming the two compositions once lets the layers' facts be stated over them.
-/
import proofs.«120676_j3582002725394_2_alg».proof.Proof.Gen.KernelIdeal.Frame

set_option maxRecDepth 16384

noncomputable section

namespace Cert.KernelIdeal.KReadDefs

open Idealize.ShloMosaic Idealize.ShloMosaic.TcCoe
open Idealize.SL Idealize.SL.Sem
open Cert.KernelIdeal Cert.KernelIdeal.Gen

variable {F : FTy → Type} [FloatOps F] [Named F]

/-- The aggregated messages as the host operations compose them: every edge takes the source node's row (a negative
    position counted from the end), adds the edge's features, clips below at zero, and the rows are added up at the
    edges' destination nodes, from an all-zero array. -/
def aggK (x : (⟨S50000x128, .f32⟩ : BufTy).Contents (Elt F)) (src dst : (⟨S500000, .i32⟩ : BufTy).Contents (Elt F))
    (ea : (⟨S500000x128, .f32⟩ : BufTy).Contents (Elt F)) : (⟨S50000x128, .f32⟩ : BufTy).Contents (Elt F) :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 dst)
    (maximumf
      (addf
        (Host.gather gather_S50000x128_S500000x1_S500000x128_1_0_n_n_0_1_1128 x
          (broadcastInDim S500000x1 ![0] bcast_S500000_S500000x1_0
            (select (cmpi .slt src (broadcastInDim S500000 ![] bcast_S_S500000 (constantI S_ 32 0#32)))
              (addi src (broadcastInDim S500000 ![] bcast_S_S500000 (constantI S_ 32 50000#32))) src)))
        ea)
      (broadcastInDim S500000x128 ![] bcast_S_S500000x128 (constant S_ .f32 0x00000000#32)))

/-- A column total as the host forms it from the eighty partial rows: their sum down the rows, times one eighth. -/
def totK (part : (⟨S80x128, .f32⟩ : BufTy).Contents (Elt F)) : (⟨S1x128, .f32⟩ : BufTy).Contents (Elt F) :=
  mulf (broadcastInDim S1x128 ![1] bcast_S128_S1x128_1
      (Host.reduceAdd part (constant S_ .f32 0x00000000#32) reducesTo_S80x128_S128_d0 h_S_))
    (broadcastInDim S1x128 ![] bcast_S_S1x128 (constant S_ .f32 0x3E000000#32))

end Cert.KernelIdeal.KReadDefs

end
-- ==== Proof.LibIndexOps.lean ====
import Idealize.ShloMosaic.PureOps.Ideal
import Idealize.ShloMosaic.PureOps.Ideal.Laws
import Idealize.ShloMosaic.Lib.ValueIdx

/-!
# Scatter-add and gather along the leading axis, read at an index

A scatter that adds rows (or scalars) of an update array into an operand at integer row positions, and a
gather that takes rows (or scalars) of an operand at integer row positions, are read here element by element.
For the scatter the result element `(g, f)` is the operand's element plus the sum of the update elements
`(n, f)` over the update rows `n` whose position word, read as a signed integer, is exactly `g` (a position
outside the operand contributes nowhere). For the gather the result element `(e, f)` is the operand's
element at the row whose number is the position word of `e`, read signed and clamped into the operand.

Also here: a finite sum of extended reals times a nonnegative real is the sum of the products.
-/

noncomputable section

namespace Cert.LibIndexOps

open Idealize.ShloMosaic Idealize.ShloMosaic.ValueIdx

/-! ## Sums of extended reals and a nonnegative real factor -/

/-- A finite sum of extended reals times a nonnegative real is the sum of the products
    (multiplication by a nonnegative real distributes over every sum of extended reals). -/
theorem sum_mul_coe_nonneg {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of two extended reals times a nonnegative real. -/
theorem add_mul_coe_nonneg (x y : EReal) (c : ℝ) (hc : 0 ≤ c) : (x + y) * (c : EReal) = x * (c : EReal) + y * (c : EReal) := by
  exact EReal.right_distrib_of_nonneg_of_ne_top (EReal.coe_nonneg.2 hc) (EReal.coe_ne_top c) x y

/-- `k` copies of an extended real `b`, divided by `k > 0`, are `b`. -/
theorem nsmul_mul_inv (k : ℕ) (hk : 0 < k) (b : EReal) : (k • b) * (((k : ℝ)⁻¹ : ℝ) : EReal) = b := by
  have hk' : (0 : ℝ) < (k : ℝ) := Nat.cast_pos.2 hk
  have hinv : (0 : ℝ) < ((k : ℝ)⁻¹ : ℝ) := inv_pos.2 hk'
  have hkE : (0 : EReal) < (k : EReal) := by exact_mod_cast hk
  induction b using EReal.rec with
  | bot =>
    -- a positive multiple of ⊥ is ⊥, and ⊥ times a positive real is ⊥
    rw [EReal.nsmul_eq_mul, EReal.mul_bot_of_pos hkE, EReal.bot_mul_coe_of_pos hinv]
  | top =>
    -- a positive multiple of ⊤ is ⊤, and ⊤ times a positive real is ⊤
    rw [EReal.nsmul_eq_mul, EReal.mul_top_of_pos hkE, EReal.top_mul_coe_of_pos hinv]
  | coe r =>
    -- for a real it is the real identity k * r * k⁻¹ = r
    rw [← EReal.coe_nsmul, ← EReal.coe_mul]
    congr 1
    rw [nsmul_eq_mul]
    field_simp

/-! ## The dimension numbers -/

/-- Rows of `[B, D]` updates added into an `[A, D]` operand at the positions `[B, 1]`. -/
abbrev rowScatterDims (A B D : Nat)
    (wf : ScatterDims.WF ⟨2, ![A, D]⟩ ⟨2, ![B, 1]⟩ ⟨2, ![B, D]⟩ [1] [0] [0] 1) :
    ScatterDims ⟨2, ![A, D]⟩ ⟨2, ![B, 1]⟩ ⟨2, ![B, D]⟩ where
  updateWindowDims := [1]
  insertedWindowDims := [0]
  scatterDimsToOperandDims := [0]
  indexVectorDim := 1
  wf := wf

/-- Scalars of `[B]` updates added into an `[A]` operand at the positions `[B, 1]`. -/
abbrev vecScatterDims (A B : Nat)
    (wf : ScatterDims.WF ⟨1, ![A]⟩ ⟨2, ![B, 1]⟩ ⟨1, ![B]⟩ [] [0] [0] 1) :
    ScatterDims ⟨1, ![A]⟩ ⟨2, ![B, 1]⟩ ⟨1, ![B]⟩ where
  updateWindowDims := []
  insertedWindowDims := [0]
  scatterDimsToOperandDims := [0]
  indexVectorDim := 1
  wf := wf

/-- Rows of an `[N, D]` operand taken at the positions `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Scalars of an `[N]` operand taken at the positions `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position word of update (or result) row `n`. -/
abbrev pos {B w : Nat} (idx : IVec ⟨2, ![B, 1]⟩ w) (n : Fin B) : BitVec w := idx (ix2 n ⟨0, Nat.one_pos⟩)

/-! ## The scatters read at an index -/

/-- On the operand's row axis the window of update `(n, f')` of a row scatter starts at row `n`'s position. -/
theorem rowScatter_start0 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h0 : 0 < 2) :
    (rowScatterDims A B D wf).start (ix2 n f') idx ⟨0, h0⟩ = (pos idx n).toInt := by
  unfold ScatterDims.start
  rw [dif_pos (show (⟨0, h0⟩ : Fin 2) ∈ (rowScatterDims A B D wf).scatterDimsToOperandDims from List.mem_singleton.mpr rfl)]
  have hsi : (rowScatterDims A B D wf).siIdx (ix2 n f') ⟨List.idxOf (⟨0, h0⟩ : Fin 2) (rowScatterDims A B D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the operand's column axis the window of a row scatter's update starts at `0`. -/
theorem rowScatter_start1 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h1 : 1 < 2) :
    (rowScatterDims A B D wf).start (ix2 n f') idx ⟨1, h1⟩ = 0 := by
  unfold ScatterDims.start
  rw [dif_neg]
  intro h; have := List.mem_singleton.mp h; exact absurd (congrArg Fin.val this) Nat.one_ne_zero

/-- The row axis is an inserted axis: the window coordinate of a row scatter's update there is `0`. -/
theorem rowScatter_window0 {A B D : Nat}
    (wf : ScatterDims.WF ⟨2, ![A, D]⟩ ⟨2, ![B, 1]⟩ ⟨2, ![B, D]⟩ [1] [0] [0] 1)
    (n : Fin B) (f' : Fin D) (h0 : 0 < 2) :
    (rowScatterDims A B D wf).window (ix2 n f') ⟨0, h0⟩ = 0 := by
  unfold ScatterDims.window
  rw [dif_neg]
  intro h
  simp [ScatterDims.sKept, Shape.kept, List.mem_filter] at h

/-- On the column axis the window coordinate of update `(n, f')` of a row scatter is `f'`. -/
theorem rowScatter_window1 {A B D : Nat}
    (wf : ScatterDims.WF ⟨2, ![A, D]⟩ ⟨2, ![B, 1]⟩ ⟨2, ![B, D]⟩ [1] [0] [0] 1)
    (n : Fin B) (f' : Fin D) (h1 : 1 < 2) :
    (rowScatterDims A B D wf).window (ix2 n f') ⟨1, h1⟩ = f'.val := by
  unfold ScatterDims.window
  rw [dif_pos]
  · rfl
  · simp [ScatterDims.sKept, Shape.kept, List.mem_filter]

/-- The window of update `n` of a scalar scatter starts at `n`'s position. -/
theorem vecScatter_start0 {A B w : Nat}
    (wf : ScatterDims.WF ⟨1, ![A]⟩ ⟨2, ![B, 1]⟩ ⟨1, ![B]⟩ [] [0] [0] 1)
    (idx : IVec ⟨2, ![B, 1]⟩ w) (n : Fin B) (h0 : 0 < 1) :
    (vecScatterDims A B wf).start (ix1 n) idx ⟨0, h0⟩ = (pos idx n).toInt := by
  unfold ScatterDims.start
  rw [dif_pos (show (⟨0, h0⟩ : Fin 1) ∈ (vecScatterDims A B wf).scatterDimsToOperandDims from List.mem_singleton.mpr rfl)]
  have hsi : (vecScatterDims A B wf).siIdx (ix1 n) ⟨List.idxOf (⟨0, h0⟩ : Fin 1) (vecScatterDims A B wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- The operand's one axis is an inserted axis: the window coordinate of a scalar scatter's update is `0`. -/
theorem vecScatter_window0 {A B : Nat}
    (wf : ScatterDims.WF ⟨1, ![A]⟩ ⟨2, ![B, 1]⟩ ⟨1, ![B]⟩ [] [0] [0] 1)
    (n : Fin B) (h0 : 0 < 1) :
    (vecScatterDims A B wf).window (ix1 n) ⟨0, h0⟩ = 0 := by
  unfold ScatterDims.window
  rw [dif_neg]
  intro h
  simp [ScatterDims.sKept, Shape.kept, List.mem_filter] at h

/-- Update `(n, f')` of a row scatter lands on `(g, f)` exactly when row `n`'s position is `g` and `f' = f`. -/
theorem rowScatter_resultIdx?_eq_some {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (g : Fin A) (f : Fin D) :
    (rowScatterDims A B D wf).resultIdx? (ix2 n f') idx = some (ix2 g f) ↔ (pos idx n).toInt = (g.val : Int) ∧ f' = f := by
  have hg := g.isLt
  have hf' := f'.isLt
  unfold ScatterDims.resultIdx?
  constructor
  · intro h
    split at h
    · rename_i hc
      have h' := Option.some.inj h
      have e0 : ((rowScatterDims A B D wf).start (ix2 n f') idx ⟨0, Nat.zero_lt_two⟩
          + ((rowScatterDims A B D wf).window (ix2 n f') ⟨0, Nat.zero_lt_two⟩ : Int)).toNat = g.val :=
        congrArg (fun i : (⟨2, ![A, D]⟩ : Shape).Idx => (i ⟨0, Nat.zero_lt_two⟩).val) h'
      have e1 : ((rowScatterDims A B D wf).start (ix2 n f') idx ⟨1, Nat.one_lt_two⟩
          + ((rowScatterDims A B D wf).window (ix2 n f') ⟨1, Nat.one_lt_two⟩ : Int)).toNat = f.val :=
        congrArg (fun i : (⟨2, ![A, D]⟩ : Shape).Idx => (i ⟨1, Nat.one_lt_two⟩).val) h'
      have c0 := (hc ⟨0, Nat.zero_lt_two⟩).1
      rw [rowScatter_start0, rowScatter_window0] at e0 c0
      rw [rowScatter_start1, rowScatter_window1] at e1
      refine ⟨by omega, Fin.ext (by omega)⟩
    · exact absurd h (by simp)
  · rintro ⟨hp, rfl⟩
    have hc : ∀ a, 0 ≤ (rowScatterDims A B D wf).start (ix2 n f') idx a + ((rowScatterDims A B D wf).window (ix2 n f') a : Int)
        ∧ (rowScatterDims A B D wf).start (ix2 n f') idx a + ((rowScatterDims A B D wf).window (ix2 n f') a : Int)
          < ((⟨2, ![A, D]⟩ : Shape).size a : Int) := by
      intro a
      match a with
      | ⟨0, h0⟩ =>
        rw [rowScatter_start0, rowScatter_window0, hp]
        show (0 : Int) ≤ (g.val : Int) + ((0 : Nat) : Int) ∧ (g.val : Int) + ((0 : Nat) : Int) < (A : Int)
        omega
      | ⟨1, h1⟩ =>
        rw [rowScatter_start1, rowScatter_window1]
        show (0 : Int) ≤ 0 + (f'.val : Int) ∧ 0 + (f'.val : Int) < (D : Int)
        omega
    rw [dif_pos hc]
    congr 1
    funext a
    refine Fin.ext ?_
    match a with
    | ⟨0, h0⟩ =>
      show ((rowScatterDims A B D wf).start (ix2 n f') idx ⟨0, h0⟩
          + ((rowScatterDims A B D wf).window (ix2 n f') ⟨0, h0⟩ : Int)).toNat = g.val
      rw [rowScatter_start0, rowScatter_window0, hp]; omega
    | ⟨1, h1⟩ =>
      show ((rowScatterDims A B D wf).start (ix2 n f') idx ⟨1, h1⟩
          + ((rowScatterDims A B D wf).window (ix2 n f') ⟨1, h1⟩ : Int)).toNat = f'.val
      rw [rowScatter_start1, rowScatter_window1]; omega

/-- Update `n` of a scalar scatter lands on `g` exactly when its position is `g`. -/
theorem vecScatter_resultIdx?_eq_some {A B w : Nat}
    (wf : ScatterDims.WF ⟨1, ![A]⟩ ⟨2, ![B, 1]⟩ ⟨1, ![B]⟩ [] [0] [0] 1)
    (idx : IVec ⟨2, ![B, 1]⟩ w) (n : Fin B) (g : Fin A) :
    (vecScatterDims A B wf).resultIdx? (ix1 n) idx = some (ix1 g) ↔ (pos idx n).toInt = (g.val : Int) := by
  have hg := g.isLt
  unfold ScatterDims.resultIdx?
  constructor
  · intro h
    split at h
    · rename_i hc
      have h' := Option.some.inj h
      have e0 : ((vecScatterDims A B wf).start (ix1 n) idx ⟨0, Nat.one_pos⟩
          + ((vecScatterDims A B wf).window (ix1 n) ⟨0, Nat.one_pos⟩ : Int)).toNat = g.val :=
        congrArg (fun i : (⟨1, ![A]⟩ : Shape).Idx => (i ⟨0, Nat.one_pos⟩).val) h'
      have c0 := (hc ⟨0, Nat.one_pos⟩).1
      rw [vecScatter_start0, vecScatter_window0] at e0 c0
      omega
    · exact absurd h (by simp)
  · intro hp
    have hc : ∀ a, 0 ≤ (vecScatterDims A B wf).start (ix1 n) idx a + ((vecScatterDims A B wf).window (ix1 n) a : Int)
        ∧ (vecScatterDims A B wf).start (ix1 n) idx a + ((vecScatterDims A B wf).window (ix1 n) a : Int)
          < ((⟨1, ![A]⟩ : Shape).size a : Int) := by
      intro a
      match a with
      | ⟨0, h0⟩ =>
        rw [vecScatter_start0, vecScatter_window0, hp]
        show (0 : Int) ≤ (g.val : Int) + ((0 : Nat) : Int) ∧ (g.val : Int) + ((0 : Nat) : Int) < (A : Int)
        omega
    rw [dif_pos hc]
    congr 1
    funext a
    refine Fin.ext ?_
    match a with
    | ⟨0, h0⟩ =>
      show ((vecScatterDims A B wf).start (ix1 n) idx ⟨0, h0⟩
          + ((vecScatterDims A B wf).window (ix1 n) ⟨0, h0⟩ : Int)).toNat = g.val
      rw [vecScatter_start0, vecScatter_window0, hp]; omega

/-- THE ROW SCATTER-ADD READ AT `(g, f)`: the operand's element plus the sum, over the update rows whose
    position is `g`, of the update's element in column `f`. -/
theorem rowScatterAdd_apply {A B D w : Nat}
    (wf : ScatterDims.WF ⟨2, ![A, D]⟩ ⟨2, ![B, 1]⟩ ⟨2, ![B, D]⟩ [1] [0] [0] 1)
    (x : (⟨2, ![A, D]⟩ : Shape).Idx → EReal) (idx : IVec ⟨2, ![B, 1]⟩ w) (upd : (⟨2, ![B, D]⟩ : Shape).Idx → EReal)
    (g : Fin A) (f : Fin D) :
    Ideal.hostScatterAdd (rowScatterDims A B D wf) x idx upd (ix2 g f)
      = x (ix2 g f) + ∑ n ∈ Finset.univ.filter (fun n : Fin B => (pos idx n).toInt = (g.val : Int)), upd (ix2 n f) := by
  unfold Ideal.hostScatterAdd
  congr 1
  have key : ∀ j : (⟨2, ![B, D]⟩ : Shape).Idx, (rowScatterDims A B D wf).resultIdx? j idx = some (ix2 g f) →
      (pos idx (j 0)).toInt = (g.val : Int) ∧ j = ix2 (j 0) f := by
    intro j hj
    rw [eq_ix2 j] at hj
    have h := (rowScatter_resultIdx?_eq_some wf idx (j 0) (j 1) g f).mp hj
    refine ⟨h.1, ?_⟩
    rw [← h.2]; exact eq_ix2 j
  refine Finset.sum_nbij' (fun j => j 0) (fun n => ix2 n f) ?_ ?_ ?_ ?_ ?_
  · intro j hj
    exact Finset.mem_filter.mpr ⟨Finset.mem_univ _, (key j (Finset.mem_filter.mp hj).2).1⟩
  · intro n hn
    exact Finset.mem_filter.mpr ⟨Finset.mem_univ _,
      (rowScatter_resultIdx?_eq_some wf idx n f g f).mpr ⟨(Finset.mem_filter.mp hn).2, rfl⟩⟩
  · intro j hj
    exact (key j (Finset.mem_filter.mp hj).2).2.symm
  · intro n _
    rfl
  · intro j hj
    exact congrArg upd (key j (Finset.mem_filter.mp hj).2).2

/-- THE SCALAR SCATTER-ADD READ AT `g`: the operand's element plus the sum of the updates whose position is `g`. -/
theorem vecScatterAdd_apply {A B w : Nat}
    (wf : ScatterDims.WF ⟨1, ![A]⟩ ⟨2, ![B, 1]⟩ ⟨1, ![B]⟩ [] [0] [0] 1)
    (x : (⟨1, ![A]⟩ : Shape).Idx → EReal) (idx : IVec ⟨2, ![B, 1]⟩ w) (upd : (⟨1, ![B]⟩ : Shape).Idx → EReal)
    (g : Fin A) :
    Ideal.hostScatterAdd (vecScatterDims A B wf) x idx upd (ix1 g)
      = x (ix1 g) + ∑ n ∈ Finset.univ.filter (fun n : Fin B => (pos idx n).toInt = (g.val : Int)), upd (ix1 n) := by
  unfold Ideal.hostScatterAdd
  congr 1
  have key : ∀ j : (⟨1, ![B]⟩ : Shape).Idx, (vecScatterDims A B wf).resultIdx? j idx = some (ix1 g) →
      (pos idx (j 0)).toInt = (g.val : Int) := by
    intro j hj
    rw [eq_ix1 j] at hj
    exact (vecScatter_resultIdx?_eq_some wf idx (j 0) g).mp hj
  refine Finset.sum_nbij' (fun j => j 0) (fun n => ix1 n) ?_ ?_ ?_ ?_ ?_
  · intro j hj
    exact Finset.mem_filter.mpr ⟨Finset.mem_univ _, key j (Finset.mem_filter.mp hj).2⟩
  · intro n hn
    exact Finset.mem_filter.mpr ⟨Finset.mem_univ _,
      (vecScatter_resultIdx?_eq_some wf idx n g).mpr (Finset.mem_filter.mp hn).2⟩
  · intro j _
    exact (eq_ix1 j).symm
  · intro n _
    rfl
  · intro j _
    exact congrArg upd (eq_ix1 j)

/-! ## The gathers read at an index -/

/-- The operand row a position word names: read signed, clamped into `[0, N - 1]`. -/
def clampRow {w : Nat} (N : Nat) (hN : 0 < N) (p : BitVec w) : Fin N := ⟨min p.toInt.toNat (N - 1), by omega⟩

/-- THE ROW GATHER READ AT `(e, f)`: the operand at the clamped position of row `e`, column `f`. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (pos idx e)) f) := by
  unfold Host.gather
  congr 1
  funext a
  refine Fin.ext ?_
  show (rowGatherDims N E D wf).start (ix2 e f) idx a + (rowGatherDims N E D wf).batchCoord (ix2 e f) a
    + (rowGatherDims N E D wf).offCoord (ix2 e f) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E D wf).startIndexMap from List.mem_singleton.mpr rfl)]
    have hsi : (rowGatherDims N E D wf).siIdx (ix2 e f) ⟨List.idxOf (⟨0, h0⟩ : Fin 2) (rowGatherDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hns : (⟨1, h1⟩ : Fin 2) ∉ (rowGatherDims N E D wf).startIndexMap := by
      intro h; have := List.mem_singleton.mp h; exact absurd (congrArg Fin.val this) Nat.one_ne_zero
    have hk : (⟨1, h1⟩ : Fin 2) ∈ (rowGatherDims N E D wf).sKept :=
      (GatherDims.mem_sKept _ _).mpr ⟨by intro h; have := List.mem_singleton.mp h; exact absurd (congrArg Fin.val this) Nat.one_ne_zero, List.not_mem_nil⟩
    unfold GatherDims.start GatherDims.offCoord
    rw [dif_neg hns, dif_pos hk]
    simp only [Nat.zero_add, Nat.add_zero]
    rfl

/-- THE SCALAR GATHER READ AT `e`: the operand at the clamped position of `e`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (pos idx e))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- A position that is a row number of the operand is its own clamp. -/
theorem clampRow_of_toInt_eq {w : Nat} (N : Nat) (hN : 0 < N) (p : BitVec w) (g : Fin N) (h : p.toInt = (g.val : Int)) :
    clampRow N hN p = g := by
  refine Fin.ext ?_
  show min p.toInt.toNat (N - 1) = g.val
  have := g.isLt
  rw [h]
  omega

end Cert.LibIndexOps

end
-- ==== Proof.SpecAgg.lean ====
/-
  The aggregation keeps real entries real.

  An edge's message is the larger of zero and the sum of a gathered row of the node array and the edge's own row;
  a node's aggregate is the sum of the messages of the edges that point at it.  Read at an index, the scatter
  that adds the messages is zero plus a finite sum of messages, and the gather reads the node array at a row; so
  when every entry of the node array and of the edge array is a real number, every entry of the aggregate is a
  finite sum of reals, hence real.  Nothing is asked of the two position arrays.
-/
import proofs.«120676_j3582002725394_2_alg».proof.Proof.Spec
import proofs.«120676_j3582002725394_2_alg».proof.Proof.LibIndexOps

noncomputable section

namespace Cert.Spec

open Idealize.ShloMosaic Idealize.ShloMosaic.ValueIdx Cert.Lib Cert.LibIndexOps

/-- Rows of a real `[A, D]` array gathered at any `B` positions, added to a real `[B, D]` array, clipped below at
    zero, and scatter-added into zeros at any `B` positions: every entry of the result is real. -/
theorem scatter_relu_gather_real {A B D w : ℕ} (hA : 0 < A)
    (wfG : GatherDims.WF ⟨2, ![A, D]⟩ ⟨2, ![B, 1]⟩ ⟨2, ![B, D]⟩ [1] [0] [] [0] [] 1 ![1, D])
    (wfS : ScatterDims.WF ⟨2, ![A, D]⟩ ⟨2, ![B, 1]⟩ ⟨2, ![B, D]⟩ [1] [0] [0] 1)
    (x : (⟨2, ![A, D]⟩ : Shape).Idx → EReal) (ea : (⟨2, ![B, D]⟩ : Shape).Idx → EReal)
    (idx1 idx2 : IVec ⟨2, ![B, 1]⟩ w)
    (hx : ∀ i, IsReal (x i)) (hea : ∀ i, IsReal (ea i)) (j : (⟨2, ![A, D]⟩ : Shape).Idx) :
    IsReal (Ideal.hostScatterAdd (rowScatterDims A B D wfS) (fun _ => 0) idx2
      (fun i => max (Host.gather (rowGatherDims A B D wfG) x idx1 i + ea i) 0) j) := by
  obtain ⟨g, f, rfl⟩ : ∃ (g : Fin A) (f : Fin D), j = ix2 g f := ⟨j 0, j 1, eq_ix2 j⟩
  rw [rowScatterAdd_apply]
  refine IsReal.zero.add (IsReal.sum _ _ fun n _ => ?_)
  rw [rowGather_apply hA]
  exact ((hx _).add (hea _)).max IsReal.zero

/-- The instance of this network: fifty thousand nodes, five hundred thousand edges, 128 features. -/
theorem agg_real
    (wfG : GatherDims.WF ⟨2, ![50000, 128]⟩ ⟨2, ![500000, 1]⟩ ⟨2, ![500000, 128]⟩ [1] [0] [] [0] [] 1 ![1, 128])
    (wfS : ScatterDims.WF ⟨2, ![50000, 128]⟩ ⟨2, ![500000, 1]⟩ ⟨2, ![500000, 128]⟩ [1] [0] [0] 1)
    (x : (⟨2, ![50000, 128]⟩ : Shape).Idx → EReal) (ea : (⟨2, ![500000, 128]⟩ : Shape).Idx → EReal)
    (idx1 idx2 : IVec ⟨2, ![500000, 1]⟩ 32)
    (hx : ∀ i, IsReal (x i)) (hea : ∀ i, IsReal (ea i)) (j : (⟨2, ![50000, 128]⟩ : Shape).Idx) :
    IsReal (Ideal.hostScatterAdd (rowScatterDims 50000 500000 128 wfS) (fun _ => 0) idx2
      (fun i => max (Host.gather (rowGatherDims 50000 500000 128 wfG) x idx1 i + ea i) 0) j) :=
  scatter_relu_gather_real (by norm_num) wfG wfS x ea idx1 idx2 hx hea j

/-- The same read by coordinates: the aggregate of a real node array and a real edge array is a real array. -/
theorem agg_realMat
    (wfG : GatherDims.WF ⟨2, ![50000, 128]⟩ ⟨2, ![500000, 1]⟩ ⟨2, ![500000, 128]⟩ [1] [0] [] [0] [] 1 ![1, 128])
    (wfS : ScatterDims.WF ⟨2, ![50000, 128]⟩ ⟨2, ![500000, 1]⟩ ⟨2, ![500000, 128]⟩ [1] [0] [0] 1)
    (ea : (⟨2, ![500000, 128]⟩ : Shape).Idx → EReal) (idx1 idx2 : IVec ⟨2, ![500000, 1]⟩ 32)
    (hea : ∀ i, IsReal (ea i)) (y : Mat 50000 128) (hy : RealMat y) :
    RealMat (cur (φ := .f32) (Ideal.hostScatterAdd (rowScatterDims 50000 500000 128 wfS) (fun _ => 0) idx2
      (fun i => max (Host.gather (rowGatherDims 50000 500000 128 wfG) (unc (φ := .f32) y) idx1 i + ea i) 0))) :=
  fun p q => agg_real wfG wfS (unc (φ := .f32) y) ea idx1 idx2 (fun i => hy (i 0) (i 1)) hea (ix2 p q)

end Cert.Spec

end
-- ==== Proof.KAggReal.lean ====
/-
  The aggregation of the idealized kernel program keeps real entries real.

  The program forms the aggregated messages by a scatter that adds, into an all-zero array, the rows
  `max (x[src] + e) 0` at the edges' destination nodes.  At the exact instance the word of the all-zero array and
  of the clip's lower bound denotes zero, and the scatter and the gather are the row scatter-add and the row
  gather read at an index elsewhere; so each entry of the result is zero plus a finite sum of larger-of-zero
  values of sums of two reals, a real number.  Nothing is asked of the two position arrays.
-/
import proofs.«120676_j3582002725394_2_alg».proof.Proof.KReadDefs
import proofs.«120676_j3582002725394_2_alg».proof.Proof.SpecAgg

set_option maxRecDepth 16384

noncomputable section

namespace Cert.KernelIdeal.KAggReal

open Idealize.ShloMosaic Idealize.ShloMosaic.TcCoe Idealize.ShloMosaic.ValueIdx
open Cert.Lib Cert.LibIndexOps
open Cert.KernelIdeal Cert.KernelIdeal.Gen Cert.KernelIdeal.KReadDefs

/-- The source positions as the gather takes them: a negative position counted from the end, as a column. -/
def srcIdx (src : (⟨S500000, .i32⟩ : BufTy).Contents (Elt Ideal)) : IVec ⟨2, ![500000, 1]⟩ 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- The destination positions as the scatter takes them: as a column. -/
def dstIdx (dst : (⟨S500000, .i32⟩ : BufTy).Contents (Elt Ideal)) : IVec ⟨2, ![500000, 1]⟩ 32 :=
  broadcastInDim S500000x1 ![0] bcast_S500000_S500000x1_0 dst

/-- The aggregation at the exact instance: the row scatter-add, into zeros, of the clipped sums of the gathered
    rows and the edge rows. -/
theorem aggK_eq (x : (⟨S50000x128, .f32⟩ : BufTy).Contents (Elt Ideal))
    (src dst : (⟨S500000, .i32⟩ : BufTy).Contents (Elt Ideal))
    (ea : (⟨S500000x128, .f32⟩ : BufTy).Contents (Elt Ideal)) :
    aggK (F := Ideal) x src dst ea
      = Ideal.hostScatterAdd
          (rowScatterDims 50000 500000 128 Facts₀.scatter_S50000x128_S500000x1_S500000x128_1_0_0_1_wf)
          (fun _ => 0) (dstIdx dst)
          (fun i => max (Host.gather
              (rowGatherDims 50000 500000 128 Facts₀.gather_S50000x128_S500000x1_S500000x128_1_0_n_n_0_1_1128_wf)
              x (srcIdx src) i + ea i) 0) := by
  rw [← Ideal.ofBits_zero_f32]
  rfl

/-- Every entry of the aggregate of a real node array and a real edge array is real. -/
theorem aggK_real (x : (⟨S50000x128, .f32⟩ : BufTy).Contents (Elt Ideal))
    (src dst : (⟨S500000, .i32⟩ : BufTy).Contents (Elt Ideal))
    (ea : (⟨S500000x128, .f32⟩ : BufTy).Contents (Elt Ideal))
    (hx : ∀ i, IsReal (x i)) (hea : ∀ i, IsReal (ea i)) : ∀ j, IsReal (aggK (F := Ideal) x src dst ea j) := by
  intro j
  rw [aggK_eq]
  exact Cert.Spec.agg_real _ _ x ea (srcIdx src) (dstIdx dst) hx hea j

/-- The aggregation as a function of arrays read by coordinates. -/
def aggM (src dst : (⟨S500000, .i32⟩ : BufTy).Contents (Elt Ideal))
    (ea : (⟨S500000x128, .f32⟩ : BufTy).Contents (Elt Ideal)) : Spec.Mat 50000 128 → Spec.Mat 50000 128 :=
  fun y => Spec.cur (φ := .f32) (aggK (F := Ideal) (Spec.unc (φ := .f32) y) src dst ea)

theorem aggM_real (src dst : (⟨S500000, .i32⟩ : BufTy).Contents (Elt Ideal))
    (ea : (⟨S500000x128, .f32⟩ : BufTy).Contents (Elt Ideal)) (hea : ∀ i, IsReal (ea i)) :
    ∀ y, Spec.RealMat y → Spec.RealMat (aggM src dst ea y) :=
  fun y hy p q => aggK_real (Spec.unc (φ := .f32) y) src dst ea (fun i => hy (i 0) (i 1)) hea (ix2 p q)

/-- Reading an array by coordinates and writing it back is the array. -/
theorem unc_cur (x : (⟨S50000x128, .f32⟩ : BufTy).Contents (Elt Ideal)) :
    Spec.unc (φ := .f32) (Spec.cur (φ := .f32) x) = x :=
  funext fun i => (congrArg x (eq_ix2 i)).symm

theorem aggM_cur (src dst : (⟨S500000, .i32⟩ : BufTy).Contents (Elt Ideal))
    (ea : (⟨S500000x128, .f32⟩ : BufTy).Contents (Elt Ideal))
    (x : (⟨S50000x128, .f32⟩ : BufTy).Contents (Elt Ideal)) :
    aggM src dst ea (Spec.cur (φ := .f32) x) = Spec.cur (φ := .f32) (aggK (F := Ideal) x src dst ea) := by
  unfold aggM
  rw [unc_cur]

end Cert.KernelIdeal.KAggReal

end
-- ==== Proof.RefDefs.lean ====
/-
  One layer of the reference network, and the four layers in a row, as pure functions of arrays: the aggregation of
  messages (gather the source rows, add the edge features, clip at zero, scatter-add into the destination rows), the
  product with the layer's weights clipped at zero, the column means and the two-pass column variances, and the
  normalisation with scale, shift and residual.  Each function is the composition of the array operations in the
  order the reference program applies them.
-/
import proofs.«120676_j3582002725394_2_alg».proof.Proof.Gen.ReferenceIdeal

noncomputable section

namespace Cert.ReferenceIdeal.RefDefs

open Cert.ReferenceIdeal Cert.ReferenceIdeal.Gen Idealize.ShloMosaic

variable {F : FTy → Type} [FloatOps F]

/-! ## The layer as pure functions of arrays -/

/-- Row 0 of the edge table: every edge's source node. -/
def srcV (ei : IVec S2x500000 32) : IVec S500000 32 :=
  shapeCast S500000 (extractStridedSlice S1x500000 ![0, 0] ei slices_S2x500000_S1x500000_0_0) shapeCasts_S1x500000_S500000

/-- Row 1 of the edge table: every edge's destination node. -/
def dstV (ei : IVec S2x500000 32) : IVec S500000 32 :=
  shapeCast S500000 (extractStridedSlice S1x500000 ![1, 0] ei slices_S2x500000_S1x500000_1_0) shapeCasts_S1x500000_S500000

/-- The aggregated messages from the two index rows: gather the source rows (a negative index wrapped by the row
    count first), add the edge features, clip below at zero, and add every edge's row into its destination row of
    a zero array. -/
def aggC (x : FVec F S50000x128 .f32) (src dst : IVec S500000 32) (ea : FVec F S500000x128 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 dst)
    (maximumf
      (addf
        (Host.gather gather_S50000x128_S500000x1_S500000x128_1_0_n_n_0_1_1128 x
          (broadcastInDim S500000x1 ![0] bcast_S500000_S500000x1_0
            (select (cmpi .slt src (broadcastInDim S500000 ![] bcast_S_S500000 (constantI S_ 32 0#32)))
              (addi src (broadcastInDim S500000 ![] bcast_S_S500000 (constantI S_ 32 50000#32))) src)))
        ea)
      (broadcastInDim S500000x128 ![] bcast_S_S500000x128 (constant S_ .f32 0x00000000#32)))

/-- The aggregated messages of a node array, from the edge table and the edge features. -/
def aggV (x : FVec F S50000x128 .f32) (ei : IVec S2x500000 32) (ea : FVec F S500000x128 .f32) : FVec F S50000x128 .f32 :=
  aggC x (srcV ei) (dstV ei) ea

/-- Layer `l`'s `[128, 128]` weights out of the stacked weights. -/
def wSl (w : FVec F S4x128x128 .f32) (l : ℕ) (h : S4x128x128.Slices ![l, 0, 0] S1x128x128) : FVec F S128x128 .f32 :=
  shapeCast S128x128 (extractStridedSlice S1x128x128 ![l, 0, 0] w h) shapeCasts_S1x128x128_S128x128

/-- Layer `l`'s `[128]` row out of a stacked `[4, 128]` array. -/
def vSl (g : FVec F S4x128 .f32) (l : ℕ) (h : S4x128.Slices ![l, 0] S1x128) : FVec F S128 .f32 :=
  shapeCast S128 (extractStridedSlice S1x128 ![l, 0] g h) shapeCasts_S1x128_S128

/-- `(x + agg) · W` clipped below at zero. -/
def preV (x agg : FVec F S50000x128 .f32) (W : FVec F S128x128 .f32) : FVec F S50000x128 .f32 :=
  maximumf (Host.dotGeneral dot_S50000x128_S128x128_S50000x128_1_0_0_1_n_n none (addf x agg) W)
    (broadcastInDim S50000x128 ![] bcast_S_S50000x128 (constant S_ .f32 0x00000000#32))

/-- The column means: the column sums divided by the row count. -/
def meanV (pre : FVec F S50000x128 .f32) : FVec F S128 .f32 :=
  Host.divf (Host.reduceAdd pre (constant S_ .f32 0x00000000#32) reducesTo_S50000x128_S128_d0 h_S_)
    (broadcastInDim S128 ![] bcast_S_S128 (constant S_ .f32 0x47435000#32))

/-- The deviations from the column means, as the variance function computes them. -/
def devV (pre : FVec F S50000x128 .f32) : FVec F S50000x128 .f32 :=
  subf pre (broadcastInDim S50000x128 ![0, 1] bcast_S1x128_S50000x128_0_1
    (Host.divf (broadcastInDim S1x128 ![1] bcast_S128_S1x128_1
        (Host.reduceAdd pre (constant S_ .f32 0x00000000#32) reducesTo_S50000x128_S128_d0 h_S_))
      (broadcastInDim S1x128 ![] bcast_S_S1x128 (constant S_ .f32 0x47435000#32))))

/-- The variance's divisor: the row count less the (zero) correction. -/
def cntV : FVec F S_ .f32 :=
  subf (constant S_ .f32 0x47435000#32) (sitofp .f32 (constantI S_ 32 0#32))

/-- The column variances: the mean squared deviation where the divisor is positive, the not-a-number word elsewhere. -/
def varV (pre : FVec F S50000x128 .f32) : FVec F S128 .f32 :=
  select (broadcastInDim S128 ![] bcast_S_S128 (cmpf .ogt (cntV (F := F)) (constant S_ .f32 0x00000000#32)))
    (Host.divf (Host.reduceAdd (mulf (devV pre) (devV pre)) (constant S_ .f32 0x00000000#32) reducesTo_S50000x128_S128_d0 h_S_)
      (broadcastInDim S128 ![] bcast_S_S128 (cntV (F := F))))
    (broadcastInDim S128 ![] bcast_S_S128 (id (constant S_ .f32 0x7FC00000#32)))

/-- A `[128]` row repeated down the 50000 rows. -/
def bcRow (v : FVec F S128 .f32) : FVec F S50000x128 .f32 :=
  broadcastInDim S50000x128 ![0, 1] bcast_S1x128_S50000x128_0_1 (broadcastInDim S1x128 ![1] bcast_S128_S1x128_1 v)

/-- Normalise by the column means and variances, scale, shift, add the layer's input. -/
def normV (pre : FVec F S50000x128 .f32) (mean var γ β : FVec F S128 .f32) (prev : FVec F S50000x128 .f32) : FVec F S50000x128 .f32 :=
  addf (addf (mulf (mulf (subf pre (bcRow mean))
    (bcRow (Host.rsqrt (addf var (broadcastInDim S128 ![] bcast_S_S128 (constant S_ .f32 0x3727C5AC#32)))))) (bcRow γ)) (bcRow β)) prev

/-- One layer. -/
def layerV (x : FVec F S50000x128 .f32) (ei : IVec S2x500000 32) (ea : FVec F S500000x128 .f32)
    (W : FVec F S128x128 .f32) (g b : FVec F S128 .f32) : FVec F S50000x128 .f32 :=
  normV (preV x (aggV x ei ea) W) (meanV (preV x (aggV x ei ea) W)) (varV (preV x (aggV x ei ea) W)) g b x

/-- The four layers. -/
def netV (x : FVec F S50000x128 .f32) (ei : IVec S2x500000 32) (ea : FVec F S500000x128 .f32)
    (w : FVec F S4x128x128 .f32) (g b : FVec F S4x128 .f32) : FVec F S50000x128 .f32 :=
  layerV (layerV (layerV (layerV x ei ea
      (wSl w 0 slices_S4x128x128_S1x128x128_0_0_0) (vSl g 0 slices_S4x128_S1x128_0_0) (vSl b 0 slices_S4x128_S1x128_0_0)) ei ea
      (wSl w 1 slices_S4x128x128_S1x128x128_1_0_0) (vSl g 1 slices_S4x128_S1x128_1_0) (vSl b 1 slices_S4x128_S1x128_1_0)) ei ea
      (wSl w 2 slices_S4x128x128_S1x128x128_2_0_0) (vSl g 2 slices_S4x128_S1x128_2_0) (vSl b 2 slices_S4x128_S1x128_2_0)) ei ea
      (wSl w 3 slices_S4x128x128_S1x128x128_3_0_0) (vSl g 3 slices_S4x128_S1x128_3_0) (vSl b 3 slices_S4x128_S1x128_3_0)

end Cert.ReferenceIdeal.RefDefs

end
-- ==== Proof.AggBridge.lean ====
/-
  The two programs form the aggregated messages by one function.

  Each program gathers the source rows (a negative position counted from the end), adds the edge rows, clips below
  at zero, and scatter-adds the result into zeros at the destination rows.  The two compositions name the same
  operations with the same dimension numbers over the same shapes; they differ only in which program's record and
  side condition each operation cites, and a side condition is a proposition.  So the two are equal by unfolding.
-/
import proofs.«120676_j3582002725394_2_alg».proof.Proof.KAggReal
import proofs.«120676_j3582002725394_2_alg».proof.Proof.RefDefs

set_option maxRecDepth 16384

noncomputable section

namespace Cert.AggBridge

open Idealize.ShloMosaic Cert.Lib

/-- The kernel program's aggregation and the reference program's aggregation are one function of the node array,
    the two position rows and the edge array. -/
theorem aggK_eq_aggC (x : FVec Ideal ⟨2, ![50000, 128]⟩ .f32) (src dst : IVec ⟨1, ![500000]⟩ 32)
    (ea : FVec Ideal ⟨2, ![500000, 128]⟩ .f32) :
    Cert.KernelIdeal.KReadDefs.aggK (F := Ideal) x src dst ea
      = Cert.ReferenceIdeal.RefDefs.aggC (F := Ideal) x src dst ea := rfl

/-- The aggregation read by coordinates, over the reference program's composition. -/
theorem aggM_eq (src dst : IVec ⟨1, ![500000]⟩ 32) (ea : FVec Ideal ⟨2, ![500000, 128]⟩ .f32) :
    Cert.KernelIdeal.KAggReal.aggM src dst ea
      = fun y => Cert.Spec.cur (φ := .f32)
          (Cert.ReferenceIdeal.RefDefs.aggC (F := Ideal) (Cert.Spec.unc (φ := .f32) y) src dst ea) := by
  funext y
  unfold Cert.KernelIdeal.KAggReal.aggM
  rw [aggK_eq_aggC]

/-- Every entry of the reference program's aggregate of a real node array and a real edge array is real. -/
theorem aggC_real (x : FVec Ideal ⟨2, ![50000, 128]⟩ .f32) (src dst : IVec ⟨1, ![500000]⟩ 32)
    (ea : FVec Ideal ⟨2, ![500000, 128]⟩ .f32) (hx : ∀ i, IsReal (x i)) (hea : ∀ i, IsReal (ea i)) :
    ∀ j, IsReal (Cert.ReferenceIdeal.RefDefs.aggC (F := Ideal) x src dst ea j) := by
  intro j
  rw [← aggK_eq_aggC]
  exact Cert.KernelIdeal.KAggReal.aggK_real x src dst ea hx hea j

end Cert.AggBridge

end
-- ==== Proof.Assemble.lean ====
/-
  The claims, assembled from the two programs' runs and the law over the specification.

  The kernel program's result array, read by coordinates, is the four-layer network with the one-pass
  normalisation, applied to the argument arrays; the reference program's result array is the network with the
  two-pass normalisation, applied to its argument arrays, which agree with the kernel's.  Under the precondition
  every entry of the five float argument arrays is a real number, and the aggregation sends real arrays to real
  arrays, so the two networks are equal; two arrays with equal readings by coordinates are equal.
-/
import proofs.«120676_j3582002725394_2_alg».proof.Defs
import proofs.«120676_j3582002725394_2_alg».proof.Proof.Gen.Kernel.Frame
import proofs.«120676_j3582002725394_2_alg».proof.Proof.Gen.Pre_finite_inputs
import proofs.«120676_j3582002725394_2_alg».proof.Proof.KRun
import proofs.«120676_j3582002725394_2_alg».proof.Proof.Finite
import proofs.«120676_j3582002725394_2_alg».proof.Proof.SpecLaws
import proofs.«120676_j3582002725394_2_alg».proof.Proof.KAggReal
import proofs.«120676_j3582002725394_2_alg».proof.Proof.AggBridge

set_option maxRecDepth 16384

noncomputable section

open Idealize.ShloMosaic Idealize.ShloMosaic.TcCoe Idealize.ShloMosaic.ValueIdx Idealize.SL.Sem Cert.Lib

namespace Cert.Assemble

/-- Two `[a, b]` arrays with equal readings by coordinates are equal. -/
theorem cur_inj {a b : ℕ} {φ : FTy} {f g : FVec Ideal ⟨2, ![a, b]⟩ φ} (h : Spec.cur f = Spec.cur g) : f = g := by
  funext i
  have hi := congrFun (congrFun h (i 0)) (i 1)
  rw [eq_ix2 (n0 := a) (n1 := b) i]
  exact hi

/-! ## The kernel program's arguments as the specification takes them -/

namespace Stub

open Cert.KernelIdeal Cert.KernelIdeal.Gen

variable (m : (ℓ : Loc nD τ sig) → Buf (Elt Ideal) ℓ) (c : Dev nD)

/-- Row 0 of the edge table: every edge's source node. -/
def srcK : (⟨S500000, .i32⟩ : BufTy).Contents (Elt Ideal) :=
  shapeCast S500000 (extractStridedSlice S1x500000 ![0, 0] (m ((c : Thread nD τ).loc main_arg1))
    slices_S2x500000_S1x500000_0_0) shapeCasts_S1x500000_S500000

/-- Row 1 of the edge table: every edge's destination node. -/
def dstK : (⟨S500000, .i32⟩ : BufTy).Contents (Elt Ideal) :=
  shapeCast S500000 (extractStridedSlice S1x500000 ![1, 0] (m ((c : Thread nD τ).loc main_arg1))
    slices_S2x500000_S1x500000_1_0) shapeCasts_S1x500000_S500000

/-- The four layers' weights. -/
def Ws : Fin 4 → Spec.Mat 128 128 :=
  fun l k q => (m ((c : Thread nD τ).loc main_arg4) : S4x128x128.Idx → EReal) (ix3 l k q)

/-- The four layers' scales. -/
def γs : Fin 4 → Fin 128 → EReal :=
  fun l q => (m ((c : Thread nD τ).loc main_arg5) : S4x128.Idx → EReal) (ix2 l q)

/-- The four layers' shifts. -/
def βs : Fin 4 → Fin 128 → EReal :=
  fun l q => (m ((c : Thread nD τ).loc main_arg6) : S4x128.Idx → EReal) (ix2 l q)

end Stub

/-! ## What the two programs' value theorems supply -/

section Hyps

open Cert.KernelIdeal Cert.KernelIdeal.Gen in
/-- The kernel program's result array, read by coordinates, is the network with the one-pass normalisation. -/
def KernelValue : Prop :=
  ∀ (m : (ℓ : Loc nD τ sig) → Buf (Elt Ideal) ℓ) (ρ : Dev nD → PrngReg) (c : Dev nD),
    Spec.cur (φ := .f32) (W24 m ρ c (Proc.devRef .tc main_v124) : S50000x128.Idx → EReal)
      = Spec.netK (KAggReal.aggM (Stub.srcK m c) (Stub.dstK m c) (m ((c : Thread nD τ).loc main_arg2)))
          (Spec.cur (φ := .f32) (m ((c : Thread nD τ).loc main_arg0))) (Stub.Ws m c) (Stub.γs m c) (Stub.βs m c)

open Cert.ReferenceIdeal Cert.ReferenceIdeal.Gen Cert.ReferenceIdeal.RefDefs in
/-- The reference program runs, ends with its result array at the four nested layers of its argument arrays, and
    leaves its arguments unchanged. -/
def RefRuns : Prop :=
  ∀ (m : (ℓ : Loc nD τ sig) → Buf (Elt Ideal) ℓ) (ρ : Dev nD → PrngReg),
    θ_run (defs (F := Ideal)) (onTc (τ := τ) (main (F := Ideal))) ⟨m, fun _ => 0, ρ⟩ fun r => ∀ c : Dev nD,
      r.2.mem ((c.tc : Thread nD τ).loc main_v167)
          = netV (F := Ideal) (m ((c.tc : Thread nD τ).loc main_arg0)) (m ((c.tc : Thread nD τ).loc main_arg1))
              (m ((c.tc : Thread nD τ).loc main_arg2)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)

open Cert.ReferenceIdeal Cert.ReferenceIdeal.Gen Cert.ReferenceIdeal.RefDefs in
/-- The four nested layers of the reference program, read by coordinates, are the network with the two-pass
    normalisation. -/
def RefValue : Prop :=
  ∀ (x : FVec Ideal S50000x128 .f32) (ei : IVec S2x500000 32) (ea : FVec Ideal S500000x128 .f32)
    (w : FVec Ideal S4x128x128 .f32) (g b : FVec Ideal S4x128 .f32),
    Spec.cur (φ := .f32) (netV (F := Ideal) x ei ea w g b)
      = Spec.netR (fun y => Spec.cur (φ := .f32) (aggC (F := Ideal) (Spec.unc (φ := .f32) y) (srcV ei) (dstV ei) ea))
          (Spec.cur (φ := .f32) x) (fun l k q => w (ix3 l k q)) (fun l q => g (ix2 l q)) (fun l q => b (ix2 l q))

end Hyps

/-! ## The claims -/

theorem frame_K : Cert.frame_Kernel := fun m ρ _ => Cert.Kernel.Gen.frame m ρ

theorem frame_KI : Cert.frame_KernelIdeal := fun m ρ _ => Cert.KernelIdeal.Gen.frame m ρ

theorem frame_RI (hRrun : RefRuns) : Cert.frame_ReferenceIdeal := fun m ρ _ =>
  (θ_run Cert.ReferenceIdeal.defs _ _).mono (fun _ h c => (h c).2) (hRrun m ρ)

/-- The ledger's eight entries are one statement: the table gives the named constant the value one
    fifty-thousandth. -/
theorem preserves : Cert.preserves_Kernel_KernelIdeal :=
  have h := IdealRules.named_const.statement Cert.KernelIdeal.κ "inv_50000" .f32 0x37A7C5AC#32
    ((1 / 50000 : ℝ) : EReal) rfl
  ⟨h, h, h, h, h, h, h, h⟩

/-- The two programs end with equal result arrays. -/
theorem algebraic (hK : KernelValue) (hRrun : RefRuns) (hRval : RefValue) :
    Cert.algebraic_KernelIdeal_ReferenceIdeal := by
  intro m ρ m' ρ' hpre hagree
  refine ⟨fun c => Cert.KernelIdeal.Gen.W24 m ρ c (Proc.devRef .tc Cert.KernelIdeal.main_v124),
    Cert.KernelIdeal.KRun.run_named m ρ, ?_⟩
  refine (θ_run Cert.ReferenceIdeal.defs _ _).mono (fun _ h c => ⟨(h c).1.trans ?_, (h c).2⟩) (hRrun m' ρ')
  obtain ⟨a0, a1, a2, -, a4, a5, a6⟩ := hagree c
  rw [a0, a1, a2, a4, a5, a6]
  obtain ⟨r0, r2, r4, r5, r6⟩ := Cert.Finite.real_inputs m hpre c
  apply cur_inj
  rw [hRval, hK m ρ c, Cert.AggBridge.aggM_eq]
  symm
  exact Spec.netK_eq_netR _ _ _ _ _ (fun p q => r0 (ix2 p q)) (fun l k q => r4 (ix3 l k q))
    (fun l q => r5 (ix2 l q)) (fun l q => r6 (ix2 l q))
    (fun y hy => by
      have := Cert.KernelIdeal.KAggReal.aggM_real (Stub.srcK m c) (Stub.dstK m c) _ r2 y hy
      rwa [Cert.AggBridge.aggM_eq] at this)

/-- Everything the certificate claims, from the two programs' value theorems. -/
theorem claim_of (hK : KernelValue) (hRrun : RefRuns) (hRval : RefValue) : Cert.Claim :=
  ⟨Cert.Kernel.Gen.facts, Cert.KernelIdeal.Gen.facts, Cert.ReferenceIdeal.Gen.facts, Cert.Pre_finite_inputs.Gen.facts,
    frame_K, frame_KI, frame_RI hRrun, preserves, algebraic hK hRrun hRval⟩

end Cert.Assemble

end
-- ==== Proof.KEnv.lean ====
/-
  Buffers that the idealized kernel program carries unchanged between two boundaries of its run.

  The program's run is a chain of twenty-four segments: stretches of host operations and kernel launches.  A host
  stretch rewrites only the buffers its operations name as results; a launch rewrites only its output windows' arrays
  and leaves its input windows' arrays as it found them.  So a buffer that no segment between two boundaries writes
  holds the same contents at both.  This module records those facts for the buffers each layer reads: the two edge index
  vectors, the weights in their narrow format, the edge features and the scale and shift tables (written once, or never), each
  layer's input (read again by that layer's second launch), and each layer's pre-activation array.
-/
import proofs.«120676_j3582002725394_2_alg».proof.Proof.Gen.KernelIdeal.Frame

set_option maxRecDepth 16384

noncomputable section

namespace Cert.KernelIdeal.KEnv

open Idealize.ShloMosaic Idealize.ShloMosaic.TcCoe
open Idealize.SL Idealize.SL.Sem
open Cert.KernelIdeal Cert.KernelIdeal.Gen

variable {F : FTy → Type} [FloatOps F] [Named F]
variable (m : (ℓ : Loc nD τ sig) → Buf (Elt F) ℓ) (ρ : Dev nD → PrngReg)

/-- No operation of a literal stretch writes the buffer: every operation's result reference differs from it. -/
macro "not_written" : tactic => `(tactic| (
  refine List.forall_iff_forall_mem.mp ?_
  simp only [hostOps0, hostOps0_1, hostOps0_2, hostOps1, hostOps2, hostOps2_1, hostOps2_2, hostOps3, hostOps4, hostOps4_1, hostOps4_2,
    hostOps5, hostOps6, hostOps6_1, hostOps6_2, hostOps7, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The launch boundary holds the launch memory. -/
theorem W0_eq (c : Dev nD) (b : Ref sig .tc) : W0 m ρ c (Proc.devRef .tc b) = m ((c : Thread nD τ).loc b) := rfl

/-- `main_arg5` holds at boundary 4 what it held at boundary 0. -/
theorem keep_gamma_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written)
    _ = W1 m ρ c (Proc.devRef .tc main_arg5) := StableHlo.after_of_forall_not_mem (b := Proc.devRef .tc main_arg5) _ _ (by not_written)
    _ = W0 m ρ c (Proc.devRef .tc main_arg5) := StableHlo.after_of_forall_not_mem (b := Proc.devRef .tc main_arg5) _ _ (by not_written)

/-- `main_arg6` holds at boundary 4 what it held at boundary 0. -/
theorem keep_beta_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)

/-- `main_arg0` holds at boundary 3 what it held at boundary 0. -/
theorem keep_xB_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)

/-- `main_arg0` holds at boundary 5 what it held at boundary 0. -/
theorem keep_xC_0 (c : Dev nD) : W5 m ρ c (Proc.devRef .tc main_arg0) = W0 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (by not_written)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)

/-- `main_v19_0` holds at boundary 5 what it held at boundary 4. -/
theorem keep_pre_0 (c : Dev nD) : W5 m ρ c (Proc.devRef .tc main_v19_0) = W4 m ρ c (Proc.devRef .tc main_v19_0) :=
  calc W5 m ρ c (Proc.devRef .tc main_v19_0)
    _ = W4 m ρ c (Proc.devRef .tc main_v19_0) := StableHlo.after_of_forall_not_mem (b := Proc.devRef .tc main_v19_0) _ _ (by not_written)

/-- `main_v1` holds at boundary 6 what it held at boundary 1. -/
theorem keep_src_1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (by not_written)
    _ = W3 m ρ c (Proc.devRef .tc main_v1) := W4_of_ne m ρ c main_v1 (by decide)
    _ = W2 m ρ c (Proc.devRef .tc main_v1) := StableHlo.after_of_forall_not_mem (b := Proc.devRef .tc main_v1) _ _ (by not_written)
    _ = W1 m ρ c (Proc.devRef .tc main_v1) := StableHlo.after_of_forall_not_mem (b := Proc.devRef .tc main_v1) _ _ (by not_written)

/-- `main_v3` holds at boundary 6 what it held at boundary 1. -/
theorem keep_dst_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written)
    _ = W1 m ρ c (Proc.devRef .tc main_v3) := StableHlo.after_of_forall_not_mem (b := Proc.devRef .tc main_v3) _ _ (by not_written)

/-- `main_v4` holds at boundary 6 what it held at boundary 1. -/
theorem keep_wts_1 (c : Dev nD) : W6 m ρ c (Proc.devRef .tc main_v4) = W1 m ρ c (Proc.devRef .tc main_v4) :=
  calc W6 m ρ c (Proc.devRef .tc main_v4)
    _ = W5 m ρ c (Proc.devRef .tc main_v4) := W6_of_ne m ρ c main_v4 (by decide)
    _ = W4 m ρ c (Proc.devRef .tc main_v4) := StableHlo.after_of_forall_not_mem (b := Proc.devRef .tc main_v4) _ _ (by not_written)
    _ = W3 m ρ c (Proc.devRef .tc main_v4) := W4_of_ne m ρ c main_v4 (by decide)
    _ = W2 m ρ c (Proc.devRef .tc main_v4) := StableHlo.after_of_forall_not_mem (b := Proc.devRef .tc main_v4) _ _ (by not_written)
    _ = W1 m ρ c (Proc.devRef .tc main_v4) := StableHlo.after_of_forall_not_mem (b := Proc.devRef .tc main_v4) _ _ (by not_written)

/-- `main_arg2` holds at boundary 6 what it held at boundary 0. -/
theorem keep_ea_1 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (by not_written)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)

/-- `main_arg5` holds at boundary 10 what it held at boundary 0. -/
theorem keep_gamma_1 (c : Dev nD) : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (by not_written)
    _ = W7 m ρ c (Proc.devRef .tc main_arg5) := StableHlo.after_of_forall_not_mem (b := Proc.devRef .tc main_arg5) _ _ (by not_written)
    _ = W6 m ρ c (Proc.devRef .tc main_arg5) := StableHlo.after_of_forall_not_mem (b := Proc.devRef .tc main_arg5) _ _ (by not_written)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by not_written)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written)
    _ = W1 m ρ c (Proc.devRef .tc main_arg5) := StableHlo.after_of_forall_not_mem (b := Proc.devRef .tc main_arg5) _ _ (by not_written)
    _ = W0 m ρ c (Proc.devRef .tc main_arg5) := StableHlo.after_of_forall_not_mem (b := Proc.devRef .tc main_arg5) _ _ (by not_written)

/-- `main_arg6` holds at boundary 10 what it held at boundary 0. -/
theorem keep_beta_1 (c : Dev nD) : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (by not_written)
    _ = W7 m ρ c (Proc.devRef .tc main_arg6) := StableHlo.after_of_forall_not_mem (b := Proc.devRef .tc main_arg6) _ _ (by not_written)
    _ = W6 m ρ c (Proc.devRef .tc main_arg6) := StableHlo.after_of_forall_not_mem (b := Proc.devRef .tc main_arg6) _ _ (by not_written)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)

/-- `main_v34` holds at boundary 9 what it held at boundary 6. -/
theorem keep_xB_1 (c : Dev nD) : W9 m ρ c (Proc.devRef .tc main_v34) = W6 m ρ c (Proc.devRef .tc main_v34) :=
  calc W9 m ρ c (Proc.devRef .tc main_v34)
    _ = W8 m ρ c (Proc.devRef .tc main_v34) := StableHlo.after_of_forall_not_mem (b := Proc.devRef .tc main_v34) _ _ (by not_written)
    _ = W7 m ρ c (Proc.devRef .tc main_v34) := StableHlo.after_of_forall_not_mem (b := Proc.devRef .tc main_v34) _ _ (by not_written)
    _ = W6 m ρ c (Proc.devRef .tc main_v34) := StableHlo.after_of_forall_not_mem (b := Proc.devRef .tc main_v34) _ _ (by not_written)

/-- `main_v34` holds at boundary 11 what it held at boundary 6. -/
theorem keep_xC_1 (c : Dev nD) : W11 m ρ c (Proc.devRef .tc main_v34) = W6 m ρ c (Proc.devRef .tc main_v34) :=
  calc W11 m ρ c (Proc.devRef .tc main_v34)
    _ = W10 m ρ c (Proc.devRef .tc main_v34) := StableHlo.after_of_forall_not_mem (b := Proc.devRef .tc main_v34) _ _ (by not_written)
    _ = W9 m ρ c (Proc.devRef .tc main_v34) := (W10_arr m ρ c 0).trans (((dat2 (V9 m ρ) c).arrAt_in 0 rfl _).trans (A_eq2 (V9 m ρ) c 0))
    _ = W8 m ρ c (Proc.devRef .tc main_v34) := StableHlo.after_of_forall_not_mem (b := Proc.devRef .tc main_v34) _ _ (by not_written)
    _ = W7 m ρ c (Proc.devRef .tc main_v34) := StableHlo.after_of_forall_not_mem (b := Proc.devRef .tc main_v34) _ _ (by not_written)
    _ = W6 m ρ c (Proc.devRef .tc main_v34) := StableHlo.after_of_forall_not_mem (b := Proc.devRef .tc main_v34) _ _ (by not_written)

/-- `main_v49_0` holds at boundary 11 what it held at boundary 10. -/
theorem keep_pre_1 (c : Dev nD) : W11 m ρ c (Proc.devRef .tc main_v49_0) = W10 m ρ c (Proc.devRef .tc main_v49_0) :=
  calc W11 m ρ c (Proc.devRef .tc main_v49_0)
    _ = W10 m ρ c (Proc.devRef .tc main_v49_0) := StableHlo.after_of_forall_not_mem (b := Proc.devRef .tc main_v49_0) _ _ (by not_written)

/-- `main_v1` holds at boundary 12 what it held at boundary 1. -/
theorem keep_src_2 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (by not_written)
    _ = W9 m ρ c (Proc.devRef .tc main_v1) := W10_of_ne m ρ c main_v1 (by decide)
    _ = W8 m ρ c (Proc.devRef .tc main_v1) := StableHlo.after_of_forall_not_mem (b := Proc.devRef .tc main_v1) _ _ (by not_written)
    _ = W7 m ρ c (Proc.devRef .tc main_v1) := StableHlo.after_of_forall_not_mem (b := Proc.devRef .tc main_v1) _ _ (by not_written)
    _ = W6 m ρ c (Proc.devRef .tc main_v1) := StableHlo.after_of_forall_not_mem (b := Proc.devRef .tc main_v1) _ _ (by not_written)
    _ = W5 m ρ c (Proc.devRef .tc main_v1) := W6_of_ne m ρ c main_v1 (by decide)
    _ = W4 m ρ c (Proc.devRef .tc main_v1) := StableHlo.after_of_forall_not_mem (b := Proc.devRef .tc main_v1) _ _ (by not_written)
    _ = W3 m ρ c (Proc.devRef .tc main_v1) := W4_of_ne m ρ c main_v1 (by decide)
    _ = W2 m ρ c (Proc.devRef .tc main_v1) := StableHlo.after_of_forall_not_mem (b := Proc.devRef .tc main_v1) _ _ (by not_written)
    _ = W1 m ρ c (Proc.devRef .tc main_v1) := StableHlo.after_of_forall_not_mem (b := Proc.devRef .tc main_v1) _ _ (by not_written)

/-- `main_v3` holds at boundary 12 what it held at boundary 1. -/
theorem keep_dst_2 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (by not_written)
    _ = W9 m ρ c (Proc.devRef .tc main_v3) := W10_of_ne m ρ c main_v3 (by decide)
    _ = W8 m ρ c (Proc.devRef .tc main_v3) := StableHlo.after_of_forall_not_mem (b := Proc.devRef .tc main_v3) _ _ (by not_written)
    _ = W7 m ρ c (Proc.devRef .tc main_v3) := StableHlo.after_of_forall_not_mem (b := Proc.devRef .tc main_v3) _ _ (by not_written)
    _ = W6 m ρ c (Proc.devRef .tc main_v3) := StableHlo.after_of_forall_not_mem (b := Proc.devRef .tc main_v3) _ _ (by not_written)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written)
    _ = W1 m ρ c (Proc.devRef .tc main_v3) := StableHlo.after_of_forall_not_mem (b := Proc.devRef .tc main_v3) _ _ (by not_written)

/-- `main_v4` holds at boundary 12 what it held at boundary 1. -/
theorem keep_wts_2 (c : Dev nD) : W12 m ρ c (Proc.devRef .tc main_v4) = W1 m ρ c (Proc.devRef .tc main_v4) :=
  calc W12 m ρ c (Proc.devRef .tc main_v4)
    _ = W11 m ρ c (Proc.devRef .tc main_v4) := W12_of_ne m ρ c main_v4 (by decide)
    _ = W10 m ρ c (Proc.devRef .tc main_v4) := StableHlo.after_of_forall_not_mem (b := Proc.devRef .tc main_v4) _ _ (by not_written)
    _ = W9 m ρ c (Proc.devRef .tc main_v4) := W10_of_ne m ρ c main_v4 (by decide)
    _ = W8 m ρ c (Proc.devRef .tc main_v4) := StableHlo.after_of_forall_not_mem (b := Proc.devRef .tc main_v4) _ _ (by not_written)
    _ = W7 m ρ c (Proc.devRef .tc main_v4) := StableHlo.after_of_forall_not_mem (b := Proc.devRef .tc main_v4) _ _ (by not_written)
    _ = W6 m ρ c (Proc.devRef .tc main_v4) := StableHlo.after_of_forall_not_mem (b := Proc.devRef .tc main_v4) _ _ (by not_written)
    _ = W5 m ρ c (Proc.devRef .tc main_v4) := W6_of_ne m ρ c main_v4 (by decide)
    _ = W4 m ρ c (Proc.devRef .tc main_v4) := StableHlo.after_of_forall_not_mem (b := Proc.devRef .tc main_v4) _ _ (by not_written)
    _ = W3 m ρ c (Proc.devRef .tc main_v4) := W4_of_ne m ρ c main_v4 (by decide)
    _ = W2 m ρ c (Proc.devRef .tc main_v4) := StableHlo.after_of_forall_not_mem (b := Proc.devRef .tc main_v4) _ _ (by not_written)
    _ = W1 m ρ c (Proc.devRef .tc main_v4) := StableHlo.after_of_forall_not_mem (b := Proc.devRef .tc main_v4) _ _ (by not_written)

/-- `main_arg2` holds at boundary 12 what it held at boundary 0. -/
theorem keep_ea_2 (c : Dev nD) : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (by not_written)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (by not_written)
    _ = W7 m ρ c (Proc.devRef .tc main_arg2) := StableHlo.after_of_forall_not_mem (b := Proc.devRef .tc main_arg2) _ _ (by not_written)
    _ = W6 m ρ c (Proc.devRef .tc main_arg2) := StableHlo.after_of_forall_not_mem (b := Proc.devRef .tc main_arg2) _ _ (by not_written)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (by not_written)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)

/-- `main_arg5` holds at boundary 16 what it held at boundary 0. -/
theorem keep_gamma_2 (c : Dev nD) : W16 m ρ c (Proc.devRef .tc main_arg5) = W0 m ρ c (Proc.devRef .tc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_forall_not_mem (b := Proc.devRef .tc main_arg5) _ _ (by not_written)
    _ = W13 m ρ c (Proc.devRef .tc main_arg5) := StableHlo.after_of_forall_not_mem (b := Proc.devRef .tc main_arg5) _ _ (by not_written)
    _ = W12 m ρ c (Proc.devRef .tc main_arg5) := StableHlo.after_of_forall_not_mem (b := Proc.devRef .tc main_arg5) _ _ (by not_written)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (by not_written)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (by not_written)
    _ = W7 m ρ c (Proc.devRef .tc main_arg5) := StableHlo.after_of_forall_not_mem (b := Proc.devRef .tc main_arg5) _ _ (by not_written)
    _ = W6 m ρ c (Proc.devRef .tc main_arg5) := StableHlo.after_of_forall_not_mem (b := Proc.devRef .tc main_arg5) _ _ (by not_written)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by not_written)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written)
    _ = W1 m ρ c (Proc.devRef .tc main_arg5) := StableHlo.after_of_forall_not_mem (b := Proc.devRef .tc main_arg5) _ _ (by not_written)
    _ = W0 m ρ c (Proc.devRef .tc main_arg5) := StableHlo.after_of_forall_not_mem (b := Proc.devRef .tc main_arg5) _ _ (by not_written)

/-- `main_arg6` holds at boundary 16 what it held at boundary 0. -/
theorem keep_beta_2 (c : Dev nD) : W16 m ρ c (Proc.devRef .tc main_arg6) = W0 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (by not_written)
    _ = W13 m ρ c (Proc.devRef .tc main_arg6) := StableHlo.after_of_forall_not_mem (b := Proc.devRef .tc main_arg6) _ _ (by not_written)
    _ = W12 m ρ c (Proc.devRef .tc main_arg6) := StableHlo.after_of_forall_not_mem (b := Proc.devRef .tc main_arg6) _ _ (by not_written)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (by not_written)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (by not_written)
    _ = W7 m ρ c (Proc.devRef .tc main_arg6) := StableHlo.after_of_forall_not_mem (b := Proc.devRef .tc main_arg6) _ _ (by not_written)
    _ = W6 m ρ c (Proc.devRef .tc main_arg6) := StableHlo.after_of_forall_not_mem (b := Proc.devRef .tc main_arg6) _ _ (by not_written)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)

/-- `main_v64` holds at boundary 15 what it held at boundary 12. -/
theorem keep_xB_2 (c : Dev nD) : W15 m ρ c (Proc.devRef .tc main_v64) = W12 m ρ c (Proc.devRef .tc main_v64) :=
  calc W15 m ρ c (Proc.devRef .tc main_v64)
    _ = W14 m ρ c (Proc.devRef .tc main_v64) := StableHlo.after_of_forall_not_mem (b := Proc.devRef .tc main_v64) _ _ (by not_written)
    _ = W13 m ρ c (Proc.devRef .tc main_v64) := StableHlo.after_of_forall_not_mem (b := Proc.devRef .tc main_v64) _ _ (by not_written)
    _ = W12 m ρ c (Proc.devRef .tc main_v64) := StableHlo.after_of_forall_not_mem (b := Proc.devRef .tc main_v64) _ _ (by not_written)

/-- `main_v64` holds at boundary 17 what it held at boundary 12. -/
theorem keep_xC_2 (c : Dev nD) : W17 m ρ c (Proc.devRef .tc main_v64) = W12 m ρ c (Proc.devRef .tc main_v64) :=
  calc W17 m ρ c (Proc.devRef .tc main_v64)
    _ = W16 m ρ c (Proc.devRef .tc main_v64) := StableHlo.after_of_forall_not_mem (b := Proc.devRef .tc main_v64) _ _ (by not_written)
    _ = W15 m ρ c (Proc.devRef .tc main_v64) := (W16_arr m ρ c 0).trans (((dat4 (V15 m ρ) c).arrAt_in 0 rfl _).trans (A_eq4 (V15 m ρ) c 0))
    _ = W14 m ρ c (Proc.devRef .tc main_v64) := StableHlo.after_of_forall_not_mem (b := Proc.devRef .tc main_v64) _ _ (by not_written)
    _ = W13 m ρ c (Proc.devRef .tc main_v64) := StableHlo.after_of_forall_not_mem (b := Proc.devRef .tc main_v64) _ _ (by not_written)
    _ = W12 m ρ c (Proc.devRef .tc main_v64) := StableHlo.after_of_forall_not_mem (b := Proc.devRef .tc main_v64) _ _ (by not_written)

/-- `main_v79_0` holds at boundary 17 what it held at boundary 16. -/
theorem keep_pre_2 (c : Dev nD) : W17 m ρ c (Proc.devRef .tc main_v79_0) = W16 m ρ c (Proc.devRef .tc main_v79_0) :=
  calc W17 m ρ c (Proc.devRef .tc main_v79_0)
    _ = W16 m ρ c (Proc.devRef .tc main_v79_0) := StableHlo.after_of_forall_not_mem (b := Proc.devRef .tc main_v79_0) _ _ (by not_written)

/-- `main_v1` holds at boundary 18 what it held at boundary 1. -/
theorem keep_src_3 (c : Dev nD) : W18 m ρ c (Proc.devRef .tc main_v1) = W1 m ρ c (Proc.devRef .tc main_v1) :=
  calc W18 m ρ c (Proc.devRef .tc main_v1)
    _ = W17 m ρ c (Proc.devRef .tc main_v1) := W18_of_ne m ρ c main_v1 (by decide)
    _ = W16 m ρ c (Proc.devRef .tc main_v1) := StableHlo.after_of_forall_not_mem (b := Proc.devRef .tc main_v1) _ _ (by not_written)
    _ = W15 m ρ c (Proc.devRef .tc main_v1) := W16_of_ne m ρ c main_v1 (by decide)
    _ = W14 m ρ c (Proc.devRef .tc main_v1) := StableHlo.after_of_forall_not_mem (b := Proc.devRef .tc main_v1) _ _ (by not_written)
    _ = W13 m ρ c (Proc.devRef .tc main_v1) := StableHlo.after_of_forall_not_mem (b := Proc.devRef .tc main_v1) _ _ (by not_written)
    _ = W12 m ρ c (Proc.devRef .tc main_v1) := StableHlo.after_of_forall_not_mem (b := Proc.devRef .tc main_v1) _ _ (by not_written)
    _ = W11 m ρ c (Proc.devRef .tc main_v1) := W12_of_ne m ρ c main_v1 (by decide)
    _ = W10 m ρ c (Proc.devRef .tc main_v1) := StableHlo.after_of_forall_not_mem (b := Proc.devRef .tc main_v1) _ _ (by not_written)
    _ = W9 m ρ c (Proc.devRef .tc main_v1) := W10_of_ne m ρ c main_v1 (by decide)
    _ = W8 m ρ c (Proc.devRef .tc main_v1) := StableHlo.after_of_forall_not_mem (b := Proc.devRef .tc main_v1) _ _ (by not_written)
    _ = W7 m ρ c (Proc.devRef .tc main_v1) := StableHlo.after_of_forall_not_mem (b := Proc.devRef .tc main_v1) _ _ (by not_written)
    _ = W6 m ρ c (Proc.devRef .tc main_v1) := StableHlo.after_of_forall_not_mem (b := Proc.devRef .tc main_v1) _ _ (by not_written)
    _ = W5 m ρ c (Proc.devRef .tc main_v1) := W6_of_ne m ρ c main_v1 (by decide)
    _ = W4 m ρ c (Proc.devRef .tc main_v1) := StableHlo.after_of_forall_not_mem (b := Proc.devRef .tc main_v1) _ _ (by not_written)
    _ = W3 m ρ c (Proc.devRef .tc main_v1) := W4_of_ne m ρ c main_v1 (by decide)
    _ = W2 m ρ c (Proc.devRef .tc main_v1) := StableHlo.after_of_forall_not_mem (b := Proc.devRef .tc main_v1) _ _ (by not_written)
    _ = W1 m ρ c (Proc.devRef .tc main_v1) := StableHlo.after_of_forall_not_mem (b := Proc.devRef .tc main_v1) _ _ (by not_written)

/-- `main_v3` holds at boundary 18 what it held at boundary 1. -/
theorem keep_dst_3 (c : Dev nD) : W18 m ρ c (Proc.devRef .tc main_v3) = W1 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := StableHlo.after_of_forall_not_mem (b := Proc.devRef .tc main_v3) _ _ (by not_written)
    _ = W15 m ρ c (Proc.devRef .tc main_v3) := W16_of_ne m ρ c main_v3 (by decide)
    _ = W14 m ρ c (Proc.devRef .tc main_v3) := StableHlo.after_of_forall_not_mem (b := Proc.devRef .tc main_v3) _ _ (by not_written)
    _ = W13 m ρ c (Proc.devRef .tc main_v3) := StableHlo.after_of_forall_not_mem (b := Proc.devRef .tc main_v3) _ _ (by not_written)
    _ = W12 m ρ c (Proc.devRef .tc main_v3) := StableHlo.after_of_forall_not_mem (b := Proc.devRef .tc main_v3) _ _ (by not_written)
    _ = W11 m ρ c (Proc.devRef .tc main_v3) := W12_of_ne m ρ c main_v3 (by decide)
    _ = W10 m ρ c (Proc.devRef .tc main_v3) := StableHlo.after_of_forall_not_mem (b := Proc.devRef .tc main_v3) _ _ (by not_written)
    _ = W9 m ρ c (Proc.devRef .tc main_v3) := W10_of_ne m ρ c main_v3 (by decide)
    _ = W8 m ρ c (Proc.devRef .tc main_v3) := StableHlo.after_of_forall_not_mem (b := Proc.devRef .tc main_v3) _ _ (by not_written)
    _ = W7 m ρ c (Proc.devRef .tc main_v3) := StableHlo.after_of_forall_not_mem (b := Proc.devRef .tc main_v3) _ _ (by not_written)
    _ = W6 m ρ c (Proc.devRef .tc main_v3) := StableHlo.after_of_forall_not_mem (b := Proc.devRef .tc main_v3) _ _ (by not_written)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written)
    _ = W1 m ρ c (Proc.devRef .tc main_v3) := StableHlo.after_of_forall_not_mem (b := Proc.devRef .tc main_v3) _ _ (by not_written)

/-- `main_v4` holds at boundary 18 what it held at boundary 1. -/
theorem keep_wts_3 (c : Dev nD) : W18 m ρ c (Proc.devRef .tc main_v4) = W1 m ρ c (Proc.devRef .tc main_v4) :=
  calc W18 m ρ c (Proc.devRef .tc main_v4)
    _ = W17 m ρ c (Proc.devRef .tc main_v4) := W18_of_ne m ρ c main_v4 (by decide)
    _ = W16 m ρ c (Proc.devRef .tc main_v4) := StableHlo.after_of_forall_not_mem (b := Proc.devRef .tc main_v4) _ _ (by not_written)
    _ = W15 m ρ c (Proc.devRef .tc main_v4) := W16_of_ne m ρ c main_v4 (by decide)
    _ = W14 m ρ c (Proc.devRef .tc main_v4) := StableHlo.after_of_forall_not_mem (b := Proc.devRef .tc main_v4) _ _ (by not_written)
    _ = W13 m ρ c (Proc.devRef .tc main_v4) := StableHlo.after_of_forall_not_mem (b := Proc.devRef .tc main_v4) _ _ (by not_written)
    _ = W12 m ρ c (Proc.devRef .tc main_v4) := StableHlo.after_of_forall_not_mem (b := Proc.devRef .tc main_v4) _ _ (by not_written)
    _ = W11 m ρ c (Proc.devRef .tc main_v4) := W12_of_ne m ρ c main_v4 (by decide)
    _ = W10 m ρ c (Proc.devRef .tc main_v4) := StableHlo.after_of_forall_not_mem (b := Proc.devRef .tc main_v4) _ _ (by not_written)
    _ = W9 m ρ c (Proc.devRef .tc main_v4) := W10_of_ne m ρ c main_v4 (by decide)
    _ = W8 m ρ c (Proc.devRef .tc main_v4) := StableHlo.after_of_forall_not_mem (b := Proc.devRef .tc main_v4) _ _ (by not_written)
    _ = W7 m ρ c (Proc.devRef .tc main_v4) := StableHlo.after_of_forall_not_mem (b := Proc.devRef .tc main_v4) _ _ (by not_written)
    _ = W6 m ρ c (Proc.devRef .tc main_v4) := StableHlo.after_of_forall_not_mem (b := Proc.devRef .tc main_v4) _ _ (by not_written)
    _ = W5 m ρ c (Proc.devRef .tc main_v4) := W6_of_ne m ρ c main_v4 (by decide)
    _ = W4 m ρ c (Proc.devRef .tc main_v4) := StableHlo.after_of_forall_not_mem (b := Proc.devRef .tc main_v4) _ _ (by not_written)
    _ = W3 m ρ c (Proc.devRef .tc main_v4) := W4_of_ne m ρ c main_v4 (by decide)
    _ = W2 m ρ c (Proc.devRef .tc main_v4) := StableHlo.after_of_forall_not_mem (b := Proc.devRef .tc main_v4) _ _ (by not_written)
    _ = W1 m ρ c (Proc.devRef .tc main_v4) := StableHlo.after_of_forall_not_mem (b := Proc.devRef .tc main_v4) _ _ (by not_written)

/-- `main_arg2` holds at boundary 18 what it held at boundary 0. -/
theorem keep_ea_3 (c : Dev nD) : W18 m ρ c (Proc.devRef .tc main_arg2) = W0 m ρ c (Proc.devRef .tc main_arg2) :=
  calc W18 m ρ c (Proc.devRef .tc main_arg2)
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (by not_written)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (by not_written)
    _ = W13 m ρ c (Proc.devRef .tc main_arg2) := StableHlo.after_of_forall_not_mem (b := Proc.devRef .tc main_arg2) _ _ (by not_written)
    _ = W12 m ρ c (Proc.devRef .tc main_arg2) := StableHlo.after_of_forall_not_mem (b := Proc.devRef .tc main_arg2) _ _ (by not_written)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (by not_written)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (by not_written)
    _ = W7 m ρ c (Proc.devRef .tc main_arg2) := StableHlo.after_of_forall_not_mem (b := Proc.devRef .tc main_arg2) _ _ (by not_written)
    _ = W6 m ρ c (Proc.devRef .tc main_arg2) := StableHlo.after_of_forall_not_mem (b := Proc.devRef .tc main_arg2) _ _ (by not_written)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (by not_written)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)

/-- `main_arg5` holds at boundary 22 what it held at boundary 0. -/
theorem keep_gamma_3 (c : Dev nD) : W22 m ρ c (Proc.devRef .tc main_arg5) = W0 m ρ c (Proc.devRef .tc main_arg5) :=
  calc W22 m ρ c (Proc.devRef .tc main_arg5)
    _ = W21 m ρ c (Proc.devRef .tc main_arg5) := W22_of_ne m ρ c main_arg5 (by decide)
    _ = W20 m ρ c (Proc.devRef .tc main_arg5) := StableHlo.after_of_forall_not_mem (b := Proc.devRef .tc main_arg5) _ _ (by not_written)
    _ = W19 m ρ c (Proc.devRef .tc main_arg5) := StableHlo.after_of_forall_not_mem (b := Proc.devRef .tc main_arg5) _ _ (by not_written)
    _ = W18 m ρ c (Proc.devRef .tc main_arg5) := StableHlo.after_of_forall_not_mem (b := Proc.devRef .tc main_arg5) _ _ (by not_written)
    _ = W17 m ρ c (Proc.devRef .tc main_arg5) := W18_of_ne m ρ c main_arg5 (by decide)
    _ = W16 m ρ c (Proc.devRef .tc main_arg5) := StableHlo.after_of_forall_not_mem (b := Proc.devRef .tc main_arg5) _ _ (by not_written)
    _ = W15 m ρ c (Proc.devRef .tc main_arg5) := W16_of_ne m ρ c main_arg5 (by decide)
    _ = W14 m ρ c (Proc.devRef .tc main_arg5) := StableHlo.after_of_forall_not_mem (b := Proc.devRef .tc main_arg5) _ _ (by not_written)
    _ = W13 m ρ c (Proc.devRef .tc main_arg5) := StableHlo.after_of_forall_not_mem (b := Proc.devRef .tc main_arg5) _ _ (by not_written)
    _ = W12 m ρ c (Proc.devRef .tc main_arg5) := StableHlo.after_of_forall_not_mem (b := Proc.devRef .tc main_arg5) _ _ (by not_written)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (by not_written)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (by not_written)
    _ = W7 m ρ c (Proc.devRef .tc main_arg5) := StableHlo.after_of_forall_not_mem (b := Proc.devRef .tc main_arg5) _ _ (by not_written)
    _ = W6 m ρ c (Proc.devRef .tc main_arg5) := StableHlo.after_of_forall_not_mem (b := Proc.devRef .tc main_arg5) _ _ (by not_written)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by not_written)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written)
    _ = W1 m ρ c (Proc.devRef .tc main_arg5) := StableHlo.after_of_forall_not_mem (b := Proc.devRef .tc main_arg5) _ _ (by not_written)
    _ = W0 m ρ c (Proc.devRef .tc main_arg5) := StableHlo.after_of_forall_not_mem (b := Proc.devRef .tc main_arg5) _ _ (by not_written)

/-- `main_arg6` holds at boundary 22 what it held at boundary 0. -/
theorem keep_beta_3 (c : Dev nD) : W22 m ρ c (Proc.devRef .tc main_arg6) = W0 m ρ c (Proc.devRef .tc main_arg6) :=
  calc W22 m ρ c (Proc.devRef .tc main_arg6)
    _ = W21 m ρ c (Proc.devRef .tc main_arg6) := W22_of_ne m ρ c main_arg6 (by decide)
    _ = W20 m ρ c (Proc.devRef .tc main_arg6) := StableHlo.after_of_forall_not_mem (b := Proc.devRef .tc main_arg6) _ _ (by not_written)
    _ = W19 m ρ c (Proc.devRef .tc main_arg6) := StableHlo.after_of_forall_not_mem (b := Proc.devRef .tc main_arg6) _ _ (by not_written)
    _ = W18 m ρ c (Proc.devRef .tc main_arg6) := StableHlo.after_of_forall_not_mem (b := Proc.devRef .tc main_arg6) _ _ (by not_written)
    _ = W17 m ρ c (Proc.devRef .tc main_arg6) := W18_of_ne m ρ c main_arg6 (by decide)
    _ = W16 m ρ c (Proc.devRef .tc main_arg6) := StableHlo.after_of_forall_not_mem (b := Proc.devRef .tc main_arg6) _ _ (by not_written)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (by not_written)
    _ = W13 m ρ c (Proc.devRef .tc main_arg6) := StableHlo.after_of_forall_not_mem (b := Proc.devRef .tc main_arg6) _ _ (by not_written)
    _ = W12 m ρ c (Proc.devRef .tc main_arg6) := StableHlo.after_of_forall_not_mem (b := Proc.devRef .tc main_arg6) _ _ (by not_written)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (by not_written)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (by not_written)
    _ = W7 m ρ c (Proc.devRef .tc main_arg6) := StableHlo.after_of_forall_not_mem (b := Proc.devRef .tc main_arg6) _ _ (by not_written)
    _ = W6 m ρ c (Proc.devRef .tc main_arg6) := StableHlo.after_of_forall_not_mem (b := Proc.devRef .tc main_arg6) _ _ (by not_written)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)

/-- `main_v94` holds at boundary 21 what it held at boundary 18. -/
theorem keep_xB_3 (c : Dev nD) : W21 m ρ c (Proc.devRef .tc main_v94) = W18 m ρ c (Proc.devRef .tc main_v94) :=
  calc W21 m ρ c (Proc.devRef .tc main_v94)
    _ = W20 m ρ c (Proc.devRef .tc main_v94) := StableHlo.after_of_forall_not_mem (b := Proc.devRef .tc main_v94) _ _ (by not_written)
    _ = W19 m ρ c (Proc.devRef .tc main_v94) := StableHlo.after_of_forall_not_mem (b := Proc.devRef .tc main_v94) _ _ (by not_written)
    _ = W18 m ρ c (Proc.devRef .tc main_v94) := StableHlo.after_of_forall_not_mem (b := Proc.devRef .tc main_v94) _ _ (by not_written)

/-- `main_v94` holds at boundary 23 what it held at boundary 18. -/
theorem keep_xC_3 (c : Dev nD) : W23 m ρ c (Proc.devRef .tc main_v94) = W18 m ρ c (Proc.devRef .tc main_v94) :=
  calc W23 m ρ c (Proc.devRef .tc main_v94)
    _ = W22 m ρ c (Proc.devRef .tc main_v94) := StableHlo.after_of_forall_not_mem (b := Proc.devRef .tc main_v94) _ _ (by not_written)
    _ = W21 m ρ c (Proc.devRef .tc main_v94) := (W22_arr m ρ c 0).trans (((dat6 (V21 m ρ) c).arrAt_in 0 rfl _).trans (A_eq6 (V21 m ρ) c 0))
    _ = W20 m ρ c (Proc.devRef .tc main_v94) := StableHlo.after_of_forall_not_mem (b := Proc.devRef .tc main_v94) _ _ (by not_written)
    _ = W19 m ρ c (Proc.devRef .tc main_v94) := StableHlo.after_of_forall_not_mem (b := Proc.devRef .tc main_v94) _ _ (by not_written)
    _ = W18 m ρ c (Proc.devRef .tc main_v94) := StableHlo.after_of_forall_not_mem (b := Proc.devRef .tc main_v94) _ _ (by not_written)

/-- `main_v109_0` holds at boundary 23 what it held at boundary 22. -/
theorem keep_pre_3 (c : Dev nD) : W23 m ρ c (Proc.devRef .tc main_v109_0) = W22 m ρ c (Proc.devRef .tc main_v109_0) :=
  calc W23 m ρ c (Proc.devRef .tc main_v109_0)
    _ = W22 m ρ c (Proc.devRef .tc main_v109_0) := StableHlo.after_of_forall_not_mem (b := Proc.devRef .tc main_v109_0) _ _ (by not_written)

end Cert.KernelIdeal.KEnv

end
-- ==== Proof.KRead0.lean ====
/-
  What the host operations of layer 0 of the idealized kernel program leave in the buffers its two launches read.

  Each fact states one buffer's contents at a boundary as the host operations' own composed term of the contents at an
  earlier boundary: every edge's message, its clipping at zero, the sum at the destination nodes (together: the
  aggregated messages), the layer's slice of the weights, the two column totals formed from the first launch's partial
  rows, and the layer's rows of the scale and shift tables.
-/
import proofs.«120676_j3582002725394_2_alg».proof.Proof.Gen.KernelIdeal.Frame
import proofs.«120676_j3582002725394_2_alg».proof.Proof.KReadDefs
import proofs.«120676_j3582002725394_2_alg».proof.Proof.KEnv
import Idealize.ShloMosaic.Lib.StableHlo.Run
set_option maxRecDepth 16384
set_option maxHeartbeats 1600000

noncomputable section

namespace Cert.KernelIdeal.KRead0

open Idealize.ShloMosaic Idealize.ShloMosaic.TcCoe
open Idealize.SL Idealize.SL.Sem
open Cert.KernelIdeal Cert.KernelIdeal.Gen
open Cert.KernelIdeal.KReadDefs Cert.KernelIdeal.KEnv Idealize.ShloMosaic.StableHlo

variable {F : FTy → Type} [FloatOps F] [Named F]
variable (m : (ℓ : Loc nD τ sig) → Buf (Elt F) ℓ) (ρ : Dev nD → PrngReg)

/-! ## Layer 0 -/

/-- Every edge's message before clipping: the source node's row plus the edge's features. -/
theorem msg_0 (c : Dev nD) : W1 m ρ c (Proc.devRef .tc main_v12)
    = addf (Host.gather gather_S50000x128_S500000x1_S500000x128_1_0_n_n_0_1_1128 (W0 m ρ c (Proc.devRef .tc main_arg0))
          (broadcastInDim S500000x1 ![0] bcast_S500000_S500000x1_0
            (select (cmpi .slt (shapeCast S500000 (extractStridedSlice S1x500000 ![0, 0] (W0 m ρ c (Proc.devRef .tc main_arg1)) slices_S2x500000_S1x500000_0_0) shapeCasts_S1x500000_S500000) (broadcastInDim S500000 ![] bcast_S_S500000 (constantI S_ 32 0#32)))
              (addi (shapeCast S500000 (extractStridedSlice S1x500000 ![0, 0] (W0 m ρ c (Proc.devRef .tc main_arg1)) slices_S2x500000_S1x500000_0_0) shapeCasts_S1x500000_S500000) (broadcastInDim S500000 ![] bcast_S_S500000 (constantI S_ 32 50000#32))) (shapeCast S500000 (extractStridedSlice S1x500000 ![0, 0] (W0 m ρ c (Proc.devRef .tc main_arg1)) slices_S2x500000_S1x500000_0_0) shapeCasts_S1x500000_S500000))))
        (W0 m ρ c (Proc.devRef .tc main_arg2)) := by
  show StableHlo.after hostOps0 (W0 m ρ c) (Proc.devRef .tc main_v12) = _
  generalize W0 m ρ c = E
  simp only [hostOps0]
  after_results_simp
  all_goals rfl

/-- The messages clipped below at zero. -/
theorem relu_0 (c : Dev nD) : W2 m ρ c (Proc.devRef .tc main_v13)
    = maximumf (W1 m ρ c (Proc.devRef .tc main_v12)) (broadcastInDim S500000x128 ![] bcast_S_S500000x128 (constant S_ .f32 0x00000000#32)) := by
  show StableHlo.after hostOps0_1 (W1 m ρ c) (Proc.devRef .tc main_v13) = _
  generalize W1 m ρ c = E
  simp only [hostOps0_1]
  after_results_simp
  all_goals rfl

/-- The clipped messages added up at the destination nodes, from an all-zero array. -/
theorem scat_0 (c : Dev nD) : W3 m ρ c (Proc.devRef .tc main_v16)
    = Host.scatterAdd scatter_S50000x128_S500000x1_S500000x128_1_0_0_1
        (broadcastInDim S50000x128 ![] bcast_S_S50000x128 (constant S_ .f32 0x00000000#32))
        (broadcastInDim S500000x1 ![0] bcast_S500000_S500000x1_0 (W2 m ρ c (Proc.devRef .tc main_v3)))
        (W2 m ρ c (Proc.devRef .tc main_v13)) := by
  show StableHlo.after hostOps0_2 (W2 m ρ c) (Proc.devRef .tc main_v16) = _
  generalize W2 m ρ c = E
  simp only [hostOps0_2]
  after_results_simp
  all_goals rfl

/-- Slice 0 of the narrow-format weights as a [128, 128] array. -/
theorem wsl_0 (c : Dev nD) : W3 m ρ c (Proc.devRef .tc main_v18)
    = shapeCast S128x128 (extractStridedSlice S1x128x128 ![0, 0, 0] (W2 m ρ c (Proc.devRef .tc main_v4)) slices_S4x128x128_S1x128x128_0_0_0) shapeCasts_S1x128x128_S128x128 := by
  show StableHlo.after hostOps0_2 (W2 m ρ c) (Proc.devRef .tc main_v18) = _
  generalize W2 m ρ c = E
  simp only [hostOps0_2]
  after_results_simp
  all_goals rfl

/-- The destination positions, read two stretches on. -/
theorem dst1_0 (c : Dev nD) : W1 m ρ c (Proc.devRef .tc main_v3)
    = (shapeCast S500000 (extractStridedSlice S1x500000 ![1, 0] (W0 m ρ c (Proc.devRef .tc main_arg1)) slices_S2x500000_S1x500000_1_0) shapeCasts_S1x500000_S500000) := by
  show StableHlo.after hostOps0 (W0 m ρ c) (Proc.devRef .tc main_v3) = _
  generalize W0 m ρ c = E
  simp only [hostOps0]
  after_results_simp
  all_goals rfl

/-- The narrow-format weights. -/
theorem wts1_0 (c : Dev nD) : W1 m ρ c (Proc.devRef .tc main_v4)
    = (truncf .bf16 (W0 m ρ c (Proc.devRef .tc main_arg4)) bitsLt_bf16_f32) := by
  show StableHlo.after hostOps0 (W0 m ρ c) (Proc.devRef .tc main_v4) = _
  generalize W0 m ρ c = E
  simp only [hostOps0]
  after_results_simp
  all_goals rfl

/-- The source positions. -/
theorem src1_0 (c : Dev nD) : W1 m ρ c (Proc.devRef .tc main_v1)
    = (shapeCast S500000 (extractStridedSlice S1x500000 ![0, 0] (W0 m ρ c (Proc.devRef .tc main_arg1)) slices_S2x500000_S1x500000_0_0) shapeCasts_S1x500000_S500000) := by
  show StableHlo.after hostOps0 (W0 m ρ c) (Proc.devRef .tc main_v1) = _
  generalize W0 m ρ c = E
  simp only [hostOps0]
  after_results_simp
  all_goals rfl

/-- `main_v3` is not written by the layer's first two stretches. -/
theorem dstK_0 (c : Dev nD) : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (by not_written)

/-- `main_v4` is not written by the layer's first two stretches. -/
theorem wtsK_0 (c : Dev nD) : W2 m ρ c (Proc.devRef .tc main_v4) = W1 m ρ c (Proc.devRef .tc main_v4) :=
  calc W2 m ρ c (Proc.devRef .tc main_v4)
    _ = W1 m ρ c (Proc.devRef .tc main_v4) := StableHlo.after_of_forall_not_mem (b := Proc.devRef .tc main_v4) _ _ (by not_written)

/-- The aggregated messages at the first launch's entry, from the contents at the layer's start. -/
theorem agg_read_0 (c : Dev nD) : W3 m ρ c (Proc.devRef .tc main_v16)
    = aggK (W0 m ρ c (Proc.devRef .tc main_arg0)) (shapeCast S500000 (extractStridedSlice S1x500000 ![0, 0] (W0 m ρ c (Proc.devRef .tc main_arg1)) slices_S2x500000_S1x500000_0_0) shapeCasts_S1x500000_S500000) (shapeCast S500000 (extractStridedSlice S1x500000 ![1, 0] (W0 m ρ c (Proc.devRef .tc main_arg1)) slices_S2x500000_S1x500000_1_0) shapeCasts_S1x500000_S500000) (W0 m ρ c (Proc.devRef .tc main_arg2)) := by
  rw [scat_0 m ρ c, relu_0 m ρ c, msg_0 m ρ c, dstK_0 m ρ c, dst1_0 m ρ c]
  rfl

/-- The layer's weight matrix at the first launch's entry: slice 0 of the weights, as a [128, 128] array. -/
theorem w_read_0 (c : Dev nD) : W3 m ρ c (Proc.devRef .tc main_v18)
    = shapeCast S128x128 (extractStridedSlice S1x128x128 ![0, 0, 0] (truncf .bf16 (W0 m ρ c (Proc.devRef .tc main_arg4)) bitsLt_bf16_f32) slices_S4x128x128_S1x128x128_0_0_0) shapeCasts_S1x128x128_S128x128 := by
  rw [wsl_0 m ρ c, wtsK_0 m ρ c, wts1_0 m ρ c]

/-- The column sums at the second launch's entry. -/
theorem s_read_0 (c : Dev nD) : W5 m ρ c (Proc.devRef .tc main_v23)
    = totK (W4 m ρ c (Proc.devRef .tc main_v19_1)) := by
  show StableHlo.after hostOps1 (W4 m ρ c) (Proc.devRef .tc main_v23) = _
  generalize W4 m ρ c = E
  simp only [hostOps1]
  after_results_simp
  all_goals rfl

/-- The column sums of squares at the second launch's entry. -/
theorem ss_read_0 (c : Dev nD) : W5 m ρ c (Proc.devRef .tc main_v27)
    = totK (W4 m ρ c (Proc.devRef .tc main_v19_2)) := by
  show StableHlo.after hostOps1 (W4 m ρ c) (Proc.devRef .tc main_v27) = _
  generalize W4 m ρ c = E
  simp only [hostOps1]
  after_results_simp
  all_goals rfl

/-- The layer's scale row at the second launch's entry: row 0 of the scale table, as a [1, 128] array. -/
theorem gamma_read_0 (c : Dev nD) : W5 m ρ c (Proc.devRef .tc main_v30)
    = shapeCast S1x128 (shapeCast S128 (extractStridedSlice S1x128 ![0, 0] (W4 m ρ c (Proc.devRef .tc main_arg5)) slices_S4x128_S1x128_0_0) shapeCasts_S1x128_S128) shapeCasts_S128_S1x128 := by
  show StableHlo.after hostOps1 (W4 m ρ c) (Proc.devRef .tc main_v30) = _
  generalize W4 m ρ c = E
  simp only [hostOps1]
  after_results_simp
  all_goals rfl

/-- The layer's shift row at the second launch's entry: row 0 of the shift table, as a [1, 128] array. -/
theorem beta_read_0 (c : Dev nD) : W5 m ρ c (Proc.devRef .tc main_v33)
    = shapeCast S1x128 (shapeCast S128 (extractStridedSlice S1x128 ![0, 0] (W4 m ρ c (Proc.devRef .tc main_arg6)) slices_S4x128_S1x128_0_0) shapeCasts_S1x128_S128) shapeCasts_S128_S1x128 := by
  show StableHlo.after hostOps1 (W4 m ρ c) (Proc.devRef .tc main_v33) = _
  generalize W4 m ρ c = E
  simp only [hostOps1]
  after_results_simp
  all_goals rfl

end Cert.KernelIdeal.KRead0

end
-- ==== Proof.KIndex.lean ====
/-
  Three host-side layouts of the idealized kernel program read at an index, at the exact instance.

  * A column total: the eighty partial rows summed down the rows from zero, times one eighth, read at column `q`.
  * A row of a [4, 128] table taken as a [1, 128] array (slice, flatten, unflatten), read at column `q`: the table's entry
    in that row and column.
  * A [128, 128] slice of a [4, 128, 128] array, read at `(k, q)`: the array's entry
    `(l, k, q)`.
-/
import proofs.«120676_j3582002725394_2_alg».proof.Proof.Gen.KernelIdeal.Frame
import proofs.«120676_j3582002725394_2_alg».proof.Proof.KReadDefs
import Idealize.ShloMosaic.Lib.ValueIdx
import Idealize.ShloMosaic.Lib.Pipeline.Value
import Idealize.ShloMosaic.PureOps.Ideal.Laws
set_option maxRecDepth 16384

noncomputable section

namespace Cert.KernelIdeal.KIndex

open Idealize.ShloMosaic Idealize.ShloMosaic.TcCoe
open Idealize.SL Idealize.SL.Sem
open Cert.KernelIdeal Cert.KernelIdeal.Gen

open Idealize.ShloMosaic.ValueIdx Cert.KernelIdeal.KReadDefs

/-- The host's column total at column `q`: zero plus the sum of the eighty partial rows' entries, times one eighth's word. -/
theorem totK_apply (part : (⟨S80x128, .f32⟩ : BufTy).Contents (Elt Ideal)) (q : Fin 128) :
    totK (F := Ideal) part (ix2 0 q)
      = (Ideal.ofBits .f32 0x00000000#32 + ∑ r : Fin 80, part (ix2 r q)) * Ideal.ofBits .f32 0x3E000000#32 := by
  unfold totK
  rw [mulf_apply]
  congr 1
  · rw [broadcastInDim_apply (![1] : Fin 1 → Fin 2) bcast_S128_S1x128_1 _ (ix2 0 q) (ix1 q) (fun a => by
      match a with
      | ⟨0, _⟩ => rfl)]
    show Ideal.hostReduceAdd reducesTo_S80x128_S128_d0 part (Ideal.ofBits .f32 0x00000000#32) (ix1 q) = _
    rw [Ideal.hostReduceAdd_single reducesTo_S80x128_S128_d0 (by decide : S80x128.Reduces [0] S128)]
    congr 1
    refine Finset.sum_congr rfl fun r _ => congrArg part (funext fun a => Fin.ext ?_)
    match a with
    | ⟨0, _⟩ => rfl
    | ⟨1, _⟩ => rfl

/-- Row `l` of a [4, 128] table, sliced out, flattened and unflattened, read at column `q`. -/
theorem rowSlice_apply (l : ℕ) (hl : l < 4) (g : (⟨S4x128, .f32⟩ : BufTy).Contents (Elt Ideal))
    (hs : S4x128.Slices ![l, 0] S1x128) (q : Fin 128) :
    shapeCast S1x128 (shapeCast S128 (extractStridedSlice S1x128 ![l, 0] g hs) shapeCasts_S1x128_S128) shapeCasts_S128_S1x128 (ix2 0 q)
      = g (ix2 ⟨l, hl⟩ q) := by
  rw [shapeCast_apply _ shapeCasts_S128_S1x128 (ix2 0 q) (ix1 q) (by
        rw [Shape.rowMajor_val_two, Shape.rowMajor_val_one]; show q.val = 0 * 128 + q.val; omega),
      shapeCast_apply _ shapeCasts_S1x128_S128 (ix1 q) (ix2 0 q) (by
        rw [Shape.rowMajor_val_two, Shape.rowMajor_val_one]; show 0 * 128 + q.val = q.val; omega)]
  exact extractStridedSlice_apply _ g hs (ix2 0 q) (ix2 ⟨l, hl⟩ q) (fun a => by
    match a with
    | ⟨0, _⟩ => show l = l + 0; omega
    | ⟨1, _⟩ => show q.val = 0 + q.val; omega)

/-- Slice `l` of a [4, 128, 128] array, as a [128, 128] array, read at `(k, q)`: the array's entry `(l, k, q)`. -/
theorem wSlice_apply {φ : FTy} (l : ℕ) (hl : l < 4) (v : FVec Ideal S4x128x128 φ)
    (hs : S4x128x128.Slices ![l, 0, 0] S1x128x128) (k q : Fin 128) :
    shapeCast S128x128 (extractStridedSlice S1x128x128 ![l, 0, 0] v hs) shapeCasts_S1x128x128_S128x128 (ix2 k q)
      = v (ix3 ⟨l, hl⟩ k q) := by
  rw [shapeCast_apply _ shapeCasts_S1x128x128_S128x128 (ix2 k q) (ix3 0 k q) (by
        rw [Shape.rowMajor_val_two, Shape.rowMajor_val_three]; show (0 * 128 + k.val) * 128 + q.val = k.val * 128 + q.val; omega)]
  exact extractStridedSlice_apply _ v hs (ix3 0 k q) (ix3 ⟨l, hl⟩ k q) (fun a => by
    match a with
    | ⟨0, _⟩ => show l = l + 0; omega
    | ⟨1, _⟩ => show k.val = 0 + k.val; omega
    | ⟨2, _⟩ => show q.val = 0 + q.val; omega)

end Cert.KernelIdeal.KIndex

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.KB0.lean ====
/-
  The matrix-product region of the first layer, read by coordinates.

  The region walks the 50000 rows in 10 tiles of 5000. On each tile it forms (x + agg) · W, clips it below at zero,
  stores the tile, and stores the tile's column sums and the column sums of its squares on the 8 rows of a partial
  block. Here the three arrays the region leaves are given as functions of the arrays it finds: row p of the product
  array is row p mod 5000 of tile p / 5000, so the array is the clipped product of the whole arrays; rows 8t .. 8t+7
  of the two partial arrays all hold the sums over tile t.
-/
import proofs.«120676_j3582002725394_2_alg».proof.Proof.Gen.KernelIdeal.Frame
import proofs.«120676_j3582002725394_2_alg».proof.Proof.Spec
import proofs.«120676_j3582002725394_2_alg».proof.Proof.LibPlainDot
import proofs.«120676_j3582002725394_2_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KB0

open Cert.KernelIdeal Cert.KernelIdeal.Gen Idealize.ShloMosaic Idealize.ShloMosaic.ValueIdx Idealize.ShloMosaic.TcCoe Idealize.SL.Sem
open Idealize.ShloMosaic.Pipeline (Dat)

/-! ## One tile's stored values at an index -/

/-- The product's dimension numbers are those of a plain [5000,128] by [128,128] product. -/
theorem plain_dims : Cert.PlainDot.IsPlain dot_S5000x128_S128x128_S5000x128_1_0_0_1_n_n := ⟨rfl, rfl, rfl, rfl, rfl, rfl⟩

/-- One tile's stored value at row p, column q: the tile of x plus the tile of agg, times W, clipped below at zero. -/
theorem pay1_apply (x0 x1 : FVec Ideal S5000x128 .f32) (x2 : FVec Ideal S128x128 .bf16) (p : Fin 5000) (q : Fin 128) :
    k0_pay1 (F := Ideal) x0 x1 x2 (ix2 p q) = max (∑ k : Fin 128, (x0 (ix2 p k) + x1 (ix2 p k)) * x2 (ix2 k q)) 0 := by
  unfold k0_pay1
  rw [shapeCast_self, shapeCast_self]
  refine (maximumf_apply _ _ (ix2 p q)).trans ?_
  refine congrArg₂ max ?_ ?_
  · exact Cert.PlainDot.matmul_apply dot_S5000x128_S128x128_S5000x128_1_0_0_1_n_n plain_dims none _ _ p q
  · exact Ideal.ofBits_zero_f32

/-- The first partial-sum payload at (r, q): the tile's column q summed over its 5000 rows, on each of the 8 rows. -/
theorem pay2_apply (x0 x1 : FVec Ideal S5000x128 .f32) (x2 : FVec Ideal S128x128 .bf16) (r : Fin 8) (q : Fin 128) :
    k0_pay2 (F := Ideal) x0 x1 x2 (ix2 r q) = ∑ p : Fin 5000, k0_pay1 (F := Ideal) x0 x1 x2 (ix2 p q) := by
  unfold k0_pay2
  dsimp only
  rw [shapeCast_self]
  refine (broadcastTo_1b_ab_apply _ _ r q).trans ?_
  refine (shapeCast_a_1a_apply _ _ (0 : Fin 1) q).trans ?_
  exact Cert.Lib.column_sum _ _ _ _ q

/-- The second partial-sum payload at (r, q): the squares of the tile's column q summed over its 5000 rows. -/
theorem pay3_apply (x0 x1 : FVec Ideal S5000x128 .f32) (x2 : FVec Ideal S128x128 .bf16) (r : Fin 8) (q : Fin 128) :
    k0_pay3 (F := Ideal) x0 x1 x2 (ix2 r q)
      = ∑ p : Fin 5000, k0_pay1 (F := Ideal) x0 x1 x2 (ix2 p q) * k0_pay1 (F := Ideal) x0 x1 x2 (ix2 p q) := by
  unfold k0_pay3
  dsimp only
  rw [shapeCast_self]
  refine (broadcastTo_1b_ab_apply _ _ r q).trans ?_
  refine (shapeCast_a_1a_apply _ _ (0 : Fin 1) q).trans ?_
  exact Cert.Lib.column_sum _ _ _ _ q

/-! ## The arrays the region finds, and what it leaves, by coordinates -/

variable (V : (c : Dev nD) → (b : Ref sig .tc) → Buf (Elt Ideal) ((c : Thread nD τ).loc b)) (c : Dev nD)

/-- The node array as the region finds it. -/
abbrev X : Spec.Mat 50000 128 := Spec.cur (φ := .f32) (V c (Pipeline.arrRef spec0 0) : S50000x128.Idx → EReal)

/-- The aggregated messages as the region finds them. -/
abbrev A : Spec.Mat 50000 128 := Spec.cur (φ := .f32) (V c (Pipeline.arrRef spec0 1) : S50000x128.Idx → EReal)

/-- The layer's weights as the region finds them. -/
abbrev W : Spec.Mat 128 128 := Spec.cur (φ := .bf16) (V c (Pipeline.arrRef spec0 2) : S128x128.Idx → EReal)

/-- The clipped product (x + agg) · W of the whole arrays. -/
abbrev P : Spec.Mat 50000 128 := Spec.act (Spec.lin (X V c) (A V c) (W V c))

/-- The sum of column q over the 5000 rows of the tile that partial row r belongs to (tile r / 8). -/
abbrev tileSum (h : Spec.Mat 50000 128) : Spec.Mat 80 128 :=
  fun r q => ∑ p' : Fin 5000, h ⟨5000 * (r.val / 8) + p'.val, by omega⟩ q

/-- The product array the region leaves. -/
abbrev preArr : S50000x128.Idx → EReal := Spec.unc (φ := .f32) (P V c)

/-- The array of partial column sums the region leaves. -/
abbrev sumArr : S80x128.Idx → EReal := Spec.unc (φ := .f32) (tileSum (P V c))

/-- The array of partial column sums of squares the region leaves. -/
abbrev sumsqArr : S80x128.Idx → EReal := Spec.unc (φ := .f32) (tileSum (Spec.sq (P V c)))

theorem zero_offsets : (![0, 0] : Fin 2 → Nat) = fun _ => 0 := funext fun a => by fin_cases a <;> rfl

/-- The printed index maps over the 10 grid points: the row tiles and the partial blocks move with the point, the
    weights stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks at a point are rows of the whole arrays -/

/-- Row p' of the node array's tile t is row 5000 t + p' of the node array. -/
theorem x_block (t : Fin cfg0.N) (p' : Fin 5000) (k : Fin 128) (h : 5000 * t.val + p'.val < 50000) :
    (iblk0 V c 0 t : FVec Ideal S5000x128 .f32) (ix2 p' k) = X V c ⟨5000 * t.val + p'.val, h⟩ k := by
  obtain ⟨e0, e1, -⟩ := index_facts t
  unfold iblk0
  rw [View.read_apply]
  show (V c (Pipeline.arrRef spec0 0) : S50000x128.Idx → EReal) _
    = (V c (Pipeline.arrRef spec0 0) : S50000x128.Idx → EReal) (ix2 (⟨5000 * t.val + p'.val, h⟩ : Fin 50000) k)
  refine congrArg _ (funext fun a => Fin.ext ?_)
  match a with
  | ⟨0, _⟩ => show win0_0.index t (0 : Fin 2) * 5000 + 1 * p'.val = 5000 * t.val + p'.val; omega
  | ⟨1, _⟩ => show win0_0.index t (1 : Fin 2) * 128 + 1 * k.val = k.val; omega

/-- Row p' of the aggregated messages' tile t is row 5000 t + p' of that array. -/
theorem a_block (t : Fin cfg0.N) (p' : Fin 5000) (k : Fin 128) (h : 5000 * t.val + p'.val < 50000) :
    (iblk0 V c 1 t : FVec Ideal S5000x128 .f32) (ix2 p' k) = A V c ⟨5000 * t.val + p'.val, h⟩ k := by
  obtain ⟨-, -, e0, e1, -⟩ := index_facts t
  unfold iblk0
  rw [View.read_apply]
  show (V c (Pipeline.arrRef spec0 1) : S50000x128.Idx → EReal) _
    = (V c (Pipeline.arrRef spec0 1) : S50000x128.Idx → EReal) (ix2 (⟨5000 * t.val + p'.val, h⟩ : Fin 50000) k)
  refine congrArg _ (funext fun a => Fin.ext ?_)
  match a with
  | ⟨0, _⟩ => show win0_1.index t (0 : Fin 2) * 5000 + 1 * p'.val = 5000 * t.val + p'.val; omega
  | ⟨1, _⟩ => show win0_1.index t (1 : Fin 2) * 128 + 1 * k.val = k.val; omega

/-- The weights' block at every point is the whole weight array. -/
theorem w_block (t : Fin cfg0.N) (k q : Fin 128) :
    (iblk0 V c 2 t : FVec Ideal S128x128 .bf16) (ix2 k q) = W V c k q := by
  obtain ⟨-, -, -, -, e0, e1, -⟩ := index_facts t
  unfold iblk0
  rw [View.read_apply]
  show (V c (Pipeline.arrRef spec0 2) : S128x128.Idx → EReal) _
    = (V c (Pipeline.arrRef spec0 2) : S128x128.Idx → EReal) (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- What point t stores at row p' of its tile is the clipped product at row 5000 t + p'. -/
theorem pre_block (t : Fin cfg0.N) (p' : Fin 5000) (q : Fin 128) (h : 5000 * t.val + p'.val < 50000) :
    k0_pay1 (F := Ideal) (iblk0 V c 0 t) (iblk0 V c 1 t) (iblk0 V c 2 t) (ix2 p' q) = P V c ⟨5000 * t.val + p'.val, h⟩ q := by
  refine (pay1_apply (iblk0 V c 0 t) (iblk0 V c 1 t) (iblk0 V c 2 t) p' q).trans ?_
  show max (∑ k : Fin 128, _) 0
    = max (∑ k : Fin 128, (X V c ⟨5000 * t.val + p'.val, h⟩ k + A V c ⟨5000 * t.val + p'.val, h⟩ k) * W V c k q) 0
  refine congrArg (fun s => max s 0) (Finset.sum_congr rfl fun k _ => ?_)
  exact congrArg₂ (· * ·) (congrArg₂ (· + ·) (x_block V c t p' k h) (a_block V c t p' k h)) (w_block V c t k q)

/-! ## What each point writes back -/

/-- Point t writes back block t of the product array. -/
theorem pre_flushed (t : Fin cfg0.N) :
    (dat0 (F := Ideal) V c).flushed 3 t = ((cfg0.win 3).blk t).view.read (Elt Ideal) (preArr V c) := by
  have hN : cfg0.N = 10 := N_0
  obtain ⟨-, -, -, -, -, -, e0, e1, -⟩ := index_facts t
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets]
  funext j
  obtain ⟨p', q, rfl⟩ : ∃ (p' : Fin 5000) (q : Fin 128), j = ix2 p' q := ⟨j 0, j 1, eq_ix2 j⟩
  have hp : 5000 * t.val + p'.val < 50000 := by have := t.isLt; omega
  have he : ((cfg0.win 3).blk t).view.emb (ix2 p' q) = ix2 (⟨5000 * t.val + p'.val, hp⟩ : Fin 50000) q := by
    funext a; apply Fin.ext
    match a with
    | ⟨0, _⟩ => show win0_3.index t (0 : Fin 2) * 5000 + 1 * p'.val = 5000 * t.val + p'.val; omega
    | ⟨1, _⟩ => show win0_3.index t (1 : Fin 2) * 128 + 1 * q.val = q.val; omega
  show k0_pay1 (F := Ideal) (iblk0 V c 0 t) (iblk0 V c 1 t) (iblk0 V c 2 t) (ix2 p' q)
    = preArr V c (((cfg0.win 3).blk t).view.emb (ix2 p' q))
  exact (pre_block V c t p' q hp).trans (congrArg (preArr V c) he).symm

/-- Point t writes back block t of the array of partial column sums. -/
theorem sum_flushed (t : Fin cfg0.N) :
    (dat0 (F := Ideal) V c).flushed 4 t = ((cfg0.win 4).blk t).view.read (Elt Ideal) (sumArr V c) := by
  have hN : cfg0.N = 10 := N_0
  obtain ⟨-, -, -, -, -, -, -, -, e0, e1, -⟩ := index_facts t
  show (cfg0.win 4).cut (grid0.coords t) ((dat0 (F := Ideal) V c).after 4 t) = _
  rw [after0_4]
  unfold out0_4
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg0.win 4).blk t).view.emb (ix2 r' q) = ix2 (⟨8 * t.val + r'.val, hr⟩ : Fin 80) q := by
    funext a; apply Fin.ext
    match a with
    | ⟨0, _⟩ => show win0_4.index t (0 : Fin 2) * 8 + 1 * r'.val = 8 * t.val + r'.val; omega
    | ⟨1, _⟩ => show win0_4.index t (1 : Fin 2) * 128 + 1 * q.val = q.val; omega
  show k0_pay2 (F := Ideal) (iblk0 V c 0 t) (iblk0 V c 1 t) (iblk0 V c 2 t) (ix2 r' q)
    = sumArr V c (((cfg0.win 4).blk t).view.emb (ix2 r' q))
  refine ((pay2_apply (iblk0 V c 0 t) (iblk0 V c 1 t) (iblk0 V c 2 t) r' q).trans ?_).trans (congrArg (sumArr V c) he).symm
  show ∑ p' : Fin 5000, _ = ∑ p' : Fin 5000, P V c ⟨5000 * ((8 * t.val + r'.val) / 8) + p'.val, _⟩ q
  refine Finset.sum_congr rfl fun p' _ => ?_
  have hp : 5000 * t.val + p'.val < 50000 := by have := t.isLt; omega
  refine (pre_block V c t p' q hp).trans (congrArg (fun z => P V c z q) (Fin.ext ?_))
  show 5000 * t.val + p'.val = 5000 * ((8 * t.val + r'.val) / 8) + p'.val
  omega

/-- Point t writes back block t of the array of partial column sums of squares. -/
theorem sumsq_flushed (t : Fin cfg0.N) :
    (dat0 (F := Ideal) V c).flushed 5 t = ((cfg0.win 5).blk t).view.read (Elt Ideal) (sumsqArr V c) := by
  have hN : cfg0.N = 10 := N_0
  obtain ⟨-, -, -, -, -, -, -, -, -, -, e0, e1⟩ := index_facts t
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg0.win 5).blk t).view.emb (ix2 r' q) = ix2 (⟨8 * t.val + r'.val, hr⟩ : Fin 80) q := by
    funext a; apply Fin.ext
    match a with
    | ⟨0, _⟩ => show win0_5.index t (0 : Fin 2) * 8 + 1 * r'.val = 8 * t.val + r'.val; omega
    | ⟨1, _⟩ => show win0_5.index t (1 : Fin 2) * 128 + 1 * q.val = q.val; omega
  show k0_pay3 (F := Ideal) (iblk0 V c 0 t) (iblk0 V c 1 t) (iblk0 V c 2 t) (ix2 r' q)
    = sumsqArr V c (((cfg0.win 5).blk t).view.emb (ix2 r' q))
  refine ((pay3_apply (iblk0 V c 0 t) (iblk0 V c 1 t) (iblk0 V c 2 t) r' q).trans ?_).trans (congrArg (sumsqArr V c) he).symm
  show ∑ p' : Fin 5000, _ = ∑ p' : Fin 5000, Spec.sq (P V c) ⟨5000 * ((8 * t.val + r'.val) / 8) + p'.val, _⟩ q
  refine Finset.sum_congr rfl fun p' _ => ?_
  have hp : 5000 * t.val + p'.val < 50000 := by have := t.isLt; omega
  have hz : (⟨5000 * t.val + p'.val, hp⟩ : Fin 50000) = ⟨5000 * ((8 * t.val + r'.val) / 8) + p'.val, by omega⟩ :=
    Fin.ext (by show 5000 * t.val + p'.val = 5000 * ((8 * t.val + r'.val) / 8) + p'.val; omega)
  have e := (pre_block V c t p' q hp).trans (congrArg (fun z => P V c z q) hz)
  exact congrArg₂ (· * ·) e e

/-! ## The blocks cover the arrays -/

/-- An index of the product array is in point t's block iff each coordinate is in the block's range on its axis. -/
theorem mem_pre_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19_0).slice (win0_3.rect t)).set ↔ _
  rw [View.set_slice_whole, Rect.mem_set_unit]
  exact Iff.rfl

/-- Row p of the product array is in the block of point p / 5000. -/
theorem pre_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1, -⟩ := index_facts t
  refine ⟨t, flush0_3 t, ?_⟩
  rw [mem_pre_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- An index of the partial-sum array is in point t's block iff each coordinate is in the block's range on its axis. -/
theorem mem_sum_blk (t : Fin cfg0.N) (i : S80x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v19_1).slice (win0_4.rect t)).set ↔ _
  rw [View.set_slice_whole, Rect.mem_set_unit]
  exact Iff.rfl

/-- Row r of the partial-sum array is in the block of point r / 8. -/
theorem sum_cover (i : S80x128.Idx) :
    ∃ t : Fin cfg0.N, (cfg0.win 4).flush t = true ∧ i ∈ ((cfg0.win 4).blk t).view.set := by
  have hi0 : (i 0).val < 80 := (i 0).isLt
  have hi1 : (i 1).val < 128 := (i 1).isLt
  have hN : cfg0.N = 10 := N_0
  obtain ⟨t, ht⟩ : ∃ t : Fin cfg0.N, t.val = (i 0).val / 8 := ⟨⟨(i 0).val / 8, by rw [hN]; omega⟩, rfl⟩
  obtain ⟨-, -, -, -, -, -, -, -, e0, e1, -⟩ := index_facts t
  refine ⟨t, flush0_4 t, ?_⟩
  rw [mem_sum_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- The same for the array of partial sums of squares. -/
theorem mem_sumsq_blk (t : Fin cfg0.N) (i : S80x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v19_2).slice (win0_5.rect t)).set ↔ _
  rw [View.set_slice_whole, Rect.mem_set_unit]
  exact Iff.rfl

theorem sumsq_cover (i : S80x128.Idx) :
    ∃ t : Fin cfg0.N, (cfg0.win 5).flush t = true ∧ i ∈ ((cfg0.win 5).blk t).view.set := by
  have hi0 : (i 0).val < 80 := (i 0).isLt
  have hi1 : (i 1).val < 128 := (i 1).isLt
  have hN : cfg0.N = 10 := N_0
  obtain ⟨t, ht⟩ : ∃ t : Fin cfg0.N, t.val = (i 0).val / 8 := ⟨⟨(i 0).val / 8, by rw [hN]; omega⟩, rfl⟩
  obtain ⟨-, -, -, -, -, -, -, -, -, -, e0, e1⟩ := index_facts t
  refine ⟨t, flush0_5 t, ?_⟩
  rw [mem_sumsq_blk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-! ## The arrays after the region -/

/-- The product array after the region. -/
theorem pre_final : (dat0 (F := Ideal) V c).arrAt 3 cfg0.N = preArr V c :=
  (dat0 (F := Ideal) V c).arrAt_eq_of_cover 3 (preArr V c) (fun t _ => pre_flushed V c t) pre_cover

/-- The array of partial column sums after the region. -/
theorem sum_final : (dat0 (F := Ideal) V c).arrAt 4 cfg0.N = sumArr V c :=
  (dat0 (F := Ideal) V c).arrAt_eq_of_cover 4 (sumArr V c) (fun t _ => sum_flushed V c t) sum_cover

/-- The array of partial column sums of squares after the region. -/
theorem sumsq_final : (dat0 (F := Ideal) V c).arrAt 5 cfg0.N = sumsqArr V c :=
  (dat0 (F := Ideal) V c).arrAt_eq_of_cover 5 (sumsqArr V c) (fun t _ => sumsq_flushed V c t) sumsq_cover

/-- Entry (p, q) of the product array after the region is the clipped product (x + agg) · W at (p, q). -/
theorem pre_arr (p : Fin 50000) (q : Fin 128) :
    ((dat0 (F := Ideal) V c).arrAt 3 cfg0.N : S50000x128.Idx → EReal) (ix2 p q) = P V c p q :=
  congrFun (pre_final V c) (ix2 p q)

/-- Entry (r, q) of the partial-sum array after the region is column q of the clipped product summed over the 5000
    rows of tile r / 8. -/
theorem sum_arr (r : Fin 80) (q : Fin 128) :
    ((dat0 (F := Ideal) V c).arrAt 4 cfg0.N : S80x128.Idx → EReal) (ix2 r q)
      = ∑ p' : Fin 5000, P V c ⟨5000 * (r.val / 8) + p'.val, by omega⟩ q :=
  congrFun (sum_final V c) (ix2 r q)

/-- Entry (r, q) of the other partial array after the region is the same sum of the squares. -/
theorem sumsq_arr (r : Fin 80) (q : Fin 128) :
    ((dat0 (F := Ideal) V c).arrAt 5 cfg0.N : S80x128.Idx → EReal) (ix2 r q)
      = ∑ p' : Fin 5000, Spec.sq (P V c) ⟨5000 * (r.val / 8) + p'.val, by omega⟩ q :=
  congrFun (sumsq_final V c) (ix2 r q)

end Cert.KernelIdeal.KB0

end
-- ==== Proof.KC1.lean ====
/-
  The normalise-and-add-back region, read off its pipeline: what the output array holds after the
  region's five grid points, as one function of the arrays the region finds, coordinate by coordinate.

  The body at a grid point loads a block of 10000 rows of the pre-activation array and of the layer's input, and
  the four `[1,128]` rows (column sums, column sums of squares, scale, shift) whole; it forms, per column `q`, the
  mean `s q · (1/50000)`, the one-pass variance `ss q · (1/50000) - mean²`, and stores
  `(h - mean) · rsqrt(var + ε) · γ q + β q + prev` for every entry of the block.  Block `t` is rows
  `10000·t … 10000·t + 9999`; the five blocks tile the `50000` rows, so the array ends holding that formula at
  every row.
-/
import proofs.«120676_j3582002725394_2_alg».proof.Proof.Gen.KernelIdeal.Frame
import proofs.«120676_j3582002725394_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KC1

open Idealize.ShloMosaic Idealize.ShloMosaic.TcCoe Idealize.ShloMosaic.ValueIdx Idealize.SL.Sem
open Idealize.ShloMosaic.Pipeline (Dat)
open Cert.KernelIdeal Cert.KernelIdeal.Gen

/-! ## The body's stored value at an entry of the block -/

/-- The named reciprocal of the row count is the rational `1/50000` on the extended reals. -/
theorem inv_n : Named.named (F := Ideal) Cert.KernelIdeal.κ "inv_50000" (φ := .f32) 0x37A7C5AC#32 = Spec.invN :=
  IdealRules.named_const.ideal_named_scalar _ _ _ _ rfl

/-- A `[1,128]` row stretched over `10000` rows reads, at row `p` and column `q`, the row's entry at column `q`. -/
theorem row_stretch (v : FVec Ideal S1x128 .f32) (p : Fin 10000) (q : Fin 128) :
    broadcastTo S10000x128 v broadcasts_S1x128_S10000x128 (ix2 p q) = v (ix2 0 q) := by
  refine broadcastTo_apply v _ (ix2 p q) (ix2 0 q) fun a => ?_
  match a with
  | ⟨0, _⟩ => rfl
  | ⟨1, _⟩ => rfl

/-- The stored block at row `p`, column `q`: the entry less the column's mean, times the reciprocal square root of
    the column's one-pass variance plus `ε`, times the scale, plus the shift, plus the layer's input. -/
theorem pay_apply (v0 v4 v19 v23 : Vec Ideal S1x128 .f32) (v13 v27 : Vec Ideal S10000x128 .f32)
    (p : Fin 10000) (q : Fin 128) :
    k1_pay1 (F := Ideal) v0 v4 v13 v19 v23 v27 (ix2 p q)
      = (v13 (ix2 p q) - v0 (ix2 0 q) * Spec.invN)
          * Ideal.rsqrt ((v4 (ix2 0 q) * Spec.invN - v0 (ix2 0 q) * Spec.invN * (v0 (ix2 0 q) * Spec.invN)) + Spec.eps)
          * v19 (ix2 0 q) + v23 (ix2 0 q) + v27 (ix2 p q) := by
  unfold k1_pay1
  simp only [shapeCast_self, addf_apply, mulf_apply, subf_apply, row_stretch, broadcast_apply, inv_n]
  rfl

/-! ## The closed form -/

section Region

variable (V : (c : Dev nD) → (b : Ref sig .tc) → Buf (Elt Ideal) ((c : Thread nD τ).loc b))

/-- The pre-activation array the region finds, by coordinates. -/
abbrev pre (c : Dev nD) : Spec.Mat 50000 128 :=
  Spec.cur (a := 50000) (b := 128) (φ := .f32) (V c (Pipeline.arrRef spec1 0))
/-- The layer's input the region finds, by coordinates. -/
abbrev prev (c : Dev nD) : Spec.Mat 50000 128 :=
  Spec.cur (a := 50000) (b := 128) (φ := .f32) (V c (Pipeline.arrRef spec1 5))
/-- The row of column sums the region finds. -/
abbrev rowS (c : Dev nD) : Fin 128 → EReal := fun q => (V c (Pipeline.arrRef spec1 1) : S1x128.Idx → EReal) (ix2 0 q)
/-- The row of column sums of squares the region finds. -/
abbrev rowSS (c : Dev nD) : Fin 128 → EReal := fun q => (V c (Pipeline.arrRef spec1 2) : S1x128.Idx → EReal) (ix2 0 q)
/-- The scale row the region finds. -/
abbrev rowG (c : Dev nD) : Fin 128 → EReal := fun q => (V c (Pipeline.arrRef spec1 3) : S1x128.Idx → EReal) (ix2 0 q)
/-- The shift row the region finds. -/
abbrev rowB (c : Dev nD) : Fin 128 → EReal := fun q => (V c (Pipeline.arrRef spec1 4) : S1x128.Idx → EReal) (ix2 0 q)

/-- The normalised, scaled, shifted entry with the input added back, from a row of sums `s` and a row of sums of
    squares `ss`. -/
def norm (H : Spec.Mat 50000 128) (s ss g b : Fin 128 → EReal) (R : Spec.Mat 50000 128) : Spec.Mat 50000 128 :=
  fun p q => (H p q - s q * Spec.invN)
    * Ideal.rsqrt ((ss q * Spec.invN - s q * Spec.invN * (s q * Spec.invN)) + Spec.eps) * g q + b q + R p q

/-- What the output array ends holding, as an array. -/
def outFn (c : Dev nD) : S50000x128.Idx → EReal :=
  Spec.unc (a := 50000) (b := 128) (φ := .f32)
    (norm (pre V c) (rowS V c) (rowSS V c) (rowG V c) (rowB V c) (prev V c))

/-! ## The blocks -/

theorem zero_off : (![0, 0] : Fin 2 → Nat) = fun _ => 0 := funext fun a => by fin_cases a <;> rfl

/-- The index maps, decided over the five grid points: the row-tiled windows sit at block `(t, 0)`, the whole rows at
    block `(0, 0)`. -/
theorem index_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of block `t` of the pre-activation array is row `10000·t + p` of the array. -/
theorem blk_pre (c : Dev nD) (t : Fin cfg1.N) (p : Fin 10000) (q : Fin 128) (P : Fin 50000)
    (hP : P.val = t.val * 10000 + p.val) :
    (iblk1 V c 0 t : Vec Ideal S10000x128 .f32) (ix2 p q) = pre V c P q := by
  obtain ⟨e0, e1, -⟩ := index_facts t
  unfold iblk1
  rw [View.read_apply]
  show (V c (Pipeline.arrRef spec1 0) : S50000x128.Idx → EReal) _ = (V c (Pipeline.arrRef spec1 0) : S50000x128.Idx → EReal) (ix2 P q)
  congr 1
  funext a
  apply Fin.ext
  match a with
  | ⟨0, _⟩ => show win1_0.index t (0 : Fin 2) * 10000 + 1 * p.val = P.val; rw [e0, hP]; omega
  | ⟨1, _⟩ => show win1_0.index t (1 : Fin 2) * 128 + 1 * q.val = q.val; rw [e1]; omega

/-- Row `p` of block `t` of the layer's input is row `10000·t + p` of the array. -/
theorem blk_prev (c : Dev nD) (t : Fin cfg1.N) (p : Fin 10000) (q : Fin 128) (P : Fin 50000)
    (hP : P.val = t.val * 10000 + p.val) :
    (iblk1 V c 5 t : Vec Ideal S10000x128 .f32) (ix2 p q) = prev V c P q := by
  obtain ⟨-, -, e0, e1, -⟩ := index_facts t
  unfold iblk1
  rw [View.read_apply]
  show (V c (Pipeline.arrRef spec1 5) : S50000x128.Idx → EReal) _ = (V c (Pipeline.arrRef spec1 5) : S50000x128.Idx → EReal) (ix2 P q)
  congr 1
  funext a
  apply Fin.ext
  match a with
  | ⟨0, _⟩ => show win1_5.index t (0 : Fin 2) * 10000 + 1 * p.val = P.val; rw [e0, hP]; omega
  | ⟨1, _⟩ => show win1_5.index t (1 : Fin 2) * 128 + 1 * q.val = q.val; rw [e1]; omega

/-- The block of a whole `[1,128]` row is the row: the sums, -/
theorem blk_s (c : Dev nD) (t : Fin cfg1.N) (q : Fin 128) :
    (iblk1 V c 1 t : Vec Ideal S1x128 .f32) (ix2 0 q) = rowS V c q := by
  obtain ⟨-, -, -, -, -, -, e0, e1, -⟩ := index_facts t
  unfold iblk1
  rw [View.read_apply]
  show (V c (Pipeline.arrRef spec1 1) : S1x128.Idx → EReal) _ = (V c (Pipeline.arrRef spec1 1) : S1x128.Idx → EReal) (ix2 0 q)
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- the sums of squares, -/
theorem blk_ss (c : Dev nD) (t : Fin cfg1.N) (q : Fin 128) :
    (iblk1 V c 2 t : Vec Ideal S1x128 .f32) (ix2 0 q) = rowSS V c q := by
  obtain ⟨-, -, -, -, -, -, -, -, e0, e1, -⟩ := index_facts t
  unfold iblk1
  rw [View.read_apply]
  show (V c (Pipeline.arrRef spec1 2) : S1x128.Idx → EReal) _ = (V c (Pipeline.arrRef spec1 2) : S1x128.Idx → EReal) (ix2 0 q)
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- the scale, -/
theorem blk_g (c : Dev nD) (t : Fin cfg1.N) (q : Fin 128) :
    (iblk1 V c 3 t : Vec Ideal S1x128 .f32) (ix2 0 q) = rowG V c q := by
  obtain ⟨-, -, -, -, -, -, -, -, -, -, e0, e1, -⟩ := index_facts t
  unfold iblk1
  rw [View.read_apply]
  show (V c (Pipeline.arrRef spec1 3) : S1x128.Idx → EReal) _ = (V c (Pipeline.arrRef spec1 3) : S1x128.Idx → EReal) (ix2 0 q)
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- and the shift. -/
theorem blk_b (c : Dev nD) (t : Fin cfg1.N) (q : Fin 128) :
    (iblk1 V c 4 t : Vec Ideal S1x128 .f32) (ix2 0 q) = rowB V c q := by
  obtain ⟨-, -, -, -, -, -, -, -, -, -, -, -, e0, e1⟩ := index_facts t
  unfold iblk1
  rw [View.read_apply]
  show (V c (Pipeline.arrRef spec1 4) : S1x128.Idx → EReal) _ = (V c (Pipeline.arrRef spec1 4) : S1x128.Idx → EReal) (ix2 0 q)
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- What grid point `t` writes back is block `t` of the closed form. -/
theorem flushed_eq (c : Dev nD) (t : Fin cfg1.N) :
    (dat1 (F := Ideal) V c).flushed 6 t = ((cfg1.win 6).blk t).view.read (Elt Ideal) (outFn V c) := by
  show (cfg1.win 6).cut (grid1.coords t) ((dat1 (F := Ideal) V c).after 6 t) = _
  rw [after1_6]
  unfold out1_6
  rw [View.canon_unit_zero zero_off]
  simp only [View.ld_unit_zero (S := S10000x128) zero_off, View.ld_unit_zero (S := S1x128) zero_off]
  obtain ⟨-, -, -, -, e0, e1, -⟩ := index_facts t
  have ht : t.val < 5 := by have h := t.isLt; have hN : cfg1.N = 5 := N_1; omega
  funext j
  obtain ⟨p, q, rfl⟩ : ∃ (p : Fin 10000) (q : Fin 128), j = ix2 p q := ⟨j 0, j 1, eq_ix2 j⟩
  have hp : p.val < 10000 := p.isLt
  refine (pay_apply (iblk1 V c 1 t) (iblk1 V c 2 t) (iblk1 V c 3 t) (iblk1 V c 4 t) (iblk1 V c 0 t) (iblk1 V c 5 t) p q).trans ?_
  rw [blk_pre V c t p q ⟨t.val * 10000 + p.val, by omega⟩ rfl, blk_prev V c t p q ⟨t.val * 10000 + p.val, by omega⟩ rfl,
    blk_s V c t q, blk_ss V c t q, blk_g V c t q, blk_b V c t q]
  show _ = outFn V c (((cfg1.win 6).blk t).view.emb (ix2 p q))
  have hemb : ((cfg1.win 6).blk t).view.emb (ix2 p q) = (ix2 (⟨t.val * 10000 + p.val, by omega⟩ : Fin 50000) q : S50000x128.Idx) := by
    funext a
    apply Fin.ext
    match a with
    | ⟨0, _⟩ => show win1_6.index t (0 : Fin 2) * 10000 + 1 * p.val = t.val * 10000 + p.val; rw [e0]; omega
    | ⟨1, _⟩ => show win1_6.index t (1 : Fin 2) * 128 + 1 * q.val = q.val; rw [e1]; omega
  rw [hemb]
  rfl

/-- Every entry of the array is in the block of the grid point its row falls under. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  have hlt : (i 0).val / 10000 < cfg1.N := by rw [hN]; omega
  obtain ⟨t, ht⟩ : ∃ t : Fin cfg1.N, t.val = (i 0).val / 10000 := ⟨⟨_, hlt⟩, rfl⟩
  obtain ⟨-, -, -, -, e0, e1, -⟩ := index_facts t
  refine ⟨t, flush1_6 t, ?_⟩
  show i ∈ ((View.whole main_v34).slice (win1_6.rect t)).set
  rw [View.set_slice_whole, Rect.mem_set_unit]
  intro a
  match a with
  | ⟨0, _⟩ =>
    show win1_6.index t (0 : Fin 2) * 10000 ≤ (i 0).val ∧ (i 0).val < win1_6.index t (0 : Fin 2) * 10000 + 10000
    rw [e0, ht]; omega
  | ⟨1, _⟩ =>
    show win1_6.index t (1 : Fin 2) * 128 ≤ (i 1).val ∧ (i 1).val < win1_6.index t (1 : Fin 2) * 128 + 128
    rw [e1]; omega

/-- The output array after the region is the closed form. -/
theorem out_eq (c : Dev nD) : (dat1 (F := Ideal) V c).arrAt 6 cfg1.N = outFn V c :=
  (dat1 (F := Ideal) V c).arrAt_eq_of_cover 6 (outFn V c) (fun t _ => flushed_eq V c t) (cover)

/-- The output array after the region, entry by entry: the pre-activation less the column's mean `s·(1/50000)`,
    times the reciprocal square root of `ss·(1/50000) - mean² + ε`, times the scale, plus the shift, plus the
    layer's input. -/
theorem out_arr (c : Dev nD) (p : Fin 50000) (q : Fin 128) :
    ((dat1 (F := Ideal) V c).arrAt 6 cfg1.N : S50000x128.Idx → EReal) (ix2 p q)
      = (pre V c p q - rowS V c q * Spec.invN)
          * Ideal.rsqrt ((rowSS V c q * Spec.invN - rowS V c q * Spec.invN * (rowS V c q * Spec.invN)) + Spec.eps)
          * rowG V c q + rowB V c q + prev V c p q := by
  rw [out_eq]
  rfl

end Region

end Cert.KernelIdeal.KC1

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.SpecTiles.lean ====
/-
  The column sum taken tile by tile.

  The rows are cut into ten tiles of five thousand.  Each tile's sum is written eight times, which makes eighty
  partial rows; their total is eight times the sum of the ten tile sums, and one eighth of it is the sum over
  all fifty thousand rows.  Nothing is asked of the terms: multiplying by a nonnegative real distributes over
  every finite sum of extended reals, eight copies of an extended real divided by eight are that extended
  real, and a sum over consecutive blocks is the sum over all the indices.
-/
import proofs.«120676_j3582002725394_2_alg».proof.Proof.Spec
import proofs.«120676_j3582002725394_2_alg».proof.Proof.LibIndexOps
import proofs.«120676_j3582002725394_2_alg».proof.Proof.LibBlockSum

noncomputable section

namespace Cert.Spec

open Idealize.ShloMosaic Cert.Lib

/-- Eighty partial rows, row `r` holding the sum of tile `r / 8`, added up and multiplied by one eighth, are
    the sum over all the rows. -/
theorem tiles_sum (P : Fin 50000 → EReal) :
    (0 + ∑ r : Fin 80, ∑ p' : Fin 5000,
        P ⟨5000 * (r.val / 8) + p'.val, by have := r.isLt; have := p'.isLt; omega⟩) * ((1 / 8 : ℝ) : EReal)
      = ∑ p : Fin 50000, P p := by
  -- the terms as a function of a natural number (its values past the end play no part)
  obtain ⟨F, hF⟩ : ∃ F : ℕ → EReal, ∀ (n : ℕ) (h : n < 50000), F n = P ⟨n, h⟩ :=
    ⟨fun n => if h : n < 50000 then P ⟨n, h⟩ else 0, fun n h => dif_pos h⟩
  -- the sum of tile `t`
  obtain ⟨G, hG⟩ : ∃ G : ℕ → EReal, ∀ t : ℕ, G t = ∑ p' : Fin 5000, F (t * 5000 + p'.val) := ⟨_, fun _ => rfl⟩
  -- row `r` is the sum of tile `r / 8`
  have hrow : ∀ r : Fin 80, (∑ p' : Fin 5000,
      P ⟨5000 * (r.val / 8) + p'.val, by have := r.isLt; have := p'.isLt; omega⟩) = G (r.val / 8) := by
    intro r
    rw [hG]
    refine Finset.sum_congr rfl fun p' _ => ?_
    have hlt : r.val / 8 * 5000 + p'.val < 50000 := by have := r.isLt; have := p'.isLt; omega
    rw [hF _ hlt]
    refine congrArg P (Fin.ext ?_)
    show 5000 * (r.val / 8) + p'.val = r.val / 8 * 5000 + p'.val
    omega
  -- the eighty rows are the ten tile sums, eight times each
  have h80 : ∑ r : Fin 80, G (r.val / 8) = ∑ s ∈ Finset.range 10, 8 • G s := by
    have hb := Cert.BlockSum.sum_blocks 10 8 (fun n : ℕ => G (n / 8))
    have hs : ∀ (s : ℕ) (r : Fin 8), G ((s * 8 + r.val) / 8) = G s := fun s r => by
      congr 1; have := r.isLt; omega
    simp only [hs, Finset.sum_const, Finset.card_univ, Fintype.card_fin] at hb
    exact hb.symm
  -- the ten tile sums add up to the sum over all the rows
  have h10 : ∑ s ∈ Finset.range 10, G s = ∑ p : Fin 50000, P p := by
    calc ∑ s ∈ Finset.range 10, G s = ∑ s ∈ Finset.range 10, ∑ p' : Fin 5000, F (s * 5000 + p'.val) :=
          Finset.sum_congr rfl fun s _ => hG s
      _ = ∑ n : Fin (10 * 5000), F n.val := Cert.BlockSum.sum_blocks 10 5000 F
      _ = ∑ p : Fin 50000, P p := Finset.sum_congr rfl fun p _ => hF p.val p.isLt
  have h8 : ((1 / 8 : ℝ) : EReal) = ((((8 : ℕ) : ℝ)⁻¹ : ℝ) : EReal) := by norm_num
  rw [zero_add, Finset.sum_congr rfl fun r _ => hrow r, h80,
    Cert.LibIndexOps.sum_mul_coe_nonneg _ _ _ (by norm_num), ← h10]
  refine Finset.sum_congr rfl fun s _ => ?_
  rw [h8]
  exact Cert.LibIndexOps.nsmul_mul_inv 8 (by norm_num) _

/-- The same for column `q` of an array: the eighty partial rows of that column give the column's sum. -/
theorem tiles_colSum (H : Mat 50000 128) (q : Fin 128) :
    (0 + ∑ r : Fin 80, ∑ p' : Fin 5000,
        H ⟨5000 * (r.val / 8) + p'.val, by have := r.isLt; have := p'.isLt; omega⟩ q) * ((1 / 8 : ℝ) : EReal)
      = colSum H q :=
  tiles_sum fun p => H p q

end Cert.Spec

end
-- ==== Proof.SpecNorm.lean ====
/-
  The two normalisations read at an entry, with every name of the specification unfolded down to the column
  sums.
-/
import proofs.«120676_j3582002725394_2_alg».proof.Proof.Spec

noncomputable section

namespace Cert.Spec

open Idealize.ShloMosaic Cert.Lib

/-- The one-pass normalisation at row `p`, column `q`, over the column's sum and sum of squares. -/
theorem normOnePass_apply (h : Mat 50000 128) (γ β : Fin 128 → EReal) (prev : Mat 50000 128)
    (p : Fin 50000) (q : Fin 128) :
    normOnePass h γ β prev p q
      = (h p q - colSum h q * invN)
          * Ideal.rsqrt ((colSum (sq h) q * invN - colSum h q * invN * (colSum h q * invN)) + eps)
          * γ q + β q + prev p q := rfl

/-- The two-pass normalisation at row `p`, column `q`, over the column's sum and the sum of the squared
    deviations from the mean. -/
theorem normTwoPass_apply (h : Mat 50000 128) (γ β : Fin 128 → EReal) (prev : Mat 50000 128)
    (p : Fin 50000) (q : Fin 128) :
    normTwoPass h γ β prev p q
      = (h p q - Ideal.div (colSum h q) nRows)
          * Ideal.rsqrt (Ideal.div (colSum (sq fun p' q' => h p' q' - Ideal.div (colSum h q') nRows) q) nRows + eps)
          * γ q + β q + prev p q := rfl

end Cert.Spec

end
-- ==== Proof.KLayer0.lean ====
/-
  Layer 0 of the idealized kernel program, from its two launches and the host operations between them.

  The first launch leaves the pre-activation array `max ((x + agg) · W) 0` and, tile by tile, the partial column sums of it
  and of its square; the host adds the partial rows up into the two column totals; the second launch normalises with
  them.  Put together: the array the layer leaves is the one-pass normalisation of the pre-activation array, scaled
  by the layer's row of the scale table, shifted by its row of the shift table, plus the layer's input.
-/
import proofs.«120676_j3582002725394_2_alg».proof.Proof.Gen.KernelIdeal.Frame
import proofs.«120676_j3582002725394_2_alg».proof.Proof.KEnv
import proofs.«120676_j3582002725394_2_alg».proof.Proof.KRead0
import proofs.«120676_j3582002725394_2_alg».proof.Proof.KIndex
import proofs.«120676_j3582002725394_2_alg».proof.Proof.KB0
import proofs.«120676_j3582002725394_2_alg».proof.Proof.KC1
import proofs.«120676_j3582002725394_2_alg».proof.Proof.Spec
import proofs.«120676_j3582002725394_2_alg».proof.Proof.SpecLaws
import proofs.«120676_j3582002725394_2_alg».proof.Proof.SpecTiles
import proofs.«120676_j3582002725394_2_alg».proof.Proof.SpecNorm
import Idealize.ShloMosaic.Lib.ValueIdx
set_option maxRecDepth 16384

noncomputable section

namespace Cert.KernelIdeal.KLayer0

open Idealize.ShloMosaic Idealize.ShloMosaic.TcCoe
open Idealize.SL Idealize.SL.Sem
open Cert.KernelIdeal Cert.KernelIdeal.Gen

open Idealize.ShloMosaic.ValueIdx Cert.Spec
open Cert.KernelIdeal.KEnv Cert.KernelIdeal.KRead0 Cert.KernelIdeal.KReadDefs Cert.KernelIdeal.KIndex

variable (m : (ℓ : Loc nD τ sig) → Buf (Elt Ideal) ℓ) (ρ : Dev nD → PrngReg)

/-- The layer's input array, as the layer's start finds it. -/
abbrev Xin (c : Dev nD) : S50000x128.Idx → EReal := W0 m ρ c (Proc.devRef .tc main_arg0)
/-- The aggregated messages of the layer's input. -/
abbrev Agg (c : Dev nD) : S50000x128.Idx → EReal :=
  aggK (F := Ideal) (W0 m ρ c (Proc.devRef .tc main_arg0)) (shapeCast S500000 (extractStridedSlice S1x500000 ![0, 0] (W0 m ρ c (Proc.devRef .tc main_arg1)) slices_S2x500000_S1x500000_0_0) shapeCasts_S1x500000_S500000) (shapeCast S500000 (extractStridedSlice S1x500000 ![1, 0] (W0 m ρ c (Proc.devRef .tc main_arg1)) slices_S2x500000_S1x500000_1_0) shapeCasts_S1x500000_S500000) (W0 m ρ c (Proc.devRef .tc main_arg2))
/-- The layer's weight matrix. -/
abbrev Wsl (c : Dev nD) : S128x128.Idx → EReal :=
  shapeCast S128x128 (extractStridedSlice S1x128x128 ![0, 0, 0] (truncf .bf16 (W0 m ρ c (Proc.devRef .tc main_arg4) : FVec Ideal S4x128x128 .f32) bitsLt_bf16_f32 : FVec Ideal S4x128x128 .bf16) slices_S4x128x128_S1x128x128_0_0_0) shapeCasts_S1x128x128_S128x128
/-- The pre-activation array `max ((x + agg) · W) 0`. -/
def Pre (c : Dev nD) : Mat 50000 128 :=
  act (lin (cur (φ := .f32) (Xin m ρ c)) (cur (φ := .f32) (Agg m ρ c)) (cur (φ := .bf16) (Wsl m ρ c)))
/-- The layer's row of the scale table. -/
def gam (c : Dev nD) : Fin 128 → EReal := fun q => (m ((c : Thread nD τ).loc main_arg5) : S4x128.Idx → EReal) (ix2 0 q)
/-- The layer's row of the shift table. -/
def bet (c : Dev nD) : Fin 128 → EReal := fun q => (m ((c : Thread nD τ).loc main_arg6) : S4x128.Idx → EReal) (ix2 0 q)

/-- The first launch's three input windows hold the layer's input, its aggregated messages and its weight matrix. -/
theorem P_eq (c : Dev nD) : KB0.P (V3 m ρ) c = Pre m ρ c := by
  have hX : KB0.X (V3 m ρ) c = cur (φ := .f32) (Xin m ρ c) := congrArg (cur (φ := .f32)) (keep_xB_0 m ρ c)
  have hA : KB0.A (V3 m ρ) c = cur (φ := .f32) (Agg m ρ c) := congrArg (cur (φ := .f32)) (agg_read_0 m ρ c)
  have hW : KB0.W (V3 m ρ) c = cur (φ := .bf16) (Wsl m ρ c) := congrArg (cur (φ := .bf16)) (w_read_0 m ρ c)
  show act (lin (KB0.X (V3 m ρ) c) (KB0.A (V3 m ρ) c) (KB0.W (V3 m ρ) c)) = _
  rw [hX, hA, hW]
  rfl

/-- After the first launch the pre-activation buffer holds the pre-activation array. -/
theorem pre_at (c : Dev nD) (p : Fin 50000) (q : Fin 128) :
    (W4 m ρ c (Proc.devRef .tc main_v19_0) : S50000x128.Idx → EReal) (ix2 p q) = Pre m ρ c p q :=
  (congrFun (W4_arr m ρ c 3) (ix2 p q)).trans ((KB0.pre_arr (V3 m ρ) c p q).trans (congrFun (congrFun (P_eq m ρ c) p) q))

/-- After the first launch, row `r` of the partial-sum buffer holds the column sums of tile `r / 8` of the pre-activation array. -/
theorem sp_at (c : Dev nD) (r : Fin 80) (q : Fin 128) :
    (W4 m ρ c (Proc.devRef .tc main_v19_1) : S80x128.Idx → EReal) (ix2 r q)
      = ∑ p' : Fin 5000, Pre m ρ c ⟨5000 * (r.val / 8) + p'.val, by have := r.isLt; have := p'.isLt; omega⟩ q :=
  (congrFun (W4_arr m ρ c 4) (ix2 r q)).trans ((KB0.sum_arr (V3 m ρ) c r q).trans (by rw [P_eq m ρ c]))

/-- The same for the squares. -/
theorem ssp_at (c : Dev nD) (r : Fin 80) (q : Fin 128) :
    (W4 m ρ c (Proc.devRef .tc main_v19_2) : S80x128.Idx → EReal) (ix2 r q)
      = ∑ p' : Fin 5000, sq (Pre m ρ c) ⟨5000 * (r.val / 8) + p'.val, by have := r.isLt; have := p'.isLt; omega⟩ q :=
  (congrFun (W4_arr m ρ c 5) (ix2 r q)).trans ((KB0.sumsq_arr (V3 m ρ) c r q).trans (by rw [P_eq m ρ c]))

/-- The host's column total of the partial sums is the column sum of the pre-activation array over all its rows. -/
theorem s_at (c : Dev nD) (q : Fin 128) :
    (W5 m ρ c (Proc.devRef .tc main_v23) : S1x128.Idx → EReal) (ix2 0 q) = colSum (Pre m ρ c) q := by
  rw [s_read_0 m ρ c, totK_apply]
  simp only [sp_at m ρ c, Spec.ofBits_zero', Spec.ofBits_eighth]
  exact tiles_colSum (Pre m ρ c) q

/-- The same for the squares. -/
theorem ss_at (c : Dev nD) (q : Fin 128) :
    (W5 m ρ c (Proc.devRef .tc main_v27) : S1x128.Idx → EReal) (ix2 0 q) = colSum (sq (Pre m ρ c)) q := by
  rw [ss_read_0 m ρ c, totK_apply]
  simp only [ssp_at m ρ c, Spec.ofBits_zero', Spec.ofBits_eighth]
  exact tiles_colSum (sq (Pre m ρ c)) q

/-- The scale row the second launch reads is the layer's row of the scale table. -/
theorem g_at (c : Dev nD) (q : Fin 128) :
    (W5 m ρ c (Proc.devRef .tc main_v30) : S1x128.Idx → EReal) (ix2 0 q) = gam m c q := by
  rw [gamma_read_0 m ρ c, rowSlice_apply 0 (by omega), keep_gamma_0 m ρ c]
  rfl

/-- The shift row the second launch reads is the layer's row of the shift table. -/
theorem b_at (c : Dev nD) (q : Fin 128) :
    (W5 m ρ c (Proc.devRef .tc main_v33) : S1x128.Idx → EReal) (ix2 0 q) = bet m c q := by
  rw [beta_read_0 m ρ c, rowSlice_apply 0 (by omega), keep_beta_0 m ρ c]
  rfl

/-- THE LAYER: the array it leaves is the one-pass normalisation of the pre-activation array, scaled, shifted, plus its input. -/
theorem layer (c : Dev nD) :
    cur (φ := .f32) (W6 m ρ c (Proc.devRef .tc main_v34) : S50000x128.Idx → EReal)
      = normOnePass (Pre m ρ c) (gam m c) (bet m c) (cur (φ := .f32) (Xin m ρ c)) := by
  have hpre : KC1.pre (V5 m ρ) c = Pre m ρ c := funext fun p => funext fun q =>
    (congrFun (keep_pre_0 m ρ c) (ix2 p q)).trans (pre_at m ρ c p q)
  have hs : KC1.rowS (V5 m ρ) c = colSum (Pre m ρ c) := funext fun q => s_at m ρ c q
  have hss : KC1.rowSS (V5 m ρ) c = colSum (sq (Pre m ρ c)) := funext fun q => ss_at m ρ c q
  have hg : KC1.rowG (V5 m ρ) c = gam m c := funext fun q => g_at m ρ c q
  have hb : KC1.rowB (V5 m ρ) c = bet m c := funext fun q => b_at m ρ c q
  have hprev : KC1.prev (V5 m ρ) c = cur (φ := .f32) (Xin m ρ c) := congrArg (cur (φ := .f32)) (keep_xC_0 m ρ c)
  funext p q
  refine (congrFun (W6_arr m ρ c 6) (ix2 p q)).trans ?_
  refine (KC1.out_arr (V5 m ρ) c p q).trans ?_
  rw [hpre, hs, hss, hg, hb, hprev, normOnePass_apply]

end Cert.KernelIdeal.KLayer0

end
-- ==== Proof.KRead1.lean ====
/-
  What the host operations of layer 1 of the idealized kernel program leave in the buffers its two launches read.

  Each fact states one buffer's contents at a boundary as the host operations' own composed term of the contents at an
  earlier boundary: every edge's message, its clipping at zero, the sum at the destination nodes (together: the
  aggregated messages), the layer's slice of the weights, the two column totals formed from the first launch's partial
  rows, and the layer's rows of the scale and shift tables.
-/
import proofs.«120676_j3582002725394_2_alg».proof.Proof.Gen.KernelIdeal.Frame
import proofs.«120676_j3582002725394_2_alg».proof.Proof.KReadDefs
import proofs.«120676_j3582002725394_2_alg».proof.Proof.KEnv
import Idealize.ShloMosaic.Lib.StableHlo.Run
set_option maxRecDepth 16384
set_option maxHeartbeats 1600000

noncomputable section

namespace Cert.KernelIdeal.KRead1

open Idealize.ShloMosaic Idealize.ShloMosaic.TcCoe
open Idealize.SL Idealize.SL.Sem
open Cert.KernelIdeal Cert.KernelIdeal.Gen
open Cert.KernelIdeal.KReadDefs Cert.KernelIdeal.KEnv Idealize.ShloMosaic.StableHlo

variable {F : FTy → Type} [FloatOps F] [Named F]
variable (m : (ℓ : Loc nD τ sig) → Buf (Elt F) ℓ) (ρ : Dev nD → PrngReg)

/-! ## Layer 1 -/

/-- Every edge's message before clipping: the source node's row plus the edge's features. -/
theorem msg_1 (c : Dev nD) : W7 m ρ c (Proc.devRef .tc main_v42)
    = addf (Host.gather gather_S50000x128_S500000x1_S500000x128_1_0_n_n_0_1_1128 (W6 m ρ c (Proc.devRef .tc main_v34))
          (broadcastInDim S500000x1 ![0] bcast_S500000_S500000x1_0
            (select (cmpi .slt (W6 m ρ c (Proc.devRef .tc main_v1)) (broadcastInDim S500000 ![] bcast_S_S500000 (constantI S_ 32 0#32)))
              (addi (W6 m ρ c (Proc.devRef .tc main_v1)) (broadcastInDim S500000 ![] bcast_S_S500000 (constantI S_ 32 50000#32))) (W6 m ρ c (Proc.devRef .tc main_v1)))))
        (W6 m ρ c (Proc.devRef .tc main_arg2)) := by
  show StableHlo.after hostOps2 (W6 m ρ c) (Proc.devRef .tc main_v42) = _
  generalize W6 m ρ c = E
  simp only [hostOps2]
  after_results_simp
  all_goals rfl

/-- The messages clipped below at zero. -/
theorem relu_1 (c : Dev nD) : W8 m ρ c (Proc.devRef .tc main_v43)
    = maximumf (W7 m ρ c (Proc.devRef .tc main_v42)) (broadcastInDim S500000x128 ![] bcast_S_S500000x128 (constant S_ .f32 0x00000000#32)) := by
  show StableHlo.after hostOps2_1 (W7 m ρ c) (Proc.devRef .tc main_v43) = _
  generalize W7 m ρ c = E
  simp only [hostOps2_1]
  after_results_simp
  all_goals rfl

/-- The clipped messages added up at the destination nodes, from an all-zero array. -/
theorem scat_1 (c : Dev nD) : W9 m ρ c (Proc.devRef .tc main_v46)
    = Host.scatterAdd scatter_S50000x128_S500000x1_S500000x128_1_0_0_1
        (broadcastInDim S50000x128 ![] bcast_S_S50000x128 (constant S_ .f32 0x00000000#32))
        (broadcastInDim S500000x1 ![0] bcast_S500000_S500000x1_0 (W8 m ρ c (Proc.devRef .tc main_v3)))
        (W8 m ρ c (Proc.devRef .tc main_v43)) := by
  show StableHlo.after hostOps2_2 (W8 m ρ c) (Proc.devRef .tc main_v46) = _
  generalize W8 m ρ c = E
  simp only [hostOps2_2]
  after_results_simp
  all_goals rfl

/-- Slice 1 of the narrow-format weights as a [128, 128] array. -/
theorem wsl_1 (c : Dev nD) : W9 m ρ c (Proc.devRef .tc main_v48)
    = shapeCast S128x128 (extractStridedSlice S1x128x128 ![1, 0, 0] (W8 m ρ c (Proc.devRef .tc main_v4)) slices_S4x128x128_S1x128x128_1_0_0) shapeCasts_S1x128x128_S128x128 := by
  show StableHlo.after hostOps2_2 (W8 m ρ c) (Proc.devRef .tc main_v48) = _
  generalize W8 m ρ c = E
  simp only [hostOps2_2]
  after_results_simp
  all_goals rfl

/-- `main_v3` is not written by the layer's first two stretches. -/
theorem dstK_1 (c : Dev nD) : W8 m ρ c (Proc.devRef .tc main_v3) = W6 m ρ c (Proc.devRef .tc main_v3) :=
  calc W8 m ρ c (Proc.devRef .tc main_v3)
    _ = W7 m ρ c (Proc.devRef .tc main_v3) := StableHlo.after_of_forall_not_mem (b := Proc.devRef .tc main_v3) _ _ (by not_written)
    _ = W6 m ρ c (Proc.devRef .tc main_v3) := StableHlo.after_of_forall_not_mem (b := Proc.devRef .tc main_v3) _ _ (by not_written)

/-- `main_v4` is not written by the layer's first two stretches. -/
theorem wtsK_1 (c : Dev nD) : W8 m ρ c (Proc.devRef .tc main_v4) = W6 m ρ c (Proc.devRef .tc main_v4) :=
  calc W8 m ρ c (Proc.devRef .tc main_v4)
    _ = W7 m ρ c (Proc.devRef .tc main_v4) := StableHlo.after_of_forall_not_mem (b := Proc.devRef .tc main_v4) _ _ (by not_written)
    _ = W6 m ρ c (Proc.devRef .tc main_v4) := StableHlo.after_of_forall_not_mem (b := Proc.devRef .tc main_v4) _ _ (by not_written)

/-- The aggregated messages at the first launch's entry, from the contents at the layer's start. -/
theorem agg_read_1 (c : Dev nD) : W9 m ρ c (Proc.devRef .tc main_v46)
    = aggK (W6 m ρ c (Proc.devRef .tc main_v34)) (W6 m ρ c (Proc.devRef .tc main_v1)) (W6 m ρ c (Proc.devRef .tc main_v3)) (W6 m ρ c (Proc.devRef .tc main_arg2)) := by
  rw [scat_1 m ρ c, relu_1 m ρ c, msg_1 m ρ c, dstK_1 m ρ c]
  rfl

/-- The layer's weight matrix at the first launch's entry: slice 1 of the weights, as a [128, 128] array. -/
theorem w_read_1 (c : Dev nD) : W9 m ρ c (Proc.devRef .tc main_v48)
    = shapeCast S128x128 (extractStridedSlice S1x128x128 ![1, 0, 0] (W6 m ρ c (Proc.devRef .tc main_v4)) slices_S4x128x128_S1x128x128_1_0_0) shapeCasts_S1x128x128_S128x128 := by
  rw [wsl_1 m ρ c, wtsK_1 m ρ c]

/-- The column sums at the second launch's entry. -/
theorem s_read_1 (c : Dev nD) : W11 m ρ c (Proc.devRef .tc main_v53)
    = totK (W10 m ρ c (Proc.devRef .tc main_v49_1)) := by
  show StableHlo.after hostOps3 (W10 m ρ c) (Proc.devRef .tc main_v53) = _
  generalize W10 m ρ c = E
  simp only [hostOps3]
  after_results_simp
  all_goals rfl

/-- The column sums of squares at the second launch's entry. -/
theorem ss_read_1 (c : Dev nD) : W11 m ρ c (Proc.devRef .tc main_v57)
    = totK (W10 m ρ c (Proc.devRef .tc main_v49_2)) := by
  show StableHlo.after hostOps3 (W10 m ρ c) (Proc.devRef .tc main_v57) = _
  generalize W10 m ρ c = E
  simp only [hostOps3]
  after_results_simp
  all_goals rfl

/-- The layer's scale row at the second launch's entry: row 1 of the scale table, as a [1, 128] array. -/
theorem gamma_read_1 (c : Dev nD) : W11 m ρ c (Proc.devRef .tc main_v60)
    = shapeCast S1x128 (shapeCast S128 (extractStridedSlice S1x128 ![1, 0] (W10 m ρ c (Proc.devRef .tc main_arg5)) slices_S4x128_S1x128_1_0) shapeCasts_S1x128_S128) shapeCasts_S128_S1x128 := by
  show StableHlo.after hostOps3 (W10 m ρ c) (Proc.devRef .tc main_v60) = _
  generalize W10 m ρ c = E
  simp only [hostOps3]
  after_results_simp
  all_goals rfl

/-- The layer's shift row at the second launch's entry: row 1 of the shift table, as a [1, 128] array. -/
theorem beta_read_1 (c : Dev nD) : W11 m ρ c (Proc.devRef .tc main_v63)
    = shapeCast S1x128 (shapeCast S128 (extractStridedSlice S1x128 ![1, 0] (W10 m ρ c (Proc.devRef .tc main_arg6)) slices_S4x128_S1x128_1_0) shapeCasts_S1x128_S128) shapeCasts_S128_S1x128 := by
  show StableHlo.after hostOps3 (W10 m ρ c) (Proc.devRef .tc main_v63) = _
  generalize W10 m ρ c = E
  simp only [hostOps3]
  after_results_simp
  all_goals rfl

end Cert.KernelIdeal.KRead1

end
-- ==== Proof.KB2.lean ====
/-
  The matrix-product region of the second layer, read by coordinates.

  The region walks the 50000 rows in 10 tiles of 5000. On each tile it forms (x + agg) · W, clips it below at zero,
  stores the tile, and stores the tile's column sums and the column sums of its squares on the 8 rows of a partial
  block. Here the three arrays the region leaves are given as functions of the arrays it finds: row p of the product
  array is row p mod 5000 of tile p / 5000, so the array is the clipped product of the whole arrays; rows 8t .. 8t+7
  of the two partial arrays all hold the sums over tile t.
-/
import proofs.«120676_j3582002725394_2_alg».proof.Proof.Gen.KernelIdeal.Frame
import proofs.«120676_j3582002725394_2_alg».proof.Proof.Spec
import proofs.«120676_j3582002725394_2_alg».proof.Proof.LibPlainDot
import proofs.«120676_j3582002725394_2_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KB2

open Cert.KernelIdeal Cert.KernelIdeal.Gen Idealize.ShloMosaic Idealize.ShloMosaic.ValueIdx Idealize.ShloMosaic.TcCoe Idealize.SL.Sem
open Idealize.ShloMosaic.Pipeline (Dat)

/-! ## One tile's stored values at an index -/

/-- The product's dimension numbers are those of a plain [5000,128] by [128,128] product. -/
theorem plain_dims : Cert.PlainDot.IsPlain dot_S5000x128_S128x128_S5000x128_1_0_0_1_n_n := ⟨rfl, rfl, rfl, rfl, rfl, rfl⟩

/-- One tile's stored value at row p, column q: the tile of x plus the tile of agg, times W, clipped below at zero. -/
theorem pay1_apply (x0 x1 : FVec Ideal S5000x128 .f32) (x2 : FVec Ideal S128x128 .bf16) (p : Fin 5000) (q : Fin 128) :
    k2_pay1 (F := Ideal) x0 x1 x2 (ix2 p q) = max (∑ k : Fin 128, (x0 (ix2 p k) + x1 (ix2 p k)) * x2 (ix2 k q)) 0 := by
  unfold k2_pay1
  simp only [shapeCast_self]
  refine (maximumf_apply _ _ (ix2 p q)).trans ?_
  refine congrArg₂ max ?_ ?_
  · exact Cert.PlainDot.matmul_apply dot_S5000x128_S128x128_S5000x128_1_0_0_1_n_n plain_dims none _ _ p q
  · exact Ideal.ofBits_zero_f32

/-- The first partial-sum payload at (r, q): the tile's column q summed over its 5000 rows, on each of the 8 rows. -/
theorem pay2_apply (x0 x1 : FVec Ideal S5000x128 .f32) (x2 : FVec Ideal S128x128 .bf16) (r : Fin 8) (q : Fin 128) :
    k2_pay2 (F := Ideal) x0 x1 x2 (ix2 r q) = ∑ p : Fin 5000, k2_pay1 (F := Ideal) x0 x1 x2 (ix2 p q) := by
  unfold k2_pay2
  dsimp only
  rw [shapeCast_self]
  refine (broadcastTo_1b_ab_apply _ _ r q).trans ?_
  refine (shapeCast_a_1a_apply _ _ (0 : Fin 1) q).trans ?_
  exact Cert.Lib.column_sum _ _ _ _ q

/-- The second partial-sum payload at (r, q): the squares of the tile's column q summed over its 5000 rows. -/
theorem pay3_apply (x0 x1 : FVec Ideal S5000x128 .f32) (x2 : FVec Ideal S128x128 .bf16) (r : Fin 8) (q : Fin 128) :
    k2_pay3 (F := Ideal) x0 x1 x2 (ix2 r q)
      = ∑ p : Fin 5000, k2_pay1 (F := Ideal) x0 x1 x2 (ix2 p q) * k2_pay1 (F := Ideal) x0 x1 x2 (ix2 p q) := by
  unfold k2_pay3
  dsimp only
  rw [shapeCast_self]
  refine (broadcastTo_1b_ab_apply _ _ r q).trans ?_
  refine (shapeCast_a_1a_apply _ _ (0 : Fin 1) q).trans ?_
  exact Cert.Lib.column_sum _ _ _ _ q

/-! ## The arrays the region finds, and what it leaves, by coordinates -/

variable (V : (c : Dev nD) → (b : Ref sig .tc) → Buf (Elt Ideal) ((c : Thread nD τ).loc b)) (c : Dev nD)

/-- The node array as the region finds it. -/
abbrev X : Spec.Mat 50000 128 := Spec.cur (φ := .f32) (V c (Pipeline.arrRef spec2 0) : S50000x128.Idx → EReal)

/-- The aggregated messages as the region finds them. -/
abbrev A : Spec.Mat 50000 128 := Spec.cur (φ := .f32) (V c (Pipeline.arrRef spec2 1) : S50000x128.Idx → EReal)

/-- The layer's weights as the region finds them. -/
abbrev W : Spec.Mat 128 128 := Spec.cur (φ := .bf16) (V c (Pipeline.arrRef spec2 2) : S128x128.Idx → EReal)

/-- The clipped product (x + agg) · W of the whole arrays. -/
abbrev P : Spec.Mat 50000 128 := Spec.act (Spec.lin (X V c) (A V c) (W V c))

/-- The sum of column q over the 5000 rows of the tile that partial row r belongs to (tile r / 8). -/
abbrev tileSum (h : Spec.Mat 50000 128) : Spec.Mat 80 128 :=
  fun r q => ∑ p' : Fin 5000, h ⟨5000 * (r.val / 8) + p'.val, by omega⟩ q

/-- The product array the region leaves. -/
abbrev preArr : S50000x128.Idx → EReal := Spec.unc (φ := .f32) (P V c)

/-- The array of partial column sums the region leaves. -/
abbrev sumArr : S80x128.Idx → EReal := Spec.unc (φ := .f32) (tileSum (P V c))

/-- The array of partial column sums of squares the region leaves. -/
abbrev sumsqArr : S80x128.Idx → EReal := Spec.unc (φ := .f32) (tileSum (Spec.sq (P V c)))

theorem zero_offsets : (![0, 0] : Fin 2 → Nat) = fun _ => 0 := funext fun a => by fin_cases a <;> rfl

/-- The printed index maps over the 10 grid points: the row tiles and the partial blocks move with the point, the
    weights stay. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The input blocks at a point are rows of the whole arrays -/

/-- Row p' of the node array's tile t is row 5000 t + p' of the node array. -/
theorem x_block (t : Fin cfg2.N) (p' : Fin 5000) (k : Fin 128) (h : 5000 * t.val + p'.val < 50000) :
    (iblk2 V c 0 t : FVec Ideal S5000x128 .f32) (ix2 p' k) = X V c ⟨5000 * t.val + p'.val, h⟩ k := by
  obtain ⟨e0, e1, -⟩ := index_facts t
  unfold iblk2
  rw [View.read_apply]
  show (V c (Pipeline.arrRef spec2 0) : S50000x128.Idx → EReal) _
    = (V c (Pipeline.arrRef spec2 0) : S50000x128.Idx → EReal) (ix2 (⟨5000 * t.val + p'.val, h⟩ : Fin 50000) k)
  refine congrArg _ (funext fun a => Fin.ext ?_)
  match a with
  | ⟨0, _⟩ => show win2_0.index t (0 : Fin 2) * 5000 + 1 * p'.val = 5000 * t.val + p'.val; omega
  | ⟨1, _⟩ => show win2_0.index t (1 : Fin 2) * 128 + 1 * k.val = k.val; omega

/-- Row p' of the aggregated messages' tile t is row 5000 t + p' of that array. -/
theorem a_block (t : Fin cfg2.N) (p' : Fin 5000) (k : Fin 128) (h : 5000 * t.val + p'.val < 50000) :
    (iblk2 V c 1 t : FVec Ideal S5000x128 .f32) (ix2 p' k) = A V c ⟨5000 * t.val + p'.val, h⟩ k := by
  obtain ⟨-, -, e0, e1, -⟩ := index_facts t
  unfold iblk2
  rw [View.read_apply]
  show (V c (Pipeline.arrRef spec2 1) : S50000x128.Idx → EReal) _
    = (V c (Pipeline.arrRef spec2 1) : S50000x128.Idx → EReal) (ix2 (⟨5000 * t.val + p'.val, h⟩ : Fin 50000) k)
  refine congrArg _ (funext fun a => Fin.ext ?_)
  match a with
  | ⟨0, _⟩ => show win2_1.index t (0 : Fin 2) * 5000 + 1 * p'.val = 5000 * t.val + p'.val; omega
  | ⟨1, _⟩ => show win2_1.index t (1 : Fin 2) * 128 + 1 * k.val = k.val; omega

/-- The weights' block at every point is the whole weight array. -/
theorem w_block (t : Fin cfg2.N) (k q : Fin 128) :
    (iblk2 V c 2 t : FVec Ideal S128x128 .bf16) (ix2 k q) = W V c k q := by
  obtain ⟨-, -, -, -, e0, e1, -⟩ := index_facts t
  unfold iblk2
  rw [View.read_apply]
  show (V c (Pipeline.arrRef spec2 2) : S128x128.Idx → EReal) _
    = (V c (Pipeline.arrRef spec2 2) : S128x128.Idx → EReal) (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- What point t stores at row p' of its tile is the clipped product at row 5000 t + p'. -/
theorem pre_block (t : Fin cfg2.N) (p' : Fin 5000) (q : Fin 128) (h : 5000 * t.val + p'.val < 50000) :
    k2_pay1 (F := Ideal) (iblk2 V c 0 t) (iblk2 V c 1 t) (iblk2 V c 2 t) (ix2 p' q) = P V c ⟨5000 * t.val + p'.val, h⟩ q := by
  refine (pay1_apply (iblk2 V c 0 t) (iblk2 V c 1 t) (iblk2 V c 2 t) p' q).trans ?_
  show max (∑ k : Fin 128, _) 0
    = max (∑ k : Fin 128, (X V c ⟨5000 * t.val + p'.val, h⟩ k + A V c ⟨5000 * t.val + p'.val, h⟩ k) * W V c k q) 0
  refine congrArg (fun s => max s 0) (Finset.sum_congr rfl fun k _ => ?_)
  exact congrArg₂ (· * ·) (congrArg₂ (· + ·) (x_block V c t p' k h) (a_block V c t p' k h)) (w_block V c t k q)

/-! ## What each point writes back -/

/-- Point t writes back block t of the product array. -/
theorem pre_flushed (t : Fin cfg2.N) :
    (dat2 (F := Ideal) V c).flushed 3 t = ((cfg2.win 3).blk t).view.read (Elt Ideal) (preArr V c) := by
  have hN : cfg2.N = 10 := N_2
  obtain ⟨-, -, -, -, -, -, e0, e1, -⟩ := index_facts t
  show (cfg2.win 3).cut (grid2.coords t) ((dat2 (F := Ideal) V c).after 3 t) = _
  rw [after2_3]
  unfold out2_3
  rw [View.canon_unit_zero zero_offsets]
  simp only [View.ld_unit_zero (S := S5000x128) zero_offsets, View.ld_unit_zero (S := S128x128) zero_offsets]
  funext j
  obtain ⟨p', q, rfl⟩ : ∃ (p' : Fin 5000) (q : Fin 128), j = ix2 p' q := ⟨j 0, j 1, eq_ix2 j⟩
  have hp : 5000 * t.val + p'.val < 50000 := by have := t.isLt; omega
  have he : ((cfg2.win 3).blk t).view.emb (ix2 p' q) = ix2 (⟨5000 * t.val + p'.val, hp⟩ : Fin 50000) q := by
    funext a; apply Fin.ext
    match a with
    | ⟨0, _⟩ => show win2_3.index t (0 : Fin 2) * 5000 + 1 * p'.val = 5000 * t.val + p'.val; omega
    | ⟨1, _⟩ => show win2_3.index t (1 : Fin 2) * 128 + 1 * q.val = q.val; omega
  show k2_pay1 (F := Ideal) (iblk2 V c 0 t) (iblk2 V c 1 t) (iblk2 V c 2 t) (ix2 p' q)
    = preArr V c (((cfg2.win 3).blk t).view.emb (ix2 p' q))
  exact (pre_block V c t p' q hp).trans (congrArg (preArr V c) he).symm

/-- Point t writes back block t of the array of partial column sums. -/
theorem sum_flushed (t : Fin cfg2.N) :
    (dat2 (F := Ideal) V c).flushed 4 t = ((cfg2.win 4).blk t).view.read (Elt Ideal) (sumArr V c) := by
  have hN : cfg2.N = 10 := N_2
  obtain ⟨-, -, -, -, -, -, -, -, e0, e1, -⟩ := index_facts t
  show (cfg2.win 4).cut (grid2.coords t) ((dat2 (F := Ideal) V c).after 4 t) = _
  rw [after2_4]
  unfold out2_4
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg2.win 4).blk t).view.emb (ix2 r' q) = ix2 (⟨8 * t.val + r'.val, hr⟩ : Fin 80) q := by
    funext a; apply Fin.ext
    match a with
    | ⟨0, _⟩ => show win2_4.index t (0 : Fin 2) * 8 + 1 * r'.val = 8 * t.val + r'.val; omega
    | ⟨1, _⟩ => show win2_4.index t (1 : Fin 2) * 128 + 1 * q.val = q.val; omega
  show k2_pay2 (F := Ideal) (iblk2 V c 0 t) (iblk2 V c 1 t) (iblk2 V c 2 t) (ix2 r' q)
    = sumArr V c (((cfg2.win 4).blk t).view.emb (ix2 r' q))
  refine ((pay2_apply (iblk2 V c 0 t) (iblk2 V c 1 t) (iblk2 V c 2 t) r' q).trans ?_).trans (congrArg (sumArr V c) he).symm
  show ∑ p' : Fin 5000, _ = ∑ p' : Fin 5000, P V c ⟨5000 * ((8 * t.val + r'.val) / 8) + p'.val, _⟩ q
  refine Finset.sum_congr rfl fun p' _ => ?_
  have hp : 5000 * t.val + p'.val < 50000 := by have := t.isLt; omega
  refine (pre_block V c t p' q hp).trans (congrArg (fun z => P V c z q) (Fin.ext ?_))
  show 5000 * t.val + p'.val = 5000 * ((8 * t.val + r'.val) / 8) + p'.val
  omega

/-- Point t writes back block t of the array of partial column sums of squares. -/
theorem sumsq_flushed (t : Fin cfg2.N) :
    (dat2 (F := Ideal) V c).flushed 5 t = ((cfg2.win 5).blk t).view.read (Elt Ideal) (sumsqArr V c) := by
  have hN : cfg2.N = 10 := N_2
  obtain ⟨-, -, -, -, -, -, -, -, -, -, e0, e1⟩ := index_facts t
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg2.win 5).blk t).view.emb (ix2 r' q) = ix2 (⟨8 * t.val + r'.val, hr⟩ : Fin 80) q := by
    funext a; apply Fin.ext
    match a with
    | ⟨0, _⟩ => show win2_5.index t (0 : Fin 2) * 8 + 1 * r'.val = 8 * t.val + r'.val; omega
    | ⟨1, _⟩ => show win2_5.index t (1 : Fin 2) * 128 + 1 * q.val = q.val; omega
  show k2_pay3 (F := Ideal) (iblk2 V c 0 t) (iblk2 V c 1 t) (iblk2 V c 2 t) (ix2 r' q)
    = sumsqArr V c (((cfg2.win 5).blk t).view.emb (ix2 r' q))
  refine ((pay3_apply (iblk2 V c 0 t) (iblk2 V c 1 t) (iblk2 V c 2 t) r' q).trans ?_).trans (congrArg (sumsqArr V c) he).symm
  show ∑ p' : Fin 5000, _ = ∑ p' : Fin 5000, Spec.sq (P V c) ⟨5000 * ((8 * t.val + r'.val) / 8) + p'.val, _⟩ q
  refine Finset.sum_congr rfl fun p' _ => ?_
  have hp : 5000 * t.val + p'.val < 50000 := by have := t.isLt; omega
  have hz : (⟨5000 * t.val + p'.val, hp⟩ : Fin 50000) = ⟨5000 * ((8 * t.val + r'.val) / 8) + p'.val, by omega⟩ :=
    Fin.ext (by show 5000 * t.val + p'.val = 5000 * ((8 * t.val + r'.val) / 8) + p'.val; omega)
  have e := (pre_block V c t p' q hp).trans (congrArg (fun z => P V c z q) hz)
  exact congrArg₂ (· * ·) e e

/-! ## The blocks cover the arrays -/

/-- An index of the product array is in point t's block iff each coordinate is in the block's range on its axis. -/
theorem mem_pre_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v49_0).slice (win2_3.rect t)).set ↔ _
  rw [View.set_slice_whole, Rect.mem_set_unit]
  exact Iff.rfl

/-- Row p of the product array is in the block of point p / 5000. -/
theorem pre_cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1, -⟩ := index_facts t
  refine ⟨t, flush2_3 t, ?_⟩
  rw [mem_pre_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- An index of the partial-sum array is in point t's block iff each coordinate is in the block's range on its axis. -/
theorem mem_sum_blk (t : Fin cfg2.N) (i : S80x128.Idx) :
    i ∈ ((cfg2.win 4).blk t).view.set ↔ ∀ a : Fin 2, win2_4.index t a * S8x128.size a ≤ (i a).val ∧ (i a).val < win2_4.index t a * S8x128.size a + S8x128.size a := by
  show i ∈ ((View.whole main_v49_1).slice (win2_4.rect t)).set ↔ _
  rw [View.set_slice_whole, Rect.mem_set_unit]
  exact Iff.rfl

/-- Row r of the partial-sum array is in the block of point r / 8. -/
theorem sum_cover (i : S80x128.Idx) :
    ∃ t : Fin cfg2.N, (cfg2.win 4).flush t = true ∧ i ∈ ((cfg2.win 4).blk t).view.set := by
  have hi0 : (i 0).val < 80 := (i 0).isLt
  have hi1 : (i 1).val < 128 := (i 1).isLt
  have hN : cfg2.N = 10 := N_2
  obtain ⟨t, ht⟩ : ∃ t : Fin cfg2.N, t.val = (i 0).val / 8 := ⟨⟨(i 0).val / 8, by rw [hN]; omega⟩, rfl⟩
  obtain ⟨-, -, -, -, -, -, -, -, e0, e1, -⟩ := index_facts t
  refine ⟨t, flush2_4 t, ?_⟩
  rw [mem_sum_blk]
  intro a
  match a with
  | ⟨0, _⟩ => show win2_4.index t (0 : Fin 2) * 8 ≤ (i 0).val ∧ (i 0).val < win2_4.index t (0 : Fin 2) * 8 + 8; omega
  | ⟨1, _⟩ => show win2_4.index t (1 : Fin 2) * 128 ≤ (i 1).val ∧ (i 1).val < win2_4.index t (1 : Fin 2) * 128 + 128; omega

/-- The same for the array of partial sums of squares. -/
theorem mem_sumsq_blk (t : Fin cfg2.N) (i : S80x128.Idx) :
    i ∈ ((cfg2.win 5).blk t).view.set ↔ ∀ a : Fin 2, win2_5.index t a * S8x128.size a ≤ (i a).val ∧ (i a).val < win2_5.index t a * S8x128.size a + S8x128.size a := by
  show i ∈ ((View.whole main_v49_2).slice (win2_5.rect t)).set ↔ _
  rw [View.set_slice_whole, Rect.mem_set_unit]
  exact Iff.rfl

theorem sumsq_cover (i : S80x128.Idx) :
    ∃ t : Fin cfg2.N, (cfg2.win 5).flush t = true ∧ i ∈ ((cfg2.win 5).blk t).view.set := by
  have hi0 : (i 0).val < 80 := (i 0).isLt
  have hi1 : (i 1).val < 128 := (i 1).isLt
  have hN : cfg2.N = 10 := N_2
  obtain ⟨t, ht⟩ : ∃ t : Fin cfg2.N, t.val = (i 0).val / 8 := ⟨⟨(i 0).val / 8, by rw [hN]; omega⟩, rfl⟩
  obtain ⟨-, -, -, -, -, -, -, -, -, -, e0, e1⟩ := index_facts t
  refine ⟨t, flush2_5 t, ?_⟩
  rw [mem_sumsq_blk]
  intro a
  match a with
  | ⟨0, _⟩ => show win2_5.index t (0 : Fin 2) * 8 ≤ (i 0).val ∧ (i 0).val < win2_5.index t (0 : Fin 2) * 8 + 8; omega
  | ⟨1, _⟩ => show win2_5.index t (1 : Fin 2) * 128 ≤ (i 1).val ∧ (i 1).val < win2_5.index t (1 : Fin 2) * 128 + 128; omega

/-! ## The arrays after the region -/

/-- The product array after the region. -/
theorem pre_final : (dat2 (F := Ideal) V c).arrAt 3 cfg2.N = preArr V c :=
  (dat2 (F := Ideal) V c).arrAt_eq_of_cover 3 (preArr V c) (fun t _ => pre_flushed V c t) pre_cover

/-- The array of partial column sums after the region. -/
theorem sum_final : (dat2 (F := Ideal) V c).arrAt 4 cfg2.N = sumArr V c :=
  (dat2 (F := Ideal) V c).arrAt_eq_of_cover 4 (sumArr V c) (fun t _ => sum_flushed V c t) sum_cover

/-- The array of partial column sums of squares after the region. -/
theorem sumsq_final : (dat2 (F := Ideal) V c).arrAt 5 cfg2.N = sumsqArr V c :=
  (dat2 (F := Ideal) V c).arrAt_eq_of_cover 5 (sumsqArr V c) (fun t _ => sumsq_flushed V c t) sumsq_cover

/-- Entry (p, q) of the product array after the region is the clipped product (x + agg) · W at (p, q). -/
theorem pre_arr (p : Fin 50000) (q : Fin 128) :
    ((dat2 (F := Ideal) V c).arrAt 3 cfg2.N : S50000x128.Idx → EReal) (ix2 p q) = P V c p q :=
  congrFun (pre_final V c) (ix2 p q)

/-- Entry (r, q) of the partial-sum array after the region is column q of the clipped product summed over the 5000
    rows of tile r / 8. -/
theorem sum_arr (r : Fin 80) (q : Fin 128) :
    ((dat2 (F := Ideal) V c).arrAt 4 cfg2.N : S80x128.Idx → EReal) (ix2 r q)
      = ∑ p' : Fin 5000, P V c ⟨5000 * (r.val / 8) + p'.val, by omega⟩ q :=
  congrFun (sum_final V c) (ix2 r q)

/-- Entry (r, q) of the other partial array after the region is the same sum of the squares. -/
theorem sumsq_arr (r : Fin 80) (q : Fin 128) :
    ((dat2 (F := Ideal) V c).arrAt 5 cfg2.N : S80x128.Idx → EReal) (ix2 r q)
      = ∑ p' : Fin 5000, Spec.sq (P V c) ⟨5000 * (r.val / 8) + p'.val, by omega⟩ q :=
  congrFun (sumsq_final V c) (ix2 r q)

end Cert.KernelIdeal.KB2

end
-- ==== Proof.KC3.lean ====
/-
  The normalise-and-add-back region, read off its pipeline: what the output array holds after the
  region's five grid points, as one function of the arrays the region finds, coordinate by coordinate.

  The body at a grid point loads a block of 10000 rows of the pre-activation array and of the layer's input, and
  the four `[1,128]` rows (column sums, column sums of squares, scale, shift) whole; it forms, per column `q`, the
  mean `s q · (1/50000)`, the one-pass variance `ss q · (1/50000) - mean²`, and stores
  `(h - mean) · rsqrt(var + ε) · γ q + β q + prev` for every entry of the block.  Block `t` is rows
  `10000·t … 10000·t + 9999`; the five blocks tile the `50000` rows, so the array ends holding that formula at
  every row.
-/
import proofs.«120676_j3582002725394_2_alg».proof.Proof.Gen.KernelIdeal.Frame
import proofs.«120676_j3582002725394_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KC3

open Idealize.ShloMosaic Idealize.ShloMosaic.TcCoe Idealize.ShloMosaic.ValueIdx Idealize.SL.Sem
open Idealize.ShloMosaic.Pipeline (Dat)
open Cert.KernelIdeal Cert.KernelIdeal.Gen

/-! ## The body's stored value at an entry of the block -/

/-- The named reciprocal of the row count is the rational `1/50000` on the extended reals. -/
theorem inv_n : Named.named (F := Ideal) Cert.KernelIdeal.κ "inv_50000" (φ := .f32) 0x37A7C5AC#32 = Spec.invN :=
  IdealRules.named_const.ideal_named_scalar _ _ _ _ rfl

/-- A `[1,128]` row stretched over `10000` rows reads, at row `p` and column `q`, the row's entry at column `q`. -/
theorem row_stretch (v : FVec Ideal S1x128 .f32) (p : Fin 10000) (q : Fin 128) :
    broadcastTo S10000x128 v broadcasts_S1x128_S10000x128 (ix2 p q) = v (ix2 0 q) := by
  refine broadcastTo_apply v _ (ix2 p q) (ix2 0 q) fun a => ?_
  match a with
  | ⟨0, _⟩ => rfl
  | ⟨1, _⟩ => rfl

/-- The stored block at row `p`, column `q`: the entry less the column's mean, times the reciprocal square root of
    the column's one-pass variance plus `ε`, times the scale, plus the shift, plus the layer's input. -/
theorem pay_apply (v0 v4 v19 v23 : Vec Ideal S1x128 .f32) (v13 v27 : Vec Ideal S10000x128 .f32)
    (p : Fin 10000) (q : Fin 128) :
    k3_pay1 (F := Ideal) v0 v4 v13 v19 v23 v27 (ix2 p q)
      = (v13 (ix2 p q) - v0 (ix2 0 q) * Spec.invN)
          * Ideal.rsqrt ((v4 (ix2 0 q) * Spec.invN - v0 (ix2 0 q) * Spec.invN * (v0 (ix2 0 q) * Spec.invN)) + Spec.eps)
          * v19 (ix2 0 q) + v23 (ix2 0 q) + v27 (ix2 p q) := by
  unfold k3_pay1
  simp only [shapeCast_self, addf_apply, mulf_apply, subf_apply, row_stretch, broadcast_apply, inv_n]
  rfl

/-! ## The closed form -/

section Region

variable (V : (c : Dev nD) → (b : Ref sig .tc) → Buf (Elt Ideal) ((c : Thread nD τ).loc b))

/-- The pre-activation array the region finds, by coordinates. -/
abbrev pre (c : Dev nD) : Spec.Mat 50000 128 :=
  Spec.cur (a := 50000) (b := 128) (φ := .f32) (V c (Pipeline.arrRef spec3 0))
/-- The layer's input the region finds, by coordinates. -/
abbrev prev (c : Dev nD) : Spec.Mat 50000 128 :=
  Spec.cur (a := 50000) (b := 128) (φ := .f32) (V c (Pipeline.arrRef spec3 5))
/-- The row of column sums the region finds. -/
abbrev rowS (c : Dev nD) : Fin 128 → EReal := fun q => (V c (Pipeline.arrRef spec3 1) : S1x128.Idx → EReal) (ix2 0 q)
/-- The row of column sums of squares the region finds. -/
abbrev rowSS (c : Dev nD) : Fin 128 → EReal := fun q => (V c (Pipeline.arrRef spec3 2) : S1x128.Idx → EReal) (ix2 0 q)
/-- The scale row the region finds. -/
abbrev rowG (c : Dev nD) : Fin 128 → EReal := fun q => (V c (Pipeline.arrRef spec3 3) : S1x128.Idx → EReal) (ix2 0 q)
/-- The shift row the region finds. -/
abbrev rowB (c : Dev nD) : Fin 128 → EReal := fun q => (V c (Pipeline.arrRef spec3 4) : S1x128.Idx → EReal) (ix2 0 q)

/-- The normalised, scaled, shifted entry with the input added back, from a row of sums `s` and a row of sums of
    squares `ss`. -/
def norm (H : Spec.Mat 50000 128) (s ss g b : Fin 128 → EReal) (R : Spec.Mat 50000 128) : Spec.Mat 50000 128 :=
  fun p q => (H p q - s q * Spec.invN)
    * Ideal.rsqrt ((ss q * Spec.invN - s q * Spec.invN * (s q * Spec.invN)) + Spec.eps) * g q + b q + R p q

/-- What the output array ends holding, as an array. -/
def outFn (c : Dev nD) : S50000x128.Idx → EReal :=
  Spec.unc (a := 50000) (b := 128) (φ := .f32)
    (norm (pre V c) (rowS V c) (rowSS V c) (rowG V c) (rowB V c) (prev V c))

/-! ## The blocks -/

theorem zero_off : (![0, 0] : Fin 2 → Nat) = fun _ => 0 := funext fun a => by fin_cases a <;> rfl

/-- The index maps, decided over the five grid points: the row-tiled windows sit at block `(t, 0)`, the whole rows at
    block `(0, 0)`. -/
theorem index_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of block `t` of the pre-activation array is row `10000·t + p` of the array. -/
theorem blk_pre (c : Dev nD) (t : Fin cfg3.N) (p : Fin 10000) (q : Fin 128) (P : Fin 50000)
    (hP : P.val = t.val * 10000 + p.val) :
    (iblk3 V c 0 t : Vec Ideal S10000x128 .f32) (ix2 p q) = pre V c P q := by
  obtain ⟨e0, e1, -⟩ := index_facts t
  unfold iblk3
  rw [View.read_apply]
  show (V c (Pipeline.arrRef spec3 0) : S50000x128.Idx → EReal) _ = (V c (Pipeline.arrRef spec3 0) : S50000x128.Idx → EReal) (ix2 P q)
  congr 1
  funext a
  apply Fin.ext
  match a with
  | ⟨0, _⟩ => show win3_0.index t (0 : Fin 2) * 10000 + 1 * p.val = P.val; rw [e0, hP]; omega
  | ⟨1, _⟩ => show win3_0.index t (1 : Fin 2) * 128 + 1 * q.val = q.val; rw [e1]; omega

/-- Row `p` of block `t` of the layer's input is row `10000·t + p` of the array. -/
theorem blk_prev (c : Dev nD) (t : Fin cfg3.N) (p : Fin 10000) (q : Fin 128) (P : Fin 50000)
    (hP : P.val = t.val * 10000 + p.val) :
    (iblk3 V c 5 t : Vec Ideal S10000x128 .f32) (ix2 p q) = prev V c P q := by
  obtain ⟨-, -, e0, e1, -⟩ := index_facts t
  unfold iblk3
  rw [View.read_apply]
  show (V c (Pipeline.arrRef spec3 5) : S50000x128.Idx → EReal) _ = (V c (Pipeline.arrRef spec3 5) : S50000x128.Idx → EReal) (ix2 P q)
  congr 1
  funext a
  apply Fin.ext
  match a with
  | ⟨0, _⟩ => show win3_5.index t (0 : Fin 2) * 10000 + 1 * p.val = P.val; rw [e0, hP]; omega
  | ⟨1, _⟩ => show win3_5.index t (1 : Fin 2) * 128 + 1 * q.val = q.val; rw [e1]; omega

/-- The block of a whole `[1,128]` row is the row: the sums, -/
theorem blk_s (c : Dev nD) (t : Fin cfg3.N) (q : Fin 128) :
    (iblk3 V c 1 t : Vec Ideal S1x128 .f32) (ix2 0 q) = rowS V c q := by
  obtain ⟨-, -, -, -, -, -, e0, e1, -⟩ := index_facts t
  unfold iblk3
  rw [View.read_apply]
  show (V c (Pipeline.arrRef spec3 1) : S1x128.Idx → EReal) _ = (V c (Pipeline.arrRef spec3 1) : S1x128.Idx → EReal) (ix2 0 q)
  congr 1
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

/-- the sums of squares, -/
theorem blk_ss (c : Dev nD) (t : Fin cfg3.N) (q : Fin 128) :
    (iblk3 V c 2 t : Vec Ideal S1x128 .f32) (ix2 0 q) = rowSS V c q := by
  obtain ⟨-, -, -, -, -, -, -, -, e0, e1, -⟩ := index_facts t
  unfold iblk3
  rw [View.read_apply]
  show (V c (Pipeline.arrRef spec3 2) : S1x128.Idx → EReal) _ = (V c (Pipeline.arrRef spec3 2) : S1x128.Idx → EReal) (ix2 0 q)
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- the scale, -/
theorem blk_g (c : Dev nD) (t : Fin cfg3.N) (q : Fin 128) :
    (iblk3 V c 3 t : Vec Ideal S1x128 .f32) (ix2 0 q) = rowG V c q := by
  obtain ⟨-, -, -, -, -, -, -, -, -, -, e0, e1, -⟩ := index_facts t
  unfold iblk3
  rw [View.read_apply]
  show (V c (Pipeline.arrRef spec3 3) : S1x128.Idx → EReal) _ = (V c (Pipeline.arrRef spec3 3) : S1x128.Idx → EReal) (ix2 0 q)
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- and the shift. -/
theorem blk_b (c : Dev nD) (t : Fin cfg3.N) (q : Fin 128) :
    (iblk3 V c 4 t : Vec Ideal S1x128 .f32) (ix2 0 q) = rowB V c q := by
  obtain ⟨-, -, -, -, -, -, -, -, -, -, -, -, e0, e1⟩ := index_facts t
  unfold iblk3
  rw [View.read_apply]
  show (V c (Pipeline.arrRef spec3 4) : S1x128.Idx → EReal) _ = (V c (Pipeline.arrRef spec3 4) : S1x128.Idx → EReal) (ix2 0 q)
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- What grid point `t` writes back is block `t` of the closed form. -/
theorem flushed_eq (c : Dev nD) (t : Fin cfg3.N) :
    (dat3 (F := Ideal) V c).flushed 6 t = ((cfg3.win 6).blk t).view.read (Elt Ideal) (outFn V c) := by
  show (cfg3.win 6).cut (grid3.coords t) ((dat3 (F := Ideal) V c).after 6 t) = _
  rw [after3_6]
  unfold out3_6
  rw [View.canon_unit_zero zero_off]
  simp only [View.ld_unit_zero (S := S10000x128) zero_off, View.ld_unit_zero (S := S1x128) zero_off]
  obtain ⟨-, -, -, -, e0, e1, -⟩ := index_facts t
  have ht : t.val < 5 := by have h := t.isLt; have hN : cfg3.N = 5 := N_3; omega
  funext j
  obtain ⟨p, q, rfl⟩ : ∃ (p : Fin 10000) (q : Fin 128), j = ix2 p q := ⟨j 0, j 1, eq_ix2 j⟩
  have hp : p.val < 10000 := p.isLt
  refine (pay_apply (iblk3 V c 1 t) (iblk3 V c 2 t) (iblk3 V c 3 t) (iblk3 V c 4 t) (iblk3 V c 0 t) (iblk3 V c 5 t) p q).trans ?_
  rw [blk_pre V c t p q ⟨t.val * 10000 + p.val, by omega⟩ rfl, blk_prev V c t p q ⟨t.val * 10000 + p.val, by omega⟩ rfl,
    blk_s V c t q, blk_ss V c t q, blk_g V c t q, blk_b V c t q]
  show _ = outFn V c (((cfg3.win 6).blk t).view.emb (ix2 p q))
  have hemb : ((cfg3.win 6).blk t).view.emb (ix2 p q) = (ix2 (⟨t.val * 10000 + p.val, by omega⟩ : Fin 50000) q : S50000x128.Idx) := by
    funext a
    apply Fin.ext
    match a with
    | ⟨0, _⟩ => show win3_6.index t (0 : Fin 2) * 10000 + 1 * p.val = t.val * 10000 + p.val; rw [e0]; omega
    | ⟨1, _⟩ => show win3_6.index t (1 : Fin 2) * 128 + 1 * q.val = q.val; rw [e1]; omega
  rw [hemb]
  rfl

/-- Every entry of the array is in the block of the grid point its row falls under. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 5 := N_3
  have hlt : (i 0).val / 10000 < cfg3.N := by rw [hN]; omega
  obtain ⟨t, ht⟩ : ∃ t : Fin cfg3.N, t.val = (i 0).val / 10000 := ⟨⟨_, hlt⟩, rfl⟩
  obtain ⟨-, -, -, -, e0, e1, -⟩ := index_facts t
  refine ⟨t, flush3_6 t, ?_⟩
  show i ∈ ((View.whole main_v64).slice (win3_6.rect t)).set
  rw [View.set_slice_whole, Rect.mem_set_unit]
  intro a
  match a with
  | ⟨0, _⟩ =>
    show win3_6.index t (0 : Fin 2) * 10000 ≤ (i 0).val ∧ (i 0).val < win3_6.index t (0 : Fin 2) * 10000 + 10000
    rw [e0, ht]; omega
  | ⟨1, _⟩ =>
    show win3_6.index t (1 : Fin 2) * 128 ≤ (i 1).val ∧ (i 1).val < win3_6.index t (1 : Fin 2) * 128 + 128
    rw [e1]; omega

/-- The output array after the region is the closed form. -/
theorem out_eq (c : Dev nD) : (dat3 (F := Ideal) V c).arrAt 6 cfg3.N = outFn V c :=
  (dat3 (F := Ideal) V c).arrAt_eq_of_cover 6 (outFn V c) (fun t _ => flushed_eq V c t) (cover)

/-- The output array after the region, entry by entry: the pre-activation less the column's mean `s·(1/50000)`,
    times the reciprocal square root of `ss·(1/50000) - mean² + ε`, times the scale, plus the shift, plus the
    layer's input. -/
theorem out_arr (c : Dev nD) (p : Fin 50000) (q : Fin 128) :
    ((dat3 (F := Ideal) V c).arrAt 6 cfg3.N : S50000x128.Idx → EReal) (ix2 p q)
      = (pre V c p q - rowS V c q * Spec.invN)
          * Ideal.rsqrt ((rowSS V c q * Spec.invN - rowS V c q * Spec.invN * (rowS V c q * Spec.invN)) + Spec.eps)
          * rowG V c q + rowB V c q + prev V c p q := by
  rw [out_eq]
  rfl

end Region

end Cert.KernelIdeal.KC3

end
-- ==== Proof.KLayer1.lean ====
/-
  Layer 1 of the idealized kernel program, from its two launches and the host operations between them.

  The first launch leaves the pre-activation array `max ((x + agg) · W) 0` and, tile by tile, the partial column sums of it
  and of its square; the host adds the partial rows up into the two column totals; the second launch normalises with
  them.  Put together: the array the layer leaves is the one-pass normalisation of the pre-activation array, scaled
  by the layer's row of the scale table, shifted by its row of the shift table, plus the layer's input.
-/
import proofs.«120676_j3582002725394_2_alg».proof.Proof.Gen.KernelIdeal.Frame
import proofs.«120676_j3582002725394_2_alg».proof.Proof.KEnv
import proofs.«120676_j3582002725394_2_alg».proof.Proof.KRead1
import proofs.«120676_j3582002725394_2_alg».proof.Proof.KIndex
import proofs.«120676_j3582002725394_2_alg».proof.Proof.KB2
import proofs.«120676_j3582002725394_2_alg».proof.Proof.KC3
import proofs.«120676_j3582002725394_2_alg».proof.Proof.Spec
import proofs.«120676_j3582002725394_2_alg».proof.Proof.SpecLaws
import proofs.«120676_j3582002725394_2_alg».proof.Proof.SpecTiles
import proofs.«120676_j3582002725394_2_alg».proof.Proof.SpecNorm
import Idealize.ShloMosaic.Lib.ValueIdx
set_option maxRecDepth 16384

noncomputable section

namespace Cert.KernelIdeal.KLayer1

open Idealize.ShloMosaic Idealize.ShloMosaic.TcCoe
open Idealize.SL Idealize.SL.Sem
open Cert.KernelIdeal Cert.KernelIdeal.Gen

open Idealize.ShloMosaic.ValueIdx Cert.Spec
open Cert.KernelIdeal.KEnv Cert.KernelIdeal.KRead1 Cert.KernelIdeal.KReadDefs Cert.KernelIdeal.KIndex

variable (m : (ℓ : Loc nD τ sig) → Buf (Elt Ideal) ℓ) (ρ : Dev nD → PrngReg)

/-- The layer's input array, as the layer's start finds it. -/
abbrev Xin (c : Dev nD) : S50000x128.Idx → EReal := W6 m ρ c (Proc.devRef .tc main_v34)
/-- The aggregated messages of the layer's input. -/
abbrev Agg (c : Dev nD) : S50000x128.Idx → EReal :=
  aggK (F := Ideal) (W6 m ρ c (Proc.devRef .tc main_v34)) (W6 m ρ c (Proc.devRef .tc main_v1)) (W6 m ρ c (Proc.devRef .tc main_v3)) (W6 m ρ c (Proc.devRef .tc main_arg2))
/-- The layer's weight matrix. -/
abbrev Wsl (c : Dev nD) : S128x128.Idx → EReal :=
  shapeCast S128x128 (extractStridedSlice S1x128x128 ![1, 0, 0] (W6 m ρ c (Proc.devRef .tc main_v4) : FVec Ideal S4x128x128 .bf16) slices_S4x128x128_S1x128x128_1_0_0) shapeCasts_S1x128x128_S128x128
/-- The pre-activation array `max ((x + agg) · W) 0`. -/
def Pre (c : Dev nD) : Mat 50000 128 :=
  act (lin (cur (φ := .f32) (Xin m ρ c)) (cur (φ := .f32) (Agg m ρ c)) (cur (φ := .bf16) (Wsl m ρ c)))
/-- The layer's row of the scale table. -/
def gam (c : Dev nD) : Fin 128 → EReal := fun q => (m ((c : Thread nD τ).loc main_arg5) : S4x128.Idx → EReal) (ix2 1 q)
/-- The layer's row of the shift table. -/
def bet (c : Dev nD) : Fin 128 → EReal := fun q => (m ((c : Thread nD τ).loc main_arg6) : S4x128.Idx → EReal) (ix2 1 q)

/-- The first launch's three input windows hold the layer's input, its aggregated messages and its weight matrix. -/
theorem P_eq (c : Dev nD) : KB2.P (V9 m ρ) c = Pre m ρ c := by
  have hX : KB2.X (V9 m ρ) c = cur (φ := .f32) (Xin m ρ c) := congrArg (cur (φ := .f32)) (keep_xB_1 m ρ c)
  have hA : KB2.A (V9 m ρ) c = cur (φ := .f32) (Agg m ρ c) := congrArg (cur (φ := .f32)) (agg_read_1 m ρ c)
  have hW : KB2.W (V9 m ρ) c = cur (φ := .bf16) (Wsl m ρ c) := congrArg (cur (φ := .bf16)) (w_read_1 m ρ c)
  show act (lin (KB2.X (V9 m ρ) c) (KB2.A (V9 m ρ) c) (KB2.W (V9 m ρ) c)) = _
  rw [hX, hA, hW]
  rfl

/-- After the first launch the pre-activation buffer holds the pre-activation array. -/
theorem pre_at (c : Dev nD) (p : Fin 50000) (q : Fin 128) :
    (W10 m ρ c (Proc.devRef .tc main_v49_0) : S50000x128.Idx → EReal) (ix2 p q) = Pre m ρ c p q :=
  (congrFun (W10_arr m ρ c 3) (ix2 p q)).trans ((KB2.pre_arr (V9 m ρ) c p q).trans (congrFun (congrFun (P_eq m ρ c) p) q))

/-- After the first launch, row `r` of the partial-sum buffer holds the column sums of tile `r / 8` of the pre-activation array. -/
theorem sp_at (c : Dev nD) (r : Fin 80) (q : Fin 128) :
    (W10 m ρ c (Proc.devRef .tc main_v49_1) : S80x128.Idx → EReal) (ix2 r q)
      = ∑ p' : Fin 5000, Pre m ρ c ⟨5000 * (r.val / 8) + p'.val, by have := r.isLt; have := p'.isLt; omega⟩ q :=
  (congrFun (W10_arr m ρ c 4) (ix2 r q)).trans ((KB2.sum_arr (V9 m ρ) c r q).trans (by rw [P_eq m ρ c]))

/-- The same for the squares. -/
theorem ssp_at (c : Dev nD) (r : Fin 80) (q : Fin 128) :
    (W10 m ρ c (Proc.devRef .tc main_v49_2) : S80x128.Idx → EReal) (ix2 r q)
      = ∑ p' : Fin 5000, sq (Pre m ρ c) ⟨5000 * (r.val / 8) + p'.val, by have := r.isLt; have := p'.isLt; omega⟩ q :=
  (congrFun (W10_arr m ρ c 5) (ix2 r q)).trans ((KB2.sumsq_arr (V9 m ρ) c r q).trans (by rw [P_eq m ρ c]))

/-- The host's column total of the partial sums is the column sum of the pre-activation array over all its rows. -/
theorem s_at (c : Dev nD) (q : Fin 128) :
    (W11 m ρ c (Proc.devRef .tc main_v53) : S1x128.Idx → EReal) (ix2 0 q) = colSum (Pre m ρ c) q := by
  rw [s_read_1 m ρ c, totK_apply]
  simp only [sp_at m ρ c, Spec.ofBits_zero', Spec.ofBits_eighth]
  exact tiles_colSum (Pre m ρ c) q

/-- The same for the squares. -/
theorem ss_at (c : Dev nD) (q : Fin 128) :
    (W11 m ρ c (Proc.devRef .tc main_v57) : S1x128.Idx → EReal) (ix2 0 q) = colSum (sq (Pre m ρ c)) q := by
  rw [ss_read_1 m ρ c, totK_apply]
  simp only [ssp_at m ρ c, Spec.ofBits_zero', Spec.ofBits_eighth]
  exact tiles_colSum (sq (Pre m ρ c)) q

/-- The scale row the second launch reads is the layer's row of the scale table. -/
theorem g_at (c : Dev nD) (q : Fin 128) :
    (W11 m ρ c (Proc.devRef .tc main_v60) : S1x128.Idx → EReal) (ix2 0 q) = gam m c q := by
  rw [gamma_read_1 m ρ c, rowSlice_apply 1 (by omega), keep_gamma_1 m ρ c]
  rfl

/-- The shift row the second launch reads is the layer's row of the shift table. -/
theorem b_at (c : Dev nD) (q : Fin 128) :
    (W11 m ρ c (Proc.devRef .tc main_v63) : S1x128.Idx → EReal) (ix2 0 q) = bet m c q := by
  rw [beta_read_1 m ρ c, rowSlice_apply 1 (by omega), keep_beta_1 m ρ c]
  rfl

/-- THE LAYER: the array it leaves is the one-pass normalisation of the pre-activation array, scaled, shifted, plus its input. -/
theorem layer (c : Dev nD) :
    cur (φ := .f32) (W12 m ρ c (Proc.devRef .tc main_v64) : S50000x128.Idx → EReal)
      = normOnePass (Pre m ρ c) (gam m c) (bet m c) (cur (φ := .f32) (Xin m ρ c)) := by
  have hpre : KC3.pre (V11 m ρ) c = Pre m ρ c := funext fun p => funext fun q =>
    (congrFun (keep_pre_1 m ρ c) (ix2 p q)).trans (pre_at m ρ c p q)
  have hs : KC3.rowS (V11 m ρ) c = colSum (Pre m ρ c) := funext fun q => s_at m ρ c q
  have hss : KC3.rowSS (V11 m ρ) c = colSum (sq (Pre m ρ c)) := funext fun q => ss_at m ρ c q
  have hg : KC3.rowG (V11 m ρ) c = gam m c := funext fun q => g_at m ρ c q
  have hb : KC3.rowB (V11 m ρ) c = bet m c := funext fun q => b_at m ρ c q
  have hprev : KC3.prev (V11 m ρ) c = cur (φ := .f32) (Xin m ρ c) := congrArg (cur (φ := .f32)) (keep_xC_1 m ρ c)
  funext p q
  refine (congrFun (W12_arr m ρ c 6) (ix2 p q)).trans ?_
  refine (KC3.out_arr (V11 m ρ) c p q).trans ?_
  rw [hpre, hs, hss, hg, hb, hprev, normOnePass_apply]

end Cert.KernelIdeal.KLayer1

end
-- ==== Proof.KRead2.lean ====
/-
  What the host operations of layer 2 of the idealized kernel program leave in the buffers its two launches read.

  Each fact states one buffer's contents at a boundary as the host operations' own composed term of the contents at an
  earlier boundary: every edge's message, its clipping at zero, the sum at the destination nodes (together: the
  aggregated messages), the layer's slice of the weights, the two column totals formed from the first launch's partial
  rows, and the layer's rows of the scale and shift tables.
-/
import proofs.«120676_j3582002725394_2_alg».proof.Proof.Gen.KernelIdeal.Frame
import proofs.«120676_j3582002725394_2_alg».proof.Proof.KReadDefs
import proofs.«120676_j3582002725394_2_alg».proof.Proof.KEnv
import Idealize.ShloMosaic.Lib.StableHlo.Run
set_option maxRecDepth 16384
set_option maxHeartbeats 1600000

noncomputable section

namespace Cert.KernelIdeal.KRead2

open Idealize.ShloMosaic Idealize.ShloMosaic.TcCoe
open Idealize.SL Idealize.SL.Sem
open Cert.KernelIdeal Cert.KernelIdeal.Gen
open Cert.KernelIdeal.KReadDefs Cert.KernelIdeal.KEnv Idealize.ShloMosaic.StableHlo

variable {F : FTy → Type} [FloatOps F] [Named F]
variable (m : (ℓ : Loc nD τ sig) → Buf (Elt F) ℓ) (ρ : Dev nD → PrngReg)

/-! ## Layer 2 -/

/-- Every edge's message before clipping: the source node's row plus the edge's features. -/
theorem msg_2 (c : Dev nD) : W13 m ρ c (Proc.devRef .tc main_v72)
    = addf (Host.gather gather_S50000x128_S500000x1_S500000x128_1_0_n_n_0_1_1128 (W12 m ρ c (Proc.devRef .tc main_v64))
          (broadcastInDim S500000x1 ![0] bcast_S500000_S500000x1_0
            (select (cmpi .slt (W12 m ρ c (Proc.devRef .tc main_v1)) (broadcastInDim S500000 ![] bcast_S_S500000 (constantI S_ 32 0#32)))
              (addi (W12 m ρ c (Proc.devRef .tc main_v1)) (broadcastInDim S500000 ![] bcast_S_S500000 (constantI S_ 32 50000#32))) (W12 m ρ c (Proc.devRef .tc main_v1)))))
        (W12 m ρ c (Proc.devRef .tc main_arg2)) := by
  show StableHlo.after hostOps4 (W12 m ρ c) (Proc.devRef .tc main_v72) = _
  generalize W12 m ρ c = E
  simp only [hostOps4]
  after_results_simp
  all_goals rfl

/-- The messages clipped below at zero. -/
theorem relu_2 (c : Dev nD) : W14 m ρ c (Proc.devRef .tc main_v73)
    = maximumf (W13 m ρ c (Proc.devRef .tc main_v72)) (broadcastInDim S500000x128 ![] bcast_S_S500000x128 (constant S_ .f32 0x00000000#32)) := by
  show StableHlo.after hostOps4_1 (W13 m ρ c) (Proc.devRef .tc main_v73) = _
  generalize W13 m ρ c = E
  simp only [hostOps4_1]
  after_results_simp
  all_goals rfl

/-- The clipped messages added up at the destination nodes, from an all-zero array. -/
theorem scat_2 (c : Dev nD) : W15 m ρ c (Proc.devRef .tc main_v76)
    = Host.scatterAdd scatter_S50000x128_S500000x1_S500000x128_1_0_0_1
        (broadcastInDim S50000x128 ![] bcast_S_S50000x128 (constant S_ .f32 0x00000000#32))
        (broadcastInDim S500000x1 ![0] bcast_S500000_S500000x1_0 (W14 m ρ c (Proc.devRef .tc main_v3)))
        (W14 m ρ c (Proc.devRef .tc main_v73)) := by
  show StableHlo.after hostOps4_2 (W14 m ρ c) (Proc.devRef .tc main_v76) = _
  generalize W14 m ρ c = E
  simp only [hostOps4_2]
  after_results_simp
  all_goals rfl

/-- Slice 2 of the narrow-format weights as a [128, 128] array. -/
theorem wsl_2 (c : Dev nD) : W15 m ρ c (Proc.devRef .tc main_v78)
    = shapeCast S128x128 (extractStridedSlice S1x128x128 ![2, 0, 0] (W14 m ρ c (Proc.devRef .tc main_v4)) slices_S4x128x128_S1x128x128_2_0_0) shapeCasts_S1x128x128_S128x128 := by
  show StableHlo.after hostOps4_2 (W14 m ρ c) (Proc.devRef .tc main_v78) = _
  generalize W14 m ρ c = E
  simp only [hostOps4_2]
  after_results_simp
  all_goals rfl

/-- `main_v3` is not written by the layer's first two stretches. -/
theorem dstK_2 (c : Dev nD) : W14 m ρ c (Proc.devRef .tc main_v3) = W12 m ρ c (Proc.devRef .tc main_v3) :=
  calc W14 m ρ c (Proc.devRef .tc main_v3)
    _ = W13 m ρ c (Proc.devRef .tc main_v3) := StableHlo.after_of_forall_not_mem (b := Proc.devRef .tc main_v3) _ _ (by not_written)
    _ = W12 m ρ c (Proc.devRef .tc main_v3) := StableHlo.after_of_forall_not_mem (b := Proc.devRef .tc main_v3) _ _ (by not_written)

/-- `main_v4` is not written by the layer's first two stretches. -/
theorem wtsK_2 (c : Dev nD) : W14 m ρ c (Proc.devRef .tc main_v4) = W12 m ρ c (Proc.devRef .tc main_v4) :=
  calc W14 m ρ c (Proc.devRef .tc main_v4)
    _ = W13 m ρ c (Proc.devRef .tc main_v4) := StableHlo.after_of_forall_not_mem (b := Proc.devRef .tc main_v4) _ _ (by not_written)
    _ = W12 m ρ c (Proc.devRef .tc main_v4) := StableHlo.after_of_forall_not_mem (b := Proc.devRef .tc main_v4) _ _ (by not_written)

/-- The aggregated messages at the first launch's entry, from the contents at the layer's start. -/
theorem agg_read_2 (c : Dev nD) : W15 m ρ c (Proc.devRef .tc main_v76)
    = aggK (W12 m ρ c (Proc.devRef .tc main_v64)) (W12 m ρ c (Proc.devRef .tc main_v1)) (W12 m ρ c (Proc.devRef .tc main_v3)) (W12 m ρ c (Proc.devRef .tc main_arg2)) := by
  rw [scat_2 m ρ c, relu_2 m ρ c, msg_2 m ρ c, dstK_2 m ρ c]
  rfl

/-- The layer's weight matrix at the first launch's entry: slice 2 of the weights, as a [128, 128] array. -/
theorem w_read_2 (c : Dev nD) : W15 m ρ c (Proc.devRef .tc main_v78)
    = shapeCast S128x128 (extractStridedSlice S1x128x128 ![2, 0, 0] (W12 m ρ c (Proc.devRef .tc main_v4)) slices_S4x128x128_S1x128x128_2_0_0) shapeCasts_S1x128x128_S128x128 := by
  rw [wsl_2 m ρ c, wtsK_2 m ρ c]

/-- The column sums at the second launch's entry. -/
theorem s_read_2 (c : Dev nD) : W17 m ρ c (Proc.devRef .tc main_v83)
    = totK (W16 m ρ c (Proc.devRef .tc main_v79_1)) := by
  show StableHlo.after hostOps5 (W16 m ρ c) (Proc.devRef .tc main_v83) = _
  generalize W16 m ρ c = E
  simp only [hostOps5]
  after_results_simp
  all_goals rfl

/-- The column sums of squares at the second launch's entry. -/
theorem ss_read_2 (c : Dev nD) : W17 m ρ c (Proc.devRef .tc main_v87)
    = totK (W16 m ρ c (Proc.devRef .tc main_v79_2)) := by
  show StableHlo.after hostOps5 (W16 m ρ c) (Proc.devRef .tc main_v87) = _
  generalize W16 m ρ c = E
  simp only [hostOps5]
  after_results_simp
  all_goals rfl

/-- The layer's scale row at the second launch's entry: row 2 of the scale table, as a [1, 128] array. -/
theorem gamma_read_2 (c : Dev nD) : W17 m ρ c (Proc.devRef .tc main_v90)
    = shapeCast S1x128 (shapeCast S128 (extractStridedSlice S1x128 ![2, 0] (W16 m ρ c (Proc.devRef .tc main_arg5)) slices_S4x128_S1x128_2_0) shapeCasts_S1x128_S128) shapeCasts_S128_S1x128 := by
  show StableHlo.after hostOps5 (W16 m ρ c) (Proc.devRef .tc main_v90) = _
  generalize W16 m ρ c = E
  simp only [hostOps5]
  after_results_simp
  all_goals rfl

/-- The layer's shift row at the second launch's entry: row 2 of the shift table, as a [1, 128] array. -/
theorem beta_read_2 (c : Dev nD) : W17 m ρ c (Proc.devRef .tc main_v93)
    = shapeCast S1x128 (shapeCast S128 (extractStridedSlice S1x128 ![2, 0] (W16 m ρ c (Proc.devRef .tc main_arg6)) slices_S4x128_S1x128_2_0) shapeCasts_S1x128_S128) shapeCasts_S128_S1x128 := by
  show StableHlo.after hostOps5 (W16 m ρ c) (Proc.devRef .tc main_v93) = _
  generalize W16 m ρ c = E
  simp only [hostOps5]
  after_results_simp
  all_goals rfl

end Cert.KernelIdeal.KRead2

end
-- ==== Proof.KB4.lean ====
/-
  The matrix-product region of the third layer, read by coordinates.

  The region walks the 50000 rows in 10 tiles of 5000. On each tile it forms (x + agg) · W, clips it below at zero,
  stores the tile, and stores the tile's column sums and the column sums of its squares on the 8 rows of a partial
  block. Here the three arrays the region leaves are given as functions of the arrays it finds: row p of the product
  array is row p mod 5000 of tile p / 5000, so the array is the clipped product of the whole arrays; rows 8t .. 8t+7
  of the two partial arrays all hold the sums over tile t.
-/
import proofs.«120676_j3582002725394_2_alg».proof.Proof.Gen.KernelIdeal.Frame
import proofs.«120676_j3582002725394_2_alg».proof.Proof.Spec
import proofs.«120676_j3582002725394_2_alg».proof.Proof.LibPlainDot
import proofs.«120676_j3582002725394_2_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KB4

open Cert.KernelIdeal Cert.KernelIdeal.Gen Idealize.ShloMosaic Idealize.ShloMosaic.ValueIdx Idealize.ShloMosaic.TcCoe Idealize.SL.Sem
open Idealize.ShloMosaic.Pipeline (Dat)

/-! ## One tile's stored values at an index -/

/-- The product's dimension numbers are those of a plain [5000,128] by [128,128] product. -/
theorem plain_dims : Cert.PlainDot.IsPlain dot_S5000x128_S128x128_S5000x128_1_0_0_1_n_n := ⟨rfl, rfl, rfl, rfl, rfl, rfl⟩

/-- One tile's stored value at row p, column q: the tile of x plus the tile of agg, times W, clipped below at zero. -/
theorem pay1_apply (x0 x1 : FVec Ideal S5000x128 .f32) (x2 : FVec Ideal S128x128 .bf16) (p : Fin 5000) (q : Fin 128) :
    k4_pay1 (F := Ideal) x0 x1 x2 (ix2 p q) = max (∑ k : Fin 128, (x0 (ix2 p k) + x1 (ix2 p k)) * x2 (ix2 k q)) 0 := by
  unfold k4_pay1
  simp only [shapeCast_self]
  refine (maximumf_apply _ _ (ix2 p q)).trans ?_
  refine congrArg₂ max ?_ ?_
  · exact Cert.PlainDot.matmul_apply dot_S5000x128_S128x128_S5000x128_1_0_0_1_n_n plain_dims none _ _ p q
  · exact Ideal.ofBits_zero_f32

/-- The first partial-sum payload at (r, q): the tile's column q summed over its 5000 rows, on each of the 8 rows. -/
theorem pay2_apply (x0 x1 : FVec Ideal S5000x128 .f32) (x2 : FVec Ideal S128x128 .bf16) (r : Fin 8) (q : Fin 128) :
    k4_pay2 (F := Ideal) x0 x1 x2 (ix2 r q) = ∑ p : Fin 5000, k4_pay1 (F := Ideal) x0 x1 x2 (ix2 p q) := by
  unfold k4_pay2
  dsimp only
  rw [shapeCast_self]
  refine (broadcastTo_1b_ab_apply _ _ r q).trans ?_
  refine (shapeCast_a_1a_apply _ _ (0 : Fin 1) q).trans ?_
  exact Cert.Lib.column_sum _ _ _ _ q

/-- The second partial-sum payload at (r, q): the squares of the tile's column q summed over its 5000 rows. -/
theorem pay3_apply (x0 x1 : FVec Ideal S5000x128 .f32) (x2 : FVec Ideal S128x128 .bf16) (r : Fin 8) (q : Fin 128) :
    k4_pay3 (F := Ideal) x0 x1 x2 (ix2 r q)
      = ∑ p : Fin 5000, k4_pay1 (F := Ideal) x0 x1 x2 (ix2 p q) * k4_pay1 (F := Ideal) x0 x1 x2 (ix2 p q) := by
  unfold k4_pay3
  dsimp only
  rw [shapeCast_self]
  refine (broadcastTo_1b_ab_apply _ _ r q).trans ?_
  refine (shapeCast_a_1a_apply _ _ (0 : Fin 1) q).trans ?_
  exact Cert.Lib.column_sum _ _ _ _ q

/-! ## The arrays the region finds, and what it leaves, by coordinates -/

variable (V : (c : Dev nD) → (b : Ref sig .tc) → Buf (Elt Ideal) ((c : Thread nD τ).loc b)) (c : Dev nD)

/-- The node array as the region finds it. -/
abbrev X : Spec.Mat 50000 128 := Spec.cur (φ := .f32) (V c (Pipeline.arrRef spec4 0) : S50000x128.Idx → EReal)

/-- The aggregated messages as the region finds them. -/
abbrev A : Spec.Mat 50000 128 := Spec.cur (φ := .f32) (V c (Pipeline.arrRef spec4 1) : S50000x128.Idx → EReal)

/-- The layer's weights as the region finds them. -/
abbrev W : Spec.Mat 128 128 := Spec.cur (φ := .bf16) (V c (Pipeline.arrRef spec4 2) : S128x128.Idx → EReal)

/-- The clipped product (x + agg) · W of the whole arrays. -/
abbrev P : Spec.Mat 50000 128 := Spec.act (Spec.lin (X V c) (A V c) (W V c))

/-- The sum of column q over the 5000 rows of the tile that partial row r belongs to (tile r / 8). -/
abbrev tileSum (h : Spec.Mat 50000 128) : Spec.Mat 80 128 :=
  fun r q => ∑ p' : Fin 5000, h ⟨5000 * (r.val / 8) + p'.val, by omega⟩ q

/-- The product array the region leaves. -/
abbrev preArr : S50000x128.Idx → EReal := Spec.unc (φ := .f32) (P V c)

/-- The array of partial column sums the region leaves. -/
abbrev sumArr : S80x128.Idx → EReal := Spec.unc (φ := .f32) (tileSum (P V c))

/-- The array of partial column sums of squares the region leaves. -/
abbrev sumsqArr : S80x128.Idx → EReal := Spec.unc (φ := .f32) (tileSum (Spec.sq (P V c)))

theorem zero_offsets : (![0, 0] : Fin 2 → Nat) = fun _ => 0 := funext fun a => by fin_cases a <;> rfl

/-- The printed index maps over the 10 grid points: the row tiles and the partial blocks move with the point, the
    weights stay. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-! ## The input blocks at a point are rows of the whole arrays -/

/-- Row p' of the node array's tile t is row 5000 t + p' of the node array. -/
theorem x_block (t : Fin cfg4.N) (p' : Fin 5000) (k : Fin 128) (h : 5000 * t.val + p'.val < 50000) :
    (iblk4 V c 0 t : FVec Ideal S5000x128 .f32) (ix2 p' k) = X V c ⟨5000 * t.val + p'.val, h⟩ k := by
  obtain ⟨e0, e1, -⟩ := index_facts t
  unfold iblk4
  rw [View.read_apply]
  show (V c (Pipeline.arrRef spec4 0) : S50000x128.Idx → EReal) _
    = (V c (Pipeline.arrRef spec4 0) : S50000x128.Idx → EReal) (ix2 (⟨5000 * t.val + p'.val, h⟩ : Fin 50000) k)
  refine congrArg _ (funext fun a => Fin.ext ?_)
  match a with
  | ⟨0, _⟩ => show win4_0.index t (0 : Fin 2) * 5000 + 1 * p'.val = 5000 * t.val + p'.val; omega
  | ⟨1, _⟩ => show win4_0.index t (1 : Fin 2) * 128 + 1 * k.val = k.val; omega

/-- Row p' of the aggregated messages' tile t is row 5000 t + p' of that array. -/
theorem a_block (t : Fin cfg4.N) (p' : Fin 5000) (k : Fin 128) (h : 5000 * t.val + p'.val < 50000) :
    (iblk4 V c 1 t : FVec Ideal S5000x128 .f32) (ix2 p' k) = A V c ⟨5000 * t.val + p'.val, h⟩ k := by
  obtain ⟨-, -, e0, e1, -⟩ := index_facts t
  unfold iblk4
  rw [View.read_apply]
  show (V c (Pipeline.arrRef spec4 1) : S50000x128.Idx → EReal) _
    = (V c (Pipeline.arrRef spec4 1) : S50000x128.Idx → EReal) (ix2 (⟨5000 * t.val + p'.val, h⟩ : Fin 50000) k)
  refine congrArg _ (funext fun a => Fin.ext ?_)
  match a with
  | ⟨0, _⟩ => show win4_1.index t (0 : Fin 2) * 5000 + 1 * p'.val = 5000 * t.val + p'.val; omega
  | ⟨1, _⟩ => show win4_1.index t (1 : Fin 2) * 128 + 1 * k.val = k.val; omega

/-- The weights' block at every point is the whole weight array. -/
theorem w_block (t : Fin cfg4.N) (k q : Fin 128) :
    (iblk4 V c 2 t : FVec Ideal S128x128 .bf16) (ix2 k q) = W V c k q := by
  obtain ⟨-, -, -, -, e0, e1, -⟩ := index_facts t
  unfold iblk4
  rw [View.read_apply]
  show (V c (Pipeline.arrRef spec4 2) : S128x128.Idx → EReal) _
    = (V c (Pipeline.arrRef spec4 2) : S128x128.Idx → EReal) (ix2 k q)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- What point t stores at row p' of its tile is the clipped product at row 5000 t + p'. -/
theorem pre_block (t : Fin cfg4.N) (p' : Fin 5000) (q : Fin 128) (h : 5000 * t.val + p'.val < 50000) :
    k4_pay1 (F := Ideal) (iblk4 V c 0 t) (iblk4 V c 1 t) (iblk4 V c 2 t) (ix2 p' q) = P V c ⟨5000 * t.val + p'.val, h⟩ q := by
  refine (pay1_apply (iblk4 V c 0 t) (iblk4 V c 1 t) (iblk4 V c 2 t) p' q).trans ?_
  show max (∑ k : Fin 128, _) 0
    = max (∑ k : Fin 128, (X V c ⟨5000 * t.val + p'.val, h⟩ k + A V c ⟨5000 * t.val + p'.val, h⟩ k) * W V c k q) 0
  refine congrArg (fun s => max s 0) (Finset.sum_congr rfl fun k _ => ?_)
  exact congrArg₂ (· * ·) (congrArg₂ (· + ·) (x_block V c t p' k h) (a_block V c t p' k h)) (w_block V c t k q)

/-! ## What each point writes back -/

/-- Point t writes back block t of the product array. -/
theorem pre_flushed (t : Fin cfg4.N) :
    (dat4 (F := Ideal) V c).flushed 3 t = ((cfg4.win 3).blk t).view.read (Elt Ideal) (preArr V c) := by
  have hN : cfg4.N = 10 := N_4
  obtain ⟨-, -, -, -, -, -, e0, e1, -⟩ := index_facts t
  show (cfg4.win 3).cut (grid4.coords t) ((dat4 (F := Ideal) V c).after 3 t) = _
  rw [after4_3]
  unfold out4_3
  rw [View.canon_unit_zero zero_offsets]
  simp only [View.ld_unit_zero (S := S5000x128) zero_offsets, View.ld_unit_zero (S := S128x128) zero_offsets]
  funext j
  obtain ⟨p', q, rfl⟩ : ∃ (p' : Fin 5000) (q : Fin 128), j = ix2 p' q := ⟨j 0, j 1, eq_ix2 j⟩
  have hp : 5000 * t.val + p'.val < 50000 := by have := t.isLt; omega
  have he : ((cfg4.win 3).blk t).view.emb (ix2 p' q) = ix2 (⟨5000 * t.val + p'.val, hp⟩ : Fin 50000) q := by
    funext a; apply Fin.ext
    match a with
    | ⟨0, _⟩ => show win4_3.index t (0 : Fin 2) * 5000 + 1 * p'.val = 5000 * t.val + p'.val; omega
    | ⟨1, _⟩ => show win4_3.index t (1 : Fin 2) * 128 + 1 * q.val = q.val; omega
  show k4_pay1 (F := Ideal) (iblk4 V c 0 t) (iblk4 V c 1 t) (iblk4 V c 2 t) (ix2 p' q)
    = preArr V c (((cfg4.win 3).blk t).view.emb (ix2 p' q))
  exact (pre_block V c t p' q hp).trans (congrArg (preArr V c) he).symm

/-- Point t writes back block t of the array of partial column sums. -/
theorem sum_flushed (t : Fin cfg4.N) :
    (dat4 (F := Ideal) V c).flushed 4 t = ((cfg4.win 4).blk t).view.read (Elt Ideal) (sumArr V c) := by
  have hN : cfg4.N = 10 := N_4
  obtain ⟨-, -, -, -, -, -, -, -, e0, e1, -⟩ := index_facts t
  show (cfg4.win 4).cut (grid4.coords t) ((dat4 (F := Ideal) V c).after 4 t) = _
  rw [after4_4]
  unfold out4_4
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg4.win 4).blk t).view.emb (ix2 r' q) = ix2 (⟨8 * t.val + r'.val, hr⟩ : Fin 80) q := by
    funext a; apply Fin.ext
    match a with
    | ⟨0, _⟩ => show win4_4.index t (0 : Fin 2) * 8 + 1 * r'.val = 8 * t.val + r'.val; omega
    | ⟨1, _⟩ => show win4_4.index t (1 : Fin 2) * 128 + 1 * q.val = q.val; omega
  show k4_pay2 (F := Ideal) (iblk4 V c 0 t) (iblk4 V c 1 t) (iblk4 V c 2 t) (ix2 r' q)
    = sumArr V c (((cfg4.win 4).blk t).view.emb (ix2 r' q))
  refine ((pay2_apply (iblk4 V c 0 t) (iblk4 V c 1 t) (iblk4 V c 2 t) r' q).trans ?_).trans (congrArg (sumArr V c) he).symm
  show ∑ p' : Fin 5000, _ = ∑ p' : Fin 5000, P V c ⟨5000 * ((8 * t.val + r'.val) / 8) + p'.val, _⟩ q
  refine Finset.sum_congr rfl fun p' _ => ?_
  have hp : 5000 * t.val + p'.val < 50000 := by have := t.isLt; omega
  refine (pre_block V c t p' q hp).trans (congrArg (fun z => P V c z q) (Fin.ext ?_))
  show 5000 * t.val + p'.val = 5000 * ((8 * t.val + r'.val) / 8) + p'.val
  omega

/-- Point t writes back block t of the array of partial column sums of squares. -/
theorem sumsq_flushed (t : Fin cfg4.N) :
    (dat4 (F := Ideal) V c).flushed 5 t = ((cfg4.win 5).blk t).view.read (Elt Ideal) (sumsqArr V c) := by
  have hN : cfg4.N = 10 := N_4
  obtain ⟨-, -, -, -, -, -, -, -, -, -, e0, e1⟩ := index_facts t
  show (cfg4.win 5).cut (grid4.coords t) ((dat4 (F := Ideal) V c).after 5 t) = _
  rw [after4_5]
  unfold out4_5
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg4.win 5).blk t).view.emb (ix2 r' q) = ix2 (⟨8 * t.val + r'.val, hr⟩ : Fin 80) q := by
    funext a; apply Fin.ext
    match a with
    | ⟨0, _⟩ => show win4_5.index t (0 : Fin 2) * 8 + 1 * r'.val = 8 * t.val + r'.val; omega
    | ⟨1, _⟩ => show win4_5.index t (1 : Fin 2) * 128 + 1 * q.val = q.val; omega
  show k4_pay3 (F := Ideal) (iblk4 V c 0 t) (iblk4 V c 1 t) (iblk4 V c 2 t) (ix2 r' q)
    = sumsqArr V c (((cfg4.win 5).blk t).view.emb (ix2 r' q))
  refine ((pay3_apply (iblk4 V c 0 t) (iblk4 V c 1 t) (iblk4 V c 2 t) r' q).trans ?_).trans (congrArg (sumsqArr V c) he).symm
  show ∑ p' : Fin 5000, _ = ∑ p' : Fin 5000, Spec.sq (P V c) ⟨5000 * ((8 * t.val + r'.val) / 8) + p'.val, _⟩ q
  refine Finset.sum_congr rfl fun p' _ => ?_
  have hp : 5000 * t.val + p'.val < 50000 := by have := t.isLt; omega
  have hz : (⟨5000 * t.val + p'.val, hp⟩ : Fin 50000) = ⟨5000 * ((8 * t.val + r'.val) / 8) + p'.val, by omega⟩ :=
    Fin.ext (by show 5000 * t.val + p'.val = 5000 * ((8 * t.val + r'.val) / 8) + p'.val; omega)
  have e := (pre_block V c t p' q hp).trans (congrArg (fun z => P V c z q) hz)
  exact congrArg₂ (· * ·) e e

/-! ## The blocks cover the arrays -/

/-- An index of the product array is in point t's block iff each coordinate is in the block's range on its axis. -/
theorem mem_pre_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v79_0).slice (win4_3.rect t)).set ↔ _
  rw [View.set_slice_whole, Rect.mem_set_unit]
  exact Iff.rfl

/-- Row p of the product array is in the block of point p / 5000. -/
theorem pre_cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, e0, e1, -⟩ := index_facts t
  refine ⟨t, flush4_3 t, ?_⟩
  rw [mem_pre_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- An index of the partial-sum array is in point t's block iff each coordinate is in the block's range on its axis. -/
theorem mem_sum_blk (t : Fin cfg4.N) (i : S80x128.Idx) :
    i ∈ ((cfg4.win 4).blk t).view.set ↔ ∀ a : Fin 2, win4_4.index t a * S8x128.size a ≤ (i a).val ∧ (i a).val < win4_4.index t a * S8x128.size a + S8x128.size a := by
  show i ∈ ((View.whole main_v79_1).slice (win4_4.rect t)).set ↔ _
  rw [View.set_slice_whole, Rect.mem_set_unit]
  exact Iff.rfl

/-- Row r of the partial-sum array is in the block of point r / 8. -/
theorem sum_cover (i : S80x128.Idx) :
    ∃ t : Fin cfg4.N, (cfg4.win 4).flush t = true ∧ i ∈ ((cfg4.win 4).blk t).view.set := by
  have hi0 : (i 0).val < 80 := (i 0).isLt
  have hi1 : (i 1).val < 128 := (i 1).isLt
  have hN : cfg4.N = 10 := N_4
  obtain ⟨t, ht⟩ : ∃ t : Fin cfg4.N, t.val = (i 0).val / 8 := ⟨⟨(i 0).val / 8, by rw [hN]; omega⟩, rfl⟩
  obtain ⟨-, -, -, -, -, -, -, -, e0, e1, -⟩ := index_facts t
  refine ⟨t, flush4_4 t, ?_⟩
  rw [mem_sum_blk]
  intro a
  match a with
  | ⟨0, _⟩ => show win4_4.index t (0 : Fin 2) * 8 ≤ (i 0).val ∧ (i 0).val < win4_4.index t (0 : Fin 2) * 8 + 8; omega
  | ⟨1, _⟩ => show win4_4.index t (1 : Fin 2) * 128 ≤ (i 1).val ∧ (i 1).val < win4_4.index t (1 : Fin 2) * 128 + 128; omega

/-- The same for the array of partial sums of squares. -/
theorem mem_sumsq_blk (t : Fin cfg4.N) (i : S80x128.Idx) :
    i ∈ ((cfg4.win 5).blk t).view.set ↔ ∀ a : Fin 2, win4_5.index t a * S8x128.size a ≤ (i a).val ∧ (i a).val < win4_5.index t a * S8x128.size a + S8x128.size a := by
  show i ∈ ((View.whole main_v79_2).slice (win4_5.rect t)).set ↔ _
  rw [View.set_slice_whole, Rect.mem_set_unit]
  exact Iff.rfl

theorem sumsq_cover (i : S80x128.Idx) :
    ∃ t : Fin cfg4.N, (cfg4.win 5).flush t = true ∧ i ∈ ((cfg4.win 5).blk t).view.set := by
  have hi0 : (i 0).val < 80 := (i 0).isLt
  have hi1 : (i 1).val < 128 := (i 1).isLt
  have hN : cfg4.N = 10 := N_4
  obtain ⟨t, ht⟩ : ∃ t : Fin cfg4.N, t.val = (i 0).val / 8 := ⟨⟨(i 0).val / 8, by rw [hN]; omega⟩, rfl⟩
  obtain ⟨-, -, -, -, -, -, -, -, -, -, e0, e1⟩ := index_facts t
  refine ⟨t, flush4_5 t, ?_⟩
  rw [mem_sumsq_blk]
  intro a
  match a with
  | ⟨0, _⟩ => show win4_5.index t (0 : Fin 2) * 8 ≤ (i 0).val ∧ (i 0).val < win4_5.index t (0 : Fin 2) * 8 + 8; omega
  | ⟨1, _⟩ => show win4_5.index t (1 : Fin 2) * 128 ≤ (i 1).val ∧ (i 1).val < win4_5.index t (1 : Fin 2) * 128 + 128; omega

/-! ## The arrays after the region -/

/-- The product array after the region. -/
theorem pre_final : (dat4 (F := Ideal) V c).arrAt 3 cfg4.N = preArr V c :=
  (dat4 (F := Ideal) V c).arrAt_eq_of_cover 3 (preArr V c) (fun t _ => pre_flushed V c t) pre_cover

/-- The array of partial column sums after the region. -/
theorem sum_final : (dat4 (F := Ideal) V c).arrAt 4 cfg4.N = sumArr V c :=
  (dat4 (F := Ideal) V c).arrAt_eq_of_cover 4 (sumArr V c) (fun t _ => sum_flushed V c t) sum_cover

/-- The array of partial column sums of squares after the region. -/
theorem sumsq_final : (dat4 (F := Ideal) V c).arrAt 5 cfg4.N = sumsqArr V c :=
  (dat4 (F := Ideal) V c).arrAt_eq_of_cover 5 (sumsqArr V c) (fun t _ => sumsq_flushed V c t) sumsq_cover

/-- Entry (p, q) of the product array after the region is the clipped product (x + agg) · W at (p, q). -/
theorem pre_arr (p : Fin 50000) (q : Fin 128) :
    ((dat4 (F := Ideal) V c).arrAt 3 cfg4.N : S50000x128.Idx → EReal) (ix2 p q) = P V c p q :=
  congrFun (pre_final V c) (ix2 p q)

/-- Entry (r, q) of the partial-sum array after the region is column q of the clipped product summed over the 5000
    rows of tile r / 8. -/
theorem sum_arr (r : Fin 80) (q : Fin 128) :
    ((dat4 (F := Ideal) V c).arrAt 4 cfg4.N : S80x128.Idx → EReal) (ix2 r q)
      = ∑ p' : Fin 5000, P V c ⟨5000 * (r.val / 8) + p'.val, by omega⟩ q :=
  congrFun (sum_final V c) (ix2 r q)

/-- Entry (r, q) of the other partial array after the region is the same sum of the squares. -/
theorem sumsq_arr (r : Fin 80) (q : Fin 128) :
    ((dat4 (F := Ideal) V c).arrAt 5 cfg4.N : S80x128.Idx → EReal) (ix2 r q)
      = ∑ p' : Fin 5000, Spec.sq (P V c) ⟨5000 * (r.val / 8) + p'.val, by omega⟩ q :=
  congrFun (sumsq_final V c) (ix2 r q)

end Cert.KernelIdeal.KB4

end
-- ==== Proof.KC5.lean ====
/-
  The normalise-and-add-back region, read off its pipeline: what the output array holds after the
  region's five grid points, as one function of the arrays the region finds, coordinate by coordinate.

  The body at a grid point loads a block of 10000 rows of the pre-activation array and of the layer's input, and
  the four `[1,128]` rows (column sums, column sums of squares, scale, shift) whole; it forms, per column `q`, the
  mean `s q · (1/50000)`, the one-pass variance `ss q · (1/50000) - mean²`, and stores
  `(h - mean) · rsqrt(var + ε) · γ q + β q + prev` for every entry of the block.  Block `t` is rows
  `10000·t … 10000·t + 9999`; the five blocks tile the `50000` rows, so the array ends holding that formula at
  every row.
-/
import proofs.«120676_j3582002725394_2_alg».proof.Proof.Gen.KernelIdeal.Frame
import proofs.«120676_j3582002725394_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KC5

open Idealize.ShloMosaic Idealize.ShloMosaic.TcCoe Idealize.ShloMosaic.ValueIdx Idealize.SL.Sem
open Idealize.ShloMosaic.Pipeline (Dat)
open Cert.KernelIdeal Cert.KernelIdeal.Gen

/-! ## The body's stored value at an entry of the block -/

/-- The named reciprocal of the row count is the rational `1/50000` on the extended reals. -/
theorem inv_n : Named.named (F := Ideal) Cert.KernelIdeal.κ "inv_50000" (φ := .f32) 0x37A7C5AC#32 = Spec.invN :=
  IdealRules.named_const.ideal_named_scalar _ _ _ _ rfl

/-- A `[1,128]` row stretched over `10000` rows reads, at row `p` and column `q`, the row's entry at column `q`. -/
theorem row_stretch (v : FVec Ideal S1x128 .f32) (p : Fin 10000) (q : Fin 128) :
    broadcastTo S10000x128 v broadcasts_S1x128_S10000x128 (ix2 p q) = v (ix2 0 q) := by
  refine broadcastTo_apply v _ (ix2 p q) (ix2 0 q) fun a => ?_
  match a with
  | ⟨0, _⟩ => rfl
  | ⟨1, _⟩ => rfl

/-- The stored block at row `p`, column `q`: the entry less the column's mean, times the reciprocal square root of
    the column's one-pass variance plus `ε`, times the scale, plus the shift, plus the layer's input. -/
theorem pay_apply (v0 v4 v19 v23 : Vec Ideal S1x128 .f32) (v13 v27 : Vec Ideal S10000x128 .f32)
    (p : Fin 10000) (q : Fin 128) :
    k5_pay1 (F := Ideal) v0 v4 v13 v19 v23 v27 (ix2 p q)
      = (v13 (ix2 p q) - v0 (ix2 0 q) * Spec.invN)
          * Ideal.rsqrt ((v4 (ix2 0 q) * Spec.invN - v0 (ix2 0 q) * Spec.invN * (v0 (ix2 0 q) * Spec.invN)) + Spec.eps)
          * v19 (ix2 0 q) + v23 (ix2 0 q) + v27 (ix2 p q) := by
  unfold k5_pay1
  simp only [shapeCast_self, addf_apply, mulf_apply, subf_apply, row_stretch, broadcast_apply, inv_n]
  rfl

/-! ## The closed form -/

section Region

variable (V : (c : Dev nD) → (b : Ref sig .tc) → Buf (Elt Ideal) ((c : Thread nD τ).loc b))

/-- The pre-activation array the region finds, by coordinates. -/
abbrev pre (c : Dev nD) : Spec.Mat 50000 128 :=
  Spec.cur (a := 50000) (b := 128) (φ := .f32) (V c (Pipeline.arrRef spec5 0))
/-- The layer's input the region finds, by coordinates. -/
abbrev prev (c : Dev nD) : Spec.Mat 50000 128 :=
  Spec.cur (a := 50000) (b := 128) (φ := .f32) (V c (Pipeline.arrRef spec5 5))
/-- The row of column sums the region finds. -/
abbrev rowS (c : Dev nD) : Fin 128 → EReal := fun q => (V c (Pipeline.arrRef spec5 1) : S1x128.Idx → EReal) (ix2 0 q)
/-- The row of column sums of squares the region finds. -/
abbrev rowSS (c : Dev nD) : Fin 128 → EReal := fun q => (V c (Pipeline.arrRef spec5 2) : S1x128.Idx → EReal) (ix2 0 q)
/-- The scale row the region finds. -/
abbrev rowG (c : Dev nD) : Fin 128 → EReal := fun q => (V c (Pipeline.arrRef spec5 3) : S1x128.Idx → EReal) (ix2 0 q)
/-- The shift row the region finds. -/
abbrev rowB (c : Dev nD) : Fin 128 → EReal := fun q => (V c (Pipeline.arrRef spec5 4) : S1x128.Idx → EReal) (ix2 0 q)

/-- The normalised, scaled, shifted entry with the input added back, from a row of sums `s` and a row of sums of
    squares `ss`. -/
def norm (H : Spec.Mat 50000 128) (s ss g b : Fin 128 → EReal) (R : Spec.Mat 50000 128) : Spec.Mat 50000 128 :=
  fun p q => (H p q - s q * Spec.invN)
    * Ideal.rsqrt ((ss q * Spec.invN - s q * Spec.invN * (s q * Spec.invN)) + Spec.eps) * g q + b q + R p q

/-- What the output array ends holding, as an array. -/
def outFn (c : Dev nD) : S50000x128.Idx → EReal :=
  Spec.unc (a := 50000) (b := 128) (φ := .f32)
    (norm (pre V c) (rowS V c) (rowSS V c) (rowG V c) (rowB V c) (prev V c))

/-! ## The blocks -/

theorem zero_off : (![0, 0] : Fin 2 → Nat) = fun _ => 0 := funext fun a => by fin_cases a <;> rfl

/-- The index maps, decided over the five grid points: the row-tiled windows sit at block `(t, 0)`, the whole rows at
    block `(0, 0)`. -/
theorem index_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Row `p` of block `t` of the pre-activation array is row `10000·t + p` of the array. -/
theorem blk_pre (c : Dev nD) (t : Fin cfg5.N) (p : Fin 10000) (q : Fin 128) (P : Fin 50000)
    (hP : P.val = t.val * 10000 + p.val) :
    (iblk5 V c 0 t : Vec Ideal S10000x128 .f32) (ix2 p q) = pre V c P q := by
  obtain ⟨e0, e1, -⟩ := index_facts t
  unfold iblk5
  rw [View.read_apply]
  show (V c (Pipeline.arrRef spec5 0) : S50000x128.Idx → EReal) _ = (V c (Pipeline.arrRef spec5 0) : S50000x128.Idx → EReal) (ix2 P q)
  congr 1
  funext a
  apply Fin.ext
  match a with
  | ⟨0, _⟩ => show win5_0.index t (0 : Fin 2) * 10000 + 1 * p.val = P.val; rw [e0, hP]; omega
  | ⟨1, _⟩ => show win5_0.index t (1 : Fin 2) * 128 + 1 * q.val = q.val; rw [e1]; omega

/-- Row `p` of block `t` of the layer's input is row `10000·t + p` of the array. -/
theorem blk_prev (c : Dev nD) (t : Fin cfg5.N) (p : Fin 10000) (q : Fin 128) (P : Fin 50000)
    (hP : P.val = t.val * 10000 + p.val) :
    (iblk5 V c 5 t : Vec Ideal S10000x128 .f32) (ix2 p q) = prev V c P q := by
  obtain ⟨-, -, e0, e1, -⟩ := index_facts t
  unfold iblk5
  rw [View.read_apply]
  show (V c (Pipeline.arrRef spec5 5) : S50000x128.Idx → EReal) _ = (V c (Pipeline.arrRef spec5 5) : S50000x128.Idx → EReal) (ix2 P q)
  congr 1
  funext a
  apply Fin.ext
  match a with
  | ⟨0, _⟩ => show win5_5.index t (0 : Fin 2) * 10000 + 1 * p.val = P.val; rw [e0, hP]; omega
  | ⟨1, _⟩ => show win5_5.index t (1 : Fin 2) * 128 + 1 * q.val = q.val; rw [e1]; omega

/-- The block of a whole `[1,128]` row is the row: the sums, -/
theorem blk_s (c : Dev nD) (t : Fin cfg5.N) (q : Fin 128) :
    (iblk5 V c 1 t : Vec Ideal S1x128 .f32) (ix2 0 q) = rowS V c q := by
  obtain ⟨-, -, -, -, -, -, e0, e1, -⟩ := index_facts t
  unfold iblk5
  rw [View.read_apply]
  show (V c (Pipeline.arrRef spec5 1) : S1x128.Idx → EReal) _ = (V c (Pipeline.arrRef spec5 1) : S1x128.Idx → EReal) (ix2 0 q)
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-- the sums of squares, -/
theorem blk_ss (c : Dev nD) (t : Fin cfg5.N) (q : Fin 128) :
    (iblk5 V c 2 t : Vec Ideal S1x128 .f32) (ix2 0 q) = rowSS V c q := by
  obtain ⟨-, -, -, -, -, -, -, -, e0, e1, -⟩ := index_facts t
  unfold iblk5
  rw [View.read_apply]
  show (V c (Pipeline.arrRef spec5 2) : S1x128.Idx → EReal) _ = (V c (Pipeline.arrRef spec5 2) : S1x128.Idx → EReal) (ix2 0 q)
  congr 1
  funext a
  apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

/-- the scale, -/
theorem blk_g (c : Dev nD) (t : Fin cfg5.N) (q : Fin 128) :
    (iblk5 V c 3 t : Vec Ideal S1x128 .f32) (ix2 0 q) = rowG V c q := by
  obtain ⟨-, -, -, -, -, -, -, -, -, -, e0, e1, -⟩ := index_facts t
  unfold iblk5
  rw [View.read_apply]
  show (V c (Pipeline.arrRef spec5 3) : S1x128.Idx → EReal) _ = (V c (Pipeline.arrRef spec5 3) : S1x128.Idx → EReal) (ix2 0 q)
  congr 1
  funext a
  apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

/-- and the shift. -/
theorem blk_b (c : Dev nD) (t : Fin cfg5.N) (q : Fin 128) :
    (iblk5 V c 4 t : Vec Ideal S1x128 .f32) (ix2 0 q) = rowB V c q := by
  obtain ⟨-, -, -, -, -, -, -, -, -, -, -, -, e0, e1⟩ := index_facts t
  unfold iblk5
  rw [View.read_apply]
  show (V c (Pipeline.arrRef spec5 4) : S1x128.Idx → EReal) _ = (V c (Pipeline.arrRef spec5 4) : S1x128.Idx → EReal) (ix2 0 q)
  congr 1
  funext a
  apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- What grid point `t` writes back is block `t` of the closed form. -/
theorem flushed_eq (c : Dev nD) (t : Fin cfg5.N) :
    (dat5 (F := Ideal) V c).flushed 6 t = ((cfg5.win 6).blk t).view.read (Elt Ideal) (outFn V c) := by
  show (cfg5.win 6).cut (grid5.coords t) ((dat5 (F := Ideal) V c).after 6 t) = _
  rw [after5_6]
  unfold out5_6
  rw [View.canon_unit_zero zero_off]
  simp only [View.ld_unit_zero (S := S10000x128) zero_off, View.ld_unit_zero (S := S1x128) zero_off]
  obtain ⟨-, -, -, -, e0, e1, -⟩ := index_facts t
  have ht : t.val < 5 := by have h := t.isLt; have hN : cfg5.N = 5 := N_5; omega
  funext j
  obtain ⟨p, q, rfl⟩ : ∃ (p : Fin 10000) (q : Fin 128), j = ix2 p q := ⟨j 0, j 1, eq_ix2 j⟩
  have hp : p.val < 10000 := p.isLt
  refine (pay_apply (iblk5 V c 1 t) (iblk5 V c 2 t) (iblk5 V c 3 t) (iblk5 V c 4 t) (iblk5 V c 0 t) (iblk5 V c 5 t) p q).trans ?_
  rw [blk_pre V c t p q ⟨t.val * 10000 + p.val, by omega⟩ rfl, blk_prev V c t p q ⟨t.val * 10000 + p.val, by omega⟩ rfl,
    blk_s V c t q, blk_ss V c t q, blk_g V c t q, blk_b V c t q]
  show _ = outFn V c (((cfg5.win 6).blk t).view.emb (ix2 p q))
  have hemb : ((cfg5.win 6).blk t).view.emb (ix2 p q) = (ix2 (⟨t.val * 10000 + p.val, by omega⟩ : Fin 50000) q : S50000x128.Idx) := by
    funext a
    apply Fin.ext
    match a with
    | ⟨0, _⟩ => show win5_6.index t (0 : Fin 2) * 10000 + 1 * p.val = t.val * 10000 + p.val; rw [e0]; omega
    | ⟨1, _⟩ => show win5_6.index t (1 : Fin 2) * 128 + 1 * q.val = q.val; rw [e1]; omega
  rw [hemb]
  rfl

/-- Every entry of the array is in the block of the grid point its row falls under. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 5 := N_5
  have hlt : (i 0).val / 10000 < cfg5.N := by rw [hN]; omega
  obtain ⟨t, ht⟩ : ∃ t : Fin cfg5.N, t.val = (i 0).val / 10000 := ⟨⟨_, hlt⟩, rfl⟩
  obtain ⟨-, -, -, -, e0, e1, -⟩ := index_facts t
  refine ⟨t, flush5_6 t, ?_⟩
  show i ∈ ((View.whole main_v94).slice (win5_6.rect t)).set
  rw [View.set_slice_whole, Rect.mem_set_unit]
  intro a
  match a with
  | ⟨0, _⟩ =>
    show win5_6.index t (0 : Fin 2) * 10000 ≤ (i 0).val ∧ (i 0).val < win5_6.index t (0 : Fin 2) * 10000 + 10000
    rw [e0, ht]; omega
  | ⟨1, _⟩ =>
    show win5_6.index t (1 : Fin 2) * 128 ≤ (i 1).val ∧ (i 1).val < win5_6.index t (1 : Fin 2) * 128 + 128
    rw [e1]; omega

/-- The output array after the region is the closed form. -/
theorem out_eq (c : Dev nD) : (dat5 (F := Ideal) V c).arrAt 6 cfg5.N = outFn V c :=
  (dat5 (F := Ideal) V c).arrAt_eq_of_cover 6 (outFn V c) (fun t _ => flushed_eq V c t) (cover)

/-- The output array after the region, entry by entry: the pre-activation less the column's mean `s·(1/50000)`,
    times the reciprocal square root of `ss·(1/50000) - mean² + ε`, times the scale, plus the shift, plus the
    layer's input. -/
theorem out_arr (c : Dev nD) (p : Fin 50000) (q : Fin 128) :
    ((dat5 (F := Ideal) V c).arrAt 6 cfg5.N : S50000x128.Idx → EReal) (ix2 p q)
      = (pre V c p q - rowS V c q * Spec.invN)
          * Ideal.rsqrt ((rowSS V c q * Spec.invN - rowS V c q * Spec.invN * (rowS V c q * Spec.invN)) + Spec.eps)
          * rowG V c q + rowB V c q + prev V c p q := by
  rw [out_eq]
  rfl

end Region

end Cert.KernelIdeal.KC5

end
-- ==== Proof.KLayer2.lean ====
/-
  Layer 2 of the idealized kernel program, from its two launches and the host operations between them.

  The first launch leaves the pre-activation array `max ((x + agg) · W) 0` and, tile by tile, the partial column sums of it
  and of its square; the host adds the partial rows up into the two column totals; the second launch normalises with
  them.  Put together: the array the layer leaves is the one-pass normalisation of the pre-activation array, scaled
  by the layer's row of the scale table, shifted by its row of the shift table, plus the layer's input.
-/
import proofs.«120676_j3582002725394_2_alg».proof.Proof.Gen.KernelIdeal.Frame
import proofs.«120676_j3582002725394_2_alg».proof.Proof.KEnv
import proofs.«120676_j3582002725394_2_alg».proof.Proof.KRead2
import proofs.«120676_j3582002725394_2_alg».proof.Proof.KIndex
import proofs.«120676_j3582002725394_2_alg».proof.Proof.KB4
import proofs.«120676_j3582002725394_2_alg».proof.Proof.KC5
import proofs.«120676_j3582002725394_2_alg».proof.Proof.Spec
import proofs.«120676_j3582002725394_2_alg».proof.Proof.SpecLaws
import proofs.«120676_j3582002725394_2_alg».proof.Proof.SpecTiles
import proofs.«120676_j3582002725394_2_alg».proof.Proof.SpecNorm
import Idealize.ShloMosaic.Lib.ValueIdx
set_option maxRecDepth 16384

noncomputable section

namespace Cert.KernelIdeal.KLayer2

open Idealize.ShloMosaic Idealize.ShloMosaic.TcCoe
open Idealize.SL Idealize.SL.Sem
open Cert.KernelIdeal Cert.KernelIdeal.Gen

open Idealize.ShloMosaic.ValueIdx Cert.Spec
open Cert.KernelIdeal.KEnv Cert.KernelIdeal.KRead2 Cert.KernelIdeal.KReadDefs Cert.KernelIdeal.KIndex

variable (m : (ℓ : Loc nD τ sig) → Buf (Elt Ideal) ℓ) (ρ : Dev nD → PrngReg)

/-- The layer's input array, as the layer's start finds it. -/
abbrev Xin (c : Dev nD) : S50000x128.Idx → EReal := W12 m ρ c (Proc.devRef .tc main_v64)
/-- The aggregated messages of the layer's input. -/
abbrev Agg (c : Dev nD) : S50000x128.Idx → EReal :=
  aggK (F := Ideal) (W12 m ρ c (Proc.devRef .tc main_v64)) (W12 m ρ c (Proc.devRef .tc main_v1)) (W12 m ρ c (Proc.devRef .tc main_v3)) (W12 m ρ c (Proc.devRef .tc main_arg2))
/-- The layer's weight matrix. -/
abbrev Wsl (c : Dev nD) : S128x128.Idx → EReal :=
  shapeCast S128x128 (extractStridedSlice S1x128x128 ![2, 0, 0] (W12 m ρ c (Proc.devRef .tc main_v4) : FVec Ideal S4x128x128 .bf16) slices_S4x128x128_S1x128x128_2_0_0) shapeCasts_S1x128x128_S128x128
/-- The pre-activation array `max ((x + agg) · W) 0`. -/
def Pre (c : Dev nD) : Mat 50000 128 :=
  act (lin (cur (φ := .f32) (Xin m ρ c)) (cur (φ := .f32) (Agg m ρ c)) (cur (φ := .bf16) (Wsl m ρ c)))
/-- The layer's row of the scale table. -/
def gam (c : Dev nD) : Fin 128 → EReal := fun q => (m ((c : Thread nD τ).loc main_arg5) : S4x128.Idx → EReal) (ix2 2 q)
/-- The layer's row of the shift table. -/
def bet (c : Dev nD) : Fin 128 → EReal := fun q => (m ((c : Thread nD τ).loc main_arg6) : S4x128.Idx → EReal) (ix2 2 q)

/-- The first launch's three input windows hold the layer's input, its aggregated messages and its weight matrix. -/
theorem P_eq (c : Dev nD) : KB4.P (V15 m ρ) c = Pre m ρ c := by
  have hX : KB4.X (V15 m ρ) c = cur (φ := .f32) (Xin m ρ c) := congrArg (cur (φ := .f32)) (keep_xB_2 m ρ c)
  have hA : KB4.A (V15 m ρ) c = cur (φ := .f32) (Agg m ρ c) := congrArg (cur (φ := .f32)) (agg_read_2 m ρ c)
  have hW : KB4.W (V15 m ρ) c = cur (φ := .bf16) (Wsl m ρ c) := congrArg (cur (φ := .bf16)) (w_read_2 m ρ c)
  show act (lin (KB4.X (V15 m ρ) c) (KB4.A (V15 m ρ) c) (KB4.W (V15 m ρ) c)) = _
  rw [hX, hA, hW]
  rfl

/-- After the first launch the pre-activation buffer holds the pre-activation array. -/
theorem pre_at (c : Dev nD) (p : Fin 50000) (q : Fin 128) :
    (W16 m ρ c (Proc.devRef .tc main_v79_0) : S50000x128.Idx → EReal) (ix2 p q) = Pre m ρ c p q :=
  (congrFun (W16_arr m ρ c 3) (ix2 p q)).trans ((KB4.pre_arr (V15 m ρ) c p q).trans (congrFun (congrFun (P_eq m ρ c) p) q))

/-- After the first launch, row `r` of the partial-sum buffer holds the column sums of tile `r / 8` of the pre-activation array. -/
theorem sp_at (c : Dev nD) (r : Fin 80) (q : Fin 128) :
    (W16 m ρ c (Proc.devRef .tc main_v79_1) : S80x128.Idx → EReal) (ix2 r q)
      = ∑ p' : Fin 5000, Pre m ρ c ⟨5000 * (r.val / 8) + p'.val, by have := r.isLt; have := p'.isLt; omega⟩ q :=
  (congrFun (W16_arr m ρ c 4) (ix2 r q)).trans ((KB4.sum_arr (V15 m ρ) c r q).trans (by rw [P_eq m ρ c]))

/-- The same for the squares. -/
theorem ssp_at (c : Dev nD) (r : Fin 80) (q : Fin 128) :
    (W16 m ρ c (Proc.devRef .tc main_v79_2) : S80x128.Idx → EReal) (ix2 r q)
      = ∑ p' : Fin 5000, sq (Pre m ρ c) ⟨5000 * (r.val / 8) + p'.val, by have := r.isLt; have := p'.isLt; omega⟩ q :=
  (congrFun (W16_arr m ρ c 5) (ix2 r q)).trans ((KB4.sumsq_arr (V15 m ρ) c r q).trans (by rw [P_eq m ρ c]))

/-- The host's column total of the partial sums is the column sum of the pre-activation array over all its rows. -/
theorem s_at (c : Dev nD) (q : Fin 128) :
    (W17 m ρ c (Proc.devRef .tc main_v83) : S1x128.Idx → EReal) (ix2 0 q) = colSum (Pre m ρ c) q := by
  rw [s_read_2 m ρ c, totK_apply]
  simp only [sp_at m ρ c, Spec.ofBits_zero', Spec.ofBits_eighth]
  exact tiles_colSum (Pre m ρ c) q

/-- The same for the squares. -/
theorem ss_at (c : Dev nD) (q : Fin 128) :
    (W17 m ρ c (Proc.devRef .tc main_v87) : S1x128.Idx → EReal) (ix2 0 q) = colSum (sq (Pre m ρ c)) q := by
  rw [ss_read_2 m ρ c, totK_apply]
  simp only [ssp_at m ρ c, Spec.ofBits_zero', Spec.ofBits_eighth]
  exact tiles_colSum (sq (Pre m ρ c)) q

/-- The scale row the second launch reads is the layer's row of the scale table. -/
theorem g_at (c : Dev nD) (q : Fin 128) :
    (W17 m ρ c (Proc.devRef .tc main_v90) : S1x128.Idx → EReal) (ix2 0 q) = gam m c q := by
  rw [gamma_read_2 m ρ c, rowSlice_apply 2 (by omega), keep_gamma_2 m ρ c]
  rfl

/-- The shift row the second launch reads is the layer's row of the shift table. -/
theorem b_at (c : Dev nD) (q : Fin 128) :
    (W17 m ρ c (Proc.devRef .tc main_v93) : S1x128.Idx → EReal) (ix2 0 q) = bet m c q := by
  rw [beta_read_2 m ρ c, rowSlice_apply 2 (by omega), keep_beta_2 m ρ c]
  rfl

/-- THE LAYER: the array it leaves is the one-pass normalisation of the pre-activation array, scaled, shifted, plus its input. -/
theorem layer (c : Dev nD) :
    cur (φ := .f32) (W18 m ρ c (Proc.devRef .tc main_v94) : S50000x128.Idx → EReal)
      = normOnePass (Pre m ρ c) (gam m c) (bet m c) (cur (φ := .f32) (Xin m ρ c)) := by
  have hpre : KC5.pre (V17 m ρ) c = Pre m ρ c := funext fun p => funext fun q =>
    (congrFun (keep_pre_2 m ρ c) (ix2 p q)).trans (pre_at m ρ c p q)
  have hs : KC5.rowS (V17 m ρ) c = colSum (Pre m ρ c) := funext fun q => s_at m ρ c q
  have hss : KC5.rowSS (V17 m ρ) c = colSum (sq (Pre m ρ c)) := funext fun q => ss_at m ρ c q
  have hg : KC5.rowG (V17 m ρ) c = gam m c := funext fun q => g_at m ρ c q
  have hb : KC5.rowB (V17 m ρ) c = bet m c := funext fun q => b_at m ρ c q
  have hprev : KC5.prev (V17 m ρ) c = cur (φ := .f32) (Xin m ρ c) := congrArg (cur (φ := .f32)) (keep_xC_2 m ρ c)
  funext p q
  refine (congrFun (W18_arr m ρ c 6) (ix2 p q)).trans ?_
  refine (KC5.out_arr (V17 m ρ) c p q).trans ?_
  rw [hpre, hs, hss, hg, hb, hprev, normOnePass_apply]

end Cert.KernelIdeal.KLayer2

end
-- ==== Proof.KRead3.lean ====
/-
  What the host operations of layer 3 of the idealized kernel program leave in the buffers its two launches read.

  Each fact states one buffer's contents at a boundary as the host operations' own composed term of the contents at an
  earlier boundary: every edge's message, its clipping at zero, the sum at the destination nodes (together: the
  aggregated messages), the layer's slice of the weights, the two column totals formed from the first launch's partial
  rows, and the layer's rows of the scale and shift tables.
-/
import proofs.«120676_j3582002725394_2_alg».proof.Proof.Gen.KernelIdeal.Frame
import proofs.«120676_j3582002725394_2_alg».proof.Proof.KReadDefs
import proofs.«120676_j3582002725394_2_alg».proof.Proof.KEnv
import Idealize.ShloMosaic.Lib.StableHlo.Run
set_option maxRecDepth 16384
set_option maxHeartbeats 1600000

noncomputable section

namespace Cert.KernelIdeal.KRead3

open Idealize.ShloMosaic Idealize.ShloMosaic.TcCoe
open Idealize.SL Idealize.SL.Sem
open Cert.KernelIdeal Cert.KernelIdeal.Gen
open Cert.KernelIdeal.KReadDefs Cert.KernelIdeal.KEnv Idealize.ShloMosaic.StableHlo

variable {F : FTy → Type} [FloatOps F] [Named F]
variable (m : (ℓ : Loc nD τ sig) → Buf (Elt F) ℓ) (ρ : Dev nD → PrngReg)

/-! ## Layer 3 -/

/-- Every edge's message before clipping: the source node's row plus the edge's features. -/
theorem msg_3 (c : Dev nD) : W19 m ρ c (Proc.devRef .tc main_v102)
    = addf (Host.gather gather_S50000x128_S500000x1_S500000x128_1_0_n_n_0_1_1128 (W18 m ρ c (Proc.devRef .tc main_v94))
          (broadcastInDim S500000x1 ![0] bcast_S500000_S500000x1_0
            (select (cmpi .slt (W18 m ρ c (Proc.devRef .tc main_v1)) (broadcastInDim S500000 ![] bcast_S_S500000 (constantI S_ 32 0#32)))
              (addi (W18 m ρ c (Proc.devRef .tc main_v1)) (broadcastInDim S500000 ![] bcast_S_S500000 (constantI S_ 32 50000#32))) (W18 m ρ c (Proc.devRef .tc main_v1)))))
        (W18 m ρ c (Proc.devRef .tc main_arg2)) := by
  show StableHlo.after hostOps6 (W18 m ρ c) (Proc.devRef .tc main_v102) = _
  generalize W18 m ρ c = E
  simp only [hostOps6]
  after_results_simp
  all_goals rfl

/-- The messages clipped below at zero. -/
theorem relu_3 (c : Dev nD) : W20 m ρ c (Proc.devRef .tc main_v103)
    = maximumf (W19 m ρ c (Proc.devRef .tc main_v102)) (broadcastInDim S500000x128 ![] bcast_S_S500000x128 (constant S_ .f32 0x00000000#32)) := by
  show StableHlo.after hostOps6_1 (W19 m ρ c) (Proc.devRef .tc main_v103) = _
  generalize W19 m ρ c = E
  simp only [hostOps6_1]
  after_results_simp
  all_goals rfl

/-- The clipped messages added up at the destination nodes, from an all-zero array. -/
theorem scat_3 (c : Dev nD) : W21 m ρ c (Proc.devRef .tc main_v106)
    = Host.scatterAdd scatter_S50000x128_S500000x1_S500000x128_1_0_0_1
        (broadcastInDim S50000x128 ![] bcast_S_S50000x128 (constant S_ .f32 0x00000000#32))
        (broadcastInDim S500000x1 ![0] bcast_S500000_S500000x1_0 (W20 m ρ c (Proc.devRef .tc main_v3)))
        (W20 m ρ c (Proc.devRef .tc main_v103)) := by
  show StableHlo.after hostOps6_2 (W20 m ρ c) (Proc.devRef .tc main_v106) = _
  generalize W20 m ρ c = E
  simp only [hostOps6_2]
  after_results_simp
  all_goals rfl

/-- Slice 3 of the narrow-format weights as a [128, 128] array. -/
theorem wsl_3 (c : Dev nD) : W21 m ρ c (Proc.devRef .tc main_v108)
    = shapeCast S128x128 (extractStridedSlice S1x128x128 ![3, 0, 0] (W20 m ρ c (Proc.devRef .tc main_v4)) slices_S4x128x128_S1x128x128_3_0_0) shapeCasts_S1x128x128_S128x128 := by
  show StableHlo.after hostOps6_2 (W20 m ρ c) (Proc.devRef .tc main_v108) = _
  generalize W20 m ρ c = E
  simp only [hostOps6_2]
  after_results_simp
  all_goals rfl

/-- `main_v3` is not written by the layer's first two stretches. -/
theorem dstK_3 (c : Dev nD) : W20 m ρ c (Proc.devRef .tc main_v3) = W18 m ρ c (Proc.devRef .tc main_v3) :=
  calc W20 m ρ c (Proc.devRef .tc main_v3)
    _ = W19 m ρ c (Proc.devRef .tc main_v3) := StableHlo.after_of_forall_not_mem (b := Proc.devRef .tc main_v3) _ _ (by not_written)
    _ = W18 m ρ c (Proc.devRef .tc main_v3) := StableHlo.after_of_forall_not_mem (b := Proc.devRef .tc main_v3) _ _ (by not_written)

/-- `main_v4` is not written by the layer's first two stretches. -/
theorem wtsK_3 (c : Dev nD) : W20 m ρ c (Proc.devRef .tc main_v4) = W18 m ρ c (Proc.devRef .tc main_v4) :=
  calc W20 m ρ c (Proc.devRef .tc main_v4)
    _ = W19 m ρ c (Proc.devRef .tc main_v4) := StableHlo.after_of_forall_not_mem (b := Proc.devRef .tc main_v4) _ _ (by not_written)
    _ = W18 m ρ c (Proc.devRef .tc main_v4) := StableHlo.after_of_forall_not_mem (b := Proc.devRef .tc main_v4) _ _ (by not_written)

/-- The aggregated messages at the first launch's entry, from the contents at the layer's start. -/
theorem agg_read_3 (c : Dev nD) : W21 m ρ c (Proc.devRef .tc main_v106)
    = aggK (W18 m ρ c (Proc.devRef .tc main_v94)) (W18 m ρ c (Proc.devRef .tc main_v1)) (W18 m ρ c (Proc.devRef .tc main_v3)) (W18 m ρ c (Proc.devRef .tc main_arg2)) := by
  rw [scat_3 m ρ c, relu_3 m ρ c, msg_3 m ρ c, dstK_3 m ρ c]
  rfl

/-- The layer's weight matrix at the first launch's entry: slice 3 of the weights, as a [128, 128] array. -/
theorem w_read_3 (c : Dev nD) : W21 m ρ c (Proc.devRef .tc main_v108)
    = shapeCast S128x128 (extractStridedSlice S1x128x128 ![3, 0, 0] (W18 m ρ c (Proc.devRef .tc main_v4)) slices_S4x128x128_S1x128x128_3_0_0) shapeCasts_S1x128x128_S128x128 := by
  rw [wsl_3 m ρ c, wtsK_3 m ρ c]

/-- The column sums at the second launch's entry. -/
theorem s_read_3 (c : Dev nD) : W23 m ρ c (Proc.devRef .tc main_v113)
    = totK (W22 m ρ c (Proc.devRef .tc main_v109_1)) := by
  show StableHlo.after hostOps7 (W22 m ρ c) (Proc.devRef .tc main_v113) = _
  generalize W22 m ρ c = E
  simp only [hostOps7]
  after_results_simp
  all_goals rfl

/-- The column sums of squares at the second launch's entry. -/
theorem ss_read_3 (c : Dev nD) : W23 m ρ c (Proc.devRef .tc main_v117)
    = totK (W22 m ρ c (Proc.devRef .tc main_v109_2)) := by
  show StableHlo.after hostOps7 (W22 m ρ c) (Proc.devRef .tc main_v117) = _
  generalize W22 m ρ c = E
  simp only [hostOps7]
  after_results_simp
  all_goals rfl

/-- The layer's scale row at the second launch's entry: row 3 of the scale table, as a [1, 128] array. -/
theorem gamma_read_3 (c : Dev nD) : W23 m ρ c (Proc.devRef .tc main_v120)
    = shapeCast S1x128 (shapeCast S128 (extractStridedSlice S1x128 ![3, 0] (W22 m ρ c (Proc.devRef .tc main_arg5)) slices_S4x128_S1x128_3_0) shapeCasts_S1x128_S128) shapeCasts_S128_S1x128 := by
  show StableHlo.after hostOps7 (W22 m ρ c) (Proc.devRef .tc main_v120) = _
  generalize W22 m ρ c = E
  simp only [hostOps7]
  after_results_simp
  all_goals rfl

/-- The layer's shift row at the second launch's entry: row 3 of the shift table, as a [1, 128] array. -/
theorem beta_read_3 (c : Dev nD) : W23 m ρ c (Proc.devRef .tc main_v123)
    = shapeCast S1x128 (shapeCast S128 (extractStridedSlice S1x128 ![3, 0] (W22 m ρ c (Proc.devRef .tc main_arg6)) slices_S4x128_S1x128_3_0) shapeCasts_S1x128_S128) shapeCasts_S128_S1x128 := by
  show StableHlo.after hostOps7 (W22 m ρ c) (Proc.devRef .tc main_v123) = _
  generalize W22 m ρ c = E
  simp only [hostOps7]
  after_results_simp
  all_goals rfl

end Cert.KernelIdeal.KRead3

end
-- ==== Proof.KB6.lean ====
/-
  The matrix-product region of the fourth layer, read by coordinates.

  The region walks the 50000 rows in 10 tiles of 5000. On each tile it forms (x + agg) · W, clips it below at zero,
  stores the tile, and stores the tile's column sums and the column sums of its squares on the 8 rows of a partial
  block. Here the three arrays the region leaves are given as functions of the arrays it finds: row p of the product
  array is row p mod 5000 of tile p / 5000, so the array is the clipped product of the whole arrays; rows 8t .. 8t+7
  of the two partial arrays all hold the sums over tile t.
-/
import proofs.«120676_j3582002725394_2_alg».proof.Proof.Gen.KernelIdeal.Frame
import proofs.«120676_j3582002725394_2_alg».proof.Proof.Spec
import proofs.«120676_j3582002725394_2_alg».proof.Proof.LibPlainDot
import proofs.«120676_j3582002725394_2_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KB6

open Cert.KernelIdeal Cert.KernelIdeal.Gen Idealize.ShloMosaic Idealize.ShloMosaic.ValueIdx Idealize.ShloMosaic.TcCoe Idealize.SL.Sem
open Idealize.ShloMosaic.Pipeline (Dat)

/-! ## One tile's stored values at an index -/

/-- The product's dimension numbers are those of a plain [5000,128] by [128,128] product. -/
theorem plain_dims : Cert.PlainDot.IsPlain dot_S5000x128_S128x128_S5000x128_1_0_0_1_n_n := ⟨rfl, rfl, rfl, rfl, rfl, rfl⟩

/-- One tile's stored value at row p, column q: the tile of x plus the tile of agg, times W, clipped below at zero. -/
theorem pay1_apply (x0 x1 : FVec Ideal S5000x128 .f32) (x2 : FVec Ideal S128x128 .bf16) (p : Fin 5000) (q : Fin 128) :
    k6_pay1 (F := Ideal) x0 x1 x2 (ix2 p q) = max (∑ k : Fin 128, (x0 (ix2 p k) + x1 (ix2 p k)) * x2 (ix2 k q)) 0 := by
  unfold k6_pay1
  simp only [shapeCast_self]
  refine (maximumf_apply _ _ (ix2 p q)).trans ?_
  refine congrArg₂ max ?_ ?_
  · exact Cert.PlainDot.matmul_apply dot_S5000x128_S128x128_S5000x128_1_0_0_1_n_n plain_dims none _ _ p q
  · exact Ideal.ofBits_zero_f32

/-- The first partial-sum payload at (r, q): the tile's column q summed over its 5000 rows, on each of the 8 rows. -/
theorem pay2_apply (x0 x1 : FVec Ideal S5000x128 .f32) (x2 : FVec Ideal S128x128 .bf16) (r : Fin 8) (q : Fin 128) :
    k6_pay2 (F := Ideal) x0 x1 x2 (ix2 r q) = ∑ p : Fin 5000, k6_pay1 (F := Ideal) x0 x1 x2 (ix2 p q) := by
  unfold k6_pay2
  dsimp only
  rw [shapeCast_self]
  refine (broadcastTo_1b_ab_apply _ _ r q).trans ?_
  refine (shapeCast_a_1a_apply _ _ (0 : Fin 1) q).trans ?_
  exact Cert.Lib.column_sum _ _ _ _ q

/-- The second partial-sum payload at (r, q): the squares of the tile's column q summed over its 5000 rows. -/
theorem pay3_apply (x0 x1 : FVec Ideal S5000x128 .f32) (x2 : FVec Ideal S128x128 .bf16) (r : Fin 8) (q : Fin 128) :
    k6_pay3 (F := Ideal) x0 x1 x2 (ix2 r q)
      = ∑ p : Fin 5000, k6_pay1 (F := Ideal) x0 x1 x2 (ix2 p q) * k6_pay1 (F := Ideal) x0 x1 x2 (ix2 p q) := by
  unfold k6_pay3
  dsimp only
  rw [shapeCast_self]
  refine (broadcastTo_1b_ab_apply _ _ r q).trans ?_
  refine (shapeCast_a_1a_apply _ _ (0 : Fin 1) q).trans ?_
  exact Cert.Lib.column_sum _ _ _ _ q

/-! ## The arrays the region finds, and what it leaves, by coordinates -/

variable (V : (c : Dev nD) → (b : Ref sig .tc) → Buf (Elt Ideal) ((c : Thread nD τ).loc b)) (c : Dev nD)

/-- The node array as the region finds it. -/
abbrev X : Spec.Mat 50000 128 := Spec.cur (φ := .f32) (V c (Pipeline.arrRef spec6 0) : S50000x128.Idx → EReal)

/-- The aggregated messages as the region finds them. -/
abbrev A : Spec.Mat 50000 128 := Spec.cur (φ := .f32) (V c (Pipeline.arrRef spec6 1) : S50000x128.Idx → EReal)

/-- The layer's weights as the region finds them. -/
abbrev W : Spec.Mat 128 128 := Spec.cur (φ := .bf16) (V c (Pipeline.arrRef spec6 2) : S128x128.Idx → EReal)

/-- The clipped product (x + agg) · W of the whole arrays. -/
abbrev P : Spec.Mat 50000 128 := Spec.act (Spec.lin (X V c) (A V c) (W V c))

/-- The sum of column q over the 5000 rows of the tile that partial row r belongs to (tile r / 8). -/
abbrev tileSum (h : Spec.Mat 50000 128) : Spec.Mat 80 128 :=
  fun r q => ∑ p' : Fin 5000, h ⟨5000 * (r.val / 8) + p'.val, by omega⟩ q

/-- The product array the region leaves. -/
abbrev preArr : S50000x128.Idx → EReal := Spec.unc (φ := .f32) (P V c)

/-- The array of partial column sums the region leaves. -/
abbrev sumArr : S80x128.Idx → EReal := Spec.unc (φ := .f32) (tileSum (P V c))

/-- The array of partial column sums of squares the region leaves. -/
abbrev sumsqArr : S80x128.Idx → EReal := Spec.unc (φ := .f32) (tileSum (Spec.sq (P V c)))

theorem zero_offsets : (![0, 0] : Fin 2 → Nat) = fun _ => 0 := funext fun a => by fin_cases a <;> rfl

/-- The printed index maps over the 10 grid points: the row tiles and the partial blocks move with the point, the
    weights stay. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-! ## The input blocks at a point are rows of the whole arrays -/

/-- Row p' of the node array's tile t is row 5000 t + p' of the node array. -/
theorem x_block (t : Fin cfg6.N) (p' : Fin 5000) (k : Fin 128) (h : 5000 * t.val + p'.val < 50000) :
    (iblk6 V c 0 t : FVec Ideal S5000x128 .f32) (ix2 p' k) = X V c ⟨5000 * t.val + p'.val, h⟩ k := by
  obtain ⟨e0, e1, -⟩ := index_facts t
  unfold iblk6
  rw [View.read_apply]
  show (V c (Pipeline.arrRef spec6 0) : S50000x128.Idx → EReal) _
    = (V c (Pipeline.arrRef spec6 0) : S50000x128.Idx → EReal) (ix2 (⟨5000 * t.val + p'.val, h⟩ : Fin 50000) k)
  refine congrArg _ (funext fun a => Fin.ext ?_)
  match a with
  | ⟨0, _⟩ => show win6_0.index t (0 : Fin 2) * 5000 + 1 * p'.val = 5000 * t.val + p'.val; omega
  | ⟨1, _⟩ => show win6_0.index t (1 : Fin 2) * 128 + 1 * k.val = k.val; omega

/-- Row p' of the aggregated messages' tile t is row 5000 t + p' of that array. -/
theorem a_block (t : Fin cfg6.N) (p' : Fin 5000) (k : Fin 128) (h : 5000 * t.val + p'.val < 50000) :
    (iblk6 V c 1 t : FVec Ideal S5000x128 .f32) (ix2 p' k) = A V c ⟨5000 * t.val + p'.val, h⟩ k := by
  obtain ⟨-, -, e0, e1, -⟩ := index_facts t
  unfold iblk6
  rw [View.read_apply]
  show (V c (Pipeline.arrRef spec6 1) : S50000x128.Idx → EReal) _
    = (V c (Pipeline.arrRef spec6 1) : S50000x128.Idx → EReal) (ix2 (⟨5000 * t.val + p'.val, h⟩ : Fin 50000) k)
  refine congrArg _ (funext fun a => Fin.ext ?_)
  match a with
  | ⟨0, _⟩ => show win6_1.index t (0 : Fin 2) * 5000 + 1 * p'.val = 5000 * t.val + p'.val; omega
  | ⟨1, _⟩ => show win6_1.index t (1 : Fin 2) * 128 + 1 * k.val = k.val; omega

/-- The weights' block at every point is the whole weight array. -/
theorem w_block (t : Fin cfg6.N) (k q : Fin 128) :
    (iblk6 V c 2 t : FVec Ideal S128x128 .bf16) (ix2 k q) = W V c k q := by
  obtain ⟨-, -, -, -, e0, e1, -⟩ := index_facts t
  unfold iblk6
  rw [View.read_apply]
  show (V c (Pipeline.arrRef spec6 2) : S128x128.Idx → EReal) _
    = (V c (Pipeline.arrRef spec6 2) : S128x128.Idx → EReal) (ix2 k q)
  refine congrArg _ (funext fun a => Fin.ext ?_)
  match a with
  | ⟨0, _⟩ => show win6_2.index t (0 : Fin 2) * 128 + 1 * k.val = k.val; omega
  | ⟨1, _⟩ => show win6_2.index t (1 : Fin 2) * 128 + 1 * q.val = q.val; omega

/-- What point t stores at row p' of its tile is the clipped product at row 5000 t + p'. -/
theorem pre_block (t : Fin cfg6.N) (p' : Fin 5000) (q : Fin 128) (h : 5000 * t.val + p'.val < 50000) :
    k6_pay1 (F := Ideal) (iblk6 V c 0 t) (iblk6 V c 1 t) (iblk6 V c 2 t) (ix2 p' q) = P V c ⟨5000 * t.val + p'.val, h⟩ q := by
  refine (pay1_apply (iblk6 V c 0 t) (iblk6 V c 1 t) (iblk6 V c 2 t) p' q).trans ?_
  show max (∑ k : Fin 128, _) 0
    = max (∑ k : Fin 128, (X V c ⟨5000 * t.val + p'.val, h⟩ k + A V c ⟨5000 * t.val + p'.val, h⟩ k) * W V c k q) 0
  refine congrArg (fun s => max s 0) (Finset.sum_congr rfl fun k _ => ?_)
  exact congrArg₂ (· * ·) (congrArg₂ (· + ·) (x_block V c t p' k h) (a_block V c t p' k h)) (w_block V c t k q)

/-! ## What each point writes back -/

/-- Point t writes back block t of the product array. -/
theorem pre_flushed (t : Fin cfg6.N) :
    (dat6 (F := Ideal) V c).flushed 3 t = ((cfg6.win 3).blk t).view.read (Elt Ideal) (preArr V c) := by
  have hN : cfg6.N = 10 := N_6
  obtain ⟨-, -, -, -, -, -, e0, e1, -⟩ := index_facts t
  show (cfg6.win 3).cut (grid6.coords t) ((dat6 (F := Ideal) V c).after 3 t) = _
  rw [after6_3]
  unfold out6_3
  rw [View.canon_unit_zero zero_offsets]
  simp only [View.ld_unit_zero (S := S5000x128) zero_offsets, View.ld_unit_zero (S := S128x128) zero_offsets]
  funext j
  obtain ⟨p', q, rfl⟩ : ∃ (p' : Fin 5000) (q : Fin 128), j = ix2 p' q := ⟨j 0, j 1, eq_ix2 j⟩
  have hp : 5000 * t.val + p'.val < 50000 := by have := t.isLt; omega
  have he : ((cfg6.win 3).blk t).view.emb (ix2 p' q) = ix2 (⟨5000 * t.val + p'.val, hp⟩ : Fin 50000) q := by
    funext a; apply Fin.ext
    match a with
    | ⟨0, _⟩ => show win6_3.index t (0 : Fin 2) * 5000 + 1 * p'.val = 5000 * t.val + p'.val; omega
    | ⟨1, _⟩ => show win6_3.index t (1 : Fin 2) * 128 + 1 * q.val = q.val; omega
  show k6_pay1 (F := Ideal) (iblk6 V c 0 t) (iblk6 V c 1 t) (iblk6 V c 2 t) (ix2 p' q)
    = preArr V c (((cfg6.win 3).blk t).view.emb (ix2 p' q))
  exact (pre_block V c t p' q hp).trans (congrArg (preArr V c) he).symm

/-- Point t writes back block t of the array of partial column sums. -/
theorem sum_flushed (t : Fin cfg6.N) :
    (dat6 (F := Ideal) V c).flushed 4 t = ((cfg6.win 4).blk t).view.read (Elt Ideal) (sumArr V c) := by
  have hN : cfg6.N = 10 := N_6
  obtain ⟨-, -, -, -, -, -, -, -, e0, e1, -⟩ := index_facts t
  show (cfg6.win 4).cut (grid6.coords t) ((dat6 (F := Ideal) V c).after 4 t) = _
  rw [after6_4]
  unfold out6_4
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg6.win 4).blk t).view.emb (ix2 r' q) = ix2 (⟨8 * t.val + r'.val, hr⟩ : Fin 80) q := by
    funext a; apply Fin.ext
    match a with
    | ⟨0, _⟩ => show win6_4.index t (0 : Fin 2) * 8 + 1 * r'.val = 8 * t.val + r'.val; omega
    | ⟨1, _⟩ => show win6_4.index t (1 : Fin 2) * 128 + 1 * q.val = q.val; omega
  show k6_pay2 (F := Ideal) (iblk6 V c 0 t) (iblk6 V c 1 t) (iblk6 V c 2 t) (ix2 r' q)
    = sumArr V c (((cfg6.win 4).blk t).view.emb (ix2 r' q))
  refine ((pay2_apply (iblk6 V c 0 t) (iblk6 V c 1 t) (iblk6 V c 2 t) r' q).trans ?_).trans (congrArg (sumArr V c) he).symm
  show ∑ p' : Fin 5000, _ = ∑ p' : Fin 5000, P V c ⟨5000 * ((8 * t.val + r'.val) / 8) + p'.val, _⟩ q
  refine Finset.sum_congr rfl fun p' _ => ?_
  have hp : 5000 * t.val + p'.val < 50000 := by have := t.isLt; omega
  refine (pre_block V c t p' q hp).trans (congrArg (fun z => P V c z q) (Fin.ext ?_))
  show 5000 * t.val + p'.val = 5000 * ((8 * t.val + r'.val) / 8) + p'.val
  omega

/-- Point t writes back block t of the array of partial column sums of squares. -/
theorem sumsq_flushed (t : Fin cfg6.N) :
    (dat6 (F := Ideal) V c).flushed 5 t = ((cfg6.win 5).blk t).view.read (Elt Ideal) (sumsqArr V c) := by
  have hN : cfg6.N = 10 := N_6
  obtain ⟨-, -, -, -, -, -, -, -, -, -, e0, e1⟩ := index_facts t
  show (cfg6.win 5).cut (grid6.coords t) ((dat6 (F := Ideal) V c).after 5 t) = _
  rw [after6_5]
  unfold out6_5
  rw [View.canon_unit_zero zero_offsets]
  simp only [View.ld_unit_zero (S := S5000x128) zero_offsets, View.ld_unit_zero (S := S128x128) zero_offsets]
  funext j
  obtain ⟨r', q, rfl⟩ : ∃ (r' : Fin 8) (q : Fin 128), j = ix2 r' q := ⟨j 0, j 1, eq_ix2 j⟩
  have hr : 8 * t.val + r'.val < 80 := by have := t.isLt; omega
  have he : ((cfg6.win 5).blk t).view.emb (ix2 r' q) = ix2 (⟨8 * t.val + r'.val, hr⟩ : Fin 80) q := by
    funext a; apply Fin.ext
    match a with
    | ⟨0, _⟩ => show win6_5.index t (0 : Fin 2) * 8 + 1 * r'.val = 8 * t.val + r'.val; omega
    | ⟨1, _⟩ => show win6_5.index t (1 : Fin 2) * 128 + 1 * q.val = q.val; omega
  show k6_pay3 (F := Ideal) (iblk6 V c 0 t) (iblk6 V c 1 t) (iblk6 V c 2 t) (ix2 r' q)
    = sumsqArr V c (((cfg6.win 5).blk t).view.emb (ix2 r' q))
  refine ((pay3_apply (iblk6 V c 0 t) (iblk6 V c 1 t) (iblk6 V c 2 t) r' q).trans ?_).trans (congrArg (sumsqArr V c) he).symm
  show ∑ p' : Fin 5000, _ = ∑ p' : Fin 5000, Spec.sq (P V c) ⟨5000 * ((8 * t.val + r'.val) / 8) + p'.val, _⟩ q
  refine Finset.sum_congr rfl fun p' _ => ?_
  have hp : 5000 * t.val + p'.val < 50000 := by have := t.isLt; omega
  have hz : (⟨5000 * t.val + p'.val, hp⟩ : Fin 50000) = ⟨5000 * ((8 * t.val + r'.val) / 8) + p'.val, by omega⟩ :=
    Fin.ext (by show 5000 * t.val + p'.val = 5000 * ((8 * t.val + r'.val) / 8) + p'.val; omega)
  have e := (pre_block V c t p' q hp).trans (congrArg (fun z => P V c z q) hz)
  exact congrArg₂ (· * ·) e e

/-! ## The blocks cover the arrays -/

/-- An index of the product array is in point t's block iff each coordinate is in the block's range on its axis. -/
theorem mem_pre_blk (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v109_0).slice (win6_3.rect t)).set ↔ _
  rw [View.set_slice_whole, Rect.mem_set_unit]
  exact Iff.rfl

/-- Row p of the product array is in the block of point p / 5000. -/
theorem pre_cover (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, e0, e1, -⟩ := index_facts t
  refine ⟨t, flush6_3 t, ?_⟩
  rw [mem_pre_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- An index of the partial-sum array is in point t's block iff each coordinate is in the block's range on its axis. -/
theorem mem_sum_blk (t : Fin cfg6.N) (i : S80x128.Idx) :
    i ∈ ((cfg6.win 4).blk t).view.set ↔ ∀ a : Fin 2, win6_4.index t a * S8x128.size a ≤ (i a).val ∧ (i a).val < win6_4.index t a * S8x128.size a + S8x128.size a := by
  show i ∈ ((View.whole main_v109_1).slice (win6_4.rect t)).set ↔ _
  rw [View.set_slice_whole, Rect.mem_set_unit]
  exact Iff.rfl

/-- Row r of the partial-sum array is in the block of point r / 8. -/
theorem sum_cover (i : S80x128.Idx) :
    ∃ t : Fin cfg6.N, (cfg6.win 4).flush t = true ∧ i ∈ ((cfg6.win 4).blk t).view.set := by
  have hi0 : (i 0).val < 80 := (i 0).isLt
  have hi1 : (i 1).val < 128 := (i 1).isLt
  have hN : cfg6.N = 10 := N_6
  obtain ⟨t, ht⟩ : ∃ t : Fin cfg6.N, t.val = (i 0).val / 8 := ⟨⟨(i 0).val / 8, by rw [hN]; omega⟩, rfl⟩
  obtain ⟨-, -, -, -, -, -, -, -, e0, e1, -⟩ := index_facts t
  refine ⟨t, flush6_4 t, ?_⟩
  rw [mem_sum_blk]
  intro a
  match a with
  | ⟨0, _⟩ => show win6_4.index t (0 : Fin 2) * 8 ≤ (i 0).val ∧ (i 0).val < win6_4.index t (0 : Fin 2) * 8 + 8; omega
  | ⟨1, _⟩ => show win6_4.index t (1 : Fin 2) * 128 ≤ (i 1).val ∧ (i 1).val < win6_4.index t (1 : Fin 2) * 128 + 128; omega

/-- The same for the array of partial sums of squares. -/
theorem mem_sumsq_blk (t : Fin cfg6.N) (i : S80x128.Idx) :
    i ∈ ((cfg6.win 5).blk t).view.set ↔ ∀ a : Fin 2, win6_5.index t a * S8x128.size a ≤ (i a).val ∧ (i a).val < win6_5.index t a * S8x128.size a + S8x128.size a := by
  show i ∈ ((View.whole main_v109_2).slice (win6_5.rect t)).set ↔ _
  rw [View.set_slice_whole, Rect.mem_set_unit]
  exact Iff.rfl

theorem sumsq_cover (i : S80x128.Idx) :
    ∃ t : Fin cfg6.N, (cfg6.win 5).flush t = true ∧ i ∈ ((cfg6.win 5).blk t).view.set := by
  have hi0 : (i 0).val < 80 := (i 0).isLt
  have hi1 : (i 1).val < 128 := (i 1).isLt
  have hN : cfg6.N = 10 := N_6
  obtain ⟨t, ht⟩ : ∃ t : Fin cfg6.N, t.val = (i 0).val / 8 := ⟨⟨(i 0).val / 8, by rw [hN]; omega⟩, rfl⟩
  obtain ⟨-, -, -, -, -, -, -, -, -, -, e0, e1⟩ := index_facts t
  refine ⟨t, flush6_5 t, ?_⟩
  rw [mem_sumsq_blk]
  intro a
  match a with
  | ⟨0, _⟩ => show win6_5.index t (0 : Fin 2) * 8 ≤ (i 0).val ∧ (i 0).val < win6_5.index t (0 : Fin 2) * 8 + 8; omega
  | ⟨1, _⟩ => show win6_5.index t (1 : Fin 2) * 128 ≤ (i 1).val ∧ (i 1).val < win6_5.index t (1 : Fin 2) * 128 + 128; omega

/-! ## The arrays after the region -/

/-- The product array after the region. -/
theorem pre_final : (dat6 (F := Ideal) V c).arrAt 3 cfg6.N = preArr V c :=
  (dat6 (F := Ideal) V c).arrAt_eq_of_cover 3 (preArr V c) (fun t _ => pre_flushed V c t) pre_cover

/-- The array of partial column sums after the region. -/
theorem sum_final : (dat6 (F := Ideal) V c).arrAt 4 cfg6.N = sumArr V c :=
  (dat6 (F := Ideal) V c).arrAt_eq_of_cover 4 (sumArr V c) (fun t _ => sum_flushed V c t) sum_cover

/-- The array of partial column sums of squares after the region. -/
theorem sumsq_final : (dat6 (F := Ideal) V c).arrAt 5 cfg6.N = sumsqArr V c :=
  (dat6 (F := Ideal) V c).arrAt_eq_of_cover 5 (sumsqArr V c) (fun t _ => sumsq_flushed V c t) sumsq_cover

/-- Entry (p, q) of the product array after the region is the clipped product (x + agg) · W at (p, q). -/
theorem pre_arr (p : Fin 50000) (q : Fin 128) :
    ((dat6 (F := Ideal) V c).arrAt 3 cfg6.N : S50000x128.Idx → EReal) (ix2 p q) = P V c p q :=
  congrFun (pre_final V c) (ix2 p q)

/-- Entry (r, q) of the partial-sum array after the region is column q of the clipped product summed over the 5000
    rows of tile r / 8. -/
theorem sum_arr (r : Fin 80) (q : Fin 128) :
    ((dat6 (F := Ideal) V c).arrAt 4 cfg6.N : S80x128.Idx → EReal) (ix2 r q)
      = ∑ p' : Fin 5000, P V c ⟨5000 * (r.val / 8) + p'.val, by omega⟩ q :=
  congrFun (sum_final V c) (ix2 r q)

/-- Entry (r, q) of the other partial array after the region is the same sum of the squares. -/
theorem sumsq_arr (r : Fin 80) (q : Fin 128) :
    ((dat6 (F := Ideal) V c).arrAt 5 cfg6.N : S80x128.Idx → EReal) (ix2 r q)
      = ∑ p' : Fin 5000, Spec.sq (P V c) ⟨5000 * (r.val / 8) + p'.val, by omega⟩ q :=
  congrFun (sumsq_final V c) (ix2 r q)

end Cert.KernelIdeal.KB6

end
-- ==== Proof.KC7.lean ====
/-
  The normalise-and-add-back region, read off its pipeline: what the output array holds after the
  region's five grid points, as one function of the arrays the region finds, coordinate by coordinate.

  The body at a grid point loads a block of 10000 rows of the pre-activation array and of the layer's input, and
  the four `[1,128]` rows (column sums, column sums of squares, scale, shift) whole; it forms, per column `q`, the
  mean `s q · (1/50000)`, the one-pass variance `ss q · (1/50000) - mean²`, and stores
  `(h - mean) · rsqrt(var + ε) · γ q + β q + prev` for every entry of the block.  Block `t` is rows
  `10000·t … 10000·t + 9999`; the five blocks tile the `50000` rows, so the array ends holding that formula at
  every row.
-/
import proofs.«120676_j3582002725394_2_alg».proof.Proof.Gen.KernelIdeal.Frame
import proofs.«120676_j3582002725394_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KC7

open Idealize.ShloMosaic Idealize.ShloMosaic.TcCoe Idealize.ShloMosaic.ValueIdx Idealize.SL.Sem
open Idealize.ShloMosaic.Pipeline (Dat)
open Cert.KernelIdeal Cert.KernelIdeal.Gen

/-! ## The body's stored value at an entry of the block -/

/-- The named reciprocal of the row count is the rational `1/50000` on the extended reals. -/
theorem inv_n : Named.named (F := Ideal) Cert.KernelIdeal.κ "inv_50000" (φ := .f32) 0x37A7C5AC#32 = Spec.invN :=
  IdealRules.named_const.ideal_named_scalar _ _ _ _ rfl

/-- A `[1,128]` row stretched over `10000` rows reads, at row `p` and column `q`, the row's entry at column `q`. -/
theorem row_stretch (v : FVec Ideal S1x128 .f32) (p : Fin 10000) (q : Fin 128) :
    broadcastTo S10000x128 v broadcasts_S1x128_S10000x128 (ix2 p q) = v (ix2 0 q) := by
  refine broadcastTo_apply v _ (ix2 p q) (ix2 0 q) fun a => ?_
  match a with
  | ⟨0, _⟩ => rfl
  | ⟨1, _⟩ => rfl

/-- The stored block at row `p`, column `q`: the entry less the column's mean, times the reciprocal square root of
    the column's one-pass variance plus `ε`, times the scale, plus the shift, plus the layer's input. -/
theorem pay_apply (v0 v4 v19 v23 : Vec Ideal S1x128 .f32) (v13 v27 : Vec Ideal S10000x128 .f32)
    (p : Fin 10000) (q : Fin 128) :
    k7_pay1 (F := Ideal) v0 v4 v13 v19 v23 v27 (ix2 p q)
      = (v13 (ix2 p q) - v0 (ix2 0 q) * Spec.invN)
          * Ideal.rsqrt ((v4 (ix2 0 q) * Spec.invN - v0 (ix2 0 q) * Spec.invN * (v0 (ix2 0 q) * Spec.invN)) + Spec.eps)
          * v19 (ix2 0 q) + v23 (ix2 0 q) + v27 (ix2 p q) := by
  unfold k7_pay1
  simp only [shapeCast_self, addf_apply, mulf_apply, subf_apply, row_stretch, broadcast_apply, inv_n]
  rfl

/-! ## The closed form -/

section Region

variable (V : (c : Dev nD) → (b : Ref sig .tc) → Buf (Elt Ideal) ((c : Thread nD τ).loc b))

/-- The pre-activation array the region finds, by coordinates. -/
abbrev pre (c : Dev nD) : Spec.Mat 50000 128 :=
  Spec.cur (a := 50000) (b := 128) (φ := .f32) (V c (Pipeline.arrRef spec7 0))
/-- The layer's input the region finds, by coordinates. -/
abbrev prev (c : Dev nD) : Spec.Mat 50000 128 :=
  Spec.cur (a := 50000) (b := 128) (φ := .f32) (V c (Pipeline.arrRef spec7 5))
/-- The row of column sums the region finds. -/
abbrev rowS (c : Dev nD) : Fin 128 → EReal := fun q => (V c (Pipeline.arrRef spec7 1) : S1x128.Idx → EReal) (ix2 0 q)
/-- The row of column sums of squares the region finds. -/
abbrev rowSS (c : Dev nD) : Fin 128 → EReal := fun q => (V c (Pipeline.arrRef spec7 2) : S1x128.Idx → EReal) (ix2 0 q)
/-- The scale row the region finds. -/
abbrev rowG (c : Dev nD) : Fin 128 → EReal := fun q => (V c (Pipeline.arrRef spec7 3) : S1x128.Idx → EReal) (ix2 0 q)
/-- The shift row the region finds. -/
abbrev rowB (c : Dev nD) : Fin 128 → EReal := fun q => (V c (Pipeline.arrRef spec7 4) : S1x128.Idx → EReal) (ix2 0 q)

/-- The normalised, scaled, shifted entry with the input added back, from a row of sums `s` and a row of sums of
    squares `ss`. -/
def norm (H : Spec.Mat 50000 128) (s ss g b : Fin 128 → EReal) (R : Spec.Mat 50000 128) : Spec.Mat 50000 128 :=
  fun p q => (H p q - s q * Spec.invN)
    * Ideal.rsqrt ((ss q * Spec.invN - s q * Spec.invN * (s q * Spec.invN)) + Spec.eps) * g q + b q + R p q

/-- What the output array ends holding, as an array. -/
def outFn (c : Dev nD) : S50000x128.Idx → EReal :=
  Spec.unc (a := 50000) (b := 128) (φ := .f32)
    (norm (pre V c) (rowS V c) (rowSS V c) (rowG V c) (rowB V c) (prev V c))

/-! ## The blocks -/

theorem zero_off : (![0, 0] : Fin 2 → Nat) = fun _ => 0 := funext fun a => by fin_cases a <;> rfl

/-- The index maps, decided over the five grid points: the row-tiled windows sit at block `(t, 0)`, the whole rows at
    block `(0, 0)`. -/
theorem index_facts : ∀ t : Fin cfg7.N,
    win7_0.index t (0 : Fin 2) = t.val ∧ win7_0.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Row `p` of block `t` of the pre-activation array is row `10000·t + p` of the array. -/
theorem blk_pre (c : Dev nD) (t : Fin cfg7.N) (p : Fin 10000) (q : Fin 128) (P : Fin 50000)
    (hP : P.val = t.val * 10000 + p.val) :
    (iblk7 V c 0 t : Vec Ideal S10000x128 .f32) (ix2 p q) = pre V c P q := by
  obtain ⟨e0, e1, -⟩ := index_facts t
  unfold iblk7
  rw [View.read_apply]
  show (V c (Pipeline.arrRef spec7 0) : S50000x128.Idx → EReal) _ = (V c (Pipeline.arrRef spec7 0) : S50000x128.Idx → EReal) (ix2 P q)
  congr 1
  funext a
  apply Fin.ext
  match a with
  | ⟨0, _⟩ => show win7_0.index t (0 : Fin 2) * 10000 + 1 * p.val = P.val; rw [e0, hP]; omega
  | ⟨1, _⟩ => show win7_0.index t (1 : Fin 2) * 128 + 1 * q.val = q.val; rw [e1]; omega

/-- Row `p` of block `t` of the layer's input is row `10000·t + p` of the array. -/
theorem blk_prev (c : Dev nD) (t : Fin cfg7.N) (p : Fin 10000) (q : Fin 128) (P : Fin 50000)
    (hP : P.val = t.val * 10000 + p.val) :
    (iblk7 V c 5 t : Vec Ideal S10000x128 .f32) (ix2 p q) = prev V c P q := by
  obtain ⟨-, -, e0, e1, -⟩ := index_facts t
  unfold iblk7
  rw [View.read_apply]
  show (V c (Pipeline.arrRef spec7 5) : S50000x128.Idx → EReal) _ = (V c (Pipeline.arrRef spec7 5) : S50000x128.Idx → EReal) (ix2 P q)
  congr 1
  funext a
  apply Fin.ext
  match a with
  | ⟨0, _⟩ => show win7_5.index t (0 : Fin 2) * 10000 + 1 * p.val = P.val; rw [e0, hP]; omega
  | ⟨1, _⟩ => show win7_5.index t (1 : Fin 2) * 128 + 1 * q.val = q.val; rw [e1]; omega

/-- The block of a whole `[1,128]` row is the row: the sums, -/
theorem blk_s (c : Dev nD) (t : Fin cfg7.N) (q : Fin 128) :
    (iblk7 V c 1 t : Vec Ideal S1x128 .f32) (ix2 0 q) = rowS V c q := by
  obtain ⟨-, -, -, -, -, -, e0, e1, -⟩ := index_facts t
  unfold iblk7
  rw [View.read_apply]
  show (V c (Pipeline.arrRef spec7 1) : S1x128.Idx → EReal) _ = (V c (Pipeline.arrRef spec7 1) : S1x128.Idx → EReal) (ix2 0 q)
  congr 1
  funext a
  apply Fin.ext
  match a with
  | ⟨0, _⟩ => show win7_1.index t (0 : Fin 2) * 1 + 1 * 0 = 0; rw [e0]
  | ⟨1, _⟩ => show win7_1.index t (1 : Fin 2) * 128 + 1 * q.val = q.val; rw [e1]; omega

/-- the sums of squares, -/
theorem blk_ss (c : Dev nD) (t : Fin cfg7.N) (q : Fin 128) :
    (iblk7 V c 2 t : Vec Ideal S1x128 .f32) (ix2 0 q) = rowSS V c q := by
  obtain ⟨-, -, -, -, -, -, -, -, e0, e1, -⟩ := index_facts t
  unfold iblk7
  rw [View.read_apply]
  show (V c (Pipeline.arrRef spec7 2) : S1x128.Idx → EReal) _ = (V c (Pipeline.arrRef spec7 2) : S1x128.Idx → EReal) (ix2 0 q)
  congr 1
  funext a
  apply Fin.ext
  match a with
  | ⟨0, _⟩ => show win7_2.index t (0 : Fin 2) * 1 + 1 * 0 = 0; rw [e0]
  | ⟨1, _⟩ => show win7_2.index t (1 : Fin 2) * 128 + 1 * q.val = q.val; rw [e1]; omega

/-- the scale, -/
theorem blk_g (c : Dev nD) (t : Fin cfg7.N) (q : Fin 128) :
    (iblk7 V c 3 t : Vec Ideal S1x128 .f32) (ix2 0 q) = rowG V c q := by
  obtain ⟨-, -, -, -, -, -, -, -, -, -, e0, e1, -⟩ := index_facts t
  unfold iblk7
  rw [View.read_apply]
  show (V c (Pipeline.arrRef spec7 3) : S1x128.Idx → EReal) _ = (V c (Pipeline.arrRef spec7 3) : S1x128.Idx → EReal) (ix2 0 q)
  congr 1
  funext a
  apply Fin.ext
  match a with
  | ⟨0, _⟩ => show win7_3.index t (0 : Fin 2) * 1 + 1 * 0 = 0; rw [e0]
  | ⟨1, _⟩ => show win7_3.index t (1 : Fin 2) * 128 + 1 * q.val = q.val; rw [e1]; omega

/-- and the shift. -/
theorem blk_b (c : Dev nD) (t : Fin cfg7.N) (q : Fin 128) :
    (iblk7 V c 4 t : Vec Ideal S1x128 .f32) (ix2 0 q) = rowB V c q := by
  obtain ⟨-, -, -, -, -, -, -, -, -, -, -, -, e0, e1⟩ := index_facts t
  unfold iblk7
  rw [View.read_apply]
  show (V c (Pipeline.arrRef spec7 4) : S1x128.Idx → EReal) _ = (V c (Pipeline.arrRef spec7 4) : S1x128.Idx → EReal) (ix2 0 q)
  congr 1
  funext a
  apply Fin.ext
  match a with
  | ⟨0, _⟩ => show win7_4.index t (0 : Fin 2) * 1 + 1 * 0 = 0; rw [e0]
  | ⟨1, _⟩ => show win7_4.index t (1 : Fin 2) * 128 + 1 * q.val = q.val; rw [e1]; omega

/-- What grid point `t` writes back is block `t` of the closed form. -/
theorem flushed_eq (c : Dev nD) (t : Fin cfg7.N) :
    (dat7 (F := Ideal) V c).flushed 6 t = ((cfg7.win 6).blk t).view.read (Elt Ideal) (outFn V c) := by
  show (cfg7.win 6).cut (grid7.coords t) ((dat7 (F := Ideal) V c).after 6 t) = _
  rw [after7_6]
  unfold out7_6
  rw [View.canon_unit_zero zero_off]
  simp only [View.ld_unit_zero (S := S10000x128) zero_off, View.ld_unit_zero (S := S1x128) zero_off]
  obtain ⟨-, -, -, -, e0, e1, -⟩ := index_facts t
  have ht : t.val < 5 := by have h := t.isLt; have hN : cfg7.N = 5 := N_7; omega
  funext j
  obtain ⟨p, q, rfl⟩ : ∃ (p : Fin 10000) (q : Fin 128), j = ix2 p q := ⟨j 0, j 1, eq_ix2 j⟩
  have hp : p.val < 10000 := p.isLt
  refine (pay_apply (iblk7 V c 1 t) (iblk7 V c 2 t) (iblk7 V c 3 t) (iblk7 V c 4 t) (iblk7 V c 0 t) (iblk7 V c 5 t) p q).trans ?_
  rw [blk_pre V c t p q ⟨t.val * 10000 + p.val, by omega⟩ rfl, blk_prev V c t p q ⟨t.val * 10000 + p.val, by omega⟩ rfl,
    blk_s V c t q, blk_ss V c t q, blk_g V c t q, blk_b V c t q]
  show _ = outFn V c (((cfg7.win 6).blk t).view.emb (ix2 p q))
  have hemb : ((cfg7.win 6).blk t).view.emb (ix2 p q) = (ix2 (⟨t.val * 10000 + p.val, by omega⟩ : Fin 50000) q : S50000x128.Idx) := by
    funext a
    apply Fin.ext
    match a with
    | ⟨0, _⟩ => show win7_6.index t (0 : Fin 2) * 10000 + 1 * p.val = t.val * 10000 + p.val; rw [e0]; omega
    | ⟨1, _⟩ => show win7_6.index t (1 : Fin 2) * 128 + 1 * q.val = q.val; rw [e1]; omega
  rw [hemb]
  rfl

/-- Every entry of the array is in the block of the grid point its row falls under. -/
theorem cover (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 5 := N_7
  have hlt : (i 0).val / 10000 < cfg7.N := by rw [hN]; omega
  obtain ⟨t, ht⟩ : ∃ t : Fin cfg7.N, t.val = (i 0).val / 10000 := ⟨⟨_, hlt⟩, rfl⟩
  obtain ⟨-, -, -, -, e0, e1, -⟩ := index_facts t
  refine ⟨t, flush7_6 t, ?_⟩
  show i ∈ ((View.whole main_v124).slice (win7_6.rect t)).set
  rw [View.set_slice_whole, Rect.mem_set_unit]
  intro a
  match a with
  | ⟨0, _⟩ =>
    show win7_6.index t (0 : Fin 2) * 10000 ≤ (i 0).val ∧ (i 0).val < win7_6.index t (0 : Fin 2) * 10000 + 10000
    rw [e0, ht]; omega
  | ⟨1, _⟩ =>
    show win7_6.index t (1 : Fin 2) * 128 ≤ (i 1).val ∧ (i 1).val < win7_6.index t (1 : Fin 2) * 128 + 128
    rw [e1]; omega

/-- The output array after the region is the closed form. -/
theorem out_eq (c : Dev nD) : (dat7 (F := Ideal) V c).arrAt 6 cfg7.N = outFn V c :=
  (dat7 (F := Ideal) V c).arrAt_eq_of_cover 6 (outFn V c) (fun t _ => flushed_eq V c t) (cover)

/-- The output array after the region, entry by entry: the pre-activation less the column's mean `s·(1/50000)`,
    times the reciprocal square root of `ss·(1/50000) - mean² + ε`, times the scale, plus the shift, plus the
    layer's input. -/
theorem out_arr (c : Dev nD) (p : Fin 50000) (q : Fin 128) :
    ((dat7 (F := Ideal) V c).arrAt 6 cfg7.N : S50000x128.Idx → EReal) (ix2 p q)
      = (pre V c p q - rowS V c q * Spec.invN)
          * Ideal.rsqrt ((rowSS V c q * Spec.invN - rowS V c q * Spec.invN * (rowS V c q * Spec.invN)) + Spec.eps)
          * rowG V c q + rowB V c q + prev V c p q := by
  rw [out_eq]
  rfl

end Region

end Cert.KernelIdeal.KC7

end
-- ==== Proof.KLayer3.lean ====
/-
  Layer 3 of the idealized kernel program, from its two launches and the host operations between them.

  The first launch leaves the pre-activation array `max ((x + agg) · W) 0` and, tile by tile, the partial column sums of it
  and of its square; the host adds the partial rows up into the two column totals; the second launch normalises with
  them.  Put together: the array the layer leaves is the one-pass normalisation of the pre-activation array, scaled
  by the layer's row of the scale table, shifted by its row of the shift table, plus the layer's input.
-/
import proofs.«120676_j3582002725394_2_alg».proof.Proof.Gen.KernelIdeal.Frame
import proofs.«120676_j3582002725394_2_alg».proof.Proof.KEnv
import proofs.«120676_j3582002725394_2_alg».proof.Proof.KRead3
import proofs.«120676_j3582002725394_2_alg».proof.Proof.KIndex
import proofs.«120676_j3582002725394_2_alg».proof.Proof.KB6
import proofs.«120676_j3582002725394_2_alg».proof.Proof.KC7
import proofs.«120676_j3582002725394_2_alg».proof.Proof.Spec
import proofs.«120676_j3582002725394_2_alg».proof.Proof.SpecLaws
import proofs.«120676_j3582002725394_2_alg».proof.Proof.SpecTiles
import proofs.«120676_j3582002725394_2_alg».proof.Proof.SpecNorm
import Idealize.ShloMosaic.Lib.ValueIdx
set_option maxRecDepth 16384

noncomputable section

namespace Cert.KernelIdeal.KLayer3

open Idealize.ShloMosaic Idealize.ShloMosaic.TcCoe
open Idealize.SL Idealize.SL.Sem
open Cert.KernelIdeal Cert.KernelIdeal.Gen

open Idealize.ShloMosaic.ValueIdx Cert.Spec
open Cert.KernelIdeal.KEnv Cert.KernelIdeal.KRead3 Cert.KernelIdeal.KReadDefs Cert.KernelIdeal.KIndex

variable (m : (ℓ : Loc nD τ sig) → Buf (Elt Ideal) ℓ) (ρ : Dev nD → PrngReg)

/-- The layer's input array, as the layer's start finds it. -/
abbrev Xin (c : Dev nD) : S50000x128.Idx → EReal := W18 m ρ c (Proc.devRef .tc main_v94)
/-- The aggregated messages of the layer's input. -/
abbrev Agg (c : Dev nD) : S50000x128.Idx → EReal :=
  aggK (F := Ideal) (W18 m ρ c (Proc.devRef .tc main_v94)) (W18 m ρ c (Proc.devRef .tc main_v1)) (W18 m ρ c (Proc.devRef .tc main_v3)) (W18 m ρ c (Proc.devRef .tc main_arg2))
/-- The layer's weight matrix. -/
abbrev Wsl (c : Dev nD) : S128x128.Idx → EReal :=
  shapeCast S128x128 (extractStridedSlice S1x128x128 ![3, 0, 0] (W18 m ρ c (Proc.devRef .tc main_v4) : FVec Ideal S4x128x128 .bf16) slices_S4x128x128_S1x128x128_3_0_0) shapeCasts_S1x128x128_S128x128
/-- The pre-activation array `max ((x + agg) · W) 0`. -/
def Pre (c : Dev nD) : Mat 50000 128 :=
  act (lin (cur (φ := .f32) (Xin m ρ c)) (cur (φ := .f32) (Agg m ρ c)) (cur (φ := .bf16) (Wsl m ρ c)))
/-- The layer's row of the scale table. -/
def gam (c : Dev nD) : Fin 128 → EReal := fun q => (m ((c : Thread nD τ).loc main_arg5) : S4x128.Idx → EReal) (ix2 3 q)
/-- The layer's row of the shift table. -/
def bet (c : Dev nD) : Fin 128 → EReal := fun q => (m ((c : Thread nD τ).loc main_arg6) : S4x128.Idx → EReal) (ix2 3 q)

/-- The first launch's three input windows hold the layer's input, its aggregated messages and its weight matrix. -/
theorem P_eq (c : Dev nD) : KB6.P (V21 m ρ) c = Pre m ρ c := by
  have hX : KB6.X (V21 m ρ) c = cur (φ := .f32) (Xin m ρ c) := congrArg (cur (φ := .f32)) (keep_xB_3 m ρ c)
  have hA : KB6.A (V21 m ρ) c = cur (φ := .f32) (Agg m ρ c) := congrArg (cur (φ := .f32)) (agg_read_3 m ρ c)
  have hW : KB6.W (V21 m ρ) c = cur (φ := .bf16) (Wsl m ρ c) := congrArg (cur (φ := .bf16)) (w_read_3 m ρ c)
  show act (lin (KB6.X (V21 m ρ) c) (KB6.A (V21 m ρ) c) (KB6.W (V21 m ρ) c)) = _
  rw [hX, hA, hW]
  rfl

/-- After the first launch the pre-activation buffer holds the pre-activation array. -/
theorem pre_at (c : Dev nD) (p : Fin 50000) (q : Fin 128) :
    (W22 m ρ c (Proc.devRef .tc main_v109_0) : S50000x128.Idx → EReal) (ix2 p q) = Pre m ρ c p q :=
  (congrFun (W22_arr m ρ c 3) (ix2 p q)).trans ((KB6.pre_arr (V21 m ρ) c p q).trans (congrFun (congrFun (P_eq m ρ c) p) q))

/-- After the first launch, row `r` of the partial-sum buffer holds the column sums of tile `r / 8` of the pre-activation array. -/
theorem sp_at (c : Dev nD) (r : Fin 80) (q : Fin 128) :
    (W22 m ρ c (Proc.devRef .tc main_v109_1) : S80x128.Idx → EReal) (ix2 r q)
      = ∑ p' : Fin 5000, Pre m ρ c ⟨5000 * (r.val / 8) + p'.val, by have := r.isLt; have := p'.isLt; omega⟩ q :=
  (congrFun (W22_arr m ρ c 4) (ix2 r q)).trans ((KB6.sum_arr (V21 m ρ) c r q).trans (by rw [P_eq m ρ c]))

/-- The same for the squares. -/
theorem ssp_at (c : Dev nD) (r : Fin 80) (q : Fin 128) :
    (W22 m ρ c (Proc.devRef .tc main_v109_2) : S80x128.Idx → EReal) (ix2 r q)
      = ∑ p' : Fin 5000, sq (Pre m ρ c) ⟨5000 * (r.val / 8) + p'.val, by have := r.isLt; have := p'.isLt; omega⟩ q :=
  (congrFun (W22_arr m ρ c 5) (ix2 r q)).trans ((KB6.sumsq_arr (V21 m ρ) c r q).trans (by rw [P_eq m ρ c]))

/-- The host's column total of the partial sums is the column sum of the pre-activation array over all its rows. -/
theorem s_at (c : Dev nD) (q : Fin 128) :
    (W23 m ρ c (Proc.devRef .tc main_v113) : S1x128.Idx → EReal) (ix2 0 q) = colSum (Pre m ρ c) q := by
  rw [s_read_3 m ρ c, totK_apply]
  simp only [sp_at m ρ c, Spec.ofBits_zero', Spec.ofBits_eighth]
  exact tiles_colSum (Pre m ρ c) q

/-- The same for the squares. -/
theorem ss_at (c : Dev nD) (q : Fin 128) :
    (W23 m ρ c (Proc.devRef .tc main_v117) : S1x128.Idx → EReal) (ix2 0 q) = colSum (sq (Pre m ρ c)) q := by
  rw [ss_read_3 m ρ c, totK_apply]
  simp only [ssp_at m ρ c, Spec.ofBits_zero', Spec.ofBits_eighth]
  exact tiles_colSum (sq (Pre m ρ c)) q

/-- The scale row the second launch reads is the layer's row of the scale table. -/
theorem g_at (c : Dev nD) (q : Fin 128) :
    (W23 m ρ c (Proc.devRef .tc main_v120) : S1x128.Idx → EReal) (ix2 0 q) = gam m c q := by
  rw [gamma_read_3 m ρ c, rowSlice_apply 3 (by omega), keep_gamma_3 m ρ c]
  rfl

/-- The shift row the second launch reads is the layer's row of the shift table. -/
theorem b_at (c : Dev nD) (q : Fin 128) :
    (W23 m ρ c (Proc.devRef .tc main_v123) : S1x128.Idx → EReal) (ix2 0 q) = bet m c q := by
  rw [beta_read_3 m ρ c, rowSlice_apply 3 (by omega), keep_beta_3 m ρ c]
  rfl

/-- THE LAYER: the array it leaves is the one-pass normalisation of the pre-activation array, scaled, shifted, plus its input. -/
theorem layer (c : Dev nD) :
    cur (φ := .f32) (W24 m ρ c (Proc.devRef .tc main_v124) : S50000x128.Idx → EReal)
      = normOnePass (Pre m ρ c) (gam m c) (bet m c) (cur (φ := .f32) (Xin m ρ c)) := by
  have hpre : KC7.pre (V23 m ρ) c = Pre m ρ c := funext fun p => funext fun q =>
    (congrFun (keep_pre_3 m ρ c) (ix2 p q)).trans (pre_at m ρ c p q)
  have hs : KC7.rowS (V23 m ρ) c = colSum (Pre m ρ c) := funext fun q => s_at m ρ c q
  have hss : KC7.rowSS (V23 m ρ) c = colSum (sq (Pre m ρ c)) := funext fun q => ss_at m ρ c q
  have hg : KC7.rowG (V23 m ρ) c = gam m c := funext fun q => g_at m ρ c q
  have hb : KC7.rowB (V23 m ρ) c = bet m c := funext fun q => b_at m ρ c q
  have hprev : KC7.prev (V23 m ρ) c = cur (φ := .f32) (Xin m ρ c) := congrArg (cur (φ := .f32)) (keep_xC_3 m ρ c)
  funext p q
  refine (congrFun (W24_arr m ρ c 6) (ix2 p q)).trans ?_
  refine (KC7.out_arr (V23 m ρ) c p q).trans ?_
  rw [hpre, hs, hss, hg, hb, hprev, normOnePass_apply]

end Cert.KernelIdeal.KLayer3

end
-- ==== Proof.KNet.lean ====
/-
  The idealized kernel program's result: four layers, one after the other.

  Each layer turns its input array into the one-pass normalisation of `max ((x + agg x) · W) 0`, scaled, shifted, plus
  the input (the layer modules).  The edge positions, the edge features and the three parameter tables a layer
  reads are the program's arguments, carried unchanged to the layer's start; so every layer is the same function of
  its input with its own slice of the parameters, and the result array is the four-fold composition.
-/
import proofs.«120676_j3582002725394_2_alg».proof.Proof.Gen.KernelIdeal.Frame
import proofs.«120676_j3582002725394_2_alg».proof.Proof.KEnv
import proofs.«120676_j3582002725394_2_alg».proof.Proof.KRead0
import proofs.«120676_j3582002725394_2_alg».proof.Proof.KIndex
import proofs.«120676_j3582002725394_2_alg».proof.Proof.KLayer0
import proofs.«120676_j3582002725394_2_alg».proof.Proof.KLayer1
import proofs.«120676_j3582002725394_2_alg».proof.Proof.KLayer2
import proofs.«120676_j3582002725394_2_alg».proof.Proof.KLayer3
import proofs.«120676_j3582002725394_2_alg».proof.Proof.KAggReal
import proofs.«120676_j3582002725394_2_alg».proof.Proof.Spec
import proofs.«120676_j3582002725394_2_alg».proof.Proof.SpecLaws
import Idealize.ShloMosaic.Lib.ValueIdx
set_option maxRecDepth 16384

noncomputable section

namespace Cert.KernelIdeal.KNet

open Idealize.ShloMosaic Idealize.ShloMosaic.TcCoe
open Idealize.SL Idealize.SL.Sem
open Cert.KernelIdeal Cert.KernelIdeal.Gen

open Idealize.ShloMosaic.ValueIdx Cert.Spec Cert.Lib
open Cert.KernelIdeal.KEnv Cert.KernelIdeal.KReadDefs Cert.KernelIdeal.KIndex Cert.KernelIdeal.KAggReal

variable (m : (ℓ : Loc nD τ sig) → Buf (Elt Ideal) ℓ) (ρ : Dev nD → PrngReg)

/-- The edges' source positions: row 0 of the edge index argument. -/
def srcK (c : Dev nD) : (⟨S500000, .i32⟩ : BufTy).Contents (Elt Ideal) :=
  shapeCast S500000 (extractStridedSlice S1x500000 ![0, 0] (m ((c : Thread nD τ).loc main_arg1)) slices_S2x500000_S1x500000_0_0) shapeCasts_S1x500000_S500000
/-- The edges' destination positions: row 1 of the edge index argument. -/
def dstK (c : Dev nD) : (⟨S500000, .i32⟩ : BufTy).Contents (Elt Ideal) :=
  shapeCast S500000 (extractStridedSlice S1x500000 ![1, 0] (m ((c : Thread nD τ).loc main_arg1)) slices_S2x500000_S1x500000_1_0) shapeCasts_S1x500000_S500000
/-- The four weight matrices, by coordinates. -/
def Ws (c : Dev nD) : Fin 4 → Mat 128 128 := fun l k q => (m ((c : Thread nD τ).loc main_arg4) : S4x128x128.Idx → EReal) (ix3 l k q)
/-- The four scale rows. -/
def γs (c : Dev nD) : Fin 4 → Fin 128 → EReal := fun l q => (m ((c : Thread nD τ).loc main_arg5) : S4x128.Idx → EReal) (ix2 l q)
/-- The four shift rows. -/
def βs (c : Dev nD) : Fin 4 → Fin 128 → EReal := fun l q => (m ((c : Thread nD τ).loc main_arg6) : S4x128.Idx → EReal) (ix2 l q)

/-- The aggregation as a function of the layer's input, by coordinates. -/
abbrev aggN (c : Dev nD) : Mat 50000 128 → Mat 50000 128 :=
  aggM (srcK m c) (dstK m c) (m ((c : Thread nD τ).loc main_arg2))

/-! ## Layer 0 -/

/-- Layer 0's aggregated messages are the aggregation of its input. -/
theorem agg_0 (c : Dev nD) : cur (φ := .f32) (KLayer0.Agg m ρ c) = aggN m c (cur (φ := .f32) (KLayer0.Xin m ρ c)) := by
  refine Eq.trans ?_ (aggM_cur (srcK m c) (dstK m c) (m ((c : Thread nD τ).loc main_arg2)) (KLayer0.Xin m ρ c)).symm
  refine congrArg (cur (φ := .f32)) ?_
  unfold KLayer0.Agg
  rfl

/-- Layer 0's weight matrix is slice 0 of the weights argument. -/
theorem w_0 (c : Dev nD) : cur (φ := .bf16) (KLayer0.Wsl m ρ c) = Ws m c 0 := by
  funext k q
  show (KLayer0.Wsl m ρ c) (ix2 k q) = _
  unfold KLayer0.Wsl
  exact wSlice_apply 0 (by omega) _ _ k q

/-- Layer 0 as the specification's layer. -/
theorem layer_0 (c : Dev nD) :
    cur (φ := .f32) (W6 m ρ c (Proc.devRef .tc main_v34) : S50000x128.Idx → EReal)
      = layerK (aggN m c) (cur (φ := .f32) (W0 m ρ c (Proc.devRef .tc main_arg0) : S50000x128.Idx → EReal)) (Ws m c 0) (γs m c 0) (βs m c 0) := by
  rw [KLayer0.layer m ρ c]
  unfold layerK KLayer0.Pre
  rw [agg_0 m ρ c, w_0 m ρ c]
  rfl

/-! ## Layer 1 -/

/-- Layer 1's aggregated messages are the aggregation of its input. -/
theorem agg_1 (c : Dev nD) : cur (φ := .f32) (KLayer1.Agg m ρ c) = aggN m c (cur (φ := .f32) (KLayer1.Xin m ρ c)) := by
  refine Eq.trans ?_ (aggM_cur (srcK m c) (dstK m c) (m ((c : Thread nD τ).loc main_arg2)) (KLayer1.Xin m ρ c)).symm
  refine congrArg (cur (φ := .f32)) ?_
  unfold KLayer1.Agg
  rw [keep_src_1 m ρ c, KRead0.src1_0 m ρ c, keep_dst_1 m ρ c, KRead0.dst1_0 m ρ c, keep_ea_1 m ρ c]
  rfl

/-- Layer 1's weight matrix is slice 1 of the weights argument. -/
theorem w_1 (c : Dev nD) : cur (φ := .bf16) (KLayer1.Wsl m ρ c) = Ws m c 1 := by
  funext k q
  show (KLayer1.Wsl m ρ c) (ix2 k q) = _
  unfold KLayer1.Wsl
  rw [keep_wts_1 m ρ c, KRead0.wts1_0 m ρ c]
  exact wSlice_apply 1 (by omega) _ _ k q

/-- Layer 1 as the specification's layer. -/
theorem layer_1 (c : Dev nD) :
    cur (φ := .f32) (W12 m ρ c (Proc.devRef .tc main_v64) : S50000x128.Idx → EReal)
      = layerK (aggN m c) (cur (φ := .f32) (W6 m ρ c (Proc.devRef .tc main_v34) : S50000x128.Idx → EReal)) (Ws m c 1) (γs m c 1) (βs m c 1) := by
  rw [KLayer1.layer m ρ c]
  unfold layerK KLayer1.Pre
  rw [agg_1 m ρ c, w_1 m ρ c]
  rfl

/-! ## Layer 2 -/

/-- Layer 2's aggregated messages are the aggregation of its input. -/
theorem agg_2 (c : Dev nD) : cur (φ := .f32) (KLayer2.Agg m ρ c) = aggN m c (cur (φ := .f32) (KLayer2.Xin m ρ c)) := by
  refine Eq.trans ?_ (aggM_cur (srcK m c) (dstK m c) (m ((c : Thread nD τ).loc main_arg2)) (KLayer2.Xin m ρ c)).symm
  refine congrArg (cur (φ := .f32)) ?_
  unfold KLayer2.Agg
  rw [keep_src_2 m ρ c, KRead0.src1_0 m ρ c, keep_dst_2 m ρ c, KRead0.dst1_0 m ρ c, keep_ea_2 m ρ c]
  rfl

/-- Layer 2's weight matrix is slice 2 of the weights argument. -/
theorem w_2 (c : Dev nD) : cur (φ := .bf16) (KLayer2.Wsl m ρ c) = Ws m c 2 := by
  funext k q
  show (KLayer2.Wsl m ρ c) (ix2 k q) = _
  unfold KLayer2.Wsl
  rw [keep_wts_2 m ρ c, KRead0.wts1_0 m ρ c]
  exact wSlice_apply 2 (by omega) _ _ k q

/-- Layer 2 as the specification's layer. -/
theorem layer_2 (c : Dev nD) :
    cur (φ := .f32) (W18 m ρ c (Proc.devRef .tc main_v94) : S50000x128.Idx → EReal)
      = layerK (aggN m c) (cur (φ := .f32) (W12 m ρ c (Proc.devRef .tc main_v64) : S50000x128.Idx → EReal)) (Ws m c 2) (γs m c 2) (βs m c 2) := by
  rw [KLayer2.layer m ρ c]
  unfold layerK KLayer2.Pre
  rw [agg_2 m ρ c, w_2 m ρ c]
  rfl

/-! ## Layer 3 -/

/-- Layer 3's aggregated messages are the aggregation of its input. -/
theorem agg_3 (c : Dev nD) : cur (φ := .f32) (KLayer3.Agg m ρ c) = aggN m c (cur (φ := .f32) (KLayer3.Xin m ρ c)) := by
  refine Eq.trans ?_ (aggM_cur (srcK m c) (dstK m c) (m ((c : Thread nD τ).loc main_arg2)) (KLayer3.Xin m ρ c)).symm
  refine congrArg (cur (φ := .f32)) ?_
  unfold KLayer3.Agg
  rw [keep_src_3 m ρ c, KRead0.src1_0 m ρ c, keep_dst_3 m ρ c, KRead0.dst1_0 m ρ c, keep_ea_3 m ρ c]
  rfl

/-- Layer 3's weight matrix is slice 3 of the weights argument. -/
theorem w_3 (c : Dev nD) : cur (φ := .bf16) (KLayer3.Wsl m ρ c) = Ws m c 3 := by
  funext k q
  show (KLayer3.Wsl m ρ c) (ix2 k q) = _
  unfold KLayer3.Wsl
  rw [keep_wts_3 m ρ c, KRead0.wts1_0 m ρ c]
  exact wSlice_apply 3 (by omega) _ _ k q

/-- Layer 3 as the specification's layer. -/
theorem layer_3 (c : Dev nD) :
    cur (φ := .f32) (W24 m ρ c (Proc.devRef .tc main_v124) : S50000x128.Idx → EReal)
      = layerK (aggN m c) (cur (φ := .f32) (W18 m ρ c (Proc.devRef .tc main_v94) : S50000x128.Idx → EReal)) (Ws m c 3) (γs m c 3) (βs m c 3) := by
  rw [KLayer3.layer m ρ c]
  unfold layerK KLayer3.Pre
  rw [agg_3 m ρ c, w_3 m ρ c]
  rfl

/-! ## The network -/

/-- THE RESULT ARRAY of the idealized kernel program: the four layers composed, from the argument arrays. -/
theorem kernel_value (c : Dev nD) :
    cur (φ := .f32) (W24 m ρ c (Proc.devRef .tc main_v124) : S50000x128.Idx → EReal)
      = netK (aggN m c) (cur (φ := .f32) (m ((c : Thread nD τ).loc main_arg0))) (Ws m c) (γs m c) (βs m c) := by
  rw [layer_3 m ρ c, layer_2 m ρ c, layer_1 m ρ c, layer_0 m ρ c]
  rfl

end Cert.KernelIdeal.KNet

end
-- ==== Proof.RefRun.lean ====
/-
  The reference program's run, read as one pure term of its seven argument arrays.

  The program is a straight line of 296 array operations (the four outlined functions unfolded where they are
  called).  The line is cut into seventeen consecutive windows: the edge table's two rows, then for each of the
  four layers the aggregation of messages, the product with the layer's weights clipped at zero together with the
  column means, the column variances, and the normalisation with the residual.  Each window is read once from any
  contents of the buffers; a buffer a window does not write keeps its contents.  Chaining the windows gives the
  final contents of the result buffer as the four nested layers applied to the argument arrays.
-/
import proofs.«120676_j3582002725394_2_alg».proof.Proof.Gen.ReferenceIdeal
import proofs.«120676_j3582002725394_2_alg».proof.Proof.RefDefs
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Cert.ReferenceIdeal.RefDefs Idealize.ShloMosaic Idealize.ShloMosaic.TcCoe Idealize.SL.Sem Idealize.ShloMosaic.StableHlo

variable {F : FTy → Type} [FloatOps F]

/-! ## The program as a list of operations -/

/-- The operations of the program's window 0 (called functions unfolded), in order. -/
abbrev P0 : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    unary main_arg4 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v4 main_v5 rfl shapeCasts_S1x128x128_S128x128,
    nullary main_c (constantI S_ 32 0#32),
    unary main_c main_v6 (broadcastInDim S500000 ![] bcast_S_S500000 : (⟨S_, .i32⟩ : BufTy).Contents (Elt F) → (⟨S500000, .i32⟩ : BufTy).Contents (Elt F)),
    binary main_v1 main_v6 main_v7 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v8 (broadcastInDim S500000 ![] bcast_S_S500000 : (⟨S_, .i32⟩ : BufTy).Contents (Elt F) → (⟨S500000, .i32⟩ : BufTy).Contents (Elt F)),
    binary main_v1 main_v8 main_v9 (addi : (⟨S500000, .i32⟩ : BufTy).Contents (Elt F) → (⟨S500000, .i32⟩ : BufTy).Contents (Elt F) → (⟨S500000, .i32⟩ : BufTy).Contents (Elt F)),
    ternary main_v7 main_v9 main_v1 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v10 main_v11 (broadcastInDim S500000x1 ![0] bcast_S500000_S500000x1_0 : (⟨S500000, .i32⟩ : BufTy).Contents (Elt F) → (⟨S500000x1, .i32⟩ : BufTy).Contents (Elt F)),
    binary main_arg0 main_v11 main_v12 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v12 main_arg2 main_v13 (addf : (⟨S500000x128, .f32⟩ : BufTy).Contents (Elt F) → (⟨S500000x128, .f32⟩ : BufTy).Contents (Elt F) → (⟨S500000x128, .f32⟩ : BufTy).Contents (Elt F)),
    TRef.nullary main_call0.cst (constant S_ .f32 0x00000000#32),
    TRef.unary main_call0.cst main_call0.v0 (broadcastInDim S500000x128 ![] bcast_S_S500000x128),
    TRef.binary (.of main_v13 : TRef sig ⟨S500000x128, .f32⟩) main_call0.v0 main_call0.v1 maximumf,
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v3 main_v16 (broadcastInDim S500000x1 ![0] bcast_S500000_S500000x1_0 : (⟨S500000, .i32⟩ : BufTy).Contents (Elt F) → (⟨S500000x1, .i32⟩ : BufTy).Contents (Elt F)),
    ternary main_v15 main_v16 main_v14 main_v17 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_arg0 main_v17 main_v18 (addf : (⟨S50000x128, .f32⟩ : BufTy).Contents (Elt F) → (⟨S50000x128, .f32⟩ : BufTy).Contents (Elt F) → (⟨S50000x128, .f32⟩ : BufTy).Contents (Elt F)),
    binary main_v18 main_v5 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v19 : TRef sig ⟨S50000x128, .f32⟩) main_call1.v0 main_call1.v1 maximumf,
    unary main_arg5 main_v21 ((extractStridedSlice S1x128 ![0, 0] · slices_S4x128_S1x128_0_0) : (⟨S4x128, .f32⟩ : BufTy).Contents (Elt F) → (⟨S1x128, .f32⟩ : BufTy).Contents (Elt F)),
    reshape main_v21 main_v22 rfl shapeCasts_S1x128_S128,
    unary main_arg6 main_v23 ((extractStridedSlice S1x128 ![0, 0] · slices_S4x128_S1x128_0_0) : (⟨S4x128, .f32⟩ : BufTy).Contents (Elt F) → (⟨S1x128, .f32⟩ : BufTy).Contents (Elt F)),
    reshape main_v23 main_v24 rfl shapeCasts_S1x128_S128,
    nullary main_cst_1 (constant S_ .f32 0x00000000#32),
    binary main_v20 main_cst_1 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call2.cst (constant S_ .f32 0x00000000#32),
    TRef.binary (.of main_v20 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v20 : TRef sig ⟨S50000x128, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v20 main_v30 main_v31 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v31 main_v36 main_v37 (mulf : (⟨S50000x128, .f32⟩ : BufTy).Contents (Elt F) → (⟨S50000x128, .f32⟩ : BufTy).Contents (Elt F) → (⟨S50000x128, .f32⟩ : BufTy).Contents (Elt F)),
    unary main_v22 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (mulf : (⟨S50000x128, .f32⟩ : BufTy).Contents (Elt F) → (⟨S50000x128, .f32⟩ : BufTy).Contents (Elt F) → (⟨S50000x128, .f32⟩ : BufTy).Contents (Elt F)),
    unary main_v24 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    binary main_v43 main_arg0 main_v44 (addf : (⟨S50000x128, .f32⟩ : BufTy).Contents (Elt F) → (⟨S50000x128, .f32⟩ : BufTy).Contents (Elt F) → (⟨S50000x128, .f32⟩ : BufTy).Contents (Elt F)),
    unary main_arg4 main_v45 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v45 main_v46 rfl shapeCasts_S1x128x128_S128x128,
    nullary main_c_5 (constantI S_ 32 0#32),
    unary main_c_5 main_v47 (broadcastInDim S500000 ![] bcast_S_S500000 : (⟨S_, .i32⟩ : BufTy).Contents (Elt F) → (⟨S500000, .i32⟩ : BufTy).Contents (Elt F)),
    binary main_v1 main_v47 main_v48 (cmpi .slt : (⟨S500000, .i32⟩ : BufTy).Contents (Elt F) → (⟨S500000, .i32⟩ : BufTy).Contents (Elt F) → (⟨S500000, .i1⟩ : BufTy).Contents (Elt F)),
    nullary main_c_6 (constantI S_ 32 50000#32),
    unary main_c_6 main_v49 (broadcastInDim S500000 ![] bcast_S_S500000 : (⟨S_, .i32⟩ : BufTy).Contents (Elt F) → (⟨S500000, .i32⟩ : BufTy).Contents (Elt F)),
    binary main_v1 main_v49 main_v50 (addi : (⟨S500000, .i32⟩ : BufTy).Contents (Elt F) → (⟨S500000, .i32⟩ : BufTy).Contents (Elt F) → (⟨S500000, .i32⟩ : BufTy).Contents (Elt F)) ]

/-- The operations of the program's window 1 (called functions unfolded), in order. -/
abbrev P1 : List (HloOp τ sig (Elt F)) :=
  [ ternary main_v48 main_v50 main_v1 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v51 main_v52 (broadcastInDim S500000x1 ![0] bcast_S500000_S500000x1_0 : (⟨S500000, .i32⟩ : BufTy).Contents (Elt F) → (⟨S500000x1, .i32⟩ : BufTy).Contents (Elt F)),
    binary main_v44 main_v52 main_v53 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v53 main_arg2 main_v54 (addf : (⟨S500000x128, .f32⟩ : BufTy).Contents (Elt F) → (⟨S500000x128, .f32⟩ : BufTy).Contents (Elt F) → (⟨S500000x128, .f32⟩ : BufTy).Contents (Elt F)),
    TRef.nullary main_call3.cst (constant S_ .f32 0x00000000#32),
    TRef.unary main_call3.cst main_call3.v0 (broadcastInDim S500000x128 ![] bcast_S_S500000x128),
    TRef.binary (.of main_v54 : TRef sig ⟨S500000x128, .f32⟩) main_call3.v0 main_call3.v1 maximumf,
    nullary main_cst_7 (constant S_ .f32 0x00000000#32),
    unary main_cst_7 main_v56 (broadcastInDim S50000x128 ![] bcast_S_S50000x128 : (⟨S_, .f32⟩ : BufTy).Contents (Elt F) → (⟨S50000x128, .f32⟩ : BufTy).Contents (Elt F)),
    unary main_v3 main_v57 (broadcastInDim S500000x1 ![0] bcast_S500000_S500000x1_0 : (⟨S500000, .i32⟩ : BufTy).Contents (Elt F) → (⟨S500000x1, .i32⟩ : BufTy).Contents (Elt F)),
    ternary main_v56 main_v57 main_v55 main_v58 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_v44 main_v58 main_v59 (addf : (⟨S50000x128, .f32⟩ : BufTy).Contents (Elt F) → (⟨S50000x128, .f32⟩ : BufTy).Contents (Elt F) → (⟨S50000x128, .f32⟩ : BufTy).Contents (Elt F)),
    binary main_v59 main_v46 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v60 : TRef sig ⟨S50000x128, .f32⟩) main_call4.v0 main_call4.v1 maximumf,
    unary main_arg5 main_v62 ((extractStridedSlice S1x128 ![1, 0] · slices_S4x128_S1x128_1_0) : (⟨S4x128, .f32⟩ : BufTy).Contents (Elt F) → (⟨S1x128, .f32⟩ : BufTy).Contents (Elt F)),
    reshape main_v62 main_v63 rfl shapeCasts_S1x128_S128,
    unary main_arg6 main_v64 ((extractStridedSlice S1x128 ![1, 0] · slices_S4x128_S1x128_1_0) : (⟨S4x128, .f32⟩ : BufTy).Contents (Elt F) → (⟨S1x128, .f32⟩ : BufTy).Contents (Elt F)),
    reshape main_v64 main_v65 rfl shapeCasts_S1x128_S128,
    nullary main_cst_8 (constant S_ .f32 0x00000000#32),
    binary main_v61 main_cst_8 main_v66 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call5.cst (constant S_ .f32 0x00000000#32),
    TRef.binary (.of main_v61 : TRef sig ⟨S50000x128, .f32⟩) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (.of main_v61 : TRef sig ⟨S50000x128, .f32⟩) main_call5.v4 main_call5.v5 subf,
    TRef.binary main_call5.v5 main_call5.v5 main_call5.v6 mulf,
    TRef.unary (.of main_c_10 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v68 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v61 main_v71 main_v72 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v73 (broadcastInDim S128 ![] bcast_S_S128 : (⟨S_, .f32⟩ : BufTy).Contents (Elt F) → (⟨S128, .f32⟩ : BufTy).Contents (Elt F)),
    binary main_v69 main_v73 main_v74 (addf : (⟨S128, .f32⟩ : BufTy).Contents (Elt F) → (⟨S128, .f32⟩ : BufTy).Contents (Elt F) → (⟨S128, .f32⟩ : BufTy).Contents (Elt F)),
    unary main_v74 main_v75 (Host.rsqrt : (⟨S128, .f32⟩ : BufTy).Contents (Elt F) → (⟨S128, .f32⟩ : BufTy).Contents (Elt F)),
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v72 main_v77 main_v78 (mulf : (⟨S50000x128, .f32⟩ : BufTy).Contents (Elt F) → (⟨S50000x128, .f32⟩ : BufTy).Contents (Elt F) → (⟨S50000x128, .f32⟩ : BufTy).Contents (Elt F)),
    unary main_v63 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_v65 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    binary main_v84 main_v44 main_v85 (addf : (⟨S50000x128, .f32⟩ : BufTy).Contents (Elt F) → (⟨S50000x128, .f32⟩ : BufTy).Contents (Elt F) → (⟨S50000x128, .f32⟩ : BufTy).Contents (Elt F)),
    unary main_arg4 main_v86 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v86 main_v87 rfl shapeCasts_S1x128x128_S128x128,
    nullary main_c_12 (constantI S_ 32 0#32),
    unary main_c_12 main_v88 (broadcastInDim S500000 ![] bcast_S_S500000 : (⟨S_, .i32⟩ : BufTy).Contents (Elt F) → (⟨S500000, .i32⟩ : BufTy).Contents (Elt F)),
    binary main_v1 main_v88 main_v89 (cmpi .slt : (⟨S500000, .i32⟩ : BufTy).Contents (Elt F) → (⟨S500000, .i32⟩ : BufTy).Contents (Elt F) → (⟨S500000, .i1⟩ : BufTy).Contents (Elt F)),
    nullary main_c_13 (constantI S_ 32 50000#32),
    unary main_c_13 main_v90 (broadcastInDim S500000 ![] bcast_S_S500000 : (⟨S_, .i32⟩ : BufTy).Contents (Elt F) → (⟨S500000, .i32⟩ : BufTy).Contents (Elt F)),
    binary main_v1 main_v90 main_v91 (addi : (⟨S500000, .i32⟩ : BufTy).Contents (Elt F) → (⟨S500000, .i32⟩ : BufTy).Contents (Elt F) → (⟨S500000, .i32⟩ : BufTy).Contents (Elt F)),
    ternary main_v89 main_v91 main_v1 main_v92 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v92 main_v93 (broadcastInDim S500000x1 ![0] bcast_S500000_S500000x1_0 : (⟨S500000, .i32⟩ : BufTy).Contents (Elt F) → (⟨S500000x1, .i32⟩ : BufTy).Contents (Elt F)),
    binary main_v85 main_v93 main_v94 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v94 main_arg2 main_v95 (addf : (⟨S500000x128, .f32⟩ : BufTy).Contents (Elt F) → (⟨S500000x128, .f32⟩ : BufTy).Contents (Elt F) → (⟨S500000x128, .f32⟩ : BufTy).Contents (Elt F)),
    TRef.nullary main_call6.cst (constant S_ .f32 0x00000000#32),
    TRef.unary main_call6.cst main_call6.v0 (broadcastInDim S500000x128 ![] bcast_S_S500000x128),
    TRef.binary (.of main_v95 : TRef sig ⟨S500000x128, .f32⟩) main_call6.v0 main_call6.v1 maximumf,
    nullary main_cst_14 (constant S_ .f32 0x00000000#32),
    unary main_cst_14 main_v97 (broadcastInDim S50000x128 ![] bcast_S_S50000x128 : (⟨S_, .f32⟩ : BufTy).Contents (Elt F) → (⟨S50000x128, .f32⟩ : BufTy).Contents (Elt F)),
    unary main_v3 main_v98 (broadcastInDim S500000x1 ![0] bcast_S500000_S500000x1_0 : (⟨S500000, .i32⟩ : BufTy).Contents (Elt F) → (⟨S500000x1, .i32⟩ : BufTy).Contents (Elt F)),
    ternary main_v97 main_v98 main_v96 main_v99 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_v85 main_v99 main_v100 (addf : (⟨S50000x128, .f32⟩ : BufTy).Contents (Elt F) → (⟨S50000x128, .f32⟩ : BufTy).Contents (Elt F) → (⟨S50000x128, .f32⟩ : BufTy).Contents (Elt F)),
    binary main_v100 main_v87 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v101 : TRef sig ⟨S50000x128, .f32⟩) main_call7.v0 main_call7.v1 maximumf ]

/-- The operations of the program's window 2 (called functions unfolded), in order. -/
abbrev P2 : List (HloOp τ sig (Elt F)) :=
  [ unary main_arg5 main_v103 ((extractStridedSlice S1x128 ![2, 0] · slices_S4x128_S1x128_2_0) : (⟨S4x128, .f32⟩ : BufTy).Contents (Elt F) → (⟨S1x128, .f32⟩ : BufTy).Contents (Elt F)),
    reshape main_v103 main_v104 rfl shapeCasts_S1x128_S128,
    unary main_arg6 main_v105 ((extractStridedSlice S1x128 ![2, 0] · slices_S4x128_S1x128_2_0) : (⟨S4x128, .f32⟩ : BufTy).Contents (Elt F) → (⟨S1x128, .f32⟩ : BufTy).Contents (Elt F)),
    reshape main_v105 main_v106 rfl shapeCasts_S1x128_S128,
    nullary main_cst_15 (constant S_ .f32 0x00000000#32),
    binary main_v102 main_cst_15 main_v107 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v108 (broadcastInDim S128 ![] bcast_S_S128 : (⟨S_, .f32⟩ : BufTy).Contents (Elt F) → (⟨S128, .f32⟩ : BufTy).Contents (Elt F)),
    binary main_v107 main_v108 main_v109 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call8.cst (constant S_ .f32 0x00000000#32),
    TRef.binary (.of main_v102 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v102 : TRef sig ⟨S50000x128, .f32⟩) main_call8.v4 main_call8.v5 subf,
    TRef.binary main_call8.v5 main_call8.v5 main_call8.v6 mulf,
    TRef.unary (.of main_c_17 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v109 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v102 main_v112 main_v113 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v114 (broadcastInDim S128 ![] bcast_S_S128 : (⟨S_, .f32⟩ : BufTy).Contents (Elt F) → (⟨S128, .f32⟩ : BufTy).Contents (Elt F)),
    binary main_v110 main_v114 main_v115 (addf : (⟨S128, .f32⟩ : BufTy).Contents (Elt F) → (⟨S128, .f32⟩ : BufTy).Contents (Elt F) → (⟨S128, .f32⟩ : BufTy).Contents (Elt F)),
    unary main_v115 main_v116 (Host.rsqrt : (⟨S128, .f32⟩ : BufTy).Contents (Elt F) → (⟨S128, .f32⟩ : BufTy).Contents (Elt F)),
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v113 main_v118 main_v119 (mulf : (⟨S50000x128, .f32⟩ : BufTy).Contents (Elt F) → (⟨S50000x128, .f32⟩ : BufTy).Contents (Elt F) → (⟨S50000x128, .f32⟩ : BufTy).Contents (Elt F)),
    unary main_v104 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v119 main_v121 main_v122 (mulf : (⟨S50000x128, .f32⟩ : BufTy).Contents (Elt F) → (⟨S50000x128, .f32⟩ : BufTy).Contents (Elt F) → (⟨S50000x128, .f32⟩ : BufTy).Contents (Elt F)),
    unary main_v106 main_v123 (broadcastInDim S1x128 ![1] bcast_S128_S1x128_1 : (⟨S128, .f32⟩ : BufTy).Contents (Elt F) → (⟨S1x128, .f32⟩ : BufTy).Contents (Elt F)),
    unary main_v123 main_v124 (broadcastInDim S50000x128 ![0, 1] bcast_S1x128_S50000x128_0_1 : (⟨S1x128, .f32⟩ : BufTy).Contents (Elt F) → (⟨S50000x128, .f32⟩ : BufTy).Contents (Elt F)),
    binary main_v122 main_v124 main_v125 (addf : (⟨S50000x128, .f32⟩ : BufTy).Contents (Elt F) → (⟨S50000x128, .f32⟩ : BufTy).Contents (Elt F) → (⟨S50000x128, .f32⟩ : BufTy).Contents (Elt F)),
    binary main_v125 main_v85 main_v126 (addf : (⟨S50000x128, .f32⟩ : BufTy).Contents (Elt F) → (⟨S50000x128, .f32⟩ : BufTy).Contents (Elt F) → (⟨S50000x128, .f32⟩ : BufTy).Contents (Elt F)),
    unary main_arg4 main_v127 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v127 main_v128 rfl shapeCasts_S1x128x128_S128x128,
    nullary main_c_19 (constantI S_ 32 0#32),
    unary main_c_19 main_v129 (broadcastInDim S500000 ![] bcast_S_S500000 : (⟨S_, .i32⟩ : BufTy).Contents (Elt F) → (⟨S500000, .i32⟩ : BufTy).Contents (Elt F)),
    binary main_v1 main_v129 main_v130 (cmpi .slt : (⟨S500000, .i32⟩ : BufTy).Contents (Elt F) → (⟨S500000, .i32⟩ : BufTy).Contents (Elt F) → (⟨S500000, .i1⟩ : BufTy).Contents (Elt F)),
    nullary main_c_20 (constantI S_ 32 50000#32),
    unary main_c_20 main_v131 (broadcastInDim S500000 ![] bcast_S_S500000 : (⟨S_, .i32⟩ : BufTy).Contents (Elt F) → (⟨S500000, .i32⟩ : BufTy).Contents (Elt F)),
    binary main_v1 main_v131 main_v132 (addi : (⟨S500000, .i32⟩ : BufTy).Contents (Elt F) → (⟨S500000, .i32⟩ : BufTy).Contents (Elt F) → (⟨S500000, .i32⟩ : BufTy).Contents (Elt F)),
    ternary main_v130 main_v132 main_v1 main_v133 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v133 main_v134 (broadcastInDim S500000x1 ![0] bcast_S500000_S500000x1_0 : (⟨S500000, .i32⟩ : BufTy).Contents (Elt F) → (⟨S500000x1, .i32⟩ : BufTy).Contents (Elt F)),
    binary main_v126 main_v134 main_v135 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v135 main_arg2 main_v136 (addf : (⟨S500000x128, .f32⟩ : BufTy).Contents (Elt F) → (⟨S500000x128, .f32⟩ : BufTy).Contents (Elt F) → (⟨S500000x128, .f32⟩ : BufTy).Contents (Elt F)),
    TRef.nullary main_call9.cst (constant S_ .f32 0x00000000#32),
    TRef.unary main_call9.cst main_call9.v0 (broadcastInDim S500000x128 ![] bcast_S_S500000x128),
    TRef.binary (.of main_v136 : TRef sig ⟨S500000x128, .f32⟩) main_call9.v0 main_call9.v1 maximumf,
    nullary main_cst_21 (constant S_ .f32 0x00000000#32),
    unary main_cst_21 main_v138 (broadcastInDim S50000x128 ![] bcast_S_S50000x128 : (⟨S_, .f32⟩ : BufTy).Contents (Elt F) → (⟨S50000x128, .f32⟩ : BufTy).Contents (Elt F)),
    unary main_v3 main_v139 (broadcastInDim S500000x1 ![0] bcast_S500000_S500000x1_0 : (⟨S500000, .i32⟩ : BufTy).Contents (Elt F) → (⟨S500000x1, .i32⟩ : BufTy).Contents (Elt F)),
    ternary main_v138 main_v139 main_v137 main_v140 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_v126 main_v140 main_v141 (addf : (⟨S50000x128, .f32⟩ : BufTy).Contents (Elt F) → (⟨S50000x128, .f32⟩ : BufTy).Contents (Elt F) → (⟨S50000x128, .f32⟩ : BufTy).Contents (Elt F)),
    binary main_v141 main_v128 main_v142 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call10.cst (constant S_ .f32 0x00000000#32),
    TRef.unary main_call10.cst main_call10.v0 (broadcastInDim S50000x128 ![] bcast_S_S50000x128),
    TRef.binary (.of main_v142 : TRef sig ⟨S50000x128, .f32⟩) main_call10.v0 main_call10.v1 maximumf,
    unary main_arg5 main_v144 ((extractStridedSlice S1x128 ![3, 0] · slices_S4x128_S1x128_3_0) : (⟨S4x128, .f32⟩ : BufTy).Contents (Elt F) → (⟨S1x128, .f32⟩ : BufTy).Contents (Elt F)),
    reshape main_v144 main_v145 rfl shapeCasts_S1x128_S128,
    unary main_arg6 main_v146 ((extractStridedSlice S1x128 ![3, 0] · slices_S4x128_S1x128_3_0) : (⟨S4x128, .f32⟩ : BufTy).Contents (Elt F) → (⟨S1x128, .f32⟩ : BufTy).Contents (Elt F)),
    reshape main_v146 main_v147 rfl shapeCasts_S1x128_S128,
    nullary main_cst_22 (constant S_ .f32 0x00000000#32),
    binary main_v143 main_cst_22 main_v148 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v149 (broadcastInDim S128 ![] bcast_S_S128 : (⟨S_, .f32⟩ : BufTy).Contents (Elt F) → (⟨S128, .f32⟩ : BufTy).Contents (Elt F)),
    binary main_v148 main_v149 main_v150 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call11.cst (constant S_ .f32 0x00000000#32),
    TRef.binary (.of main_v143 : TRef sig ⟨S50000x128, .f32⟩) main_call11.cst main_call11.v0 (fun x v => Host.reduceAdd x v reducesTo_S50000x128_S128_d0 h_S_),
    TRef.unary main_call11.v0 main_call11.v1 (broadcastInDim S1x128 ![1] bcast_S128_S1x128_1),
    TRef.nullary main_call11.cst_0 (constant S_ .f32 0x47435000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S50000x128 ![0, 1] bcast_S1x128_S50000x128_0_1),
    TRef.binary (.of main_v143 : TRef sig ⟨S50000x128, .f32⟩) main_call11.v4 main_call11.v5 subf,
    TRef.binary main_call11.v5 main_call11.v5 main_call11.v6 mulf,
    TRef.unary (.of main_c_24 : TRef sig ⟨S_, .i32⟩) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b),
    unary main_v150 main_v152 (broadcastInDim S1x128 ![1] bcast_S128_S1x128_1 : (⟨S128, .f32⟩ : BufTy).Contents (Elt F) → (⟨S1x128, .f32⟩ : BufTy).Contents (Elt F)) ]

/-- The operations of the program's window 3 (called functions unfolded), in order. -/
abbrev P3 : List (HloOp τ sig (Elt F)) :=
  [ unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v143 main_v153 main_v154 (subf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3727C5AC#32),
    unary main_cst_25 main_v155 (broadcastInDim S128 ![] bcast_S_S128 : (⟨S_, .f32⟩ : BufTy).Contents (Elt F) → (⟨S128, .f32⟩ : BufTy).Contents (Elt F)),
    binary main_v151 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v154 main_v159 main_v160 (mulf : (⟨S50000x128, .f32⟩ : BufTy).Contents (Elt F) → (⟨S50000x128, .f32⟩ : BufTy).Contents (Elt F) → (⟨S50000x128, .f32⟩ : BufTy).Contents (Elt F)),
    unary main_v145 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_v147 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    binary main_v166 main_v126 main_v167 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- Window 0 is that straight line: the called functions unfolded at their calls, sequencing reassociated. -/
theorem main_part0_eq (c : Dev nD) : main_part0 (F := F) c = seq P0 := by
  simp only [main_part0, fn_relu.body, fn_relu_0.body, fn_var.body, fn_where.body, seq, bind_assoc, pure_bind] <;> rfl

set_option maxRecDepth 8192 in
set_option maxHeartbeats 4000000 in
/-- Window 1 is that straight line: the called functions unfolded at their calls, sequencing reassociated. -/
theorem main_part1_eq (c : Dev nD) : main_part1 (F := F) c = seq P1 := by
  simp only [main_part1, fn_relu.body, fn_relu_0.body, fn_var.body, fn_where.body, seq, bind_assoc, pure_bind] <;> rfl

set_option maxRecDepth 8192 in
set_option maxHeartbeats 4000000 in
/-- Window 2 is that straight line: the called functions unfolded at their calls, sequencing reassociated. -/
theorem main_part2_eq (c : Dev nD) : main_part2 (F := F) c = seq P2 := by
  simp only [main_part2, fn_relu.body, fn_relu_0.body, fn_var.body, fn_where.body, seq, bind_assoc, pure_bind] <;> rfl

set_option maxRecDepth 8192 in
set_option maxHeartbeats 4000000 in
/-- Window 3 is that straight line: the called functions unfolded at their calls, sequencing reassociated. -/
theorem main_part3_eq (c : Dev nD) : main_part3 (F := F) c = seq P3 := by
  simp only [main_part3, fn_relu.body, fn_relu_0.body, fn_var.body, fn_where.body, seq, bind_assoc, pure_bind] <;> rfl

/-- The two rows of the edge table. -/
abbrev wPre : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000 ]

/-- Layer 0: its weights' slice and the aggregation of messages. -/
abbrev wA0 : List (HloOp τ sig (Elt F)) :=
  [ unary main_arg4 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v4 main_v5 rfl shapeCasts_S1x128x128_S128x128,
    nullary main_c (constantI S_ 32 0#32),
    unary main_c main_v6 (broadcastInDim S500000 ![] bcast_S_S500000 : (⟨S_, .i32⟩ : BufTy).Contents (Elt F) → (⟨S500000, .i32⟩ : BufTy).Contents (Elt F)),
    binary main_v1 main_v6 main_v7 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v8 (broadcastInDim S500000 ![] bcast_S_S500000 : (⟨S_, .i32⟩ : BufTy).Contents (Elt F) → (⟨S500000, .i32⟩ : BufTy).Contents (Elt F)),
    binary main_v1 main_v8 main_v9 (addi : (⟨S500000, .i32⟩ : BufTy).Contents (Elt F) → (⟨S500000, .i32⟩ : BufTy).Contents (Elt F) → (⟨S500000, .i32⟩ : BufTy).Contents (Elt F)),
    ternary main_v7 main_v9 main_v1 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v10 main_v11 (broadcastInDim S500000x1 ![0] bcast_S500000_S500000x1_0 : (⟨S500000, .i32⟩ : BufTy).Contents (Elt F) → (⟨S500000x1, .i32⟩ : BufTy).Contents (Elt F)),
    binary main_arg0 main_v11 main_v12 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v12 main_arg2 main_v13 (addf : (⟨S500000x128, .f32⟩ : BufTy).Contents (Elt F) → (⟨S500000x128, .f32⟩ : BufTy).Contents (Elt F) → (⟨S500000x128, .f32⟩ : BufTy).Contents (Elt F)),
    TRef.nullary main_call0.cst (constant S_ .f32 0x00000000#32),
    TRef.unary main_call0.cst main_call0.v0 (broadcastInDim S500000x128 ![] bcast_S_S500000x128),
    TRef.binary (.of main_v13 : TRef sig ⟨S500000x128, .f32⟩) main_call0.v0 main_call0.v1 maximumf,
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v3 main_v16 (broadcastInDim S500000x1 ![0] bcast_S500000_S500000x1_0 : (⟨S500000, .i32⟩ : BufTy).Contents (Elt F) → (⟨S500000x1, .i32⟩ : BufTy).Contents (Elt F)),
    ternary main_v15 main_v16 main_v14 main_v17 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- Layer 0: the product clipped at zero, the scale and shift rows, the column means. -/
abbrev wB0 : List (HloOp τ sig (Elt F)) :=
  [ binary main_arg0 main_v17 main_v18 (addf : (⟨S50000x128, .f32⟩ : BufTy).Contents (Elt F) → (⟨S50000x128, .f32⟩ : BufTy).Contents (Elt F) → (⟨S50000x128, .f32⟩ : BufTy).Contents (Elt F)),
    binary main_v18 main_v5 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v19 : TRef sig ⟨S50000x128, .f32⟩) main_call1.v0 main_call1.v1 maximumf,
    unary main_arg5 main_v21 ((extractStridedSlice S1x128 ![0, 0] · slices_S4x128_S1x128_0_0) : (⟨S4x128, .f32⟩ : BufTy).Contents (Elt F) → (⟨S1x128, .f32⟩ : BufTy).Contents (Elt F)),
    reshape main_v21 main_v22 rfl shapeCasts_S1x128_S128,
    unary main_arg6 main_v23 ((extractStridedSlice S1x128 ![0, 0] · slices_S4x128_S1x128_0_0) : (⟨S4x128, .f32⟩ : BufTy).Contents (Elt F) → (⟨S1x128, .f32⟩ : BufTy).Contents (Elt F)),
    reshape main_v23 main_v24 rfl shapeCasts_S1x128_S128,
    nullary main_cst_1 (constant S_ .f32 0x00000000#32),
    binary main_v20 main_cst_1 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)) ]

/-- Layer 0: the column variances. -/
abbrev wC0 : List (HloOp τ sig (Elt F)) :=
  [ nullary main_c_3 (constantI S_ 32 0#32),
    TRef.nullary main_call2.cst (constant S_ .f32 0x00000000#32),
    TRef.binary (.of main_v20 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v20 : TRef sig ⟨S50000x128, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Layer 0: the normalisation and the residual. -/
abbrev wD0 : List (HloOp τ sig (Elt F)) :=
  [ unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v20 main_v30 main_v31 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v31 main_v36 main_v37 (mulf : (⟨S50000x128, .f32⟩ : BufTy).Contents (Elt F) → (⟨S50000x128, .f32⟩ : BufTy).Contents (Elt F) → (⟨S50000x128, .f32⟩ : BufTy).Contents (Elt F)),
    unary main_v22 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (mulf : (⟨S50000x128, .f32⟩ : BufTy).Contents (Elt F) → (⟨S50000x128, .f32⟩ : BufTy).Contents (Elt F) → (⟨S50000x128, .f32⟩ : BufTy).Contents (Elt F)),
    unary main_v24 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    binary main_v43 main_arg0 main_v44 (addf : (⟨S50000x128, .f32⟩ : BufTy).Contents (Elt F) → (⟨S50000x128, .f32⟩ : BufTy).Contents (Elt F) → (⟨S50000x128, .f32⟩ : BufTy).Contents (Elt F)) ]

/-- Layer 1: its weights' slice and the aggregation of messages. -/
abbrev wA1 : List (HloOp τ sig (Elt F)) :=
  [ unary main_arg4 main_v45 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v45 main_v46 rfl shapeCasts_S1x128x128_S128x128,
    nullary main_c_5 (constantI S_ 32 0#32),
    unary main_c_5 main_v47 (broadcastInDim S500000 ![] bcast_S_S500000 : (⟨S_, .i32⟩ : BufTy).Contents (Elt F) → (⟨S500000, .i32⟩ : BufTy).Contents (Elt F)),
    binary main_v1 main_v47 main_v48 (cmpi .slt : (⟨S500000, .i32⟩ : BufTy).Contents (Elt F) → (⟨S500000, .i32⟩ : BufTy).Contents (Elt F) → (⟨S500000, .i1⟩ : BufTy).Contents (Elt F)),
    nullary main_c_6 (constantI S_ 32 50000#32),
    unary main_c_6 main_v49 (broadcastInDim S500000 ![] bcast_S_S500000 : (⟨S_, .i32⟩ : BufTy).Contents (Elt F) → (⟨S500000, .i32⟩ : BufTy).Contents (Elt F)),
    binary main_v1 main_v49 main_v50 (addi : (⟨S500000, .i32⟩ : BufTy).Contents (Elt F) → (⟨S500000, .i32⟩ : BufTy).Contents (Elt F) → (⟨S500000, .i32⟩ : BufTy).Contents (Elt F)),
    ternary main_v48 main_v50 main_v1 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v51 main_v52 (broadcastInDim S500000x1 ![0] bcast_S500000_S500000x1_0 : (⟨S500000, .i32⟩ : BufTy).Contents (Elt F) → (⟨S500000x1, .i32⟩ : BufTy).Contents (Elt F)),
    binary main_v44 main_v52 main_v53 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v53 main_arg2 main_v54 (addf : (⟨S500000x128, .f32⟩ : BufTy).Contents (Elt F) → (⟨S500000x128, .f32⟩ : BufTy).Contents (Elt F) → (⟨S500000x128, .f32⟩ : BufTy).Contents (Elt F)),
    TRef.nullary main_call3.cst (constant S_ .f32 0x00000000#32),
    TRef.unary main_call3.cst main_call3.v0 (broadcastInDim S500000x128 ![] bcast_S_S500000x128),
    TRef.binary (.of main_v54 : TRef sig ⟨S500000x128, .f32⟩) main_call3.v0 main_call3.v1 maximumf,
    nullary main_cst_7 (constant S_ .f32 0x00000000#32),
    unary main_cst_7 main_v56 (broadcastInDim S50000x128 ![] bcast_S_S50000x128 : (⟨S_, .f32⟩ : BufTy).Contents (Elt F) → (⟨S50000x128, .f32⟩ : BufTy).Contents (Elt F)),
    unary main_v3 main_v57 (broadcastInDim S500000x1 ![0] bcast_S500000_S500000x1_0 : (⟨S500000, .i32⟩ : BufTy).Contents (Elt F) → (⟨S500000x1, .i32⟩ : BufTy).Contents (Elt F)),
    ternary main_v56 main_v57 main_v55 main_v58 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- Layer 1: the product clipped at zero, the scale and shift rows, the column means. -/
abbrev wB1 : List (HloOp τ sig (Elt F)) :=
  [ binary main_v44 main_v58 main_v59 (addf : (⟨S50000x128, .f32⟩ : BufTy).Contents (Elt F) → (⟨S50000x128, .f32⟩ : BufTy).Contents (Elt F) → (⟨S50000x128, .f32⟩ : BufTy).Contents (Elt F)),
    binary main_v59 main_v46 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v60 : TRef sig ⟨S50000x128, .f32⟩) main_call4.v0 main_call4.v1 maximumf,
    unary main_arg5 main_v62 ((extractStridedSlice S1x128 ![1, 0] · slices_S4x128_S1x128_1_0) : (⟨S4x128, .f32⟩ : BufTy).Contents (Elt F) → (⟨S1x128, .f32⟩ : BufTy).Contents (Elt F)),
    reshape main_v62 main_v63 rfl shapeCasts_S1x128_S128,
    unary main_arg6 main_v64 ((extractStridedSlice S1x128 ![1, 0] · slices_S4x128_S1x128_1_0) : (⟨S4x128, .f32⟩ : BufTy).Contents (Elt F) → (⟨S1x128, .f32⟩ : BufTy).Contents (Elt F)),
    reshape main_v64 main_v65 rfl shapeCasts_S1x128_S128,
    nullary main_cst_8 (constant S_ .f32 0x00000000#32),
    binary main_v61 main_cst_8 main_v66 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)) ]

/-- Layer 1: the column variances. -/
abbrev wC1 : List (HloOp τ sig (Elt F)) :=
  [ nullary main_c_10 (constantI S_ 32 0#32),
    TRef.nullary main_call5.cst (constant S_ .f32 0x00000000#32),
    TRef.binary (.of main_v61 : TRef sig ⟨S50000x128, .f32⟩) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (.of main_v61 : TRef sig ⟨S50000x128, .f32⟩) main_call5.v4 main_call5.v5 subf,
    TRef.binary main_call5.v5 main_call5.v5 main_call5.v6 mulf,
    TRef.unary (.of main_c_10 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b) ]

/-- Layer 1: the normalisation and the residual. -/
abbrev wD1 : List (HloOp τ sig (Elt F)) :=
  [ unary main_v68 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v61 main_v71 main_v72 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v73 (broadcastInDim S128 ![] bcast_S_S128 : (⟨S_, .f32⟩ : BufTy).Contents (Elt F) → (⟨S128, .f32⟩ : BufTy).Contents (Elt F)),
    binary main_v69 main_v73 main_v74 (addf : (⟨S128, .f32⟩ : BufTy).Contents (Elt F) → (⟨S128, .f32⟩ : BufTy).Contents (Elt F) → (⟨S128, .f32⟩ : BufTy).Contents (Elt F)),
    unary main_v74 main_v75 (Host.rsqrt : (⟨S128, .f32⟩ : BufTy).Contents (Elt F) → (⟨S128, .f32⟩ : BufTy).Contents (Elt F)),
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v72 main_v77 main_v78 (mulf : (⟨S50000x128, .f32⟩ : BufTy).Contents (Elt F) → (⟨S50000x128, .f32⟩ : BufTy).Contents (Elt F) → (⟨S50000x128, .f32⟩ : BufTy).Contents (Elt F)),
    unary main_v63 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_v65 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    binary main_v84 main_v44 main_v85 (addf : (⟨S50000x128, .f32⟩ : BufTy).Contents (Elt F) → (⟨S50000x128, .f32⟩ : BufTy).Contents (Elt F) → (⟨S50000x128, .f32⟩ : BufTy).Contents (Elt F)) ]

/-- Layer 2: its weights' slice and the aggregation of messages. -/
abbrev wA2 : List (HloOp τ sig (Elt F)) :=
  [ unary main_arg4 main_v86 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v86 main_v87 rfl shapeCasts_S1x128x128_S128x128,
    nullary main_c_12 (constantI S_ 32 0#32),
    unary main_c_12 main_v88 (broadcastInDim S500000 ![] bcast_S_S500000 : (⟨S_, .i32⟩ : BufTy).Contents (Elt F) → (⟨S500000, .i32⟩ : BufTy).Contents (Elt F)),
    binary main_v1 main_v88 main_v89 (cmpi .slt : (⟨S500000, .i32⟩ : BufTy).Contents (Elt F) → (⟨S500000, .i32⟩ : BufTy).Contents (Elt F) → (⟨S500000, .i1⟩ : BufTy).Contents (Elt F)),
    nullary main_c_13 (constantI S_ 32 50000#32),
    unary main_c_13 main_v90 (broadcastInDim S500000 ![] bcast_S_S500000 : (⟨S_, .i32⟩ : BufTy).Contents (Elt F) → (⟨S500000, .i32⟩ : BufTy).Contents (Elt F)),
    binary main_v1 main_v90 main_v91 (addi : (⟨S500000, .i32⟩ : BufTy).Contents (Elt F) → (⟨S500000, .i32⟩ : BufTy).Contents (Elt F) → (⟨S500000, .i32⟩ : BufTy).Contents (Elt F)),
    ternary main_v89 main_v91 main_v1 main_v92 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v92 main_v93 (broadcastInDim S500000x1 ![0] bcast_S500000_S500000x1_0 : (⟨S500000, .i32⟩ : BufTy).Contents (Elt F) → (⟨S500000x1, .i32⟩ : BufTy).Contents (Elt F)),
    binary main_v85 main_v93 main_v94 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v94 main_arg2 main_v95 (addf : (⟨S500000x128, .f32⟩ : BufTy).Contents (Elt F) → (⟨S500000x128, .f32⟩ : BufTy).Contents (Elt F) → (⟨S500000x128, .f32⟩ : BufTy).Contents (Elt F)),
    TRef.nullary main_call6.cst (constant S_ .f32 0x00000000#32),
    TRef.unary main_call6.cst main_call6.v0 (broadcastInDim S500000x128 ![] bcast_S_S500000x128),
    TRef.binary (.of main_v95 : TRef sig ⟨S500000x128, .f32⟩) main_call6.v0 main_call6.v1 maximumf,
    nullary main_cst_14 (constant S_ .f32 0x00000000#32),
    unary main_cst_14 main_v97 (broadcastInDim S50000x128 ![] bcast_S_S50000x128 : (⟨S_, .f32⟩ : BufTy).Contents (Elt F) → (⟨S50000x128, .f32⟩ : BufTy).Contents (Elt F)),
    unary main_v3 main_v98 (broadcastInDim S500000x1 ![0] bcast_S500000_S500000x1_0 : (⟨S500000, .i32⟩ : BufTy).Contents (Elt F) → (⟨S500000x1, .i32⟩ : BufTy).Contents (Elt F)),
    ternary main_v97 main_v98 main_v96 main_v99 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- Layer 2: the product clipped at zero, the scale and shift rows, the column means. -/
abbrev wB2 : List (HloOp τ sig (Elt F)) :=
  [ binary main_v85 main_v99 main_v100 (addf : (⟨S50000x128, .f32⟩ : BufTy).Contents (Elt F) → (⟨S50000x128, .f32⟩ : BufTy).Contents (Elt F) → (⟨S50000x128, .f32⟩ : BufTy).Contents (Elt F)),
    binary main_v100 main_v87 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v101 : TRef sig ⟨S50000x128, .f32⟩) main_call7.v0 main_call7.v1 maximumf,
    unary main_arg5 main_v103 ((extractStridedSlice S1x128 ![2, 0] · slices_S4x128_S1x128_2_0) : (⟨S4x128, .f32⟩ : BufTy).Contents (Elt F) → (⟨S1x128, .f32⟩ : BufTy).Contents (Elt F)),
    reshape main_v103 main_v104 rfl shapeCasts_S1x128_S128,
    unary main_arg6 main_v105 ((extractStridedSlice S1x128 ![2, 0] · slices_S4x128_S1x128_2_0) : (⟨S4x128, .f32⟩ : BufTy).Contents (Elt F) → (⟨S1x128, .f32⟩ : BufTy).Contents (Elt F)),
    reshape main_v105 main_v106 rfl shapeCasts_S1x128_S128,
    nullary main_cst_15 (constant S_ .f32 0x00000000#32),
    binary main_v102 main_cst_15 main_v107 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v108 (broadcastInDim S128 ![] bcast_S_S128 : (⟨S_, .f32⟩ : BufTy).Contents (Elt F) → (⟨S128, .f32⟩ : BufTy).Contents (Elt F)),
    binary main_v107 main_v108 main_v109 (Host.divf : (⟨S128, .f32⟩ : BufTy).Contents (Elt F) → (⟨S128, .f32⟩ : BufTy).Contents (Elt F) → (⟨S128, .f32⟩ : BufTy).Contents (Elt F)) ]

/-- Layer 2: the column variances. -/
abbrev wC2 : List (HloOp τ sig (Elt F)) :=
  [ nullary main_c_17 (constantI S_ 32 0#32),
    TRef.nullary main_call8.cst (constant S_ .f32 0x00000000#32),
    TRef.binary (.of main_v102 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v102 : TRef sig ⟨S50000x128, .f32⟩) main_call8.v4 main_call8.v5 subf,
    TRef.binary main_call8.v5 main_call8.v5 main_call8.v6 mulf,
    TRef.unary (.of main_c_17 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b) ]

/-- Layer 2: the normalisation and the residual. -/
abbrev wD2 : List (HloOp τ sig (Elt F)) :=
  [ unary main_v109 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v102 main_v112 main_v113 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v114 (broadcastInDim S128 ![] bcast_S_S128 : (⟨S_, .f32⟩ : BufTy).Contents (Elt F) → (⟨S128, .f32⟩ : BufTy).Contents (Elt F)),
    binary main_v110 main_v114 main_v115 (addf : (⟨S128, .f32⟩ : BufTy).Contents (Elt F) → (⟨S128, .f32⟩ : BufTy).Contents (Elt F) → (⟨S128, .f32⟩ : BufTy).Contents (Elt F)),
    unary main_v115 main_v116 (Host.rsqrt : (⟨S128, .f32⟩ : BufTy).Contents (Elt F) → (⟨S128, .f32⟩ : BufTy).Contents (Elt F)),
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v113 main_v118 main_v119 (mulf : (⟨S50000x128, .f32⟩ : BufTy).Contents (Elt F) → (⟨S50000x128, .f32⟩ : BufTy).Contents (Elt F) → (⟨S50000x128, .f32⟩ : BufTy).Contents (Elt F)),
    unary main_v104 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v119 main_v121 main_v122 (mulf : (⟨S50000x128, .f32⟩ : BufTy).Contents (Elt F) → (⟨S50000x128, .f32⟩ : BufTy).Contents (Elt F) → (⟨S50000x128, .f32⟩ : BufTy).Contents (Elt F)),
    unary main_v106 main_v123 (broadcastInDim S1x128 ![1] bcast_S128_S1x128_1 : (⟨S128, .f32⟩ : BufTy).Contents (Elt F) → (⟨S1x128, .f32⟩ : BufTy).Contents (Elt F)),
    unary main_v123 main_v124 (broadcastInDim S50000x128 ![0, 1] bcast_S1x128_S50000x128_0_1 : (⟨S1x128, .f32⟩ : BufTy).Contents (Elt F) → (⟨S50000x128, .f32⟩ : BufTy).Contents (Elt F)),
    binary main_v122 main_v124 main_v125 (addf : (⟨S50000x128, .f32⟩ : BufTy).Contents (Elt F) → (⟨S50000x128, .f32⟩ : BufTy).Contents (Elt F) → (⟨S50000x128, .f32⟩ : BufTy).Contents (Elt F)),
    binary main_v125 main_v85 main_v126 (addf : (⟨S50000x128, .f32⟩ : BufTy).Contents (Elt F) → (⟨S50000x128, .f32⟩ : BufTy).Contents (Elt F) → (⟨S50000x128, .f32⟩ : BufTy).Contents (Elt F)) ]

/-- Layer 3: its weights' slice and the aggregation of messages. -/
abbrev wA3 : List (HloOp τ sig (Elt F)) :=
  [ unary main_arg4 main_v127 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v127 main_v128 rfl shapeCasts_S1x128x128_S128x128,
    nullary main_c_19 (constantI S_ 32 0#32),
    unary main_c_19 main_v129 (broadcastInDim S500000 ![] bcast_S_S500000 : (⟨S_, .i32⟩ : BufTy).Contents (Elt F) → (⟨S500000, .i32⟩ : BufTy).Contents (Elt F)),
    binary main_v1 main_v129 main_v130 (cmpi .slt : (⟨S500000, .i32⟩ : BufTy).Contents (Elt F) → (⟨S500000, .i32⟩ : BufTy).Contents (Elt F) → (⟨S500000, .i1⟩ : BufTy).Contents (Elt F)),
    nullary main_c_20 (constantI S_ 32 50000#32),
    unary main_c_20 main_v131 (broadcastInDim S500000 ![] bcast_S_S500000 : (⟨S_, .i32⟩ : BufTy).Contents (Elt F) → (⟨S500000, .i32⟩ : BufTy).Contents (Elt F)),
    binary main_v1 main_v131 main_v132 (addi : (⟨S500000, .i32⟩ : BufTy).Contents (Elt F) → (⟨S500000, .i32⟩ : BufTy).Contents (Elt F) → (⟨S500000, .i32⟩ : BufTy).Contents (Elt F)),
    ternary main_v130 main_v132 main_v1 main_v133 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v133 main_v134 (broadcastInDim S500000x1 ![0] bcast_S500000_S500000x1_0 : (⟨S500000, .i32⟩ : BufTy).Contents (Elt F) → (⟨S500000x1, .i32⟩ : BufTy).Contents (Elt F)),
    binary main_v126 main_v134 main_v135 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v135 main_arg2 main_v136 (addf : (⟨S500000x128, .f32⟩ : BufTy).Contents (Elt F) → (⟨S500000x128, .f32⟩ : BufTy).Contents (Elt F) → (⟨S500000x128, .f32⟩ : BufTy).Contents (Elt F)),
    TRef.nullary main_call9.cst (constant S_ .f32 0x00000000#32),
    TRef.unary main_call9.cst main_call9.v0 (broadcastInDim S500000x128 ![] bcast_S_S500000x128),
    TRef.binary (.of main_v136 : TRef sig ⟨S500000x128, .f32⟩) main_call9.v0 main_call9.v1 maximumf,
    nullary main_cst_21 (constant S_ .f32 0x00000000#32),
    unary main_cst_21 main_v138 (broadcastInDim S50000x128 ![] bcast_S_S50000x128 : (⟨S_, .f32⟩ : BufTy).Contents (Elt F) → (⟨S50000x128, .f32⟩ : BufTy).Contents (Elt F)),
    unary main_v3 main_v139 (broadcastInDim S500000x1 ![0] bcast_S500000_S500000x1_0 : (⟨S500000, .i32⟩ : BufTy).Contents (Elt F) → (⟨S500000x1, .i32⟩ : BufTy).Contents (Elt F)),
    ternary main_v138 main_v139 main_v137 main_v140 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- Layer 3: the product clipped at zero, the scale and shift rows, the column means. -/
abbrev wB3 : List (HloOp τ sig (Elt F)) :=
  [ binary main_v126 main_v140 main_v141 (addf : (⟨S50000x128, .f32⟩ : BufTy).Contents (Elt F) → (⟨S50000x128, .f32⟩ : BufTy).Contents (Elt F) → (⟨S50000x128, .f32⟩ : BufTy).Contents (Elt F)),
    binary main_v141 main_v128 main_v142 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call10.cst (constant S_ .f32 0x00000000#32),
    TRef.unary main_call10.cst main_call10.v0 (broadcastInDim S50000x128 ![] bcast_S_S50000x128),
    TRef.binary (.of main_v142 : TRef sig ⟨S50000x128, .f32⟩) main_call10.v0 main_call10.v1 maximumf,
    unary main_arg5 main_v144 ((extractStridedSlice S1x128 ![3, 0] · slices_S4x128_S1x128_3_0) : (⟨S4x128, .f32⟩ : BufTy).Contents (Elt F) → (⟨S1x128, .f32⟩ : BufTy).Contents (Elt F)),
    reshape main_v144 main_v145 rfl shapeCasts_S1x128_S128,
    unary main_arg6 main_v146 ((extractStridedSlice S1x128 ![3, 0] · slices_S4x128_S1x128_3_0) : (⟨S4x128, .f32⟩ : BufTy).Contents (Elt F) → (⟨S1x128, .f32⟩ : BufTy).Contents (Elt F)),
    reshape main_v146 main_v147 rfl shapeCasts_S1x128_S128,
    nullary main_cst_22 (constant S_ .f32 0x00000000#32),
    binary main_v143 main_cst_22 main_v148 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v149 (broadcastInDim S128 ![] bcast_S_S128 : (⟨S_, .f32⟩ : BufTy).Contents (Elt F) → (⟨S128, .f32⟩ : BufTy).Contents (Elt F)),
    binary main_v148 main_v149 main_v150 (Host.divf : (⟨S128, .f32⟩ : BufTy).Contents (Elt F) → (⟨S128, .f32⟩ : BufTy).Contents (Elt F) → (⟨S128, .f32⟩ : BufTy).Contents (Elt F)) ]

/-- Layer 3: the column variances. -/
abbrev wC3 : List (HloOp τ sig (Elt F)) :=
  [ nullary main_c_24 (constantI S_ 32 0#32),
    TRef.nullary main_call11.cst (constant S_ .f32 0x00000000#32),
    TRef.binary (.of main_v143 : TRef sig ⟨S50000x128, .f32⟩) main_call11.cst main_call11.v0 (fun x v => Host.reduceAdd x v reducesTo_S50000x128_S128_d0 h_S_),
    TRef.unary main_call11.v0 main_call11.v1 (broadcastInDim S1x128 ![1] bcast_S128_S1x128_1),
    TRef.nullary main_call11.cst_0 (constant S_ .f32 0x47435000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S50000x128 ![0, 1] bcast_S1x128_S50000x128_0_1),
    TRef.binary (.of main_v143 : TRef sig ⟨S50000x128, .f32⟩) main_call11.v4 main_call11.v5 subf,
    TRef.binary main_call11.v5 main_call11.v5 main_call11.v6 mulf,
    TRef.unary (.of main_c_24 : TRef sig ⟨S_, .i32⟩) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b) ]

/-- Layer 3: the normalisation and the residual. -/
abbrev wD3 : List (HloOp τ sig (Elt F)) :=
  [ unary main_v150 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v143 main_v153 main_v154 (subf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3727C5AC#32),
    unary main_cst_25 main_v155 (broadcastInDim S128 ![] bcast_S_S128 : (⟨S_, .f32⟩ : BufTy).Contents (Elt F) → (⟨S128, .f32⟩ : BufTy).Contents (Elt F)),
    binary main_v151 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v154 main_v159 main_v160 (mulf : (⟨S50000x128, .f32⟩ : BufTy).Contents (Elt F) → (⟨S50000x128, .f32⟩ : BufTy).Contents (Elt F) → (⟨S50000x128, .f32⟩ : BufTy).Contents (Elt F)),
    unary main_v145 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_v147 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    binary main_v166 main_v126 main_v167 (addf : (⟨S50000x128, .f32⟩ : BufTy).Contents (Elt F) → (⟨S50000x128, .f32⟩ : BufTy).Contents (Elt F) → (⟨S50000x128, .f32⟩ : BufTy).Contents (Elt F)) ]

/-- The program's 296 operations, in order. -/
abbrev ops : List (HloOp τ sig (Elt F)) :=
  wPre ++ (wA0 ++ (wB0 ++ (wC0 ++ (wD0 ++ (wA1 ++ (wB1 ++ (wC1 ++ (wD1 ++ (wA2 ++ (wB2 ++ (wC2 ++ (wD2 ++ (wA3 ++ (wB3 ++ (wC3 ++ (wD3))))))))))))))))

set_option maxRecDepth 8192 in
/-- The four printed windows one after the other are the seventeen windows one after the other: the same list. -/
theorem ops_eq : (P0 ++ (P1 ++ (P2 ++ P3)) : List (HloOp τ sig (Elt F))) = ops := rfl

set_option maxRecDepth 8192 in
theorem main_eq (c : Dev nD) : main (F := F) c = seq ops := by
  rw [← ops_eq]
  simp only [seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem wPre_sub : (wPre : List (HloOp τ sig (Elt F))).Forall fun op => op.bufs ⊆ tcRefs τ sig :=
  ⟨unary_bufs_sub .., reshape_bufs_sub .., unary_bufs_sub .., reshape_bufs_sub ..⟩
set_option maxRecDepth 8192 in
theorem wA0_sub : (wA0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
set_option maxRecDepth 8192 in
theorem wB0_sub : (wB0 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub ..⟩
set_option maxRecDepth 8192 in
theorem wC0_sub : (wC0 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem wD0_sub : (wD0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
set_option maxRecDepth 8192 in
theorem wA1_sub : (wA1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
set_option maxRecDepth 8192 in
theorem wB1_sub : (wB1 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub ..⟩
set_option maxRecDepth 8192 in
theorem wC1_sub : (wC1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem wD1_sub : (wD1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
set_option maxRecDepth 8192 in
theorem wA2_sub : (wA2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
set_option maxRecDepth 8192 in
theorem wB2_sub : (wB2 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub ..⟩
set_option maxRecDepth 8192 in
theorem wC2_sub : (wC2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem wD2_sub : (wD2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
set_option maxRecDepth 8192 in
theorem wA3_sub : (wA3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
set_option maxRecDepth 8192 in
theorem wB3_sub : (wB3 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub ..⟩
set_option maxRecDepth 8192 in
theorem wC3_sub : (wC3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem wD3_sub : (wD3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h
    exacts [List.forall_iff_forall_mem.mp wPre_sub op h, List.forall_iff_forall_mem.mp wA0_sub op h, List.forall_iff_forall_mem.mp wB0_sub op h, List.forall_iff_forall_mem.mp wC0_sub op h, List.forall_iff_forall_mem.mp wD0_sub op h, List.forall_iff_forall_mem.mp wA1_sub op h, List.forall_iff_forall_mem.mp wB1_sub op h, List.forall_iff_forall_mem.mp wC1_sub op h, List.forall_iff_forall_mem.mp wD1_sub op h, List.forall_iff_forall_mem.mp wA2_sub op h, List.forall_iff_forall_mem.mp wB2_sub op h, List.forall_iff_forall_mem.mp wC2_sub op h, List.forall_iff_forall_mem.mp wD2_sub op h, List.forall_iff_forall_mem.mp wA3_sub op h, List.forall_iff_forall_mem.mp wB3_sub op h, List.forall_iff_forall_mem.mp wC3_sub op h, List.forall_iff_forall_mem.mp wD3_sub op h]

/-! ## The contents after each window -/

/-- The buffers' contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The buffers' contents after the first 1 window. -/
def val1 (V0 : Valuation τ sig (Elt F)) : Valuation τ sig (Elt F) := after wPre (val0 V0)
/-- The buffers that window `wPre` writes. -/
abbrev wPre_W : List (Ref sig .tc) := [main_v0, main_v1, main_v2, main_v3]
set_option maxRecDepth 8192 in
theorem wPre_writes : (wPre : List (HloOp τ sig (Elt F))).Forall fun op => op.writes ⊆ (wPre_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wPre` does not write keeps its contents through it. -/
theorem val1_keep (V0 : Valuation τ sig (Elt F)) (r : Ref sig .tc) (h : r ∉ wPre_W) :
    val1 V0 (Proc.devRef .tc r) = val0 V0 (Proc.devRef .tc r) :=
  after_of_writes_sub wPre _ wPre_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 8192 in
set_option maxHeartbeats 2000000 in
theorem val1_main_v1 (V0 : Valuation τ sig (Elt F)) : val1 V0 (no_index (Proc.devRef .tc main_v1)) = srcV (V0 (Proc.devRef .tc main_arg1)) := by
  unfold val1
  simp only [wPre]
  after_results_simp
  simp only [val0_main_arg1] <;> rfl
set_option maxRecDepth 8192 in
set_option maxHeartbeats 2000000 in
theorem val1_main_v3 (V0 : Valuation τ sig (Elt F)) : val1 V0 (no_index (Proc.devRef .tc main_v3)) = dstV (V0 (Proc.devRef .tc main_arg1)) := by
  unfold val1
  simp only [wPre]
  after_results_simp
  simp only [val0_main_arg1] <;> rfl

/-- The buffers' contents after the first 2 windows. -/
def val2 (V0 : Valuation τ sig (Elt F)) : Valuation τ sig (Elt F) := after wA0 (val1 V0)
/-- The buffers that window `wA0` writes. -/
abbrev wA0_W : List (Ref sig .tc) := [main_v4, main_v5, main_c, main_v6, main_v7, main_c_0, main_v8, main_v9, main_v10, main_v11, main_v12, main_v13, main_call0_cst, main_call0_v0, main_v14, main_cst, main_v15, main_v16, main_v17]
set_option maxRecDepth 8192 in
theorem wA0_writes : (wA0 : List (HloOp τ sig (Elt F))).Forall fun op => op.writes ⊆ (wA0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wA0` does not write keeps its contents through it. -/
theorem val2_keep (V0 : Valuation τ sig (Elt F)) (r : Ref sig .tc) (h : r ∉ wA0_W) :
    val2 V0 (Proc.devRef .tc r) = val1 V0 (Proc.devRef .tc r) :=
  after_of_writes_sub wA0 _ wA0_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_v1 (V0 : Valuation τ sig (Elt F)) : val2 V0 (no_index (Proc.devRef .tc main_v1)) = srcV (V0 (Proc.devRef .tc main_arg1)) :=
  (val2_keep V0 main_v1 (by decide)).trans (val1_main_v1 V0)
theorem val2_main_v3 (V0 : Valuation τ sig (Elt F)) : val2 V0 (no_index (Proc.devRef .tc main_v3)) = dstV (V0 (Proc.devRef .tc main_arg1)) :=
  (val2_keep V0 main_v3 (by decide)).trans (val1_main_v3 V0)
set_option maxRecDepth 8192 in
set_option maxHeartbeats 2000000 in
theorem val2_main_v5 (V0 : Valuation τ sig (Elt F)) : val2 V0 (no_index (Proc.devRef .tc main_v5)) = wSl (V0 (Proc.devRef .tc main_arg4)) 0 slices_S4x128x128_S1x128x128_0_0_0 := by
  unfold val2
  simp only [wA0]
  after_results_simp
  simp only [val1_main_arg4] <;> rfl
set_option maxRecDepth 8192 in
set_option maxHeartbeats 2000000 in
theorem val2_main_v17 (V0 : Valuation τ sig (Elt F)) : val2 V0 (no_index (Proc.devRef .tc main_v17)) = aggV (V0 (Proc.devRef .tc main_arg0)) (V0 (Proc.devRef .tc main_arg1)) (V0 (Proc.devRef .tc main_arg2)) := by
  unfold val2
  simp only [wA0]
  after_results_simp
  simp only [val1_main_arg2, val1_main_v1, val1_main_arg0, val1_main_v3] <;> rfl

/-- The buffers' contents after the first 3 windows. -/
def val3 (V0 : Valuation τ sig (Elt F)) : Valuation τ sig (Elt F) := after wB0 (val2 V0)
/-- The buffers that window `wB0` writes. -/
abbrev wB0_W : List (Ref sig .tc) := [main_v18, main_v19, main_call1_cst, main_call1_v0, main_v20, main_v21, main_v22, main_v23, main_v24, main_cst_1, main_v25, main_cst_2, main_v26, main_v27]
set_option maxRecDepth 8192 in
theorem wB0_writes : (wB0 : List (HloOp τ sig (Elt F))).Forall fun op => op.writes ⊆ (wB0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wB0` does not write keeps its contents through it. -/
theorem val3_keep (V0 : Valuation τ sig (Elt F)) (r : Ref sig .tc) (h : r ∉ wB0_W) :
    val3 V0 (Proc.devRef .tc r) = val2 V0 (Proc.devRef .tc r) :=
  after_of_writes_sub wB0 _ wB0_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v1 (V0 : Valuation τ sig (Elt F)) : val3 V0 (no_index (Proc.devRef .tc main_v1)) = srcV (V0 (Proc.devRef .tc main_arg1)) :=
  (val3_keep V0 main_v1 (by decide)).trans (val2_main_v1 V0)
theorem val3_main_v3 (V0 : Valuation τ sig (Elt F)) : val3 V0 (no_index (Proc.devRef .tc main_v3)) = dstV (V0 (Proc.devRef .tc main_arg1)) :=
  (val3_keep V0 main_v3 (by decide)).trans (val2_main_v3 V0)
set_option maxRecDepth 8192 in
set_option maxHeartbeats 2000000 in
theorem val3_main_v20 (V0 : Valuation τ sig (Elt F)) : val3 V0 (no_index (Proc.devRef .tc main_v20)) = preV (V0 (Proc.devRef .tc main_arg0)) (aggV (V0 (Proc.devRef .tc main_arg0)) (V0 (Proc.devRef .tc main_arg1)) (V0 (Proc.devRef .tc main_arg2))) (wSl (V0 (Proc.devRef .tc main_arg4)) 0 slices_S4x128x128_S1x128x128_0_0_0) := by
  unfold val3
  simp only [wB0]
  after_results_simp
  simp only [val2_main_v5, val2_main_v17, val2_main_arg0] <;> rfl
set_option maxRecDepth 8192 in
set_option maxHeartbeats 2000000 in
theorem val3_main_v22 (V0 : Valuation τ sig (Elt F)) : val3 V0 (no_index (Proc.devRef .tc main_v22)) = vSl (V0 (Proc.devRef .tc main_arg5)) 0 slices_S4x128_S1x128_0_0 := by
  unfold val3
  simp only [wB0]
  after_results_simp
  simp only [val2_main_arg5] <;> rfl
set_option maxRecDepth 8192 in
set_option maxHeartbeats 2000000 in
theorem val3_main_v24 (V0 : Valuation τ sig (Elt F)) : val3 V0 (no_index (Proc.devRef .tc main_v24)) = vSl (V0 (Proc.devRef .tc main_arg6)) 0 slices_S4x128_S1x128_0_0 := by
  unfold val3
  simp only [wB0]
  after_results_simp
  simp only [val2_main_arg6] <;> rfl
set_option maxRecDepth 8192 in
set_option maxHeartbeats 2000000 in
theorem val3_main_v27 (V0 : Valuation τ sig (Elt F)) : val3 V0 (no_index (Proc.devRef .tc main_v27)) = meanV (preV (V0 (Proc.devRef .tc main_arg0)) (aggV (V0 (Proc.devRef .tc main_arg0)) (V0 (Proc.devRef .tc main_arg1)) (V0 (Proc.devRef .tc main_arg2))) (wSl (V0 (Proc.devRef .tc main_arg4)) 0 slices_S4x128x128_S1x128x128_0_0_0)) := by
  unfold val3
  simp only [wB0]
  after_results_simp
  simp only [val2_main_v5, val2_main_v17, val2_main_arg0] <;> rfl

/-- The buffers' contents after the first 4 windows. -/
def val4 (V0 : Valuation τ sig (Elt F)) : Valuation τ sig (Elt F) := after wC0 (val3 V0)
/-- The buffers that window `wC0` writes. -/
abbrev wC0_W : List (Ref sig .tc) := [main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28]
set_option maxRecDepth 8192 in
theorem wC0_writes : (wC0 : List (HloOp τ sig (Elt F))).Forall fun op => op.writes ⊆ (wC0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wC0` does not write keeps its contents through it. -/
theorem val4_keep (V0 : Valuation τ sig (Elt F)) (r : Ref sig .tc) (h : r ∉ wC0_W) :
    val4 V0 (Proc.devRef .tc r) = val3 V0 (Proc.devRef .tc r) :=
  after_of_writes_sub wC0 _ wC0_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_v1 (V0 : Valuation τ sig (Elt F)) : val4 V0 (no_index (Proc.devRef .tc main_v1)) = srcV (V0 (Proc.devRef .tc main_arg1)) :=
  (val4_keep V0 main_v1 (by decide)).trans (val3_main_v1 V0)
theorem val4_main_v3 (V0 : Valuation τ sig (Elt F)) : val4 V0 (no_index (Proc.devRef .tc main_v3)) = dstV (V0 (Proc.devRef .tc main_arg1)) :=
  (val4_keep V0 main_v3 (by decide)).trans (val3_main_v3 V0)
theorem val4_main_v20 (V0 : Valuation τ sig (Elt F)) : val4 V0 (no_index (Proc.devRef .tc main_v20)) = preV (V0 (Proc.devRef .tc main_arg0)) (aggV (V0 (Proc.devRef .tc main_arg0)) (V0 (Proc.devRef .tc main_arg1)) (V0 (Proc.devRef .tc main_arg2))) (wSl (V0 (Proc.devRef .tc main_arg4)) 0 slices_S4x128x128_S1x128x128_0_0_0) :=
  (val4_keep V0 main_v20 (by decide)).trans (val3_main_v20 V0)
theorem val4_main_v22 (V0 : Valuation τ sig (Elt F)) : val4 V0 (no_index (Proc.devRef .tc main_v22)) = vSl (V0 (Proc.devRef .tc main_arg5)) 0 slices_S4x128_S1x128_0_0 :=
  (val4_keep V0 main_v22 (by decide)).trans (val3_main_v22 V0)
theorem val4_main_v24 (V0 : Valuation τ sig (Elt F)) : val4 V0 (no_index (Proc.devRef .tc main_v24)) = vSl (V0 (Proc.devRef .tc main_arg6)) 0 slices_S4x128_S1x128_0_0 :=
  (val4_keep V0 main_v24 (by decide)).trans (val3_main_v24 V0)
theorem val4_main_v27 (V0 : Valuation τ sig (Elt F)) : val4 V0 (no_index (Proc.devRef .tc main_v27)) = meanV (preV (V0 (Proc.devRef .tc main_arg0)) (aggV (V0 (Proc.devRef .tc main_arg0)) (V0 (Proc.devRef .tc main_arg1)) (V0 (Proc.devRef .tc main_arg2))) (wSl (V0 (Proc.devRef .tc main_arg4)) 0 slices_S4x128x128_S1x128x128_0_0_0)) :=
  (val4_keep V0 main_v27 (by decide)).trans (val3_main_v27 V0)
set_option maxRecDepth 8192 in
set_option maxHeartbeats 2000000 in
theorem val4_main_v28 (V0 : Valuation τ sig (Elt F)) : val4 V0 (no_index (Proc.devRef .tc main_v28)) = varV (preV (V0 (Proc.devRef .tc main_arg0)) (aggV (V0 (Proc.devRef .tc main_arg0)) (V0 (Proc.devRef .tc main_arg1)) (V0 (Proc.devRef .tc main_arg2))) (wSl (V0 (Proc.devRef .tc main_arg4)) 0 slices_S4x128x128_S1x128x128_0_0_0)) := by
  unfold val4
  simp only [wC0]
  after_results_simp
  simp only [val3_main_v20] <;> rfl

/-- The buffers' contents after the first 5 windows. -/
def val5 (V0 : Valuation τ sig (Elt F)) : Valuation τ sig (Elt F) := after wD0 (val4 V0)
/-- The buffers that window `wD0` writes. -/
abbrev wD0_W : List (Ref sig .tc) := [main_v29, main_v30, main_v31, main_cst_4, main_v32, main_v33, main_v34, main_v35, main_v36, main_v37, main_v38, main_v39, main_v40, main_v41, main_v42, main_v43, main_v44]
set_option maxRecDepth 8192 in
theorem wD0_writes : (wD0 : List (HloOp τ sig (Elt F))).Forall fun op => op.writes ⊆ (wD0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wD0` does not write keeps its contents through it. -/
theorem val5_keep (V0 : Valuation τ sig (Elt F)) (r : Ref sig .tc) (h : r ∉ wD0_W) :
    val5 V0 (Proc.devRef .tc r) = val4 V0 (Proc.devRef .tc r) :=
  after_of_writes_sub wD0 _ wD0_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_v1 (V0 : Valuation τ sig (Elt F)) : val5 V0 (no_index (Proc.devRef .tc main_v1)) = srcV (V0 (Proc.devRef .tc main_arg1)) :=
  (val5_keep V0 main_v1 (by decide)).trans (val4_main_v1 V0)
theorem val5_main_v3 (V0 : Valuation τ sig (Elt F)) : val5 V0 (no_index (Proc.devRef .tc main_v3)) = dstV (V0 (Proc.devRef .tc main_arg1)) :=
  (val5_keep V0 main_v3 (by decide)).trans (val4_main_v3 V0)
set_option maxRecDepth 8192 in
set_option maxHeartbeats 2000000 in
theorem val5_main_v44 (V0 : Valuation τ sig (Elt F)) : val5 V0 (no_index (Proc.devRef .tc main_v44)) = layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0) := by
  unfold val5
  simp only [wD0]
  after_results_simp
  simp only [val4_main_arg0, val4_main_v24, val4_main_v22, val4_main_v28, val4_main_v27, val4_main_v20] <;> rfl

/-- The buffers' contents after the first 6 windows. -/
def val6 (V0 : Valuation τ sig (Elt F)) : Valuation τ sig (Elt F) := after wA1 (val5 V0)
/-- The buffers that window `wA1` writes. -/
abbrev wA1_W : List (Ref sig .tc) := [main_v45, main_v46, main_c_5, main_v47, main_v48, main_c_6, main_v49, main_v50, main_v51, main_v52, main_v53, main_v54, main_call3_cst, main_call3_v0, main_v55, main_cst_7, main_v56, main_v57, main_v58]
set_option maxRecDepth 8192 in
theorem wA1_writes : (wA1 : List (HloOp τ sig (Elt F))).Forall fun op => op.writes ⊆ (wA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wA1` does not write keeps its contents through it. -/
theorem val6_keep (V0 : Valuation τ sig (Elt F)) (r : Ref sig .tc) (h : r ∉ wA1_W) :
    val6 V0 (Proc.devRef .tc r) = val5 V0 (Proc.devRef .tc r) :=
  after_of_writes_sub wA1 _ wA1_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_v1 (V0 : Valuation τ sig (Elt F)) : val6 V0 (no_index (Proc.devRef .tc main_v1)) = srcV (V0 (Proc.devRef .tc main_arg1)) :=
  (val6_keep V0 main_v1 (by decide)).trans (val5_main_v1 V0)
theorem val6_main_v3 (V0 : Valuation τ sig (Elt F)) : val6 V0 (no_index (Proc.devRef .tc main_v3)) = dstV (V0 (Proc.devRef .tc main_arg1)) :=
  (val6_keep V0 main_v3 (by decide)).trans (val5_main_v3 V0)
theorem val6_main_v44 (V0 : Valuation τ sig (Elt F)) : val6 V0 (no_index (Proc.devRef .tc main_v44)) = layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0) :=
  (val6_keep V0 main_v44 (by decide)).trans (val5_main_v44 V0)
set_option maxRecDepth 8192 in
set_option maxHeartbeats 2000000 in
theorem val6_main_v46 (V0 : Valuation τ sig (Elt F)) : val6 V0 (no_index (Proc.devRef .tc main_v46)) = wSl (V0 (Proc.devRef .tc main_arg4)) 1 slices_S4x128x128_S1x128x128_1_0_0 := by
  unfold val6
  simp only [wA1]
  after_results_simp
  simp only [val5_main_arg4] <;> rfl
set_option maxRecDepth 8192 in
set_option maxHeartbeats 2000000 in
theorem val6_main_v58 (V0 : Valuation τ sig (Elt F)) : val6 V0 (no_index (Proc.devRef .tc main_v58)) = aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) := by
  unfold val6
  simp only [wA1]
  after_results_simp
  simp only [val5_main_arg2, val5_main_v1, val5_main_v44, val5_main_v3] <;> rfl

/-- The buffers' contents after the first 7 windows. -/
def val7 (V0 : Valuation τ sig (Elt F)) : Valuation τ sig (Elt F) := after wB1 (val6 V0)
/-- The buffers that window `wB1` writes. -/
abbrev wB1_W : List (Ref sig .tc) := [main_v59, main_v60, main_call4_cst, main_call4_v0, main_v61, main_v62, main_v63, main_v64, main_v65, main_cst_8, main_v66, main_cst_9, main_v67, main_v68]
set_option maxRecDepth 8192 in
theorem wB1_writes : (wB1 : List (HloOp τ sig (Elt F))).Forall fun op => op.writes ⊆ (wB1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wB1` does not write keeps its contents through it. -/
theorem val7_keep (V0 : Valuation τ sig (Elt F)) (r : Ref sig .tc) (h : r ∉ wB1_W) :
    val7 V0 (Proc.devRef .tc r) = val6 V0 (Proc.devRef .tc r) :=
  after_of_writes_sub wB1 _ wB1_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_v1 (V0 : Valuation τ sig (Elt F)) : val7 V0 (no_index (Proc.devRef .tc main_v1)) = srcV (V0 (Proc.devRef .tc main_arg1)) :=
  (val7_keep V0 main_v1 (by decide)).trans (val6_main_v1 V0)
theorem val7_main_v3 (V0 : Valuation τ sig (Elt F)) : val7 V0 (no_index (Proc.devRef .tc main_v3)) = dstV (V0 (Proc.devRef .tc main_arg1)) :=
  (val7_keep V0 main_v3 (by decide)).trans (val6_main_v3 V0)
theorem val7_main_v44 (V0 : Valuation τ sig (Elt F)) : val7 V0 (no_index (Proc.devRef .tc main_v44)) = layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0) :=
  (val7_keep V0 main_v44 (by decide)).trans (val6_main_v44 V0)
set_option maxRecDepth 8192 in
set_option maxHeartbeats 2000000 in
theorem val7_main_v61 (V0 : Valuation τ sig (Elt F)) : val7 V0 (no_index (Proc.devRef .tc main_v61)) = preV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2))) (wSl (V0 (Proc.devRef .tc main_arg4)) 1 slices_S4x128x128_S1x128x128_1_0_0) := by
  unfold val7
  simp only [wB1]
  after_results_simp
  simp only [val6_main_v46, val6_main_v58, val6_main_v44] <;> rfl
set_option maxRecDepth 8192 in
set_option maxHeartbeats 2000000 in
theorem val7_main_v63 (V0 : Valuation τ sig (Elt F)) : val7 V0 (no_index (Proc.devRef .tc main_v63)) = vSl (V0 (Proc.devRef .tc main_arg5)) 1 slices_S4x128_S1x128_1_0 := by
  unfold val7
  simp only [wB1]
  after_results_simp
  simp only [val6_main_arg5] <;> rfl
set_option maxRecDepth 8192 in
set_option maxHeartbeats 2000000 in
theorem val7_main_v65 (V0 : Valuation τ sig (Elt F)) : val7 V0 (no_index (Proc.devRef .tc main_v65)) = vSl (V0 (Proc.devRef .tc main_arg6)) 1 slices_S4x128_S1x128_1_0 := by
  unfold val7
  simp only [wB1]
  after_results_simp
  simp only [val6_main_arg6] <;> rfl
set_option maxRecDepth 8192 in
set_option maxHeartbeats 2000000 in
theorem val7_main_v68 (V0 : Valuation τ sig (Elt F)) : val7 V0 (no_index (Proc.devRef .tc main_v68)) = meanV (preV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2))) (wSl (V0 (Proc.devRef .tc main_arg4)) 1 slices_S4x128x128_S1x128x128_1_0_0)) := by
  unfold val7
  simp only [wB1]
  after_results_simp
  simp only [val6_main_v46, val6_main_v58, val6_main_v44] <;> rfl

/-- The buffers' contents after the first 8 windows. -/
def val8 (V0 : Valuation τ sig (Elt F)) : Valuation τ sig (Elt F) := after wC1 (val7 V0)
/-- The buffers that window `wC1` writes. -/
abbrev wC1_W : List (Ref sig .tc) := [main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v69]
set_option maxRecDepth 8192 in
theorem wC1_writes : (wC1 : List (HloOp τ sig (Elt F))).Forall fun op => op.writes ⊆ (wC1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wC1` does not write keeps its contents through it. -/
theorem val8_keep (V0 : Valuation τ sig (Elt F)) (r : Ref sig .tc) (h : r ∉ wC1_W) :
    val8 V0 (Proc.devRef .tc r) = val7 V0 (Proc.devRef .tc r) :=
  after_of_writes_sub wC1 _ wC1_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_v1 (V0 : Valuation τ sig (Elt F)) : val8 V0 (no_index (Proc.devRef .tc main_v1)) = srcV (V0 (Proc.devRef .tc main_arg1)) :=
  (val8_keep V0 main_v1 (by decide)).trans (val7_main_v1 V0)
theorem val8_main_v3 (V0 : Valuation τ sig (Elt F)) : val8 V0 (no_index (Proc.devRef .tc main_v3)) = dstV (V0 (Proc.devRef .tc main_arg1)) :=
  (val8_keep V0 main_v3 (by decide)).trans (val7_main_v3 V0)
theorem val8_main_v44 (V0 : Valuation τ sig (Elt F)) : val8 V0 (no_index (Proc.devRef .tc main_v44)) = layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0) :=
  (val8_keep V0 main_v44 (by decide)).trans (val7_main_v44 V0)
theorem val8_main_v61 (V0 : Valuation τ sig (Elt F)) : val8 V0 (no_index (Proc.devRef .tc main_v61)) = preV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2))) (wSl (V0 (Proc.devRef .tc main_arg4)) 1 slices_S4x128x128_S1x128x128_1_0_0) :=
  (val8_keep V0 main_v61 (by decide)).trans (val7_main_v61 V0)
theorem val8_main_v63 (V0 : Valuation τ sig (Elt F)) : val8 V0 (no_index (Proc.devRef .tc main_v63)) = vSl (V0 (Proc.devRef .tc main_arg5)) 1 slices_S4x128_S1x128_1_0 :=
  (val8_keep V0 main_v63 (by decide)).trans (val7_main_v63 V0)
theorem val8_main_v65 (V0 : Valuation τ sig (Elt F)) : val8 V0 (no_index (Proc.devRef .tc main_v65)) = vSl (V0 (Proc.devRef .tc main_arg6)) 1 slices_S4x128_S1x128_1_0 :=
  (val8_keep V0 main_v65 (by decide)).trans (val7_main_v65 V0)
theorem val8_main_v68 (V0 : Valuation τ sig (Elt F)) : val8 V0 (no_index (Proc.devRef .tc main_v68)) = meanV (preV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2))) (wSl (V0 (Proc.devRef .tc main_arg4)) 1 slices_S4x128x128_S1x128x128_1_0_0)) :=
  (val8_keep V0 main_v68 (by decide)).trans (val7_main_v68 V0)
set_option maxRecDepth 8192 in
set_option maxHeartbeats 2000000 in
theorem val8_main_v69 (V0 : Valuation τ sig (Elt F)) : val8 V0 (no_index (Proc.devRef .tc main_v69)) = varV (preV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (aggV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2))) (wSl (V0 (Proc.devRef .tc main_arg4)) 1 slices_S4x128x128_S1x128x128_1_0_0)) := by
  unfold val8
  simp only [wC1]
  after_results_simp
  simp only [val7_main_v61] <;> rfl

/-- The buffers' contents after the first 9 windows. -/
def val9 (V0 : Valuation τ sig (Elt F)) : Valuation τ sig (Elt F) := after wD1 (val8 V0)
/-- The buffers that window `wD1` writes. -/
abbrev wD1_W : List (Ref sig .tc) := [main_v70, main_v71, main_v72, main_cst_11, main_v73, main_v74, main_v75, main_v76, main_v77, main_v78, main_v79, main_v80, main_v81, main_v82, main_v83, main_v84, main_v85]
set_option maxRecDepth 8192 in
theorem wD1_writes : (wD1 : List (HloOp τ sig (Elt F))).Forall fun op => op.writes ⊆ (wD1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wD1` does not write keeps its contents through it. -/
theorem val9_keep (V0 : Valuation τ sig (Elt F)) (r : Ref sig .tc) (h : r ∉ wD1_W) :
    val9 V0 (Proc.devRef .tc r) = val8 V0 (Proc.devRef .tc r) :=
  after_of_writes_sub wD1 _ wD1_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_v1 (V0 : Valuation τ sig (Elt F)) : val9 V0 (no_index (Proc.devRef .tc main_v1)) = srcV (V0 (Proc.devRef .tc main_arg1)) :=
  (val9_keep V0 main_v1 (by decide)).trans (val8_main_v1 V0)
theorem val9_main_v3 (V0 : Valuation τ sig (Elt F)) : val9 V0 (no_index (Proc.devRef .tc main_v3)) = dstV (V0 (Proc.devRef .tc main_arg1)) :=
  (val9_keep V0 main_v3 (by decide)).trans (val8_main_v3 V0)
set_option maxRecDepth 8192 in
set_option maxHeartbeats 2000000 in
theorem val9_main_v85 (V0 : Valuation τ sig (Elt F)) : val9 V0 (no_index (Proc.devRef .tc main_v85)) = layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0) := by
  unfold val9
  simp only [wD1]
  after_results_simp
  simp only [val8_main_v44, val8_main_v65, val8_main_v63, val8_main_v69, val8_main_v68, val8_main_v61] <;> rfl

/-- The buffers' contents after the first 10 windows. -/
def val10 (V0 : Valuation τ sig (Elt F)) : Valuation τ sig (Elt F) := after wA2 (val9 V0)
/-- The buffers that window `wA2` writes. -/
abbrev wA2_W : List (Ref sig .tc) := [main_v86, main_v87, main_c_12, main_v88, main_v89, main_c_13, main_v90, main_v91, main_v92, main_v93, main_v94, main_v95, main_call6_cst, main_call6_v0, main_v96, main_cst_14, main_v97, main_v98, main_v99]
set_option maxRecDepth 8192 in
theorem wA2_writes : (wA2 : List (HloOp τ sig (Elt F))).Forall fun op => op.writes ⊆ (wA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wA2` does not write keeps its contents through it. -/
theorem val10_keep (V0 : Valuation τ sig (Elt F)) (r : Ref sig .tc) (h : r ∉ wA2_W) :
    val10 V0 (Proc.devRef .tc r) = val9 V0 (Proc.devRef .tc r) :=
  after_of_writes_sub wA2 _ wA2_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_v1 (V0 : Valuation τ sig (Elt F)) : val10 V0 (no_index (Proc.devRef .tc main_v1)) = srcV (V0 (Proc.devRef .tc main_arg1)) :=
  (val10_keep V0 main_v1 (by decide)).trans (val9_main_v1 V0)
theorem val10_main_v3 (V0 : Valuation τ sig (Elt F)) : val10 V0 (no_index (Proc.devRef .tc main_v3)) = dstV (V0 (Proc.devRef .tc main_arg1)) :=
  (val10_keep V0 main_v3 (by decide)).trans (val9_main_v3 V0)
theorem val10_main_v85 (V0 : Valuation τ sig (Elt F)) : val10 V0 (no_index (Proc.devRef .tc main_v85)) = layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0) :=
  (val10_keep V0 main_v85 (by decide)).trans (val9_main_v85 V0)
set_option maxRecDepth 8192 in
set_option maxHeartbeats 2000000 in
theorem val10_main_v87 (V0 : Valuation τ sig (Elt F)) : val10 V0 (no_index (Proc.devRef .tc main_v87)) = wSl (V0 (Proc.devRef .tc main_arg4)) 2 slices_S4x128x128_S1x128x128_2_0_0 := by
  unfold val10
  simp only [wA2]
  after_results_simp
  simp only [val9_main_arg4] <;> rfl
set_option maxRecDepth 8192 in
set_option maxHeartbeats 2000000 in
theorem val10_main_v99 (V0 : Valuation τ sig (Elt F)) : val10 V0 (no_index (Proc.devRef .tc main_v99)) = aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) := by
  unfold val10
  simp only [wA2]
  after_results_simp
  simp only [val9_main_arg2, val9_main_v1, val9_main_v85, val9_main_v3] <;> rfl

/-- The buffers' contents after the first 11 windows. -/
def val11 (V0 : Valuation τ sig (Elt F)) : Valuation τ sig (Elt F) := after wB2 (val10 V0)
/-- The buffers that window `wB2` writes. -/
abbrev wB2_W : List (Ref sig .tc) := [main_v100, main_v101, main_call7_cst, main_call7_v0, main_v102, main_v103, main_v104, main_v105, main_v106, main_cst_15, main_v107, main_cst_16, main_v108, main_v109]
set_option maxRecDepth 8192 in
theorem wB2_writes : (wB2 : List (HloOp τ sig (Elt F))).Forall fun op => op.writes ⊆ (wB2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wB2` does not write keeps its contents through it. -/
theorem val11_keep (V0 : Valuation τ sig (Elt F)) (r : Ref sig .tc) (h : r ∉ wB2_W) :
    val11 V0 (Proc.devRef .tc r) = val10 V0 (Proc.devRef .tc r) :=
  after_of_writes_sub wB2 _ wB2_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_v1 (V0 : Valuation τ sig (Elt F)) : val11 V0 (no_index (Proc.devRef .tc main_v1)) = srcV (V0 (Proc.devRef .tc main_arg1)) :=
  (val11_keep V0 main_v1 (by decide)).trans (val10_main_v1 V0)
theorem val11_main_v3 (V0 : Valuation τ sig (Elt F)) : val11 V0 (no_index (Proc.devRef .tc main_v3)) = dstV (V0 (Proc.devRef .tc main_arg1)) :=
  (val11_keep V0 main_v3 (by decide)).trans (val10_main_v3 V0)
theorem val11_main_v85 (V0 : Valuation τ sig (Elt F)) : val11 V0 (no_index (Proc.devRef .tc main_v85)) = layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0) :=
  (val11_keep V0 main_v85 (by decide)).trans (val10_main_v85 V0)
set_option maxRecDepth 8192 in
set_option maxHeartbeats 2000000 in
theorem val11_main_v102 (V0 : Valuation τ sig (Elt F)) : val11 V0 (no_index (Proc.devRef .tc main_v102)) = preV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2))) (wSl (V0 (Proc.devRef .tc main_arg4)) 2 slices_S4x128x128_S1x128x128_2_0_0) := by
  unfold val11
  simp only [wB2]
  after_results_simp
  simp only [val10_main_v87, val10_main_v99, val10_main_v85] <;> rfl
set_option maxRecDepth 8192 in
set_option maxHeartbeats 2000000 in
theorem val11_main_v104 (V0 : Valuation τ sig (Elt F)) : val11 V0 (no_index (Proc.devRef .tc main_v104)) = vSl (V0 (Proc.devRef .tc main_arg5)) 2 slices_S4x128_S1x128_2_0 := by
  unfold val11
  simp only [wB2]
  after_results_simp
  simp only [val10_main_arg5] <;> rfl
set_option maxRecDepth 8192 in
set_option maxHeartbeats 2000000 in
theorem val11_main_v106 (V0 : Valuation τ sig (Elt F)) : val11 V0 (no_index (Proc.devRef .tc main_v106)) = vSl (V0 (Proc.devRef .tc main_arg6)) 2 slices_S4x128_S1x128_2_0 := by
  unfold val11
  simp only [wB2]
  after_results_simp
  simp only [val10_main_arg6] <;> rfl
set_option maxRecDepth 8192 in
set_option maxHeartbeats 2000000 in
theorem val11_main_v109 (V0 : Valuation τ sig (Elt F)) : val11 V0 (no_index (Proc.devRef .tc main_v109)) = meanV (preV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2))) (wSl (V0 (Proc.devRef .tc main_arg4)) 2 slices_S4x128x128_S1x128x128_2_0_0)) := by
  unfold val11
  simp only [wB2]
  after_results_simp
  simp only [val10_main_v87, val10_main_v99, val10_main_v85] <;> rfl

/-- The buffers' contents after the first 12 windows. -/
def val12 (V0 : Valuation τ sig (Elt F)) : Valuation τ sig (Elt F) := after wC2 (val11 V0)
/-- The buffers that window `wC2` writes. -/
abbrev wC2_W : List (Ref sig .tc) := [main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v110]
set_option maxRecDepth 8192 in
theorem wC2_writes : (wC2 : List (HloOp τ sig (Elt F))).Forall fun op => op.writes ⊆ (wC2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wC2` does not write keeps its contents through it. -/
theorem val12_keep (V0 : Valuation τ sig (Elt F)) (r : Ref sig .tc) (h : r ∉ wC2_W) :
    val12 V0 (Proc.devRef .tc r) = val11 V0 (Proc.devRef .tc r) :=
  after_of_writes_sub wC2 _ wC2_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_v1 (V0 : Valuation τ sig (Elt F)) : val12 V0 (no_index (Proc.devRef .tc main_v1)) = srcV (V0 (Proc.devRef .tc main_arg1)) :=
  (val12_keep V0 main_v1 (by decide)).trans (val11_main_v1 V0)
theorem val12_main_v3 (V0 : Valuation τ sig (Elt F)) : val12 V0 (no_index (Proc.devRef .tc main_v3)) = dstV (V0 (Proc.devRef .tc main_arg1)) :=
  (val12_keep V0 main_v3 (by decide)).trans (val11_main_v3 V0)
theorem val12_main_v85 (V0 : Valuation τ sig (Elt F)) : val12 V0 (no_index (Proc.devRef .tc main_v85)) = layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0) :=
  (val12_keep V0 main_v85 (by decide)).trans (val11_main_v85 V0)
theorem val12_main_v102 (V0 : Valuation τ sig (Elt F)) : val12 V0 (no_index (Proc.devRef .tc main_v102)) = preV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2))) (wSl (V0 (Proc.devRef .tc main_arg4)) 2 slices_S4x128x128_S1x128x128_2_0_0) :=
  (val12_keep V0 main_v102 (by decide)).trans (val11_main_v102 V0)
theorem val12_main_v104 (V0 : Valuation τ sig (Elt F)) : val12 V0 (no_index (Proc.devRef .tc main_v104)) = vSl (V0 (Proc.devRef .tc main_arg5)) 2 slices_S4x128_S1x128_2_0 :=
  (val12_keep V0 main_v104 (by decide)).trans (val11_main_v104 V0)
theorem val12_main_v106 (V0 : Valuation τ sig (Elt F)) : val12 V0 (no_index (Proc.devRef .tc main_v106)) = vSl (V0 (Proc.devRef .tc main_arg6)) 2 slices_S4x128_S1x128_2_0 :=
  (val12_keep V0 main_v106 (by decide)).trans (val11_main_v106 V0)
theorem val12_main_v109 (V0 : Valuation τ sig (Elt F)) : val12 V0 (no_index (Proc.devRef .tc main_v109)) = meanV (preV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2))) (wSl (V0 (Proc.devRef .tc main_arg4)) 2 slices_S4x128x128_S1x128x128_2_0_0)) :=
  (val12_keep V0 main_v109 (by decide)).trans (val11_main_v109 V0)
set_option maxRecDepth 8192 in
set_option maxHeartbeats 2000000 in
theorem val12_main_v110 (V0 : Valuation τ sig (Elt F)) : val12 V0 (no_index (Proc.devRef .tc main_v110)) = varV (preV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (aggV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2))) (wSl (V0 (Proc.devRef .tc main_arg4)) 2 slices_S4x128x128_S1x128x128_2_0_0)) := by
  unfold val12
  simp only [wC2]
  after_results_simp
  simp only [val11_main_v102] <;> rfl

/-- The buffers' contents after the first 13 windows. -/
def val13 (V0 : Valuation τ sig (Elt F)) : Valuation τ sig (Elt F) := after wD2 (val12 V0)
/-- The buffers that window `wD2` writes. -/
abbrev wD2_W : List (Ref sig .tc) := [main_v111, main_v112, main_v113, main_cst_18, main_v114, main_v115, main_v116, main_v117, main_v118, main_v119, main_v120, main_v121, main_v122, main_v123, main_v124, main_v125, main_v126]
set_option maxRecDepth 8192 in
theorem wD2_writes : (wD2 : List (HloOp τ sig (Elt F))).Forall fun op => op.writes ⊆ (wD2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wD2` does not write keeps its contents through it. -/
theorem val13_keep (V0 : Valuation τ sig (Elt F)) (r : Ref sig .tc) (h : r ∉ wD2_W) :
    val13 V0 (Proc.devRef .tc r) = val12 V0 (Proc.devRef .tc r) :=
  after_of_writes_sub wD2 _ wD2_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_v1 (V0 : Valuation τ sig (Elt F)) : val13 V0 (no_index (Proc.devRef .tc main_v1)) = srcV (V0 (Proc.devRef .tc main_arg1)) :=
  (val13_keep V0 main_v1 (by decide)).trans (val12_main_v1 V0)
theorem val13_main_v3 (V0 : Valuation τ sig (Elt F)) : val13 V0 (no_index (Proc.devRef .tc main_v3)) = dstV (V0 (Proc.devRef .tc main_arg1)) :=
  (val13_keep V0 main_v3 (by decide)).trans (val12_main_v3 V0)
set_option maxRecDepth 8192 in
set_option maxHeartbeats 2000000 in
theorem val13_main_v126 (V0 : Valuation τ sig (Elt F)) : val13 V0 (no_index (Proc.devRef .tc main_v126)) = layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0) := by
  unfold val13
  simp only [wD2]
  after_results_simp
  simp only [val12_main_v85, val12_main_v106, val12_main_v104, val12_main_v110, val12_main_v109, val12_main_v102] <;> rfl

/-- The buffers' contents after the first 14 windows. -/
def val14 (V0 : Valuation τ sig (Elt F)) : Valuation τ sig (Elt F) := after wA3 (val13 V0)
/-- The buffers that window `wA3` writes. -/
abbrev wA3_W : List (Ref sig .tc) := [main_v127, main_v128, main_c_19, main_v129, main_v130, main_c_20, main_v131, main_v132, main_v133, main_v134, main_v135, main_v136, main_call9_cst, main_call9_v0, main_v137, main_cst_21, main_v138, main_v139, main_v140]
set_option maxRecDepth 8192 in
theorem wA3_writes : (wA3 : List (HloOp τ sig (Elt F))).Forall fun op => op.writes ⊆ (wA3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wA3` does not write keeps its contents through it. -/
theorem val14_keep (V0 : Valuation τ sig (Elt F)) (r : Ref sig .tc) (h : r ∉ wA3_W) :
    val14 V0 (Proc.devRef .tc r) = val13 V0 (Proc.devRef .tc r) :=
  after_of_writes_sub wA3 _ wA3_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_v126 (V0 : Valuation τ sig (Elt F)) : val14 V0 (no_index (Proc.devRef .tc main_v126)) = layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0) :=
  (val14_keep V0 main_v126 (by decide)).trans (val13_main_v126 V0)
set_option maxRecDepth 8192 in
set_option maxHeartbeats 2000000 in
theorem val14_main_v128 (V0 : Valuation τ sig (Elt F)) : val14 V0 (no_index (Proc.devRef .tc main_v128)) = wSl (V0 (Proc.devRef .tc main_arg4)) 3 slices_S4x128x128_S1x128x128_3_0_0 := by
  unfold val14
  simp only [wA3]
  after_results_simp
  simp only [val13_main_arg4] <;> rfl
set_option maxRecDepth 8192 in
set_option maxHeartbeats 2000000 in
theorem val14_main_v140 (V0 : Valuation τ sig (Elt F)) : val14 V0 (no_index (Proc.devRef .tc main_v140)) = aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2)) := by
  unfold val14
  simp only [wA3]
  after_results_simp
  simp only [val13_main_arg2, val13_main_v1, val13_main_v126, val13_main_v3] <;> rfl

/-- The buffers' contents after the first 15 windows. -/
def val15 (V0 : Valuation τ sig (Elt F)) : Valuation τ sig (Elt F) := after wB3 (val14 V0)
/-- The buffers that window `wB3` writes. -/
abbrev wB3_W : List (Ref sig .tc) := [main_v141, main_v142, main_call10_cst, main_call10_v0, main_v143, main_v144, main_v145, main_v146, main_v147, main_cst_22, main_v148, main_cst_23, main_v149, main_v150]
set_option maxRecDepth 8192 in
theorem wB3_writes : (wB3 : List (HloOp τ sig (Elt F))).Forall fun op => op.writes ⊆ (wB3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wB3` does not write keeps its contents through it. -/
theorem val15_keep (V0 : Valuation τ sig (Elt F)) (r : Ref sig .tc) (h : r ∉ wB3_W) :
    val15 V0 (Proc.devRef .tc r) = val14 V0 (Proc.devRef .tc r) :=
  after_of_writes_sub wB3 _ wB3_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_arg5 (V0 : Valuation τ sig (Elt F)) : val15 V0 (no_index (Proc.devRef .tc main_arg5)) = V0 (Proc.devRef .tc main_arg5) :=
  (val15_keep V0 main_arg5 (by decide)).trans (val14_main_arg5 V0)
theorem val15_main_arg6 (V0 : Valuation τ sig (Elt F)) : val15 V0 (no_index (Proc.devRef .tc main_arg6)) = V0 (Proc.devRef .tc main_arg6) :=
  (val15_keep V0 main_arg6 (by decide)).trans (val14_main_arg6 V0)
theorem val15_main_v126 (V0 : Valuation τ sig (Elt F)) : val15 V0 (no_index (Proc.devRef .tc main_v126)) = layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0) :=
  (val15_keep V0 main_v126 (by decide)).trans (val14_main_v126 V0)
set_option maxRecDepth 8192 in
set_option maxHeartbeats 2000000 in
theorem val15_main_v143 (V0 : Valuation τ sig (Elt F)) : val15 V0 (no_index (Proc.devRef .tc main_v143)) = preV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2))) (wSl (V0 (Proc.devRef .tc main_arg4)) 3 slices_S4x128x128_S1x128x128_3_0_0) := by
  unfold val15
  simp only [wB3]
  after_results_simp
  simp only [val14_main_v128, val14_main_v140, val14_main_v126] <;> rfl
set_option maxRecDepth 8192 in
set_option maxHeartbeats 2000000 in
theorem val15_main_v145 (V0 : Valuation τ sig (Elt F)) : val15 V0 (no_index (Proc.devRef .tc main_v145)) = vSl (V0 (Proc.devRef .tc main_arg5)) 3 slices_S4x128_S1x128_3_0 := by
  unfold val15
  simp only [wB3]
  after_results_simp
  simp only [val14_main_arg5] <;> rfl
set_option maxRecDepth 8192 in
set_option maxHeartbeats 2000000 in
theorem val15_main_v147 (V0 : Valuation τ sig (Elt F)) : val15 V0 (no_index (Proc.devRef .tc main_v147)) = vSl (V0 (Proc.devRef .tc main_arg6)) 3 slices_S4x128_S1x128_3_0 := by
  unfold val15
  simp only [wB3]
  after_results_simp
  simp only [val14_main_arg6] <;> rfl
set_option maxRecDepth 8192 in
set_option maxHeartbeats 2000000 in
theorem val15_main_v150 (V0 : Valuation τ sig (Elt F)) : val15 V0 (no_index (Proc.devRef .tc main_v150)) = meanV (preV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2))) (wSl (V0 (Proc.devRef .tc main_arg4)) 3 slices_S4x128x128_S1x128x128_3_0_0)) := by
  unfold val15
  simp only [wB3]
  after_results_simp
  simp only [val14_main_v128, val14_main_v140, val14_main_v126] <;> rfl

/-- The buffers' contents after the first 16 windows. -/
def val16 (V0 : Valuation τ sig (Elt F)) : Valuation τ sig (Elt F) := after wC3 (val15 V0)
/-- The buffers that window `wC3` writes. -/
abbrev wC3_W : List (Ref sig .tc) := [main_c_24, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v151]
set_option maxRecDepth 8192 in
theorem wC3_writes : (wC3 : List (HloOp τ sig (Elt F))).Forall fun op => op.writes ⊆ (wC3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wC3` does not write keeps its contents through it. -/
theorem val16_keep (V0 : Valuation τ sig (Elt F)) (r : Ref sig .tc) (h : r ∉ wC3_W) :
    val16 V0 (Proc.devRef .tc r) = val15 V0 (Proc.devRef .tc r) :=
  after_of_writes_sub wC3 _ wC3_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_arg4 (V0 : Valuation τ sig (Elt F)) : val16 V0 (no_index (Proc.devRef .tc main_arg4)) = V0 (Proc.devRef .tc main_arg4) :=
  (val16_keep V0 main_arg4 (by decide)).trans (val15_main_arg4 V0)
theorem val16_main_arg5 (V0 : Valuation τ sig (Elt F)) : val16 V0 (no_index (Proc.devRef .tc main_arg5)) = V0 (Proc.devRef .tc main_arg5) :=
  (val16_keep V0 main_arg5 (by decide)).trans (val15_main_arg5 V0)
theorem val16_main_arg6 (V0 : Valuation τ sig (Elt F)) : val16 V0 (no_index (Proc.devRef .tc main_arg6)) = V0 (Proc.devRef .tc main_arg6) :=
  (val16_keep V0 main_arg6 (by decide)).trans (val15_main_arg6 V0)
theorem val16_main_v126 (V0 : Valuation τ sig (Elt F)) : val16 V0 (no_index (Proc.devRef .tc main_v126)) = layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0) :=
  (val16_keep V0 main_v126 (by decide)).trans (val15_main_v126 V0)
theorem val16_main_v143 (V0 : Valuation τ sig (Elt F)) : val16 V0 (no_index (Proc.devRef .tc main_v143)) = preV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2))) (wSl (V0 (Proc.devRef .tc main_arg4)) 3 slices_S4x128x128_S1x128x128_3_0_0) :=
  (val16_keep V0 main_v143 (by decide)).trans (val15_main_v143 V0)
theorem val16_main_v145 (V0 : Valuation τ sig (Elt F)) : val16 V0 (no_index (Proc.devRef .tc main_v145)) = vSl (V0 (Proc.devRef .tc main_arg5)) 3 slices_S4x128_S1x128_3_0 :=
  (val16_keep V0 main_v145 (by decide)).trans (val15_main_v145 V0)
theorem val16_main_v147 (V0 : Valuation τ sig (Elt F)) : val16 V0 (no_index (Proc.devRef .tc main_v147)) = vSl (V0 (Proc.devRef .tc main_arg6)) 3 slices_S4x128_S1x128_3_0 :=
  (val16_keep V0 main_v147 (by decide)).trans (val15_main_v147 V0)
theorem val16_main_v150 (V0 : Valuation τ sig (Elt F)) : val16 V0 (no_index (Proc.devRef .tc main_v150)) = meanV (preV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2))) (wSl (V0 (Proc.devRef .tc main_arg4)) 3 slices_S4x128x128_S1x128x128_3_0_0)) :=
  (val16_keep V0 main_v150 (by decide)).trans (val15_main_v150 V0)
set_option maxRecDepth 8192 in
set_option maxHeartbeats 2000000 in
theorem val16_main_v151 (V0 : Valuation τ sig (Elt F)) : val16 V0 (no_index (Proc.devRef .tc main_v151)) = varV (preV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (aggV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2))) (wSl (V0 (Proc.devRef .tc main_arg4)) 3 slices_S4x128x128_S1x128x128_3_0_0)) := by
  unfold val16
  simp only [wC3]
  after_results_simp
  simp only [val15_main_v143] <;> rfl

/-- The buffers' contents after the first 17 windows. -/
def val17 (V0 : Valuation τ sig (Elt F)) : Valuation τ sig (Elt F) := after wD3 (val16 V0)
/-- The buffers that window `wD3` writes. -/
abbrev wD3_W : List (Ref sig .tc) := [main_v152, main_v153, main_v154, main_cst_25, main_v155, main_v156, main_v157, main_v158, main_v159, main_v160, main_v161, main_v162, main_v163, main_v164, main_v165, main_v166, main_v167]
set_option maxRecDepth 8192 in
theorem wD3_writes : (wD3 : List (HloOp τ sig (Elt F))).Forall fun op => op.writes ⊆ (wD3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `wD3` does not write keeps its contents through it. -/
theorem val17_keep (V0 : Valuation τ sig (Elt F)) (r : Ref sig .tc) (h : r ∉ wD3_W) :
    val17 V0 (Proc.devRef .tc r) = val16 V0 (Proc.devRef .tc r) :=
  after_of_writes_sub wD3 _ wD3_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide)).trans (val16_main_arg3 V0)
theorem val17_main_arg4 (V0 : Valuation τ sig (Elt F)) : val17 V0 (no_index (Proc.devRef .tc main_arg4)) = V0 (Proc.devRef .tc main_arg4) :=
  (val17_keep V0 main_arg4 (by decide)).trans (val16_main_arg4 V0)
theorem val17_main_arg5 (V0 : Valuation τ sig (Elt F)) : val17 V0 (no_index (Proc.devRef .tc main_arg5)) = V0 (Proc.devRef .tc main_arg5) :=
  (val17_keep V0 main_arg5 (by decide)).trans (val16_main_arg5 V0)
theorem val17_main_arg6 (V0 : Valuation τ sig (Elt F)) : val17 V0 (no_index (Proc.devRef .tc main_arg6)) = V0 (Proc.devRef .tc main_arg6) :=
  (val17_keep V0 main_arg6 (by decide)).trans (val16_main_arg6 V0)
set_option maxRecDepth 8192 in
set_option maxHeartbeats 2000000 in
theorem val17_main_v167 (V0 : Valuation τ sig (Elt F)) : val17 V0 (no_index (Proc.devRef .tc main_v167)) = layerV (layerV (layerV (layerV (V0 (Proc.devRef .tc main_arg0)) (V0 (Proc.devRef .tc main_arg1)) (V0 (Proc.devRef .tc main_arg2)) (wSl (V0 (Proc.devRef .tc main_arg4)) 0 slices_S4x128x128_S1x128x128_0_0_0) (vSl (V0 (Proc.devRef .tc main_arg5)) 0 slices_S4x128_S1x128_0_0) (vSl (V0 (Proc.devRef .tc main_arg6)) 0 slices_S4x128_S1x128_0_0)) (V0 (Proc.devRef .tc main_arg1)) (V0 (Proc.devRef .tc main_arg2)) (wSl (V0 (Proc.devRef .tc main_arg4)) 1 slices_S4x128x128_S1x128x128_1_0_0) (vSl (V0 (Proc.devRef .tc main_arg5)) 1 slices_S4x128_S1x128_1_0) (vSl (V0 (Proc.devRef .tc main_arg6)) 1 slices_S4x128_S1x128_1_0)) (V0 (Proc.devRef .tc main_arg1)) (V0 (Proc.devRef .tc main_arg2)) (wSl (V0 (Proc.devRef .tc main_arg4)) 2 slices_S4x128x128_S1x128x128_2_0_0) (vSl (V0 (Proc.devRef .tc main_arg5)) 2 slices_S4x128_S1x128_2_0) (vSl (V0 (Proc.devRef .tc main_arg6)) 2 slices_S4x128_S1x128_2_0)) (V0 (Proc.devRef .tc main_arg1)) (V0 (Proc.devRef .tc main_arg2)) (wSl (V0 (Proc.devRef .tc main_arg4)) 3 slices_S4x128x128_S1x128x128_3_0_0) (vSl (V0 (Proc.devRef .tc main_arg5)) 3 slices_S4x128_S1x128_3_0) (vSl (V0 (Proc.devRef .tc main_arg6)) 3 slices_S4x128_S1x128_3_0) := by
  unfold val17
  simp only [wD3]
  after_results_simp
  simp only [val16_main_v126, val16_main_v147, val16_main_v145, val16_main_v151, val16_main_v150, val16_main_v143] <;> rfl

theorem after_ops (V0 : Valuation τ sig (Elt F)) : after ops V0 = val17 V0 := by
  simp only [ops, after_append]
  rfl

/-- From any memory with zero counters, every weakly fair execution of the program terminates with the result buffer
    at the four nested layers of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167) = netV (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v167).trans (by simp only [after_ops]; exact val17_main_v167 (launchContents m c)),
      (h c main_arg0).trans (by simp only [after_ops]; exact val17_main_arg0 (launchContents m c)),
      (h c main_arg1).trans (by simp only [after_ops]; exact val17_main_arg1 (launchContents m c)),
      (h c main_arg2).trans (by simp only [after_ops]; exact val17_main_arg2 (launchContents m c)),
      (h c main_arg3).trans (by simp only [after_ops]; exact val17_main_arg3 (launchContents m c)),
      (h c main_arg4).trans (by simp only [after_ops]; exact val17_main_arg4 (launchContents m c)),
      (h c main_arg5).trans (by simp only [after_ops]; exact val17_main_arg5 (launchContents m c)),
      (h c main_arg6).trans (by simp only [after_ops]; exact val17_main_arg6 (launchContents m c))⟩)
    (run_seq scopedRefs_eq scopedSems_eq defs main (fun _ => ops) main_eq (fun _ => ops_sub) m ρ)

/-- The same run with the result dropped: the program runs and leaves its arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (run m ρ)

end Cert.ReferenceIdeal.RefRun

end
-- ==== Proof.RefValue.lean ====
/-
  The reference's result read by coordinates.

  Each stage of a layer, read at a row and a column of the array it produces, is the corresponding stage of the
  specification: the product with the weights is a finite sum of products and the clip is a maximum with zero;
  the column mean is the column sum divided by fifty thousand; the variance function's guard compares fifty thousand
  less zero with zero, so its select returns the mean squared deviation; the normalisation subtracts the mean,
  multiplies by the reciprocal square root of the variance plus the small constant, scales, shifts and adds the
  layer's input.  The aggregation is carried as one function of the layer's input and is never opened.
-/
import proofs.«120676_j3582002725394_2_alg».proof.Proof.RefDefs
import proofs.«120676_j3582002725394_2_alg».proof.Proof.Spec
import proofs.«120676_j3582002725394_2_alg».proof.Proof.SpecLaws
import proofs.«120676_j3582002725394_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.RefDefs Cert.Spec

/-! ### Operations read at an index -/

/-- A scalar repeated over any shape, read at an index: the scalar. -/
theorem bcast0_apply {t : Shape} {α : Type} (h : S_.BroadcastsInDim t (![] : Fin 0 → Fin t.rank)) (x : S_.Idx → α) (j : t.Idx) :
    broadcastInDim t ![] h x j = x ix0 :=
  broadcastInDim_apply _ h x j ix0 (fun a => a.elim0)

/-- The host's quotient at an index. -/
theorem hostDivf_apply {s : Shape} {φ : FTy} (a b : FVec Ideal s φ) (i : s.Idx) : Host.divf a b i = Ideal.div (a i) (b i) := rfl

/-- The host's reciprocal square root at an index. -/
theorem hostRsqrt_apply {s : Shape} {φ : FTy} (a : FVec Ideal s φ) (i : s.Idx) : Host.rsqrt a i = Ideal.rsqrt (a i) := rfl

/-- A `[128]` row repeated down the rows, read at row `p` and column `q`: the row's entry `q`. -/
theorem bcRow_apply (v : FVec Ideal S128 .f32) (p : Fin 50000) (q : Fin 128) : bcRow v (ix2 p q) = v (ix1 q) := by
  unfold bcRow
  rw [broadcastInDim_apply (![0, 1] : Fin 2 → Fin 2) bcast_S1x128_S50000x128_0_1 _ (ix2 p q) (ix2 (0 : Fin 1) q) (fun a => by
        match a with
        | ⟨0, _⟩ => rfl
        | ⟨1, _⟩ => rfl),
      broadcastInDim_apply (![1] : Fin 1 → Fin 2) bcast_S128_S1x128_1 _ (ix2 (0 : Fin 1) q) (ix1 q) (fun a => by
        match a with
        | ⟨0, _⟩ => rfl)]

/-- The sum down the rows from a zero initial value, read at column `q`. -/
theorem colReduce_apply (v : FVec Ideal S50000x128 .f32) (q : Fin 128) :
    Host.reduceAdd v (constant S_ .f32 0x00000000#32) reducesTo_S50000x128_S128_d0 h_S_ (ix1 q) = ∑ p : Fin 50000, v (ix2 p q) := by
  show Ideal.hostReduceAdd reducesTo_S50000x128_S128_d0 v (Ideal.ofBits .f32 0x00000000#32) (ix1 q) = _
  rw [Ideal.hostReduceAdd_single reducesTo_S50000x128_S128_d0 (by decide : S50000x128.Reduces [0] S128), Ideal.ofBits_zero_f32, zero_add]
  refine Finset.sum_congr rfl fun r _ => congrArg v (funext fun a => Fin.ext ?_)
  match a with
  | ⟨0, _⟩ => rfl
  | ⟨1, _⟩ => rfl

/-- Slice `l` of the stacked weights, read at `(k, q)`: the stacked array's entry `(l, k, q)`. -/
theorem wSl_apply (w : FVec Ideal S4x128x128 .f32) (l : ℕ) (hl : l < 4) (hs : S4x128x128.Slices ![l, 0, 0] S1x128x128) (k q : Fin 128) :
    wSl w l hs (ix2 k q) = w (ix3 ⟨l, hl⟩ k q) := by
  unfold wSl
  rw [shapeCast_apply _ shapeCasts_S1x128x128_S128x128 (ix2 k q) (ix3 0 k q) (by
        rw [Shape.rowMajor_val_two, Shape.rowMajor_val_three]; show (0 * 128 + k.val) * 128 + q.val = k.val * 128 + q.val; omega)]
  exact extractStridedSlice_apply _ w hs (ix3 0 k q) (ix3 ⟨l, hl⟩ k q) (fun a => by
    match a with
    | ⟨0, _⟩ => show l = l + 0; omega
    | ⟨1, _⟩ => show k.val = 0 + k.val; omega
    | ⟨2, _⟩ => show q.val = 0 + q.val; omega)

/-- Row `l` of a stacked `[4, 128]` array, read at `q`: the stacked array's entry `(l, q)`. -/
theorem vSl_apply (g : FVec Ideal S4x128 .f32) (l : ℕ) (hl : l < 4) (hs : S4x128.Slices ![l, 0] S1x128) (q : Fin 128) :
    vSl g l hs (ix1 q) = g (ix2 ⟨l, hl⟩ q) := by
  unfold vSl
  rw [shapeCast_apply _ shapeCasts_S1x128_S128 (ix1 q) (ix2 0 q) (by
        rw [Shape.rowMajor_val_two, Shape.rowMajor_val_one]; show 0 * 128 + q.val = q.val; omega)]
  exact extractStridedSlice_apply _ g hs (ix2 0 q) (ix2 ⟨l, hl⟩ q) (fun a => by
    match a with
    | ⟨0, _⟩ => show l = l + 0; omega
    | ⟨1, _⟩ => show q.val = 0 + q.val; omega)

/-! ### The stages of a layer -/

/-- The clipped product by coordinates. -/
theorem cur_preV (x agg : FVec Ideal S50000x128 .f32) (W : FVec Ideal S128x128 .f32) :
    cur (preV x agg W) = act (lin (cur x) (cur agg) (cur W)) := by
  funext p q
  show preV x agg W (ix2 p q) = max (∑ k : Fin 128, (x (ix2 p k) + agg (ix2 p k)) * W (ix2 k q)) 0
  unfold preV
  rw [maximumf_apply, Cert.PlainDot.dotGeneral_apply _ ⟨rfl, rfl, rfl, rfl, rfl, rfl⟩, bcast0_apply, constant_apply, Ideal.ofBits_zero_f32]
  rfl

/-- The column mean at column `q`. -/
theorem meanV_apply (pre : FVec Ideal S50000x128 .f32) (q : Fin 128) : meanV pre (ix1 q) = meanDiv (cur pre) q := by
  unfold meanV
  rw [hostDivf_apply, colReduce_apply, bcast0_apply, constant_apply, ofBits_50000]
  rfl

/-- The deviation from the column mean at `(p, q)`. -/
theorem devV_apply (pre : FVec Ideal S50000x128 .f32) (p : Fin 50000) (q : Fin 128) :
    devV pre (ix2 p q) = pre (ix2 p q) - meanDiv (cur pre) q := by
  unfold devV
  rw [subf_apply,
    broadcastInDim_apply (![0, 1] : Fin 2 → Fin 2) bcast_S1x128_S50000x128_0_1 _ (ix2 p q) (ix2 (0 : Fin 1) q) (fun a => by
        match a with
        | ⟨0, _⟩ => rfl
        | ⟨1, _⟩ => rfl),
    hostDivf_apply,
    broadcastInDim_apply (![1] : Fin 1 → Fin 2) bcast_S128_S1x128_1 _ (ix2 (0 : Fin 1) q) (ix1 q) (fun a => by
        match a with
        | ⟨0, _⟩ => rfl),
    colReduce_apply, bcast0_apply, constant_apply, ofBits_50000]
  rfl

/-- The variance's divisor is fifty thousand: fifty thousand less the integer zero. -/
theorem cntV_apply (i : S_.Idx) : cntV (F := Ideal) i = ((50000 : ℝ) : EReal) := by
  unfold cntV
  rw [subf_apply, constant_apply, ofBits_50000, sitofp_apply]
  show ((50000 : ℝ) : EReal) - (((0#32 : BitVec 32).toInt : ℝ) : EReal) = _
  simp

/-- Fifty thousand is greater than zero: the guard's bit is one. -/
theorem guard_one : FloatOps.cmpf (F := Ideal) (φ := .f32) .ogt ((50000 : ℝ) : EReal) 0 = 1#1 := by
  show Ideal.cmp .ogt _ _ = _
  have h : (0 : EReal) < ((50000 : ℝ) : EReal) := by exact_mod_cast (by norm_num : (0 : ℝ) < 50000)
  simp [Ideal.cmp, h]

/-- The column variance at column `q`: the guard holds, so the select returns the mean squared deviation. -/
theorem varV_apply (pre : FVec Ideal S50000x128 .f32) (q : Fin 128) : varV pre (ix1 q) = varTwoPass (cur pre) q := by
  unfold varV
  rw [select_apply, bcast0_apply, cmpf_apply, cntV_apply, constant_apply, Ideal.ofBits_zero_f32, guard_one, select_one,
    hostDivf_apply, colReduce_apply, bcast0_apply, cntV_apply]
  show Ideal.div (∑ p : Fin 50000, mulf (devV pre) (devV pre) (ix2 p q)) _
    = Ideal.div (∑ p : Fin 50000, (pre (ix2 p q) - meanDiv (cur pre) q) * (pre (ix2 p q) - meanDiv (cur pre) q)) _
  simp only [mulf_apply, devV_apply]
  rfl

/-- The normalisation at `(p, q)`. -/
theorem normV_apply (pre : FVec Ideal S50000x128 .f32) (mean var γ β : FVec Ideal S128 .f32) (prev : FVec Ideal S50000x128 .f32)
    (p : Fin 50000) (q : Fin 128) :
    normV pre mean var γ β prev (ix2 p q)
      = (pre (ix2 p q) - mean (ix1 q)) * Ideal.rsqrt (var (ix1 q) + eps) * γ (ix1 q) + β (ix1 q) + prev (ix2 p q) := by
  unfold normV
  rw [addf_apply, addf_apply, mulf_apply, mulf_apply, subf_apply, bcRow_apply, bcRow_apply, bcRow_apply, bcRow_apply,
    hostRsqrt_apply, addf_apply, bcast0_apply, constant_apply]
  rfl

/-! ### A layer, and the four layers -/

/-- An array rebuilt from its coordinates is the array. -/
theorem unc_cur {a b : ℕ} {φ : FTy} (f : FVec Ideal ⟨2, ![a, b]⟩ φ) : unc (φ := φ) (cur f) = f := by
  funext i
  exact congrArg f (eq_ix2 i).symm

/-- The aggregation as a function of the layer's input read by coordinates. -/
def aggR (ei : IVec S2x500000 32) (ea : FVec Ideal S500000x128 .f32) : Mat 50000 128 → Mat 50000 128 :=
  fun y => cur (φ := .f32) (aggC (F := Ideal) (unc (φ := .f32) y) (srcV ei) (dstV ei) ea)

/-- One layer by coordinates: the specification's layer with the two-pass variance. -/
theorem cur_layerV (x : FVec Ideal S50000x128 .f32) (ei : IVec S2x500000 32) (ea : FVec Ideal S500000x128 .f32)
    (W : FVec Ideal S128x128 .f32) (g b : FVec Ideal S128 .f32) :
    cur (layerV x ei ea W g b)
      = normTwoPass (act (lin (cur x) (cur (aggV x ei ea)) (cur W))) (fun q => g (ix1 q)) (fun q => b (ix1 q)) (cur x) := by
  funext p q
  show layerV x ei ea W g b (ix2 p q) = _
  unfold layerV
  rw [normV_apply, meanV_apply, varV_apply, ← cur_preV]
  rfl

/-- One layer at the slices of the stacked arrays. -/
theorem cur_layerV_slices (x : FVec Ideal S50000x128 .f32) (ei : IVec S2x500000 32) (ea : FVec Ideal S500000x128 .f32)
    (w : FVec Ideal S4x128x128 .f32) (g b : FVec Ideal S4x128 .f32) (l : ℕ) (hl : l < 4)
    (hw : S4x128x128.Slices ![l, 0, 0] S1x128x128) (hg : S4x128.Slices ![l, 0] S1x128) :
    cur (layerV x ei ea (wSl w l hw) (vSl g l hg) (vSl b l hg))
      = layerR (aggR ei ea) (cur x) (fun k q => w (ix3 ⟨l, hl⟩ k q)) (fun q => g (ix2 ⟨l, hl⟩ q)) (fun q => b (ix2 ⟨l, hl⟩ q)) := by
  rw [cur_layerV]
  unfold layerR aggR aggV
  rw [unc_cur]
  have e1 : cur (wSl w l hw) = fun k q => w (ix3 ⟨l, hl⟩ k q) := by
    funext k q; exact wSl_apply w l hl hw k q
  have e2 : (fun q => vSl g l hg (ix1 q)) = fun q => g (ix2 ⟨l, hl⟩ q) := by
    funext q; exact vSl_apply g l hl hg q
  have e3 : (fun q => vSl b l hg (ix1 q)) = fun q => b (ix2 ⟨l, hl⟩ q) := by
    funext q; exact vSl_apply b l hl hg q
  rw [e1, e2, e3]

/-- The reference's result by coordinates: the specification's four layers with the two-pass variance, over the
    argument arrays read by coordinates. -/
theorem ref_value (x : FVec Ideal S50000x128 .f32) (ei : IVec S2x500000 32) (ea : FVec Ideal S500000x128 .f32)
    (w : FVec Ideal S4x128x128 .f32) (g b : FVec Ideal S4x128 .f32) :
    cur (φ := .f32) (netV x ei ea w g b)
      = netR (fun y => cur (φ := .f32) (aggC (F := Ideal) (unc (φ := .f32) y) (srcV ei) (dstV ei) ea)) (cur x)
          (fun l k q => w (ix3 l k q)) (fun l q => g (ix2 l q)) (fun l q => b (ix2 l q)) := by
  unfold netV netR
  rw [cur_layerV_slices _ ei ea w g b 3 (by omega), cur_layerV_slices _ ei ea w g b 2 (by omega),
    cur_layerV_slices _ ei ea w g b 1 (by omega), cur_layerV_slices _ ei ea w g b 0 (by omega)]
  rfl

end Cert.ReferenceIdeal.RefValue

end
-- ==== Proof.lean ====
/- The proof of `Cert.Claim` (proofs.«120676_j3582002725394_2_alg».proof.Defs).

   The two programs compute a four-layer network on a [50000, 128] node array.  A layer gathers, for every one of the 500000
   edges, the source node's row, adds the edge's features, clips at zero and adds the rows up at the destination nodes
   (`agg`); forms `max ((x + agg) · W) 0`; normalises every column by its mean and variance over the 50000 rows; scales by a
   row of the scale table, shifts by a row of the shift table; and adds the layer's input back.

   The kernel program does the product and the clipping tile by tile in one launch, which also leaves each tile's column
   sums of the result and of its square; the host adds those up; a second launch normalises with mean `S · (1/50000)` and
   the one-pass variance `Q · (1/50000) - mean²`.  The reference divides the column sum by 50000 for the mean and averages
   the squared deviations from it for the variance.  At the exact instance the product, the sums and the changes of float
   format read the same on both sides; what is left is the equality of the two variances, which holds for real entries
   (expand the square) and fails at an infinity.  So the proof carries "every entry is a real number" from the precondition
   through the gather, the sum at the destinations, the product and the normalisation of each layer, and applies the
   variance law layer by layer.

   Modules: the specification and its laws (Spec, SpecLaws, SpecTiles, SpecNorm, SpecAgg); the kernel program's run with its
   result named (KRun), the buffers it carries unchanged (KEnv), what its host operations leave (KReadDefs, KRead0–3,
   KIndex), what its launches leave (KB0–KB6, KC1–KC7), each layer (KLayer0–3) and the network (KNet); the aggregation's
   realness and the two programs' aggregation terms as one function (KAggReal, AggBridge); the reference's run and its
   value (RefDefs, RefRun, RefValue); the precondition read as realness of the inputs (Finite); the five claims (Assemble). -/
import proofs.«120676_j3582002725394_2_alg».proof.Defs
import proofs.«120676_j3582002725394_2_alg».proof.Proof.Assemble
import proofs.«120676_j3582002725394_2_alg».proof.Proof.KNet
import proofs.«120676_j3582002725394_2_alg».proof.Proof.RefRun
import proofs.«120676_j3582002725394_2_alg».proof.Proof.RefValue
import proofs.«120676_j3582002725394_2_alg».proof.Proof.Gen.Kernel
import proofs.«120676_j3582002725394_2_alg».proof.Proof.Gen.KernelIdeal
import proofs.«120676_j3582002725394_2_alg».proof.Proof.Gen.ReferenceIdeal
import proofs.«120676_j3582002725394_2_alg».proof.Proof.Gen.Pre_finite_inputs
import Idealize.ShloMosaic.Adequacy
import Idealize.ShloMosaic.Init

noncomputable section

namespace Cert.Proof

open Idealize.ShloMosaic Idealize.SL.Sem

/-- The certificate's claim: the three frames, the idealization's ledger, and the equality of the two idealized
    programs' results, from the kernel program's value, the reference's run and the reference's value. -/
theorem claim : Cert.Claim :=
  Cert.Assemble.claim_of
    (fun m ρ c => Cert.KernelIdeal.KNet.kernel_value m ρ c)
    (fun m ρ => Cert.ReferenceIdeal.RefRun.run m ρ)
    (fun x ei ea w g b => Cert.ReferenceIdeal.RefValue.ref_value x ei ea w g b)

end Cert.Proof

end
